-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v218)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v218) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v335) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S12x2048 : Shape := ⟨2, ![12, 2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S12x2048 : S_.BroadcastsInDim S12x2048 (![] : Fin 0 → Fin S12x2048.rank)
  reducesTo_S12x2048_S_d0_1 : S12x2048.ReducesTo [0, 1] S_

variable [Facts]

def fn {F : FTy → Type} [FloatOps F] (main_arg0 : FVec F S4096x4096 .f32) (main_arg1 : FVec F S12x2048 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S12x2048 .f32 := Host.absf main_arg1
  let main_cst_0 : FVec F S_ .f32 := constant S_ .f32 0x7F800000#32
  let main_v5 : FVec F S12x2048 .f32 := broadcastInDim S12x2048 ![] bcast_S_S12x2048 main_cst_0
  let main_v6 : IVec S12x2048 1 := cmpf .olt main_v4 main_v5
  let main_c_1 : IVec S_ 1 := constantI S_ 1 1#1
  let main_v7 : IVec S_ 1 := (fun x v => Host.reduce IntOp.andi x v reducesTo_S12x2048_S_d0_1 h_S_) main_v6 main_c_1
  let main_v8 : IVec S_ 1 := andi main_v3 main_v7
  main_v8
-- ==== Kernel.lean ====
abbrev S4096x4096 : Shape := ⟨2, ![4096, 4096]⟩
abbrev S12x2048 : Shape := ⟨2, ![12, 2048]⟩
abbrev S7x2048 : Shape := ⟨2, ![7, 2048]⟩
abbrev S5x2048 : Shape := ⟨2, ![5, 2048]⟩
abbrev S7x32x64 : Shape := ⟨3, ![7, 32, 64]⟩
abbrev S32x7x64 : Shape := ⟨3, ![32, 7, 64]⟩
abbrev S128x128 : Shape := ⟨2, ![128, 128]⟩
abbrev S_ : Shape := ⟨0, ![]⟩
abbrev S128x64x2x1 : Shape := ⟨4, ![128, 64, 2, 1]⟩
abbrev S32x1x64 : Shape := ⟨3, ![32, 1, 64]⟩
abbrev S32x64 : Shape := ⟨2, ![32, 64]⟩
abbrev S32x64x1 : Shape := ⟨3, ![32, 64, 1]⟩
abbrev S128x64x1x1 : Shape := ⟨4, ![128, 64, 1, 1]⟩
abbrev S128x64x1 : Shape := ⟨3, ![128, 64, 1]⟩
abbrev S32x1x64x1 : Shape := ⟨4, ![32, 1, 64, 1]⟩
abbrev S1x128x64x1 : Shape := ⟨4, ![1, 128, 64, 1]⟩
abbrev S32x128x64x1 : Shape := ⟨4, ![32, 128, 64, 1]⟩
abbrev S32x128x64x1x1 : Shape := ⟨5, ![32, 128, 64, 1, 1]⟩
abbrev S32x128x64x2x1 : Shape := ⟨5, ![32, 128, 64, 2, 1]⟩
abbrev S32x128x128 : Shape := ⟨3, ![32, 128, 128]⟩
abbrev S32x128x32x2x2 : Shape := ⟨5, ![32, 128, 32, 2, 2]⟩
abbrev S32x32x2 : Shape := ⟨3, ![32, 32, 2]⟩
abbrev S32x128x32x1x2 : Shape := ⟨5, ![32, 128, 32, 1, 2]⟩
abbrev S32x128x32x2 : Shape := ⟨4, ![32, 128, 32, 2]⟩
abbrev S32x1x32x2 : Shape := ⟨4, ![32, 1, 32, 2]⟩
abbrev S32x128x16x2x4 : Shape := ⟨5, ![32, 128, 16, 2, 4]⟩
abbrev S32x16x4 : Shape := ⟨3, ![32, 16, 4]⟩
abbrev S32x128x16x1x4 : Shape := ⟨5, ![32, 128, 16, 1, 4]⟩
abbrev S32x128x16x4 : Shape := ⟨4, ![32, 128, 16, 4]⟩
abbrev S32x1x16x4 : Shape := ⟨4, ![32, 1, 16, 4]⟩
abbrev S32x128x8x2x8 : Shape := ⟨5, ![32, 128, 8, 2, 8]⟩
abbrev S32x8x8 : Shape := ⟨3, ![32, 8, 8]⟩
abbrev S32x128x8x1x8 : Shape := ⟨5, ![32, 128, 8, 1, 8]⟩
abbrev S32x128x8x8 : Shape := ⟨4, ![32, 128, 8, 8]⟩
abbrev S32x1x8x8 : Shape := ⟨4, ![32, 1, 8, 8]⟩
abbrev S32x128x4x2x16 : Shape := ⟨5, ![32, 128, 4, 2, 16]⟩
abbrev S32x4x16 : Shape := ⟨3, ![32, 4, 16]⟩
abbrev S32x128x4x1x16 : Shape := ⟨5, ![32, 128, 4, 1, 16]⟩
abbrev S32x128x4x16 : Shape := ⟨4, ![32, 128, 4, 16]⟩
abbrev S32x1x4x16 : Shape := ⟨4, ![32, 1, 4, 16]⟩
abbrev S32x128x2x2x32 : Shape := ⟨5, ![32, 128, 2, 2, 32]⟩
abbrev S32x2x32 : Shape := ⟨3, ![32, 2, 32]⟩
abbrev S32x128x2x1x32 : Shape := ⟨5, ![32, 128, 2, 1, 32]⟩
abbrev S32x128x2x32 : Shape := ⟨4, ![32, 128, 2, 32]⟩
abbrev S32x1x2x32 : Shape := ⟨4, ![32, 1, 2, 32]⟩
abbrev S32x128x1x2x64 : Shape := ⟨5, ![32, 128, 1, 2, 64]⟩
abbrev S32x128x1x1x64 : Shape := ⟨5, ![32, 128, 1, 1, 64]⟩
abbrev S32x128x1x64 : Shape := ⟨4, ![32, 128, 1, 64]⟩
abbrev S32x1x1x64 : Shape := ⟨4, ![32, 1, 1, 64]⟩
abbrev S5x16x128 : Shape := ⟨3, ![5, 16, 128]⟩
abbrev S256x4096 : Shape := ⟨2, ![256, 4096]⟩
abbrev S256x128 : Shape := ⟨2, ![256, 128]⟩
abbrev S1x128x128 : Shape := ⟨3, ![1, 128, 128]⟩
abbrev S1x16x128 : Shape := ⟨3, ![1, 16, 128]⟩
abbrev S16x128 : Shape := ⟨2, ![16, 128]⟩
abbrev S1x128 : Shape := ⟨2, ![1, 128]⟩
abbrev S128 : Shape := ⟨1, ![128]⟩

abbrev nBuf : Space → Nat
  | .hbm => 222
  | .vmem => 7
  | .smem => 0
  | _ => 0

abbrev hbmTy0_0 (i : Nat) : BufTy := match i % 128 with
  | 0 => ⟨S4096x4096, .f32⟩
  | 1 => ⟨S12x2048, .f32⟩
  | 2 => ⟨S7x2048, .f32⟩
  | 3 => ⟨S5x2048, .f32⟩
  | 4 => ⟨S7x32x64, .f32⟩
  | 5 => ⟨S32x7x64, .f32⟩
  | 6 => ⟨S128x128, .i32⟩
  | 7 => ⟨S128x128, .i32⟩
  | 8 => ⟨S_, .i32⟩
  | 9 => ⟨S128x128, .i32⟩
  | 10 => ⟨S128x128, .i32⟩
  | 11 => ⟨S128x128, .i1⟩
  | 12 => ⟨S128x128, .f32⟩
  | 13 => ⟨S128x64x2x1, .f32⟩
  | 14 => ⟨S32x1x64, .f32⟩
  | 15 => ⟨S32x64, .f32⟩
  | 16 => ⟨S32x64x1, .f32⟩
  | 17 => ⟨S32x64x1, .f32⟩
  | 18 => ⟨S32x64x1, .f32⟩
  | 19 => ⟨S128x64x1x1, .f32⟩
  | 20 => ⟨S128x64x1, .f32⟩
  | 21 => ⟨S128x64x1x1, .f32⟩
  | 22 => ⟨S128x64x1, .f32⟩
  | 23 => ⟨S32x1x64x1, .f32⟩
  | 24 => ⟨S1x128x64x1, .f32⟩
  | 25 => ⟨S32x128x64x1, .f32⟩
  | 26 => ⟨S32x128x64x1, .f32⟩
  | 27 => ⟨S32x128x64x1, .f32⟩
  | 28 => ⟨S32x1x64x1, .f32⟩
  | 29 => ⟨S1x128x64x1, .f32⟩
  | 30 => ⟨S32x128x64x1, .f32⟩
  | 31 => ⟨S32x128x64x1, .f32⟩
  | 32 => ⟨S32x128x64x1, .f32⟩
  | 33 => ⟨S32x128x64x1, .f32⟩
  | 34 => ⟨S32x1x64x1, .f32⟩
  | 35 => ⟨S1x128x64x1, .f32⟩
  | 36 => ⟨S32x128x64x1, .f32⟩
  | 37 => ⟨S32x128x64x1, .f32⟩
  | 38 => ⟨S32x128x64x1, .f32⟩
  | 39 => ⟨S32x1x64x1, .f32⟩
  | 40 => ⟨S1x128x64x1, .f32⟩
  | 41 => ⟨S32x128x64x1, .f32⟩
  | 42 => ⟨S32x128x64x1, .f32⟩
  | 43 => ⟨S32x128x64x1, .f32⟩
  | 44 => ⟨S32x128x64x1, .f32⟩
  | 45 => ⟨S32x128x64x1x1, .f32⟩
  | 46 => ⟨S32x128x64x1x1, .f32⟩
  | 47 => ⟨S32x128x64x2x1, .f32⟩
  | 48 => ⟨S32x128x128, .f32⟩
  | 49 => ⟨S32x128x32x2x2, .f32⟩
  | 50 => ⟨S32x1x64, .f32⟩
  | 51 => ⟨S32x64, .f32⟩
  | 52 => ⟨S32x32x2, .f32⟩
  | 53 => ⟨S32x32x2, .f32⟩
  | 54 => ⟨S32x32x2, .f32⟩
  | 55 => ⟨S32x128x32x1x2, .f32⟩
  | 56 => ⟨S32x128x32x2, .f32⟩
  | 57 => ⟨S32x128x32x1x2, .f32⟩
  | 58 => ⟨S32x128x32x2, .f32⟩
  | 59 => ⟨S32x1x32x2, .f32⟩
  | 60 => ⟨S32x128x32x2, .f32⟩
  | 61 => ⟨S32x128x32x2, .f32⟩
  | 62 => ⟨S32x1x32x2, .f32⟩
  | 63 => ⟨S32x128x32x2, .f32⟩
  | 64 => ⟨S32x128x32x2, .f32⟩
  | 65 => ⟨S32x128x32x2, .f32⟩
  | 66 => ⟨S32x1x32x2, .f32⟩
  | 67 => ⟨S32x128x32x2, .f32⟩
  | 68 => ⟨S32x128x32x2, .f32⟩
  | 69 => ⟨S32x1x32x2, .f32⟩
  | 70 => ⟨S32x128x32x2, .f32⟩
  | 71 => ⟨S32x128x32x2, .f32⟩
  | 72 => ⟨S32x128x32x2, .f32⟩
  | 73 => ⟨S32x128x32x1x2, .f32⟩
  | 74 => ⟨S32x128x32x1x2, .f32⟩
  | 75 => ⟨S32x128x32x2x2, .f32⟩
  | 76 => ⟨S32x128x128, .f32⟩
  | 77 => ⟨S32x128x16x2x4, .f32⟩
  | 78 => ⟨S32x1x64, .f32⟩
  | 79 => ⟨S32x64, .f32⟩
  | 80 => ⟨S32x16x4, .f32⟩
  | 81 => ⟨S32x16x4, .f32⟩
  | 82 => ⟨S32x16x4, .f32⟩
  | 83 => ⟨S32x128x16x1x4, .f32⟩
  | 84 => ⟨S32x128x16x4, .f32⟩
  | 85 => ⟨S32x128x16x1x4, .f32⟩
  | 86 => ⟨S32x128x16x4, .f32⟩
  | 87 => ⟨S32x1x16x4, .f32⟩
  | 88 => ⟨S32x128x16x4, .f32⟩
  | 89 => ⟨S32x128x16x4, .f32⟩
  | 90 => ⟨S32x1x16x4, .f32⟩
  | 91 => ⟨S32x128x16x4, .f32⟩
  | 92 => ⟨S32x128x16x4, .f32⟩
  | 93 => ⟨S32x128x16x4, .f32⟩
  | 94 => ⟨S32x1x16x4, .f32⟩
  | 95 => ⟨S32x128x16x4, .f32⟩
  | 96 => ⟨S32x128x16x4, .f32⟩
  | 97 => ⟨S32x1x16x4, .f32⟩
  | 98 => ⟨S32x128x16x4, .f32⟩
  | 99 => ⟨S32x128x16x4, .f32⟩
  | 100 => ⟨S32x128x16x4, .f32⟩
  | 101 => ⟨S32x128x16x1x4, .f32⟩
  | 102 => ⟨S32x128x16x1x4, .f32⟩
  | 103 => ⟨S32x128x16x2x4, .f32⟩
  | 104 => ⟨S32x128x128, .f32⟩
  | 105 => ⟨S32x128x8x2x8, .f32⟩
  | 106 => ⟨S32x1x64, .f32⟩
  | 107 => ⟨S32x64, .f32⟩
  | 108 => ⟨S32x8x8, .f32⟩
  | 109 => ⟨S32x8x8, .f32⟩
  | 110 => ⟨S32x8x8, .f32⟩
  | 111 => ⟨S32x128x8x1x8, .f32⟩
  | 112 => ⟨S32x128x8x8, .f32⟩
  | 113 => ⟨S32x128x8x1x8, .f32⟩
  | 114 => ⟨S32x128x8x8, .f32⟩
  | 115 => ⟨S32x1x8x8, .f32⟩
  | 116 => ⟨S32x128x8x8, .f32⟩
  | 117 => ⟨S32x128x8x8, .f32⟩
  | 118 => ⟨S32x1x8x8, .f32⟩
  | 119 => ⟨S32x128x8x8, .f32⟩
  | 120 => ⟨S32x128x8x8, .f32⟩
  | 121 => ⟨S32x128x8x8, .f32⟩
  | 122 => ⟨S32x1x8x8, .f32⟩
  | 123 => ⟨S32x128x8x8, .f32⟩
  | 124 => ⟨S32x128x8x8, .f32⟩
  | 125 => ⟨S32x1x8x8, .f32⟩
  | 126 => ⟨S32x128x8x8, .f32⟩
  | 127 => ⟨S32x128x8x8, .f32⟩
  | _ => ⟨S4096x4096, .f32⟩

abbrev hbmTy0_1 (i : Nat) : BufTy := match i % 128 with
  | 0 => ⟨S32x128x8x8, .f32⟩
  | 1 => ⟨S32x128x8x1x8, .f32⟩
  | 2 => ⟨S32x128x8x1x8, .f32⟩
  | 3 => ⟨S32x128x8x2x8, .f32⟩
  | 4 => ⟨S32x128x128, .f32⟩
  | 5 => ⟨S32x128x4x2x16, .f32⟩
  | 6 => ⟨S32x1x64, .f32⟩
  | 7 => ⟨S32x64, .f32⟩
  | 8 => ⟨S32x4x16, .f32⟩
  | 9 => ⟨S32x4x16, .f32⟩
  | 10 => ⟨S32x4x16, .f32⟩
  | 11 => ⟨S32x128x4x1x16, .f32⟩
  | 12 => ⟨S32x128x4x16, .f32⟩
  | 13 => ⟨S32x128x4x1x16, .f32⟩
  | 14 => ⟨S32x128x4x16, .f32⟩
  | 15 => ⟨S32x1x4x16, .f32⟩
  | 16 => ⟨S32x128x4x16, .f32⟩
  | 17 => ⟨S32x128x4x16, .f32⟩
  | 18 => ⟨S32x1x4x16, .f32⟩
  | 19 => ⟨S32x128x4x16, .f32⟩
  | 20 => ⟨S32x128x4x16, .f32⟩
  | 21 => ⟨S32x128x4x16, .f32⟩
  | 22 => ⟨S32x1x4x16, .f32⟩
  | 23 => ⟨S32x128x4x16, .f32⟩
  | 24 => ⟨S32x128x4x16, .f32⟩
  | 25 => ⟨S32x1x4x16, .f32⟩
  | 26 => ⟨S32x128x4x16, .f32⟩
  | 27 => ⟨S32x128x4x16, .f32⟩
  | 28 => ⟨S32x128x4x16, .f32⟩
  | 29 => ⟨S32x128x4x1x16, .f32⟩
  | 30 => ⟨S32x128x4x1x16, .f32⟩
  | 31 => ⟨S32x128x4x2x16, .f32⟩
  | 32 => ⟨S32x128x128, .f32⟩
  | 33 => ⟨S32x128x2x2x32, .f32⟩
  | 34 => ⟨S32x1x64, .f32⟩
  | 35 => ⟨S32x64, .f32⟩
  | 36 => ⟨S32x2x32, .f32⟩
  | 37 => ⟨S32x2x32, .f32⟩
  | 38 => ⟨S32x2x32, .f32⟩
  | 39 => ⟨S32x128x2x1x32, .f32⟩
  | 40 => ⟨S32x128x2x32, .f32⟩
  | 41 => ⟨S32x128x2x1x32, .f32⟩
  | 42 => ⟨S32x128x2x32, .f32⟩
  | 43 => ⟨S32x1x2x32, .f32⟩
  | 44 => ⟨S32x128x2x32, .f32⟩
  | 45 => ⟨S32x128x2x32, .f32⟩
  | 46 => ⟨S32x1x2x32, .f32⟩
  | 47 => ⟨S32x128x2x32, .f32⟩
  | 48 => ⟨S32x128x2x32, .f32⟩
  | 49 => ⟨S32x128x2x32, .f32⟩
  | 50 => ⟨S32x1x2x32, .f32⟩
  | 51 => ⟨S32x128x2x32, .f32⟩
  | 52 => ⟨S32x128x2x32, .f32⟩
  | 53 => ⟨S32x1x2x32, .f32⟩
  | 54 => ⟨S32x128x2x32, .f32⟩
  | 55 => ⟨S32x128x2x32, .f32⟩
  | 56 => ⟨S32x128x2x32, .f32⟩
  | 57 => ⟨S32x128x2x1x32, .f32⟩
  | 58 => ⟨S32x128x2x1x32, .f32⟩
  | 59 => ⟨S32x128x2x2x32, .f32⟩
  | 60 => ⟨S32x128x128, .f32⟩
  | 61 => ⟨S32x128x1x2x64, .f32⟩
  | 62 => ⟨S32x1x64, .f32⟩
  | 63 => ⟨S32x64, .f32⟩
  | 64 => ⟨S32x1x64, .f32⟩
  | 65 => ⟨S32x1x64, .f32⟩
  | 66 => ⟨S32x1x64, .f32⟩
  | 67 => ⟨S32x128x1x1x64, .f32⟩
  | 68 => ⟨S32x128x1x64, .f32⟩
  | 69 => ⟨S32x128x1x1x64, .f32⟩
  | 70 => ⟨S32x128x1x64, .f32⟩
  | 71 => ⟨S32x1x1x64, .f32⟩
  | 72 => ⟨S32x128x1x64, .f32⟩
  | 73 => ⟨S32x128x1x64, .f32⟩
  | 74 => ⟨S32x1x1x64, .f32⟩
  | 75 => ⟨S32x128x1x64, .f32⟩
  | 76 => ⟨S32x128x1x64, .f32⟩
  | 77 => ⟨S32x128x1x64, .f32⟩
  | 78 => ⟨S32x1x1x64, .f32⟩
  | 79 => ⟨S32x128x1x64, .f32⟩
  | 80 => ⟨S32x128x1x64, .f32⟩
  | 81 => ⟨S32x1x1x64, .f32⟩
  | 82 => ⟨S32x128x1x64, .f32⟩
  | 83 => ⟨S32x128x1x64, .f32⟩
  | 84 => ⟨S32x128x1x64, .f32⟩
  | 85 => ⟨S32x128x1x1x64, .f32⟩
  | 86 => ⟨S32x128x1x1x64, .f32⟩
  | 87 => ⟨S32x128x1x2x64, .f32⟩
  | 88 => ⟨S32x128x128, .f32⟩
  | 89 => ⟨S32x128x128, .bf16⟩
  | 90 => ⟨S5x16x128, .f32⟩
  | 91 => ⟨S5x16x128, .f32⟩
  | 92 => ⟨S5x16x128, .f32⟩
  | 93 => ⟨S4096x4096, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | .local _ .vmem, ⟨0, _⟩ => ⟨S256x4096, .f32⟩
  | .local _ .vmem, ⟨1, _⟩ => ⟨S256x4096, .f32⟩
  | .local _ .vmem, ⟨2, _⟩ => ⟨S32x128x128, .bf16⟩
  | .local _ .vmem, ⟨3, _⟩ => ⟨S5x16x128, .f32⟩
  | .local _ .vmem, ⟨4, _⟩ => ⟨S5x16x128, .f32⟩
  | .local _ .vmem, ⟨5, _⟩ => ⟨S256x4096, .f32⟩
  | .local _ .vmem, ⟨6, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩
abbrev main_v130 : Ref sig .tc := ⟨.hbm, 133, rfl⟩
abbrev main_v131 : Ref sig .tc := ⟨.hbm, 134, rfl⟩
abbrev main_v132 : Ref sig .tc := ⟨.hbm, 135, rfl⟩
abbrev main_v133 : Ref sig .tc := ⟨.hbm, 136, rfl⟩
abbrev main_v134 : Ref sig .tc := ⟨.hbm, 137, rfl⟩
abbrev main_v135 : Ref sig .tc := ⟨.hbm, 138, rfl⟩
abbrev main_v136 : Ref sig .tc := ⟨.hbm, 139, rfl⟩
abbrev main_v137 : Ref sig .tc := ⟨.hbm, 140, rfl⟩
abbrev main_v138 : Ref sig .tc := ⟨.hbm, 141, rfl⟩
abbrev main_v139 : Ref sig .tc := ⟨.hbm, 142, rfl⟩
abbrev main_v140 : Ref sig .tc := ⟨.hbm, 143, rfl⟩
abbrev main_v141 : Ref sig .tc := ⟨.hbm, 144, rfl⟩
abbrev main_v142 : Ref sig .tc := ⟨.hbm, 145, rfl⟩
abbrev main_v143 : Ref sig .tc := ⟨.hbm, 146, rfl⟩
abbrev main_v144 : Ref sig .tc := ⟨.hbm, 147, rfl⟩
abbrev main_v145 : Ref sig .tc := ⟨.hbm, 148, rfl⟩
abbrev main_v146 : Ref sig .tc := ⟨.hbm, 149, rfl⟩
abbrev main_v147 : Ref sig .tc := ⟨.hbm, 150, rfl⟩
abbrev main_v148 : Ref sig .tc := ⟨.hbm, 151, rfl⟩
abbrev main_v149 : Ref sig .tc := ⟨.hbm, 152, rfl⟩
abbrev main_v150 : Ref sig .tc := ⟨.hbm, 153, rfl⟩
abbrev main_v151 : Ref sig .tc := ⟨.hbm, 154, rfl⟩
abbrev main_v152 : Ref sig .tc := ⟨.hbm, 155, rfl⟩
abbrev main_v153 : Ref sig .tc := ⟨.hbm, 156, rfl⟩
abbrev main_v154 : Ref sig .tc := ⟨.hbm, 157, rfl⟩
abbrev main_v155 : Ref sig .tc := ⟨.hbm, 158, rfl⟩
abbrev main_v156 : Ref sig .tc := ⟨.hbm, 159, rfl⟩
abbrev main_v157 : Ref sig .tc := ⟨.hbm, 160, rfl⟩
abbrev main_v158 : Ref sig .tc := ⟨.hbm, 161, rfl⟩
abbrev main_v159 : Ref sig .tc := ⟨.hbm, 162, rfl⟩
abbrev main_v160 : Ref sig .tc := ⟨.hbm, 163, rfl⟩
abbrev main_v161 : Ref sig .tc := ⟨.hbm, 164, rfl⟩
abbrev main_v162 : Ref sig .tc := ⟨.hbm, 165, rfl⟩
abbrev main_v163 : Ref sig .tc := ⟨.hbm, 166, rfl⟩
abbrev main_v164 : Ref sig .tc := ⟨.hbm, 167, rfl⟩
abbrev main_v165 : Ref sig .tc := ⟨.hbm, 168, rfl⟩
abbrev main_v166 : Ref sig .tc := ⟨.hbm, 169, rfl⟩
abbrev main_v167 : Ref sig .tc := ⟨.hbm, 170, rfl⟩
abbrev main_v168 : Ref sig .tc := ⟨.hbm, 171, rfl⟩
abbrev main_v169 : Ref sig .tc := ⟨.hbm, 172, rfl⟩
abbrev main_v170 : Ref sig .tc := ⟨.hbm, 173, rfl⟩
abbrev main_v171 : Ref sig .tc := ⟨.hbm, 174, rfl⟩
abbrev main_v172 : Ref sig .tc := ⟨.hbm, 175, rfl⟩
abbrev main_v173 : Ref sig .tc := ⟨.hbm, 176, rfl⟩
abbrev main_v174 : Ref sig .tc := ⟨.hbm, 177, rfl⟩
abbrev main_v175 : Ref sig .tc := ⟨.hbm, 178, rfl⟩
abbrev main_v176 : Ref sig .tc := ⟨.hbm, 179, rfl⟩
abbrev main_v177 : Ref sig .tc := ⟨.hbm, 180, rfl⟩
abbrev main_v178 : Ref sig .tc := ⟨.hbm, 181, rfl⟩
abbrev main_v179 : Ref sig .tc := ⟨.hbm, 182, rfl⟩
abbrev main_v180 : Ref sig .tc := ⟨.hbm, 183, rfl⟩
abbrev main_v181 : Ref sig .tc := ⟨.hbm, 184, rfl⟩
abbrev main_v182 : Ref sig .tc := ⟨.hbm, 185, rfl⟩
abbrev main_v183 : Ref sig .tc := ⟨.hbm, 186, rfl⟩
abbrev main_v184 : Ref sig .tc := ⟨.hbm, 187, rfl⟩
abbrev main_v185 : Ref sig .tc := ⟨.hbm, 188, rfl⟩
abbrev main_v186 : Ref sig .tc := ⟨.hbm, 189, rfl⟩
abbrev main_v187 : Ref sig .tc := ⟨.hbm, 190, rfl⟩
abbrev main_v188 : Ref sig .tc := ⟨.hbm, 191, rfl⟩
abbrev main_v189 : Ref sig .tc := ⟨.hbm, 192, rfl⟩
abbrev main_v190 : Ref sig .tc := ⟨.hbm, 193, rfl⟩
abbrev main_v191 : Ref sig .tc := ⟨.hbm, 194, rfl⟩
abbrev main_v192 : Ref sig .tc := ⟨.hbm, 195, rfl⟩
abbrev main_v193 : Ref sig .tc := ⟨.hbm, 196, rfl⟩
abbrev main_v194 : Ref sig .tc := ⟨.hbm, 197, rfl⟩
abbrev main_v195 : Ref sig .tc := ⟨.hbm, 198, rfl⟩
abbrev main_v196 : Ref sig .tc := ⟨.hbm, 199, rfl⟩
abbrev main_v197 : Ref sig .tc := ⟨.hbm, 200, rfl⟩
abbrev main_v198 : Ref sig .tc := ⟨.hbm, 201, rfl⟩
abbrev main_v199 : Ref sig .tc := ⟨.hbm, 202, rfl⟩
abbrev main_v200 : Ref sig .tc := ⟨.hbm, 203, rfl⟩
abbrev main_v201 : Ref sig .tc := ⟨.hbm, 204, rfl⟩
abbrev main_v202 : Ref sig .tc := ⟨.hbm, 205, rfl⟩
abbrev main_v203 : Ref sig .tc := ⟨.hbm, 206, rfl⟩
abbrev main_v204 : Ref sig .tc := ⟨.hbm, 207, rfl⟩
abbrev main_v205 : Ref sig .tc := ⟨.hbm, 208, rfl⟩
abbrev main_v206 : Ref sig .tc := ⟨.hbm, 209, rfl⟩
abbrev main_v207 : Ref sig .tc := ⟨.hbm, 210, rfl⟩
abbrev main_v208 : Ref sig .tc := ⟨.hbm, 211, rfl⟩
abbrev main_v209 : Ref sig .tc := ⟨.hbm, 212, rfl⟩
abbrev main_v210 : Ref sig .tc := ⟨.hbm, 213, rfl⟩
abbrev main_v211 : Ref sig .tc := ⟨.hbm, 214, rfl⟩
abbrev main_v212 : Ref sig .tc := ⟨.hbm, 215, rfl⟩
abbrev main_v213 : Ref sig .tc := ⟨.hbm, 216, rfl⟩
abbrev main_v214 : Ref sig .tc := ⟨.hbm, 217, rfl⟩
abbrev main_v215 : Ref sig .tc := ⟨.hbm, 218, rfl⟩
abbrev main_v216 : Ref sig .tc := ⟨.hbm, 219, rfl⟩
abbrev main_v217 : Ref sig .tc := ⟨.hbm, 220, rfl⟩
abbrev main_v218 : Ref sig .tc := ⟨.hbm, 221, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S12x2048_S7x2048_0_0 : S12x2048.Slices ![0, 0] S7x2048
  slices_S12x2048_S5x2048_7_0 : S12x2048.Slices ![7, 0] S5x2048
  shapeCasts_S7x2048_S7x32x64 : S7x2048.ShapeCasts S7x32x64
  transposes_S7x32x64_S32x7x64_1_0_2 : S7x32x64.Transposes [1, 0, 2] S32x7x64
  bcast_S_S128x128 : S_.BroadcastsInDim S128x128 (![] : Fin 0 → Fin S128x128.rank)
  shapeCasts_S128x128_S128x64x2x1 : S128x128.ShapeCasts S128x64x2x1
  slices_S32x7x64_S32x1x64_0_0_0 : S32x7x64.Slices ![0, 0, 0] S32x1x64
  shapeCasts_S32x1x64_S32x64 : S32x1x64.ShapeCasts S32x64
  shapeCasts_S32x64_S32x64x1 : S32x64.ShapeCasts S32x64x1
  slices_S128x64x2x1_S128x64x1x1_0_0_0_0 : S128x64x2x1.Slices ![0, 0, 0, 0] S128x64x1x1
  shapeCasts_S128x64x1x1_S128x64x1 : S128x64x1x1.ShapeCasts S128x64x1
  slices_S128x64x2x1_S128x64x1x1_0_0_1_0 : S128x64x2x1.Slices ![0, 0, 1, 0] S128x64x1x1
  bcast_S32x64x1_S32x1x64x1_0_2_3 : S32x64x1.BroadcastsInDim S32x1x64x1 (![0, 2, 3] : Fin 3 → Fin S32x1x64x1.rank)
  bcast_S128x64x1_S1x128x64x1_1_2_3 : S128x64x1.BroadcastsInDim S1x128x64x1 (![1, 2, 3] : Fin 3 → Fin S1x128x64x1.rank)
  bcast_S32x1x64x1_S32x128x64x1_0_1_2_3 : S32x1x64x1.BroadcastsInDim S32x128x64x1 (![0, 1, 2, 3] : Fin 4 → Fin S32x128x64x1.rank)
  bcast_S1x128x64x1_S32x128x64x1_0_1_2_3 : S1x128x64x1.BroadcastsInDim S32x128x64x1 (![0, 1, 2, 3] : Fin 4 → Fin S32x128x64x1.rank)
  bcast_S32x128x64x1_S32x128x64x1x1_0_1_2_4 : S32x128x64x1.BroadcastsInDim S32x128x64x1x1 (![0, 1, 2, 4] : Fin 4 → Fin S32x128x64x1x1.rank)
  concatenates_S32x128x64x1x1_S32x128x64x1x1_S32x128x64x2x1_d3 : Shape.Concatenates [S32x128x64x1x1, S32x128x64x1x1] S32x128x64x2x1 3
  shapeCasts_S32x128x64x2x1_S32x128x128 : S32x128x64x2x1.ShapeCasts S32x128x128
  shapeCasts_S32x128x128_S32x128x32x2x2 : S32x128x128.ShapeCasts S32x128x32x2x2
  slices_S32x7x64_S32x1x64_0_1_0 : S32x7x64.Slices ![0, 1, 0] S32x1x64
  shapeCasts_S32x64_S32x32x2 : S32x64.ShapeCasts S32x32x2
  slices_S32x128x32x2x2_S32x128x32x1x2_0_0_0_0_0 : S32x128x32x2x2.Slices ![0, 0, 0, 0, 0] S32x128x32x1x2
  shapeCasts_S32x128x32x1x2_S32x128x32x2 : S32x128x32x1x2.ShapeCasts S32x128x32x2
  slices_S32x128x32x2x2_S32x128x32x1x2_0_0_0_1_0 : S32x128x32x2x2.Slices ![0, 0, 0, 1, 0] S32x128x32x1x2
  bcast_S32x32x2_S32x1x32x2_0_2_3 : S32x32x2.BroadcastsInDim S32x1x32x2 (![0, 2, 3] : Fin 3 → Fin S32x1x32x2.rank)
  bcast_S32x1x32x2_S32x128x32x2_0_1_2_3 : S32x1x32x2.BroadcastsInDim S32x128x32x2 (![0, 1, 2, 3] : Fin 4 → Fin S32x128x32x2.rank)
  bcast_S32x128x32x2_S32x128x32x1x2_0_1_2_4 : S32x128x32x2.BroadcastsInDim S32x128x32x1x2 (![0, 1, 2, 4] : Fin 4 → Fin S32x128x32x1x2.rank)
  concatenates_S32x128x32x1x2_S32x128x32x1x2_S32x128x32x2x2_d3 : Shape.Concatenates [S32x128x32x1x2, S32x128x32x1x2] S32x128x32x2x2 3
  shapeCasts_S32x128x32x2x2_S32x128x128 : S32x128x32x2x2.ShapeCasts S32x128x128
  shapeCasts_S32x128x128_S32x128x16x2x4 : S32x128x128.ShapeCasts S32x128x16x2x4
  slices_S32x7x64_S32x1x64_0_2_0 : S32x7x64.Slices ![0, 2, 0] S32x1x64
  shapeCasts_S32x64_S32x16x4 : S32x64.ShapeCasts S32x16x4
  slices_S32x128x16x2x4_S32x128x16x1x4_0_0_0_0_0 : S32x128x16x2x4.Slices ![0, 0, 0, 0, 0] S32x128x16x1x4
  shapeCasts_S32x128x16x1x4_S32x128x16x4 : S32x128x16x1x4.ShapeCasts S32x128x16x4
  slices_S32x128x16x2x4_S32x128x16x1x4_0_0_0_1_0 : S32x128x16x2x4.Slices ![0, 0, 0, 1, 0] S32x128x16x1x4
  bcast_S32x16x4_S32x1x16x4_0_2_3 : S32x16x4.BroadcastsInDim S32x1x16x4 (![0, 2, 3] : Fin 3 → Fin S32x1x16x4.rank)
  bcast_S32x1x16x4_S32x128x16x4_0_1_2_3 : S32x1x16x4.BroadcastsInDim S32x128x16x4 (![0, 1, 2, 3] : Fin 4 → Fin S32x128x16x4.rank)
  bcast_S32x128x16x4_S32x128x16x1x4_0_1_2_4 : S32x128x16x4.BroadcastsInDim S32x128x16x1x4 (![0, 1, 2, 4] : Fin 4 → Fin S32x128x16x1x4.rank)
  concatenates_S32x128x16x1x4_S32x128x16x1x4_S32x128x16x2x4_d3 : Shape.Concatenates [S32x128x16x1x4, S32x128x16x1x4] S32x128x16x2x4 3
  shapeCasts_S32x128x16x2x4_S32x128x128 : S32x128x16x2x4.ShapeCasts S32x128x128
  shapeCasts_S32x128x128_S32x128x8x2x8 : S32x128x128.ShapeCasts S32x128x8x2x8
  slices_S32x7x64_S32x1x64_0_3_0 : S32x7x64.Slices ![0, 3, 0] S32x1x64
  shapeCasts_S32x64_S32x8x8 : S32x64.ShapeCasts S32x8x8
  slices_S32x128x8x2x8_S32x128x8x1x8_0_0_0_0_0 : S32x128x8x2x8.Slices ![0, 0, 0, 0, 0] S32x128x8x1x8
  shapeCasts_S32x128x8x1x8_S32x128x8x8 : S32x128x8x1x8.ShapeCasts S32x128x8x8
  slices_S32x128x8x2x8_S32x128x8x1x8_0_0_0_1_0 : S32x128x8x2x8.Slices ![0, 0, 0, 1, 0] S32x128x8x1x8
  bcast_S32x8x8_S32x1x8x8_0_2_3 : S32x8x8.BroadcastsInDim S32x1x8x8 (![0, 2, 3] : Fin 3 → Fin S32x1x8x8.rank)
  bcast_S32x1x8x8_S32x128x8x8_0_1_2_3 : S32x1x8x8.BroadcastsInDim S32x128x8x8 (![0, 1, 2, 3] : Fin 4 → Fin S32x128x8x8.rank)
  bcast_S32x128x8x8_S32x128x8x1x8_0_1_2_4 : S32x128x8x8.BroadcastsInDim S32x128x8x1x8 (![0, 1, 2, 4] : Fin 4 → Fin S32x128x8x1x8.rank)
  concatenates_S32x128x8x1x8_S32x128x8x1x8_S32x128x8x2x8_d3 : Shape.Concatenates [S32x128x8x1x8, S32x128x8x1x8] S32x128x8x2x8 3
  shapeCasts_S32x128x8x2x8_S32x128x128 : S32x128x8x2x8.ShapeCasts S32x128x128
  shapeCasts_S32x128x128_S32x128x4x2x16 : S32x128x128.ShapeCasts S32x128x4x2x16
  slices_S32x7x64_S32x1x64_0_4_0 : S32x7x64.Slices ![0, 4, 0] S32x1x64
  shapeCasts_S32x64_S32x4x16 : S32x64.ShapeCasts S32x4x16
  slices_S32x128x4x2x16_S32x128x4x1x16_0_0_0_0_0 : S32x128x4x2x16.Slices ![0, 0, 0, 0, 0] S32x128x4x1x16
  shapeCasts_S32x128x4x1x16_S32x128x4x16 : S32x128x4x1x16.ShapeCasts S32x128x4x16
  slices_S32x128x4x2x16_S32x128x4x1x16_0_0_0_1_0 : S32x128x4x2x16.Slices ![0, 0, 0, 1, 0] S32x128x4x1x16
  bcast_S32x4x16_S32x1x4x16_0_2_3 : S32x4x16.BroadcastsInDim S32x1x4x16 (![0, 2, 3] : Fin 3 → Fin S32x1x4x16.rank)
  bcast_S32x1x4x16_S32x128x4x16_0_1_2_3 : S32x1x4x16.BroadcastsInDim S32x128x4x16 (![0, 1, 2, 3] : Fin 4 → Fin S32x128x4x16.rank)
  bcast_S32x128x4x16_S32x128x4x1x16_0_1_2_4 : S32x128x4x16.BroadcastsInDim S32x128x4x1x16 (![0, 1, 2, 4] : Fin 4 → Fin S32x128x4x1x16.rank)
  concatenates_S32x128x4x1x16_S32x128x4x1x16_S32x128x4x2x16_d3 : Shape.Concatenates [S32x128x4x1x16, S32x128x4x1x16] S32x128x4x2x16 3
  shapeCasts_S32x128x4x2x16_S32x128x128 : S32x128x4x2x16.ShapeCasts S32x128x128
  shapeCasts_S32x128x128_S32x128x2x2x32 : S32x128x128.ShapeCasts S32x128x2x2x32
  slices_S32x7x64_S32x1x64_0_5_0 : S32x7x64.Slices ![0, 5, 0] S32x1x64
  shapeCasts_S32x64_S32x2x32 : S32x64.ShapeCasts S32x2x32
  slices_S32x128x2x2x32_S32x128x2x1x32_0_0_0_0_0 : S32x128x2x2x32.Slices ![0, 0, 0, 0, 0] S32x128x2x1x32
  shapeCasts_S32x128x2x1x32_S32x128x2x32 : S32x128x2x1x32.ShapeCasts S32x128x2x32
  slices_S32x128x2x2x32_S32x128x2x1x32_0_0_0_1_0 : S32x128x2x2x32.Slices ![0, 0, 0, 1, 0] S32x128x2x1x32
  bcast_S32x2x32_S32x1x2x32_0_2_3 : S32x2x32.BroadcastsInDim S32x1x2x32 (![0, 2, 3] : Fin 3 → Fin S32x1x2x32.rank)
  bcast_S32x1x2x32_S32x128x2x32_0_1_2_3 : S32x1x2x32.BroadcastsInDim S32x128x2x32 (![0, 1, 2, 3] : Fin 4 → Fin S32x128x2x32.rank)
  bcast_S32x128x2x32_S32x128x2x1x32_0_1_2_4 : S32x128x2x32.BroadcastsInDim S32x128x2x1x32 (![0, 1, 2, 4] : Fin 4 → Fin S32x128x2x1x32.rank)
  concatenates_S32x128x2x1x32_S32x128x2x1x32_S32x128x2x2x32_d3 : Shape.Concatenates [S32x128x2x1x32, S32x128x2x1x32] S32x128x2x2x32 3
  shapeCasts_S32x128x2x2x32_S32x128x128 : S32x128x2x2x32.ShapeCasts S32x128x128
  shapeCasts_S32x128x128_S32x128x1x2x64 : S32x128x128.ShapeCasts S32x128x1x2x64
  slices_S32x7x64_S32x1x64_0_6_0 : S32x7x64.Slices ![0, 6, 0] S32x1x64
  shapeCasts_S32x64_S32x1x64 : S32x64.ShapeCasts S32x1x64
  slices_S32x128x1x2x64_S32x128x1x1x64_0_0_0_0_0 : S32x128x1x2x64.Slices ![0, 0, 0, 0, 0] S32x128x1x1x64
  shapeCasts_S32x128x1x1x64_S32x128x1x64 : S32x128x1x1x64.ShapeCasts S32x128x1x64
  slices_S32x128x1x2x64_S32x128x1x1x64_0_0_0_1_0 : S32x128x1x2x64.Slices ![0, 0, 0, 1, 0] S32x128x1x1x64
  bcast_S32x1x64_S32x1x1x64_0_2_3 : S32x1x64.BroadcastsInDim S32x1x1x64 (![0, 2, 3] : Fin 3 → Fin S32x1x1x64.rank)
  bcast_S32x1x1x64_S32x128x1x64_0_1_2_3 : S32x1x1x64.BroadcastsInDim S32x128x1x64 (![0, 1, 2, 3] : Fin 4 → Fin S32x128x1x64.rank)
  bcast_S32x128x1x64_S32x128x1x1x64_0_1_2_4 : S32x128x1x64.BroadcastsInDim S32x128x1x1x64 (![0, 1, 2, 4] : Fin 4 → Fin S32x128x1x1x64.rank)
  concatenates_S32x128x1x1x64_S32x128x1x1x64_S32x128x1x2x64_d3 : Shape.Concatenates [S32x128x1x1x64, S32x128x1x1x64] S32x128x1x2x64 3
  shapeCasts_S32x128x1x2x64_S32x128x128 : S32x128x1x2x64.ShapeCasts S32x128x128
  bitsLt_bf16_f32 : FTy.bits .bf16 < FTy.bits .f32
  shapeCasts_S5x2048_S5x16x128 : S5x2048.ShapeCasts S5x16x128
  inb_S32x128x128_S32x128x128_0_0_0 : ∀ a, (![0, 0, 0] : Fin 3 → Nat) a + S32x128x128.size a ≤ S32x128x128.size a
  h_S32x128x128 : 0 < S32x128x128.numel
  shapeCasts_S32x128x128_S32x128x128 : S32x128x128.ShapeCasts S32x128x128
  inb_S256x4096_S256x128_0_0 : ∀ a, (![0, 0] : Fin 2 → Nat) a + S256x128.size a ≤ S256x4096.size a
  h_S256x128 : 0 < S256x128.numel
  slices_S32x128x128_o0_0_0_S1x128x128 : S32x128x128.Slices ![0, 0, 0] S1x128x128
  shapeCasts_S1x128x128_S128x128 : S1x128x128.ShapeCasts S128x128
  inb_S256x4096_S256x128_0_128 : ∀ a, (![0, 128] : Fin 2 → Nat) a + S256x128.size a ≤ S256x4096.size a
  slices_S32x128x128_o1_0_0_S1x128x128 : S32x128x128.Slices ![1, 0, 0] S1x128x128
  inb_S256x4096_S256x128_0_256 : ∀ a, (![0, 256] : Fin 2 → Nat) a + S256x128.size a ≤ S256x4096.size a
  slices_S32x128x128_o2_0_0_S1x128x128 : S32x128x128.Slices ![2, 0, 0] S1x128x128
  inb_S256x4096_S256x128_0_384 : ∀ a, (![0, 384] : Fin 2 → Nat) a + S256x128.size a ≤ S256x4096.size a
  slices_S32x128x128_o3_0_0_S1x128x128 : S32x128x128.Slices ![3, 0, 0] S1x128x128
  inb_S256x4096_S256x128_0_512 : ∀ a, (![0, 512] : Fin 2 → Nat) a + S256x128.size a ≤ S256x4096.size a
  slices_S32x128x128_o4_0_0_S1x128x128 : S32x128x128.Slices ![4, 0, 0] S1x128x128
  inb_S256x4096_S256x128_0_640 : ∀ a, (![0, 640] : Fin 2 → Nat) a + S256x128.size a ≤ S256x4096.size a
  slices_S32x128x128_o5_0_0_S1x128x128 : S32x128x128.Slices ![5, 0, 0] S1x128x128
  inb_S256x4096_S256x128_0_768 : ∀ a, (![0, 768] : Fin 2 → Nat) a + S256x128.size a ≤ S256x4096.size a
  slices_S32x128x128_o6_0_0_S1x128x128 : S32x128x128.Slices ![6, 0, 0] S1x128x128
  inb_S256x4096_S256x128_0_896 : ∀ a, (![0, 896] : Fin 2 → Nat) a + S256x128.size a ≤ S256x4096.size a
  slices_S32x128x128_o7_0_0_S1x128x128 : S32x128x128.Slices ![7, 0, 0] S1x128x128
  inb_S256x4096_S256x128_0_1024 : ∀ a, (![0, 1024] : Fin 2 → Nat) a + S256x128.size a ≤ S256x4096.size a
  slices_S32x128x128_o8_0_0_S1x128x128 : S32x128x128.Slices ![8, 0, 0] S1x128x128
  inb_S256x4096_S256x128_0_1152 : ∀ a, (![0, 1152] : Fin 2 → Nat) a + S256x128.size a ≤ S256x4096.size a
  slices_S32x128x128_o9_0_0_S1x128x128 : S32x128x128.Slices ![9, 0, 0] S1x128x128
  inb_S256x4096_S256x128_0_1280 : ∀ a, (![0, 1280] : Fin 2 → Nat) a + S256x128.size a ≤ S256x4096.size a
  slices_S32x128x128_o10_0_0_S1x128x128 : S32x128x128.Slices ![10, 0, 0] S1x128x128
  inb_S256x4096_S256x128_0_1408 : ∀ a, (![0, 1408] : Fin 2 → Nat) a + S256x128.size a ≤ S256x4096.size a
  slices_S32x128x128_o11_0_0_S1x128x128 : S32x128x128.Slices ![11, 0, 0] S1x128x128
  inb_S256x4096_S256x128_0_1536 : ∀ a, (![0, 1536] : Fin 2 → Nat) a + S256x128.size a ≤ S256x4096.size a
  slices_S32x128x128_o12_0_0_S1x128x128 : S32x128x128.Slices ![12, 0, 0] S1x128x128
  inb_S256x4096_S256x128_0_1664 : ∀ a, (![0, 1664] : Fin 2 → Nat) a + S256x128.size a ≤ S256x4096.size a
  slices_S32x128x128_o13_0_0_S1x128x128 : S32x128x128.Slices ![13, 0, 0] S1x128x128
  inb_S256x4096_S256x128_0_1792 : ∀ a, (![0, 1792] : Fin 2 → Nat) a + S256x128.size a ≤ S256x4096.size a
  slices_S32x128x128_o14_0_0_S1x128x128 : S32x128x128.Slices ![14, 0, 0] S1x128x128
  inb_S256x4096_S256x128_0_1920 : ∀ a, (![0, 1920] : Fin 2 → Nat) a + S256x128.size a ≤ S256x4096.size a
  slices_S32x128x128_o15_0_0_S1x128x128 : S32x128x128.Slices ![15, 0, 0] S1x128x128
  inb_S256x4096_S256x128_0_2048 : ∀ a, (![0, 2048] : Fin 2 → Nat) a + S256x128.size a ≤ S256x4096.size a
  slices_S32x128x128_o16_0_0_S1x128x128 : S32x128x128.Slices ![16, 0, 0] S1x128x128
  inb_S256x4096_S256x128_0_2176 : ∀ a, (![0, 2176] : Fin 2 → Nat) a + S256x128.size a ≤ S256x4096.size a
  slices_S32x128x128_o17_0_0_S1x128x128 : S32x128x128.Slices ![17, 0, 0] S1x128x128
  inb_S256x4096_S256x128_0_2304 : ∀ a, (![0, 2304] : Fin 2 → Nat) a + S256x128.size a ≤ S256x4096.size a
  slices_S32x128x128_o18_0_0_S1x128x128 : S32x128x128.Slices ![18, 0, 0] S1x128x128
  inb_S256x4096_S256x128_0_2432 : ∀ a, (![0, 2432] : Fin 2 → Nat) a + S256x128.size a ≤ S256x4096.size a
  slices_S32x128x128_o19_0_0_S1x128x128 : S32x128x128.Slices ![19, 0, 0] S1x128x128
  inb_S256x4096_S256x128_0_2560 : ∀ a, (![0, 2560] : Fin 2 → Nat) a + S256x128.size a ≤ S256x4096.size a
  slices_S32x128x128_o20_0_0_S1x128x128 : S32x128x128.Slices ![20, 0, 0] S1x128x128
  inb_S256x4096_S256x128_0_2688 : ∀ a, (![0, 2688] : Fin 2 → Nat) a + S256x128.size a ≤ S256x4096.size a
  slices_S32x128x128_o21_0_0_S1x128x128 : S32x128x128.Slices ![21, 0, 0] S1x128x128
  inb_S256x4096_S256x128_0_2816 : ∀ a, (![0, 2816] : Fin 2 → Nat) a + S256x128.size a ≤ S256x4096.size a
  slices_S32x128x128_o22_0_0_S1x128x128 : S32x128x128.Slices ![22, 0, 0] S1x128x128
  inb_S256x4096_S256x128_0_2944 : ∀ a, (![0, 2944] : Fin 2 → Nat) a + S256x128.size a ≤ S256x4096.size a
  slices_S32x128x128_o23_0_0_S1x128x128 : S32x128x128.Slices ![23, 0, 0] S1x128x128
  inb_S256x4096_S256x128_0_3072 : ∀ a, (![0, 3072] : Fin 2 → Nat) a + S256x128.size a ≤ S256x4096.size a
  slices_S32x128x128_o24_0_0_S1x128x128 : S32x128x128.Slices ![24, 0, 0] S1x128x128
  inb_S256x4096_S256x128_0_3200 : ∀ a, (![0, 3200] : Fin 2 → Nat) a + S256x128.size a ≤ S256x4096.size a
  slices_S32x128x128_o25_0_0_S1x128x128 : S32x128x128.Slices ![25, 0, 0] S1x128x128
  inb_S256x4096_S256x128_0_3328 : ∀ a, (![0, 3328] : Fin 2 → Nat) a + S256x128.size a ≤ S256x4096.size a
  slices_S32x128x128_o26_0_0_S1x128x128 : S32x128x128.Slices ![26, 0, 0] S1x128x128
  inb_S256x4096_S256x128_0_3456 : ∀ a, (![0, 3456] : Fin 2 → Nat) a + S256x128.size a ≤ S256x4096.size a
  slices_S32x128x128_o27_0_0_S1x128x128 : S32x128x128.Slices ![27, 0, 0] S1x128x128
  inb_S256x4096_S256x128_0_3584 : ∀ a, (![0, 3584] : Fin 2 → Nat) a + S256x128.size a ≤ S256x4096.size a
  slices_S32x128x128_o28_0_0_S1x128x128 : S32x128x128.Slices ![28, 0, 0] S1x128x128
  inb_S256x4096_S256x128_0_3712 : ∀ a, (![0, 3712] : Fin 2 → Nat) a + S256x128.size a ≤ S256x4096.size a
  slices_S32x128x128_o29_0_0_S1x128x128 : S32x128x128.Slices ![29, 0, 0] S1x128x128
  inb_S256x4096_S256x128_0_3840 : ∀ a, (![0, 3840] : Fin 2 → Nat) a + S256x128.size a ≤ S256x4096.size a
  slices_S32x128x128_o30_0_0_S1x128x128 : S32x128x128.Slices ![30, 0, 0] S1x128x128
  inb_S256x4096_S256x128_0_3968 : ∀ a, (![0, 3968] : Fin 2 → Nat) a + S256x128.size a ≤ S256x4096.size a
  slices_S32x128x128_o31_0_0_S1x128x128 : S32x128x128.Slices ![31, 0, 0] S1x128x128
  inb_S5x16x128_S1x16x128_0_0_0 : ∀ a, (![0, 0, 0] : Fin 3 → Nat) a + S1x16x128.size a ≤ S5x16x128.size a
  h_S1x16x128 : 0 < S1x16x128.numel
  shapeCasts_S1x16x128_S16x128 : S1x16x128.ShapeCasts S16x128
  slices_S16x128_o0_0_S1x128 : S16x128.Slices ![0, 0] S1x128
  shapeCasts_S1x128_S128 : S1x128.ShapeCasts S128
  shapeCasts_S128_S1x128 : S128.ShapeCasts S1x128
  broadcasts_S1x128_S256x128 : S1x128.Broadcasts S256x128
  slices_S16x128_o1_0_S1x128 : S16x128.Slices ![1, 0] S1x128
  slices_S16x128_o2_0_S1x128 : S16x128.Slices ![2, 0] S1x128
  slices_S16x128_o3_0_S1x128 : S16x128.Slices ![3, 0] S1x128
  slices_S16x128_o4_0_S1x128 : S16x128.Slices ![4, 0] S1x128
  slices_S16x128_o5_0_S1x128 : S16x128.Slices ![5, 0] S1x128
  slices_S16x128_o6_0_S1x128 : S16x128.Slices ![6, 0] S1x128
  slices_S16x128_o7_0_S1x128 : S16x128.Slices ![7, 0] S1x128
  slices_S16x128_o8_0_S1x128 : S16x128.Slices ![8, 0] S1x128
  slices_S16x128_o9_0_S1x128 : S16x128.Slices ![9, 0] S1x128
  slices_S16x128_o10_0_S1x128 : S16x128.Slices ![10, 0] S1x128
  slices_S16x128_o11_0_S1x128 : S16x128.Slices ![11, 0] S1x128
  slices_S16x128_o12_0_S1x128 : S16x128.Slices ![12, 0] S1x128
  slices_S16x128_o13_0_S1x128 : S16x128.Slices ![13, 0] S1x128
  slices_S16x128_o14_0_S1x128 : S16x128.Slices ![14, 0] S1x128
  slices_S16x128_o15_0_S1x128 : S16x128.Slices ![15, 0] S1x128
  inb_S5x16x128_S1x16x128_1_0_0 : ∀ a, (![1, 0, 0] : Fin 3 → Nat) a + S1x16x128.size a ≤ S5x16x128.size a
  inb_S5x16x128_S1x16x128_2_0_0 : ∀ a, (![2, 0, 0] : Fin 3 → Nat) a + S1x16x128.size a ≤ S5x16x128.size a
  inb_S5x16x128_S1x16x128_3_0_0 : ∀ a, (![3, 0, 0] : Fin 3 → Nat) a + S1x16x128.size a ≤ S5x16x128.size a
  inb_S5x16x128_S1x16x128_4_0_0 : ∀ a, (![4, 0, 0] : Fin 3 → Nat) a + S1x16x128.size a ≤ S5x16x128.size a
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128x128.size a ≤ S32x128x128.size a
  hwx0_1 : ∀ i : grid0.Coords, EltTy.bits .bf16 = 32 ∨ (Rect.block (s := S32x128x128) S32x128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x16x128.size a ≤ S5x16x128.size a
  hwx0_2 : ∀ i : grid0.Coords, EltTy.bits .f32 = 32 ∨ (Rect.block (s := S5x16x128) S5x16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x16x128.size a ≤ S5x16x128.size a
  hwx0_3 : ∀ i : grid0.Coords, EltTy.bits .f32 = 32 ∨ (Rect.block (s := S5x16x128) S5x16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .f32 = 32 ∨ (Rect.block (s := S4096x4096) S256x4096.size (cc0_transform_4 i) (hinb0_4 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v214) S32x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v216) S5x16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v217) S5x16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v218) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S12x2048 : Shape := ⟨2, ![12, 2048]⟩
abbrev S4096x2048x2x1 : Shape := ⟨4, ![4096, 2048, 2, 1]⟩
abbrev S1x2048 : Shape := ⟨2, ![1, 2048]⟩
abbrev S2048 : Shape := ⟨1, ![2048]⟩
abbrev S2048x1 : Shape := ⟨2, ![2048, 1]⟩
abbrev S4096x2048x1x1 : Shape := ⟨4, ![4096, 2048, 1, 1]⟩
abbrev S4096x2048x1 : Shape := ⟨3, ![4096, 2048, 1]⟩
abbrev S1x2048x1 : Shape := ⟨3, ![1, 2048, 1]⟩
abbrev S4096x1024x2x2 : Shape := ⟨4, ![4096, 1024, 2, 2]⟩
abbrev S1024x2 : Shape := ⟨2, ![1024, 2]⟩
abbrev S4096x1024x1x2 : Shape := ⟨4, ![4096, 1024, 1, 2]⟩
abbrev S4096x1024x2 : Shape := ⟨3, ![4096, 1024, 2]⟩
abbrev S1x1024x2 : Shape := ⟨3, ![1, 1024, 2]⟩
abbrev S4096x512x2x4 : Shape := ⟨4, ![4096, 512, 2, 4]⟩
abbrev S512x4 : Shape := ⟨2, ![512, 4]⟩
abbrev S4096x512x1x4 : Shape := ⟨4, ![4096, 512, 1, 4]⟩
abbrev S4096x512x4 : Shape := ⟨3, ![4096, 512, 4]⟩
abbrev S1x512x4 : Shape := ⟨3, ![1, 512, 4]⟩
abbrev S4096x256x2x8 : Shape := ⟨4, ![4096, 256, 2, 8]⟩
abbrev S256x8 : Shape := ⟨2, ![256, 8]⟩
abbrev S4096x256x1x8 : Shape := ⟨4, ![4096, 256, 1, 8]⟩
abbrev S4096x256x8 : Shape := ⟨3, ![4096, 256, 8]⟩
abbrev S1x256x8 : Shape := ⟨3, ![1, 256, 8]⟩
abbrev S4096x128x2x16 : Shape := ⟨4, ![4096, 128, 2, 16]⟩
abbrev S128x16 : Shape := ⟨2, ![128, 16]⟩
abbrev S4096x128x1x16 : Shape := ⟨4, ![4096, 128, 1, 16]⟩
abbrev S4096x128x16 : Shape := ⟨3, ![4096, 128, 16]⟩
abbrev S1x128x16 : Shape := ⟨3, ![1, 128, 16]⟩
abbrev S4096x64x2x32 : Shape := ⟨4, ![4096, 64, 2, 32]⟩
abbrev S64x32 : Shape := ⟨2, ![64, 32]⟩
abbrev S4096x64x1x32 : Shape := ⟨4, ![4096, 64, 1, 32]⟩
abbrev S4096x64x32 : Shape := ⟨3, ![4096, 64, 32]⟩
abbrev S1x64x32 : Shape := ⟨3, ![1, 64, 32]⟩
abbrev S4096x32x2x64 : Shape := ⟨4, ![4096, 32, 2, 64]⟩
abbrev S32x64 : Shape := ⟨2, ![32, 64]⟩
abbrev S4096x32x1x64 : Shape := ⟨4, ![4096, 32, 1, 64]⟩
abbrev S4096x32x64 : Shape := ⟨3, ![4096, 32, 64]⟩
abbrev S1x32x64 : Shape := ⟨3, ![1, 32, 64]⟩
abbrev S4096x16x2x128 : Shape := ⟨4, ![4096, 16, 2, 128]⟩
abbrev S16x128 : Shape := ⟨2, ![16, 128]⟩
abbrev S4096x16x1x128 : Shape := ⟨4, ![4096, 16, 1, 128]⟩
abbrev S4096x16x128 : Shape := ⟨3, ![4096, 16, 128]⟩
abbrev S1x16x128 : Shape := ⟨3, ![1, 16, 128]⟩
abbrev S4096x8x2x256 : Shape := ⟨4, ![4096, 8, 2, 256]⟩
abbrev S8x256 : Shape := ⟨2, ![8, 256]⟩
abbrev S4096x8x1x256 : Shape := ⟨4, ![4096, 8, 1, 256]⟩
abbrev S4096x8x256 : Shape := ⟨3, ![4096, 8, 256]⟩
abbrev S1x8x256 : Shape := ⟨3, ![1, 8, 256]⟩
abbrev S4096x4x2x512 : Shape := ⟨4, ![4096, 4, 2, 512]⟩
abbrev S4x512 : Shape := ⟨2, ![4, 512]⟩
abbrev S4096x4x1x512 : Shape := ⟨4, ![4096, 4, 1, 512]⟩
abbrev S4096x4x512 : Shape := ⟨3, ![4096, 4, 512]⟩
abbrev S1x4x512 : Shape := ⟨3, ![1, 4, 512]⟩
abbrev S4096x2x2x1024 : Shape := ⟨4, ![4096, 2, 2, 1024]⟩
abbrev S2x1024 : Shape := ⟨2, ![2, 1024]⟩
abbrev S4096x2x1x1024 : Shape := ⟨4, ![4096, 2, 1, 1024]⟩
abbrev S4096x2x1024 : Shape := ⟨3, ![4096, 2, 1024]⟩
abbrev S1x2x1024 : Shape := ⟨3, ![1, 2, 1024]⟩
abbrev S4096x1x2x2048 : Shape := ⟨4, ![4096, 1, 2, 2048]⟩
abbrev S4096x1x1x2048 : Shape := ⟨4, ![4096, 1, 1, 2048]⟩
abbrev S4096x1x2048 : Shape := ⟨3, ![4096, 1, 2048]⟩
abbrev S1x1x2048 : Shape := ⟨3, ![1, 1, 2048]⟩

abbrev nBuf : Space → Nat
  | .hbm => 338
  | .vmem => 0
  | .smem => 0
  | _ => 0

abbrev hbmTy0_0 (i : Nat) : BufTy := match i % 128 with
  | 0 => ⟨S4096x4096, .f32⟩
  | 1 => ⟨S12x2048, .f32⟩
  | 2 => ⟨S4096x2048x2x1, .f32⟩
  | 3 => ⟨S1x2048, .f32⟩
  | 4 => ⟨S2048, .f32⟩
  | 5 => ⟨S2048x1, .f32⟩
  | 6 => ⟨S2048x1, .f32⟩
  | 7 => ⟨S2048x1, .f32⟩
  | 8 => ⟨S4096x2048x1x1, .f32⟩
  | 9 => ⟨S4096x2048x1, .f32⟩
  | 10 => ⟨S4096x2048x1x1, .f32⟩
  | 11 => ⟨S4096x2048x1, .f32⟩
  | 12 => ⟨S1x2048x1, .f32⟩
  | 13 => ⟨S4096x2048x1, .f32⟩
  | 14 => ⟨S4096x2048x1, .f32⟩
  | 15 => ⟨S1x2048x1, .f32⟩
  | 16 => ⟨S4096x2048x1, .f32⟩
  | 17 => ⟨S4096x2048x1, .f32⟩
  | 18 => ⟨S4096x2048x1, .f32⟩
  | 19 => ⟨S1x2048x1, .f32⟩
  | 20 => ⟨S4096x2048x1, .f32⟩
  | 21 => ⟨S4096x2048x1, .f32⟩
  | 22 => ⟨S1x2048x1, .f32⟩
  | 23 => ⟨S4096x2048x1, .f32⟩
  | 24 => ⟨S4096x2048x1, .f32⟩
  | 25 => ⟨S4096x2048x1, .f32⟩
  | 26 => ⟨S4096x2048x1x1, .f32⟩
  | 27 => ⟨S4096x2048x1x1, .f32⟩
  | 28 => ⟨S4096x2048x2x1, .f32⟩
  | 29 => ⟨S4096x4096, .f32⟩
  | 30 => ⟨S4096x1024x2x2, .f32⟩
  | 31 => ⟨S1x2048, .f32⟩
  | 32 => ⟨S2048, .f32⟩
  | 33 => ⟨S1024x2, .f32⟩
  | 34 => ⟨S1024x2, .f32⟩
  | 35 => ⟨S1024x2, .f32⟩
  | 36 => ⟨S4096x1024x1x2, .f32⟩
  | 37 => ⟨S4096x1024x2, .f32⟩
  | 38 => ⟨S4096x1024x1x2, .f32⟩
  | 39 => ⟨S4096x1024x2, .f32⟩
  | 40 => ⟨S1x1024x2, .f32⟩
  | 41 => ⟨S4096x1024x2, .f32⟩
  | 42 => ⟨S4096x1024x2, .f32⟩
  | 43 => ⟨S1x1024x2, .f32⟩
  | 44 => ⟨S4096x1024x2, .f32⟩
  | 45 => ⟨S4096x1024x2, .f32⟩
  | 46 => ⟨S4096x1024x2, .f32⟩
  | 47 => ⟨S1x1024x2, .f32⟩
  | 48 => ⟨S4096x1024x2, .f32⟩
  | 49 => ⟨S4096x1024x2, .f32⟩
  | 50 => ⟨S1x1024x2, .f32⟩
  | 51 => ⟨S4096x1024x2, .f32⟩
  | 52 => ⟨S4096x1024x2, .f32⟩
  | 53 => ⟨S4096x1024x2, .f32⟩
  | 54 => ⟨S4096x1024x1x2, .f32⟩
  | 55 => ⟨S4096x1024x1x2, .f32⟩
  | 56 => ⟨S4096x1024x2x2, .f32⟩
  | 57 => ⟨S4096x4096, .f32⟩
  | 58 => ⟨S4096x512x2x4, .f32⟩
  | 59 => ⟨S1x2048, .f32⟩
  | 60 => ⟨S2048, .f32⟩
  | 61 => ⟨S512x4, .f32⟩
  | 62 => ⟨S512x4, .f32⟩
  | 63 => ⟨S512x4, .f32⟩
  | 64 => ⟨S4096x512x1x4, .f32⟩
  | 65 => ⟨S4096x512x4, .f32⟩
  | 66 => ⟨S4096x512x1x4, .f32⟩
  | 67 => ⟨S4096x512x4, .f32⟩
  | 68 => ⟨S1x512x4, .f32⟩
  | 69 => ⟨S4096x512x4, .f32⟩
  | 70 => ⟨S4096x512x4, .f32⟩
  | 71 => ⟨S1x512x4, .f32⟩
  | 72 => ⟨S4096x512x4, .f32⟩
  | 73 => ⟨S4096x512x4, .f32⟩
  | 74 => ⟨S4096x512x4, .f32⟩
  | 75 => ⟨S1x512x4, .f32⟩
  | 76 => ⟨S4096x512x4, .f32⟩
  | 77 => ⟨S4096x512x4, .f32⟩
  | 78 => ⟨S1x512x4, .f32⟩
  | 79 => ⟨S4096x512x4, .f32⟩
  | 80 => ⟨S4096x512x4, .f32⟩
  | 81 => ⟨S4096x512x4, .f32⟩
  | 82 => ⟨S4096x512x1x4, .f32⟩
  | 83 => ⟨S4096x512x1x4, .f32⟩
  | 84 => ⟨S4096x512x2x4, .f32⟩
  | 85 => ⟨S4096x4096, .f32⟩
  | 86 => ⟨S4096x256x2x8, .f32⟩
  | 87 => ⟨S1x2048, .f32⟩
  | 88 => ⟨S2048, .f32⟩
  | 89 => ⟨S256x8, .f32⟩
  | 90 => ⟨S256x8, .f32⟩
  | 91 => ⟨S256x8, .f32⟩
  | 92 => ⟨S4096x256x1x8, .f32⟩
  | 93 => ⟨S4096x256x8, .f32⟩
  | 94 => ⟨S4096x256x1x8, .f32⟩
  | 95 => ⟨S4096x256x8, .f32⟩
  | 96 => ⟨S1x256x8, .f32⟩
  | 97 => ⟨S4096x256x8, .f32⟩
  | 98 => ⟨S4096x256x8, .f32⟩
  | 99 => ⟨S1x256x8, .f32⟩
  | 100 => ⟨S4096x256x8, .f32⟩
  | 101 => ⟨S4096x256x8, .f32⟩
  | 102 => ⟨S4096x256x8, .f32⟩
  | 103 => ⟨S1x256x8, .f32⟩
  | 104 => ⟨S4096x256x8, .f32⟩
  | 105 => ⟨S4096x256x8, .f32⟩
  | 106 => ⟨S1x256x8, .f32⟩
  | 107 => ⟨S4096x256x8, .f32⟩
  | 108 => ⟨S4096x256x8, .f32⟩
  | 109 => ⟨S4096x256x8, .f32⟩
  | 110 => ⟨S4096x256x1x8, .f32⟩
  | 111 => ⟨S4096x256x1x8, .f32⟩
  | 112 => ⟨S4096x256x2x8, .f32⟩
  | 113 => ⟨S4096x4096, .f32⟩
  | 114 => ⟨S4096x128x2x16, .f32⟩
  | 115 => ⟨S1x2048, .f32⟩
  | 116 => ⟨S2048, .f32⟩
  | 117 => ⟨S128x16, .f32⟩
  | 118 => ⟨S128x16, .f32⟩
  | 119 => ⟨S128x16, .f32⟩
  | 120 => ⟨S4096x128x1x16, .f32⟩
  | 121 => ⟨S4096x128x16, .f32⟩
  | 122 => ⟨S4096x128x1x16, .f32⟩
  | 123 => ⟨S4096x128x16, .f32⟩
  | 124 => ⟨S1x128x16, .f32⟩
  | 125 => ⟨S4096x128x16, .f32⟩
  | 126 => ⟨S4096x128x16, .f32⟩
  | 127 => ⟨S1x128x16, .f32⟩
  | _ => ⟨S4096x4096, .f32⟩

abbrev hbmTy0_1 (i : Nat) : BufTy := match i % 128 with
  | 0 => ⟨S4096x128x16, .f32⟩
  | 1 => ⟨S4096x128x16, .f32⟩
  | 2 => ⟨S4096x128x16, .f32⟩
  | 3 => ⟨S1x128x16, .f32⟩
  | 4 => ⟨S4096x128x16, .f32⟩
  | 5 => ⟨S4096x128x16, .f32⟩
  | 6 => ⟨S1x128x16, .f32⟩
  | 7 => ⟨S4096x128x16, .f32⟩
  | 8 => ⟨S4096x128x16, .f32⟩
  | 9 => ⟨S4096x128x16, .f32⟩
  | 10 => ⟨S4096x128x1x16, .f32⟩
  | 11 => ⟨S4096x128x1x16, .f32⟩
  | 12 => ⟨S4096x128x2x16, .f32⟩
  | 13 => ⟨S4096x4096, .f32⟩
  | 14 => ⟨S4096x64x2x32, .f32⟩
  | 15 => ⟨S1x2048, .f32⟩
  | 16 => ⟨S2048, .f32⟩
  | 17 => ⟨S64x32, .f32⟩
  | 18 => ⟨S64x32, .f32⟩
  | 19 => ⟨S64x32, .f32⟩
  | 20 => ⟨S4096x64x1x32, .f32⟩
  | 21 => ⟨S4096x64x32, .f32⟩
  | 22 => ⟨S4096x64x1x32, .f32⟩
  | 23 => ⟨S4096x64x32, .f32⟩
  | 24 => ⟨S1x64x32, .f32⟩
  | 25 => ⟨S4096x64x32, .f32⟩
  | 26 => ⟨S4096x64x32, .f32⟩
  | 27 => ⟨S1x64x32, .f32⟩
  | 28 => ⟨S4096x64x32, .f32⟩
  | 29 => ⟨S4096x64x32, .f32⟩
  | 30 => ⟨S4096x64x32, .f32⟩
  | 31 => ⟨S1x64x32, .f32⟩
  | 32 => ⟨S4096x64x32, .f32⟩
  | 33 => ⟨S4096x64x32, .f32⟩
  | 34 => ⟨S1x64x32, .f32⟩
  | 35 => ⟨S4096x64x32, .f32⟩
  | 36 => ⟨S4096x64x32, .f32⟩
  | 37 => ⟨S4096x64x32, .f32⟩
  | 38 => ⟨S4096x64x1x32, .f32⟩
  | 39 => ⟨S4096x64x1x32, .f32⟩
  | 40 => ⟨S4096x64x2x32, .f32⟩
  | 41 => ⟨S4096x4096, .f32⟩
  | 42 => ⟨S4096x32x2x64, .f32⟩
  | 43 => ⟨S1x2048, .f32⟩
  | 44 => ⟨S2048, .f32⟩
  | 45 => ⟨S32x64, .f32⟩
  | 46 => ⟨S32x64, .f32⟩
  | 47 => ⟨S32x64, .f32⟩
  | 48 => ⟨S4096x32x1x64, .f32⟩
  | 49 => ⟨S4096x32x64, .f32⟩
  | 50 => ⟨S4096x32x1x64, .f32⟩
  | 51 => ⟨S4096x32x64, .f32⟩
  | 52 => ⟨S1x32x64, .f32⟩
  | 53 => ⟨S4096x32x64, .f32⟩
  | 54 => ⟨S4096x32x64, .f32⟩
  | 55 => ⟨S1x32x64, .f32⟩
  | 56 => ⟨S4096x32x64, .f32⟩
  | 57 => ⟨S4096x32x64, .f32⟩
  | 58 => ⟨S4096x32x64, .f32⟩
  | 59 => ⟨S1x32x64, .f32⟩
  | 60 => ⟨S4096x32x64, .f32⟩
  | 61 => ⟨S4096x32x64, .f32⟩
  | 62 => ⟨S1x32x64, .f32⟩
  | 63 => ⟨S4096x32x64, .f32⟩
  | 64 => ⟨S4096x32x64, .f32⟩
  | 65 => ⟨S4096x32x64, .f32⟩
  | 66 => ⟨S4096x32x1x64, .f32⟩
  | 67 => ⟨S4096x32x1x64, .f32⟩
  | 68 => ⟨S4096x32x2x64, .f32⟩
  | 69 => ⟨S4096x4096, .f32⟩
  | 70 => ⟨S4096x16x2x128, .f32⟩
  | 71 => ⟨S1x2048, .f32⟩
  | 72 => ⟨S2048, .f32⟩
  | 73 => ⟨S16x128, .f32⟩
  | 74 => ⟨S16x128, .f32⟩
  | 75 => ⟨S16x128, .f32⟩
  | 76 => ⟨S4096x16x1x128, .f32⟩
  | 77 => ⟨S4096x16x128, .f32⟩
  | 78 => ⟨S4096x16x1x128, .f32⟩
  | 79 => ⟨S4096x16x128, .f32⟩
  | 80 => ⟨S1x16x128, .f32⟩
  | 81 => ⟨S4096x16x128, .f32⟩
  | 82 => ⟨S4096x16x128, .f32⟩
  | 83 => ⟨S1x16x128, .f32⟩
  | 84 => ⟨S4096x16x128, .f32⟩
  | 85 => ⟨S4096x16x128, .f32⟩
  | 86 => ⟨S4096x16x128, .f32⟩
  | 87 => ⟨S1x16x128, .f32⟩
  | 88 => ⟨S4096x16x128, .f32⟩
  | 89 => ⟨S4096x16x128, .f32⟩
  | 90 => ⟨S1x16x128, .f32⟩
  | 91 => ⟨S4096x16x128, .f32⟩
  | 92 => ⟨S4096x16x128, .f32⟩
  | 93 => ⟨S4096x16x128, .f32⟩
  | 94 => ⟨S4096x16x1x128, .f32⟩
  | 95 => ⟨S4096x16x1x128, .f32⟩
  | 96 => ⟨S4096x16x2x128, .f32⟩
  | 97 => ⟨S4096x4096, .f32⟩
  | 98 => ⟨S4096x8x2x256, .f32⟩
  | 99 => ⟨S1x2048, .f32⟩
  | 100 => ⟨S2048, .f32⟩
  | 101 => ⟨S8x256, .f32⟩
  | 102 => ⟨S8x256, .f32⟩
  | 103 => ⟨S8x256, .f32⟩
  | 104 => ⟨S4096x8x1x256, .f32⟩
  | 105 => ⟨S4096x8x256, .f32⟩
  | 106 => ⟨S4096x8x1x256, .f32⟩
  | 107 => ⟨S4096x8x256, .f32⟩
  | 108 => ⟨S1x8x256, .f32⟩
  | 109 => ⟨S4096x8x256, .f32⟩
  | 110 => ⟨S4096x8x256, .f32⟩
  | 111 => ⟨S1x8x256, .f32⟩
  | 112 => ⟨S4096x8x256, .f32⟩
  | 113 => ⟨S4096x8x256, .f32⟩
  | 114 => ⟨S4096x8x256, .f32⟩
  | 115 => ⟨S1x8x256, .f32⟩
  | 116 => ⟨S4096x8x256, .f32⟩
  | 117 => ⟨S4096x8x256, .f32⟩
  | 118 => ⟨S1x8x256, .f32⟩
  | 119 => ⟨S4096x8x256, .f32⟩
  | 120 => ⟨S4096x8x256, .f32⟩
  | 121 => ⟨S4096x8x256, .f32⟩
  | 122 => ⟨S4096x8x1x256, .f32⟩
  | 123 => ⟨S4096x8x1x256, .f32⟩
  | 124 => ⟨S4096x8x2x256, .f32⟩
  | 125 => ⟨S4096x4096, .f32⟩
  | 126 => ⟨S4096x4x2x512, .f32⟩
  | 127 => ⟨S1x2048, .f32⟩
  | _ => ⟨S4096x4096, .f32⟩

abbrev hbmTy0_2 (i : Nat) : BufTy := match i % 128 with
  | 0 => ⟨S2048, .f32⟩
  | 1 => ⟨S4x512, .f32⟩
  | 2 => ⟨S4x512, .f32⟩
  | 3 => ⟨S4x512, .f32⟩
  | 4 => ⟨S4096x4x1x512, .f32⟩
  | 5 => ⟨S4096x4x512, .f32⟩
  | 6 => ⟨S4096x4x1x512, .f32⟩
  | 7 => ⟨S4096x4x512, .f32⟩
  | 8 => ⟨S1x4x512, .f32⟩
  | 9 => ⟨S4096x4x512, .f32⟩
  | 10 => ⟨S4096x4x512, .f32⟩
  | 11 => ⟨S1x4x512, .f32⟩
  | 12 => ⟨S4096x4x512, .f32⟩
  | 13 => ⟨S4096x4x512, .f32⟩
  | 14 => ⟨S4096x4x512, .f32⟩
  | 15 => ⟨S1x4x512, .f32⟩
  | 16 => ⟨S4096x4x512, .f32⟩
  | 17 => ⟨S4096x4x512, .f32⟩
  | 18 => ⟨S1x4x512, .f32⟩
  | 19 => ⟨S4096x4x512, .f32⟩
  | 20 => ⟨S4096x4x512, .f32⟩
  | 21 => ⟨S4096x4x512, .f32⟩
  | 22 => ⟨S4096x4x1x512, .f32⟩
  | 23 => ⟨S4096x4x1x512, .f32⟩
  | 24 => ⟨S4096x4x2x512, .f32⟩
  | 25 => ⟨S4096x4096, .f32⟩
  | 26 => ⟨S4096x2x2x1024, .f32⟩
  | 27 => ⟨S1x2048, .f32⟩
  | 28 => ⟨S2048, .f32⟩
  | 29 => ⟨S2x1024, .f32⟩
  | 30 => ⟨S2x1024, .f32⟩
  | 31 => ⟨S2x1024, .f32⟩
  | 32 => ⟨S4096x2x1x1024, .f32⟩
  | 33 => ⟨S4096x2x1024, .f32⟩
  | 34 => ⟨S4096x2x1x1024, .f32⟩
  | 35 => ⟨S4096x2x1024, .f32⟩
  | 36 => ⟨S1x2x1024, .f32⟩
  | 37 => ⟨S4096x2x1024, .f32⟩
  | 38 => ⟨S4096x2x1024, .f32⟩
  | 39 => ⟨S1x2x1024, .f32⟩
  | 40 => ⟨S4096x2x1024, .f32⟩
  | 41 => ⟨S4096x2x1024, .f32⟩
  | 42 => ⟨S4096x2x1024, .f32⟩
  | 43 => ⟨S1x2x1024, .f32⟩
  | 44 => ⟨S4096x2x1024, .f32⟩
  | 45 => ⟨S4096x2x1024, .f32⟩
  | 46 => ⟨S1x2x1024, .f32⟩
  | 47 => ⟨S4096x2x1024, .f32⟩
  | 48 => ⟨S4096x2x1024, .f32⟩
  | 49 => ⟨S4096x2x1024, .f32⟩
  | 50 => ⟨S4096x2x1x1024, .f32⟩
  | 51 => ⟨S4096x2x1x1024, .f32⟩
  | 52 => ⟨S4096x2x2x1024, .f32⟩
  | 53 => ⟨S4096x4096, .f32⟩
  | 54 => ⟨S4096x1x2x2048, .f32⟩
  | 55 => ⟨S1x2048, .f32⟩
  | 56 => ⟨S2048, .f32⟩
  | 57 => ⟨S1x2048, .f32⟩
  | 58 => ⟨S1x2048, .f32⟩
  | 59 => ⟨S1x2048, .f32⟩
  | 60 => ⟨S4096x1x1x2048, .f32⟩
  | 61 => ⟨S4096x1x2048, .f32⟩
  | 62 => ⟨S4096x1x1x2048, .f32⟩
  | 63 => ⟨S4096x1x2048, .f32⟩
  | 64 => ⟨S1x1x2048, .f32⟩
  | 65 => ⟨S4096x1x2048, .f32⟩
  | 66 => ⟨S4096x1x2048, .f32⟩
  | 67 => ⟨S1x1x2048, .f32⟩
  | 68 => ⟨S4096x1x2048, .f32⟩
  | 69 => ⟨S4096x1x2048, .f32⟩
  | 70 => ⟨S4096x1x2048, .f32⟩
  | 71 => ⟨S1x1x2048, .f32⟩
  | 72 => ⟨S4096x1x2048, .f32⟩
  | 73 => ⟨S4096x1x2048, .f32⟩
  | 74 => ⟨S1x1x2048, .f32⟩
  | 75 => ⟨S4096x1x2048, .f32⟩
  | 76 => ⟨S4096x1x2048, .f32⟩
  | 77 => ⟨S4096x1x2048, .f32⟩
  | 78 => ⟨S4096x1x1x2048, .f32⟩
  | 79 => ⟨S4096x1x1x2048, .f32⟩
  | 80 => ⟨S4096x1x2x2048, .f32⟩
  | 81 => ⟨S4096x4096, .f32⟩
  | _ => ⟨S4096x4096, .f32⟩

abbrev hbmTy (i : Nat) : BufTy := match i / 128 with
  | 0 => hbmTy0_0 i
  | 1 => hbmTy0_1 i
  | 2 => hbmTy0_2 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩
abbrev main_v118 : Ref sig .tc := ⟨.hbm, 120, rfl⟩
abbrev main_v119 : Ref sig .tc := ⟨.hbm, 121, rfl⟩
abbrev main_v120 : Ref sig .tc := ⟨.hbm, 122, rfl⟩
abbrev main_v121 : Ref sig .tc := ⟨.hbm, 123, rfl⟩
abbrev main_v122 : Ref sig .tc := ⟨.hbm, 124, rfl⟩
abbrev main_v123 : Ref sig .tc := ⟨.hbm, 125, rfl⟩
abbrev main_v124 : Ref sig .tc := ⟨.hbm, 126, rfl⟩
abbrev main_v125 : Ref sig .tc := ⟨.hbm, 127, rfl⟩
abbrev main_v126 : Ref sig .tc := ⟨.hbm, 128, rfl⟩
abbrev main_v127 : Ref sig .tc := ⟨.hbm, 129, rfl⟩
abbrev main_v128 : Ref sig .tc := ⟨.hbm, 130, rfl⟩
abbrev main_v129 : Ref sig .tc := ⟨.hbm, 131, rfl⟩
abbrev main_v130 : Ref sig .tc := ⟨.hbm, 132, rfl⟩
abbrev main_v131 : Ref sig .tc := ⟨.hbm, 133, rfl⟩
abbrev main_v132 : Ref sig .tc := ⟨.hbm, 134, rfl⟩
abbrev main_v133 : Ref sig .tc := ⟨.hbm, 135, rfl⟩
abbrev main_v134 : Ref sig .tc := ⟨.hbm, 136, rfl⟩
abbrev main_v135 : Ref sig .tc := ⟨.hbm, 137, rfl⟩
abbrev main_v136 : Ref sig .tc := ⟨.hbm, 138, rfl⟩
abbrev main_v137 : Ref sig .tc := ⟨.hbm, 139, rfl⟩
abbrev main_v138 : Ref sig .tc := ⟨.hbm, 140, rfl⟩
abbrev main_v139 : Ref sig .tc := ⟨.hbm, 141, rfl⟩
abbrev main_v140 : Ref sig .tc := ⟨.hbm, 142, rfl⟩
abbrev main_v141 : Ref sig .tc := ⟨.hbm, 143, rfl⟩
abbrev main_v142 : Ref sig .tc := ⟨.hbm, 144, rfl⟩
abbrev main_v143 : Ref sig .tc := ⟨.hbm, 145, rfl⟩
abbrev main_v144 : Ref sig .tc := ⟨.hbm, 146, rfl⟩
abbrev main_v145 : Ref sig .tc := ⟨.hbm, 147, rfl⟩
abbrev main_v146 : Ref sig .tc := ⟨.hbm, 148, rfl⟩
abbrev main_v147 : Ref sig .tc := ⟨.hbm, 149, rfl⟩
abbrev main_v148 : Ref sig .tc := ⟨.hbm, 150, rfl⟩
abbrev main_v149 : Ref sig .tc := ⟨.hbm, 151, rfl⟩
abbrev main_v150 : Ref sig .tc := ⟨.hbm, 152, rfl⟩
abbrev main_v151 : Ref sig .tc := ⟨.hbm, 153, rfl⟩
abbrev main_v152 : Ref sig .tc := ⟨.hbm, 154, rfl⟩
abbrev main_v153 : Ref sig .tc := ⟨.hbm, 155, rfl⟩
abbrev main_v154 : Ref sig .tc := ⟨.hbm, 156, rfl⟩
abbrev main_v155 : Ref sig .tc := ⟨.hbm, 157, rfl⟩
abbrev main_v156 : Ref sig .tc := ⟨.hbm, 158, rfl⟩
abbrev main_v157 : Ref sig .tc := ⟨.hbm, 159, rfl⟩
abbrev main_v158 : Ref sig .tc := ⟨.hbm, 160, rfl⟩
abbrev main_v159 : Ref sig .tc := ⟨.hbm, 161, rfl⟩
abbrev main_v160 : Ref sig .tc := ⟨.hbm, 162, rfl⟩
abbrev main_v161 : Ref sig .tc := ⟨.hbm, 163, rfl⟩
abbrev main_v162 : Ref sig .tc := ⟨.hbm, 164, rfl⟩
abbrev main_v163 : Ref sig .tc := ⟨.hbm, 165, rfl⟩
abbrev main_v164 : Ref sig .tc := ⟨.hbm, 166, rfl⟩
abbrev main_v165 : Ref sig .tc := ⟨.hbm, 167, rfl⟩
abbrev main_v166 : Ref sig .tc := ⟨.hbm, 168, rfl⟩
abbrev main_v167 : Ref sig .tc := ⟨.hbm, 169, rfl⟩
abbrev main_v168 : Ref sig .tc := ⟨.hbm, 170, rfl⟩
abbrev main_v169 : Ref sig .tc := ⟨.hbm, 171, rfl⟩
abbrev main_v170 : Ref sig .tc := ⟨.hbm, 172, rfl⟩
abbrev main_v171 : Ref sig .tc := ⟨.hbm, 173, rfl⟩
abbrev main_v172 : Ref sig .tc := ⟨.hbm, 174, rfl⟩
abbrev main_v173 : Ref sig .tc := ⟨.hbm, 175, rfl⟩
abbrev main_v174 : Ref sig .tc := ⟨.hbm, 176, rfl⟩
abbrev main_v175 : Ref sig .tc := ⟨.hbm, 177, rfl⟩
abbrev main_v176 : Ref sig .tc := ⟨.hbm, 178, rfl⟩
abbrev main_v177 : Ref sig .tc := ⟨.hbm, 179, rfl⟩
abbrev main_v178 : Ref sig .tc := ⟨.hbm, 180, rfl⟩
abbrev main_v179 : Ref sig .tc := ⟨.hbm, 181, rfl⟩
abbrev main_v180 : Ref sig .tc := ⟨.hbm, 182, rfl⟩
abbrev main_v181 : Ref sig .tc := ⟨.hbm, 183, rfl⟩
abbrev main_v182 : Ref sig .tc := ⟨.hbm, 184, rfl⟩
abbrev main_v183 : Ref sig .tc := ⟨.hbm, 185, rfl⟩
abbrev main_v184 : Ref sig .tc := ⟨.hbm, 186, rfl⟩
abbrev main_v185 : Ref sig .tc := ⟨.hbm, 187, rfl⟩
abbrev main_v186 : Ref sig .tc := ⟨.hbm, 188, rfl⟩
abbrev main_v187 : Ref sig .tc := ⟨.hbm, 189, rfl⟩
abbrev main_v188 : Ref sig .tc := ⟨.hbm, 190, rfl⟩
abbrev main_v189 : Ref sig .tc := ⟨.hbm, 191, rfl⟩
abbrev main_v190 : Ref sig .tc := ⟨.hbm, 192, rfl⟩
abbrev main_v191 : Ref sig .tc := ⟨.hbm, 193, rfl⟩
abbrev main_v192 : Ref sig .tc := ⟨.hbm, 194, rfl⟩
abbrev main_v193 : Ref sig .tc := ⟨.hbm, 195, rfl⟩
abbrev main_v194 : Ref sig .tc := ⟨.hbm, 196, rfl⟩
abbrev main_v195 : Ref sig .tc := ⟨.hbm, 197, rfl⟩
abbrev main_v196 : Ref sig .tc := ⟨.hbm, 198, rfl⟩
abbrev main_v197 : Ref sig .tc := ⟨.hbm, 199, rfl⟩
abbrev main_v198 : Ref sig .tc := ⟨.hbm, 200, rfl⟩
abbrev main_v199 : Ref sig .tc := ⟨.hbm, 201, rfl⟩
abbrev main_v200 : Ref sig .tc := ⟨.hbm, 202, rfl⟩
abbrev main_v201 : Ref sig .tc := ⟨.hbm, 203, rfl⟩
abbrev main_v202 : Ref sig .tc := ⟨.hbm, 204, rfl⟩
abbrev main_v203 : Ref sig .tc := ⟨.hbm, 205, rfl⟩
abbrev main_v204 : Ref sig .tc := ⟨.hbm, 206, rfl⟩
abbrev main_v205 : Ref sig .tc := ⟨.hbm, 207, rfl⟩
abbrev main_v206 : Ref sig .tc := ⟨.hbm, 208, rfl⟩
abbrev main_v207 : Ref sig .tc := ⟨.hbm, 209, rfl⟩
abbrev main_v208 : Ref sig .tc := ⟨.hbm, 210, rfl⟩
abbrev main_v209 : Ref sig .tc := ⟨.hbm, 211, rfl⟩
abbrev main_v210 : Ref sig .tc := ⟨.hbm, 212, rfl⟩
abbrev main_v211 : Ref sig .tc := ⟨.hbm, 213, rfl⟩
abbrev main_v212 : Ref sig .tc := ⟨.hbm, 214, rfl⟩
abbrev main_v213 : Ref sig .tc := ⟨.hbm, 215, rfl⟩
abbrev main_v214 : Ref sig .tc := ⟨.hbm, 216, rfl⟩
abbrev main_v215 : Ref sig .tc := ⟨.hbm, 217, rfl⟩
abbrev main_v216 : Ref sig .tc := ⟨.hbm, 218, rfl⟩
abbrev main_v217 : Ref sig .tc := ⟨.hbm, 219, rfl⟩
abbrev main_v218 : Ref sig .tc := ⟨.hbm, 220, rfl⟩
abbrev main_v219 : Ref sig .tc := ⟨.hbm, 221, rfl⟩
abbrev main_v220 : Ref sig .tc := ⟨.hbm, 222, rfl⟩
abbrev main_v221 : Ref sig .tc := ⟨.hbm, 223, rfl⟩
abbrev main_v222 : Ref sig .tc := ⟨.hbm, 224, rfl⟩
abbrev main_v223 : Ref sig .tc := ⟨.hbm, 225, rfl⟩
abbrev main_v224 : Ref sig .tc := ⟨.hbm, 226, rfl⟩
abbrev main_v225 : Ref sig .tc := ⟨.hbm, 227, rfl⟩
abbrev main_v226 : Ref sig .tc := ⟨.hbm, 228, rfl⟩
abbrev main_v227 : Ref sig .tc := ⟨.hbm, 229, rfl⟩
abbrev main_v228 : Ref sig .tc := ⟨.hbm, 230, rfl⟩
abbrev main_v229 : Ref sig .tc := ⟨.hbm, 231, rfl⟩
abbrev main_v230 : Ref sig .tc := ⟨.hbm, 232, rfl⟩
abbrev main_v231 : Ref sig .tc := ⟨.hbm, 233, rfl⟩
abbrev main_v232 : Ref sig .tc := ⟨.hbm, 234, rfl⟩
abbrev main_v233 : Ref sig .tc := ⟨.hbm, 235, rfl⟩
abbrev main_v234 : Ref sig .tc := ⟨.hbm, 236, rfl⟩
abbrev main_v235 : Ref sig .tc := ⟨.hbm, 237, rfl⟩
abbrev main_v236 : Ref sig .tc := ⟨.hbm, 238, rfl⟩
abbrev main_v237 : Ref sig .tc := ⟨.hbm, 239, rfl⟩
abbrev main_v238 : Ref sig .tc := ⟨.hbm, 240, rfl⟩
abbrev main_v239 : Ref sig .tc := ⟨.hbm, 241, rfl⟩
abbrev main_v240 : Ref sig .tc := ⟨.hbm, 242, rfl⟩
abbrev main_v241 : Ref sig .tc := ⟨.hbm, 243, rfl⟩
abbrev main_v242 : Ref sig .tc := ⟨.hbm, 244, rfl⟩
abbrev main_v243 : Ref sig .tc := ⟨.hbm, 245, rfl⟩
abbrev main_v244 : Ref sig .tc := ⟨.hbm, 246, rfl⟩
abbrev main_v245 : Ref sig .tc := ⟨.hbm, 247, rfl⟩
abbrev main_v246 : Ref sig .tc := ⟨.hbm, 248, rfl⟩
abbrev main_v247 : Ref sig .tc := ⟨.hbm, 249, rfl⟩
abbrev main_v248 : Ref sig .tc := ⟨.hbm, 250, rfl⟩
abbrev main_v249 : Ref sig .tc := ⟨.hbm, 251, rfl⟩
abbrev main_v250 : Ref sig .tc := ⟨.hbm, 252, rfl⟩
abbrev main_v251 : Ref sig .tc := ⟨.hbm, 253, rfl⟩
abbrev main_v252 : Ref sig .tc := ⟨.hbm, 254, rfl⟩
abbrev main_v253 : Ref sig .tc := ⟨.hbm, 255, rfl⟩
abbrev main_v254 : Ref sig .tc := ⟨.hbm, 256, rfl⟩
abbrev main_v255 : Ref sig .tc := ⟨.hbm, 257, rfl⟩
abbrev main_v256 : Ref sig .tc := ⟨.hbm, 258, rfl⟩
abbrev main_v257 : Ref sig .tc := ⟨.hbm, 259, rfl⟩
abbrev main_v258 : Ref sig .tc := ⟨.hbm, 260, rfl⟩
abbrev main_v259 : Ref sig .tc := ⟨.hbm, 261, rfl⟩
abbrev main_v260 : Ref sig .tc := ⟨.hbm, 262, rfl⟩
abbrev main_v261 : Ref sig .tc := ⟨.hbm, 263, rfl⟩
abbrev main_v262 : Ref sig .tc := ⟨.hbm, 264, rfl⟩
abbrev main_v263 : Ref sig .tc := ⟨.hbm, 265, rfl⟩
abbrev main_v264 : Ref sig .tc := ⟨.hbm, 266, rfl⟩
abbrev main_v265 : Ref sig .tc := ⟨.hbm, 267, rfl⟩
abbrev main_v266 : Ref sig .tc := ⟨.hbm, 268, rfl⟩
abbrev main_v267 : Ref sig .tc := ⟨.hbm, 269, rfl⟩
abbrev main_v268 : Ref sig .tc := ⟨.hbm, 270, rfl⟩
abbrev main_v269 : Ref sig .tc := ⟨.hbm, 271, rfl⟩
abbrev main_v270 : Ref sig .tc := ⟨.hbm, 272, rfl⟩
abbrev main_v271 : Ref sig .tc := ⟨.hbm, 273, rfl⟩
abbrev main_v272 : Ref sig .tc := ⟨.hbm, 274, rfl⟩
abbrev main_v273 : Ref sig .tc := ⟨.hbm, 275, rfl⟩
abbrev main_v274 : Ref sig .tc := ⟨.hbm, 276, rfl⟩
abbrev main_v275 : Ref sig .tc := ⟨.hbm, 277, rfl⟩
abbrev main_v276 : Ref sig .tc := ⟨.hbm, 278, rfl⟩
abbrev main_v277 : Ref sig .tc := ⟨.hbm, 279, rfl⟩
abbrev main_v278 : Ref sig .tc := ⟨.hbm, 280, rfl⟩
abbrev main_v279 : Ref sig .tc := ⟨.hbm, 281, rfl⟩
abbrev main_v280 : Ref sig .tc := ⟨.hbm, 282, rfl⟩
abbrev main_v281 : Ref sig .tc := ⟨.hbm, 283, rfl⟩
abbrev main_v282 : Ref sig .tc := ⟨.hbm, 284, rfl⟩
abbrev main_v283 : Ref sig .tc := ⟨.hbm, 285, rfl⟩
abbrev main_v284 : Ref sig .tc := ⟨.hbm, 286, rfl⟩
abbrev main_v285 : Ref sig .tc := ⟨.hbm, 287, rfl⟩
abbrev main_v286 : Ref sig .tc := ⟨.hbm, 288, rfl⟩
abbrev main_v287 : Ref sig .tc := ⟨.hbm, 289, rfl⟩
abbrev main_v288 : Ref sig .tc := ⟨.hbm, 290, rfl⟩
abbrev main_v289 : Ref sig .tc := ⟨.hbm, 291, rfl⟩
abbrev main_v290 : Ref sig .tc := ⟨.hbm, 292, rfl⟩
abbrev main_v291 : Ref sig .tc := ⟨.hbm, 293, rfl⟩
abbrev main_v292 : Ref sig .tc := ⟨.hbm, 294, rfl⟩
abbrev main_v293 : Ref sig .tc := ⟨.hbm, 295, rfl⟩
abbrev main_v294 : Ref sig .tc := ⟨.hbm, 296, rfl⟩
abbrev main_v295 : Ref sig .tc := ⟨.hbm, 297, rfl⟩
abbrev main_v296 : Ref sig .tc := ⟨.hbm, 298, rfl⟩
abbrev main_v297 : Ref sig .tc := ⟨.hbm, 299, rfl⟩
abbrev main_v298 : Ref sig .tc := ⟨.hbm, 300, rfl⟩
abbrev main_v299 : Ref sig .tc := ⟨.hbm, 301, rfl⟩
abbrev main_v300 : Ref sig .tc := ⟨.hbm, 302, rfl⟩
abbrev main_v301 : Ref sig .tc := ⟨.hbm, 303, rfl⟩
abbrev main_v302 : Ref sig .tc := ⟨.hbm, 304, rfl⟩
abbrev main_v303 : Ref sig .tc := ⟨.hbm, 305, rfl⟩
abbrev main_v304 : Ref sig .tc := ⟨.hbm, 306, rfl⟩
abbrev main_v305 : Ref sig .tc := ⟨.hbm, 307, rfl⟩
abbrev main_v306 : Ref sig .tc := ⟨.hbm, 308, rfl⟩
abbrev main_v307 : Ref sig .tc := ⟨.hbm, 309, rfl⟩
abbrev main_v308 : Ref sig .tc := ⟨.hbm, 310, rfl⟩
abbrev main_v309 : Ref sig .tc := ⟨.hbm, 311, rfl⟩
abbrev main_v310 : Ref sig .tc := ⟨.hbm, 312, rfl⟩
abbrev main_v311 : Ref sig .tc := ⟨.hbm, 313, rfl⟩
abbrev main_v312 : Ref sig .tc := ⟨.hbm, 314, rfl⟩
abbrev main_v313 : Ref sig .tc := ⟨.hbm, 315, rfl⟩
abbrev main_v314 : Ref sig .tc := ⟨.hbm, 316, rfl⟩
abbrev main_v315 : Ref sig .tc := ⟨.hbm, 317, rfl⟩
abbrev main_v316 : Ref sig .tc := ⟨.hbm, 318, rfl⟩
abbrev main_v317 : Ref sig .tc := ⟨.hbm, 319, rfl⟩
abbrev main_v318 : Ref sig .tc := ⟨.hbm, 320, rfl⟩
abbrev main_v319 : Ref sig .tc := ⟨.hbm, 321, rfl⟩
abbrev main_v320 : Ref sig .tc := ⟨.hbm, 322, rfl⟩
abbrev main_v321 : Ref sig .tc := ⟨.hbm, 323, rfl⟩
abbrev main_v322 : Ref sig .tc := ⟨.hbm, 324, rfl⟩
abbrev main_v323 : Ref sig .tc := ⟨.hbm, 325, rfl⟩
abbrev main_v324 : Ref sig .tc := ⟨.hbm, 326, rfl⟩
abbrev main_v325 : Ref sig .tc := ⟨.hbm, 327, rfl⟩
abbrev main_v326 : Ref sig .tc := ⟨.hbm, 328, rfl⟩
abbrev main_v327 : Ref sig .tc := ⟨.hbm, 329, rfl⟩
abbrev main_v328 : Ref sig .tc := ⟨.hbm, 330, rfl⟩
abbrev main_v329 : Ref sig .tc := ⟨.hbm, 331, rfl⟩
abbrev main_v330 : Ref sig .tc := ⟨.hbm, 332, rfl⟩
abbrev main_v331 : Ref sig .tc := ⟨.hbm, 333, rfl⟩
abbrev main_v332 : Ref sig .tc := ⟨.hbm, 334, rfl⟩
abbrev main_v333 : Ref sig .tc := ⟨.hbm, 335, rfl⟩
abbrev main_v334 : Ref sig .tc := ⟨.hbm, 336, rfl⟩
abbrev main_v335 : Ref sig .tc := ⟨.hbm, 337, rfl⟩

abbrev nD : Nat := 1
abbrev τ : Topo := Topo.v7x

variable {F : FTy → Type} [FloatOps F]

class Facts₀ : Prop where
  shapeCasts_S4096x4096_S4096x2048x2x1 : S4096x4096.ShapeCasts S4096x2048x2x1
  slices_S12x2048_S1x2048_0_0 : S12x2048.Slices ![0, 0] S1x2048
  shapeCasts_S1x2048_S2048 : S1x2048.ShapeCasts S2048
  shapeCasts_S2048_S2048x1 : S2048.ShapeCasts S2048x1
  slices_S4096x2048x2x1_S4096x2048x1x1_0_0_0_0 : S4096x2048x2x1.Slices ![0, 0, 0, 0] S4096x2048x1x1
  shapeCasts_S4096x2048x1x1_S4096x2048x1 : S4096x2048x1x1.ShapeCasts S4096x2048x1
  slices_S4096x2048x2x1_S4096x2048x1x1_0_0_1_0 : S4096x2048x2x1.Slices ![0, 0, 1, 0] S4096x2048x1x1
  bcast_S2048x1_S1x2048x1_1_2 : S2048x1.BroadcastsInDim S1x2048x1 (![1, 2] : Fin 2 → Fin S1x2048x1.rank)
  bcast_S1x2048x1_S4096x2048x1_0_1_2 : S1x2048x1.BroadcastsInDim S4096x2048x1 (![0, 1, 2] : Fin 3 → Fin S4096x2048x1.rank)
  bcast_S4096x2048x1_S4096x2048x1x1_0_1_3 : S4096x2048x1.BroadcastsInDim S4096x2048x1x1 (![0, 1, 3] : Fin 3 → Fin S4096x2048x1x1.rank)
  concatenates_S4096x2048x1x1_S4096x2048x1x1_S4096x2048x2x1_d2 : Shape.Concatenates [S4096x2048x1x1, S4096x2048x1x1] S4096x2048x2x1 2
  shapeCasts_S4096x2048x2x1_S4096x4096 : S4096x2048x2x1.ShapeCasts S4096x4096
  shapeCasts_S4096x4096_S4096x1024x2x2 : S4096x4096.ShapeCasts S4096x1024x2x2
  slices_S12x2048_S1x2048_1_0 : S12x2048.Slices ![1, 0] S1x2048
  shapeCasts_S2048_S1024x2 : S2048.ShapeCasts S1024x2
  slices_S4096x1024x2x2_S4096x1024x1x2_0_0_0_0 : S4096x1024x2x2.Slices ![0, 0, 0, 0] S4096x1024x1x2
  shapeCasts_S4096x1024x1x2_S4096x1024x2 : S4096x1024x1x2.ShapeCasts S4096x1024x2
  slices_S4096x1024x2x2_S4096x1024x1x2_0_0_1_0 : S4096x1024x2x2.Slices ![0, 0, 1, 0] S4096x1024x1x2
  bcast_S1024x2_S1x1024x2_1_2 : S1024x2.BroadcastsInDim S1x1024x2 (![1, 2] : Fin 2 → Fin S1x1024x2.rank)
  bcast_S1x1024x2_S4096x1024x2_0_1_2 : S1x1024x2.BroadcastsInDim S4096x1024x2 (![0, 1, 2] : Fin 3 → Fin S4096x1024x2.rank)
  bcast_S4096x1024x2_S4096x1024x1x2_0_1_3 : S4096x1024x2.BroadcastsInDim S4096x1024x1x2 (![0, 1, 3] : Fin 3 → Fin S4096x1024x1x2.rank)
  concatenates_S4096x1024x1x2_S4096x1024x1x2_S4096x1024x2x2_d2 : Shape.Concatenates [S4096x1024x1x2, S4096x1024x1x2] S4096x1024x2x2 2
  shapeCasts_S4096x1024x2x2_S4096x4096 : S4096x1024x2x2.ShapeCasts S4096x4096
  shapeCasts_S4096x4096_S4096x512x2x4 : S4096x4096.ShapeCasts S4096x512x2x4
  slices_S12x2048_S1x2048_2_0 : S12x2048.Slices ![2, 0] S1x2048
  shapeCasts_S2048_S512x4 : S2048.ShapeCasts S512x4
  slices_S4096x512x2x4_S4096x512x1x4_0_0_0_0 : S4096x512x2x4.Slices ![0, 0, 0, 0] S4096x512x1x4
  shapeCasts_S4096x512x1x4_S4096x512x4 : S4096x512x1x4.ShapeCasts S4096x512x4
  slices_S4096x512x2x4_S4096x512x1x4_0_0_1_0 : S4096x512x2x4.Slices ![0, 0, 1, 0] S4096x512x1x4
  bcast_S512x4_S1x512x4_1_2 : S512x4.BroadcastsInDim S1x512x4 (![1, 2] : Fin 2 → Fin S1x512x4.rank)
  bcast_S1x512x4_S4096x512x4_0_1_2 : S1x512x4.BroadcastsInDim S4096x512x4 (![0, 1, 2] : Fin 3 → Fin S4096x512x4.rank)
  bcast_S4096x512x4_S4096x512x1x4_0_1_3 : S4096x512x4.BroadcastsInDim S4096x512x1x4 (![0, 1, 3] : Fin 3 → Fin S4096x512x1x4.rank)
  concatenates_S4096x512x1x4_S4096x512x1x4_S4096x512x2x4_d2 : Shape.Concatenates [S4096x512x1x4, S4096x512x1x4] S4096x512x2x4 2
  shapeCasts_S4096x512x2x4_S4096x4096 : S4096x512x2x4.ShapeCasts S4096x4096
  shapeCasts_S4096x4096_S4096x256x2x8 : S4096x4096.ShapeCasts S4096x256x2x8
  slices_S12x2048_S1x2048_3_0 : S12x2048.Slices ![3, 0] S1x2048
  shapeCasts_S2048_S256x8 : S2048.ShapeCasts S256x8
  slices_S4096x256x2x8_S4096x256x1x8_0_0_0_0 : S4096x256x2x8.Slices ![0, 0, 0, 0] S4096x256x1x8
  shapeCasts_S4096x256x1x8_S4096x256x8 : S4096x256x1x8.ShapeCasts S4096x256x8
  slices_S4096x256x2x8_S4096x256x1x8_0_0_1_0 : S4096x256x2x8.Slices ![0, 0, 1, 0] S4096x256x1x8
  bcast_S256x8_S1x256x8_1_2 : S256x8.BroadcastsInDim S1x256x8 (![1, 2] : Fin 2 → Fin S1x256x8.rank)
  bcast_S1x256x8_S4096x256x8_0_1_2 : S1x256x8.BroadcastsInDim S4096x256x8 (![0, 1, 2] : Fin 3 → Fin S4096x256x8.rank)
  bcast_S4096x256x8_S4096x256x1x8_0_1_3 : S4096x256x8.BroadcastsInDim S4096x256x1x8 (![0, 1, 3] : Fin 3 → Fin S4096x256x1x8.rank)
  concatenates_S4096x256x1x8_S4096x256x1x8_S4096x256x2x8_d2 : Shape.Concatenates [S4096x256x1x8, S4096x256x1x8] S4096x256x2x8 2
  shapeCasts_S4096x256x2x8_S4096x4096 : S4096x256x2x8.ShapeCasts S4096x4096
  shapeCasts_S4096x4096_S4096x128x2x16 : S4096x4096.ShapeCasts S4096x128x2x16
  slices_S12x2048_S1x2048_4_0 : S12x2048.Slices ![4, 0] S1x2048
  shapeCasts_S2048_S128x16 : S2048.ShapeCasts S128x16
  slices_S4096x128x2x16_S4096x128x1x16_0_0_0_0 : S4096x128x2x16.Slices ![0, 0, 0, 0] S4096x128x1x16
  shapeCasts_S4096x128x1x16_S4096x128x16 : S4096x128x1x16.ShapeCasts S4096x128x16
  slices_S4096x128x2x16_S4096x128x1x16_0_0_1_0 : S4096x128x2x16.Slices ![0, 0, 1, 0] S4096x128x1x16
  bcast_S128x16_S1x128x16_1_2 : S128x16.BroadcastsInDim S1x128x16 (![1, 2] : Fin 2 → Fin S1x128x16.rank)
  bcast_S1x128x16_S4096x128x16_0_1_2 : S1x128x16.BroadcastsInDim S4096x128x16 (![0, 1, 2] : Fin 3 → Fin S4096x128x16.rank)
  bcast_S4096x128x16_S4096x128x1x16_0_1_3 : S4096x128x16.BroadcastsInDim S4096x128x1x16 (![0, 1, 3] : Fin 3 → Fin S4096x128x1x16.rank)
  concatenates_S4096x128x1x16_S4096x128x1x16_S4096x128x2x16_d2 : Shape.Concatenates [S4096x128x1x16, S4096x128x1x16] S4096x128x2x16 2
  shapeCasts_S4096x128x2x16_S4096x4096 : S4096x128x2x16.ShapeCasts S4096x4096
  shapeCasts_S4096x4096_S4096x64x2x32 : S4096x4096.ShapeCasts S4096x64x2x32
  slices_S12x2048_S1x2048_5_0 : S12x2048.Slices ![5, 0] S1x2048
  shapeCasts_S2048_S64x32 : S2048.ShapeCasts S64x32
  slices_S4096x64x2x32_S4096x64x1x32_0_0_0_0 : S4096x64x2x32.Slices ![0, 0, 0, 0] S4096x64x1x32
  shapeCasts_S4096x64x1x32_S4096x64x32 : S4096x64x1x32.ShapeCasts S4096x64x32
  slices_S4096x64x2x32_S4096x64x1x32_0_0_1_0 : S4096x64x2x32.Slices ![0, 0, 1, 0] S4096x64x1x32
  bcast_S64x32_S1x64x32_1_2 : S64x32.BroadcastsInDim S1x64x32 (![1, 2] : Fin 2 → Fin S1x64x32.rank)
  bcast_S1x64x32_S4096x64x32_0_1_2 : S1x64x32.BroadcastsInDim S4096x64x32 (![0, 1, 2] : Fin 3 → Fin S4096x64x32.rank)
  bcast_S4096x64x32_S4096x64x1x32_0_1_3 : S4096x64x32.BroadcastsInDim S4096x64x1x32 (![0, 1, 3] : Fin 3 → Fin S4096x64x1x32.rank)
  concatenates_S4096x64x1x32_S4096x64x1x32_S4096x64x2x32_d2 : Shape.Concatenates [S4096x64x1x32, S4096x64x1x32] S4096x64x2x32 2
  shapeCasts_S4096x64x2x32_S4096x4096 : S4096x64x2x32.ShapeCasts S4096x4096
  shapeCasts_S4096x4096_S4096x32x2x64 : S4096x4096.ShapeCasts S4096x32x2x64
  slices_S12x2048_S1x2048_6_0 : S12x2048.Slices ![6, 0] S1x2048
  shapeCasts_S2048_S32x64 : S2048.ShapeCasts S32x64
  slices_S4096x32x2x64_S4096x32x1x64_0_0_0_0 : S4096x32x2x64.Slices ![0, 0, 0, 0] S4096x32x1x64
  shapeCasts_S4096x32x1x64_S4096x32x64 : S4096x32x1x64.ShapeCasts S4096x32x64
  slices_S4096x32x2x64_S4096x32x1x64_0_0_1_0 : S4096x32x2x64.Slices ![0, 0, 1, 0] S4096x32x1x64
  bcast_S32x64_S1x32x64_1_2 : S32x64.BroadcastsInDim S1x32x64 (![1, 2] : Fin 2 → Fin S1x32x64.rank)
  bcast_S1x32x64_S4096x32x64_0_1_2 : S1x32x64.BroadcastsInDim S4096x32x64 (![0, 1, 2] : Fin 3 → Fin S4096x32x64.rank)
  bcast_S4096x32x64_S4096x32x1x64_0_1_3 : S4096x32x64.BroadcastsInDim S4096x32x1x64 (![0, 1, 3] : Fin 3 → Fin S4096x32x1x64.rank)
  concatenates_S4096x32x1x64_S4096x32x1x64_S4096x32x2x64_d2 : Shape.Concatenates [S4096x32x1x64, S4096x32x1x64] S4096x32x2x64 2
  shapeCasts_S4096x32x2x64_S4096x4096 : S4096x32x2x64.ShapeCasts S4096x4096
  shapeCasts_S4096x4096_S4096x16x2x128 : S4096x4096.ShapeCasts S4096x16x2x128
  slices_S12x2048_S1x2048_7_0 : S12x2048.Slices ![7, 0] S1x2048
  shapeCasts_S2048_S16x128 : S2048.ShapeCasts S16x128
  slices_S4096x16x2x128_S4096x16x1x128_0_0_0_0 : S4096x16x2x128.Slices ![0, 0, 0, 0] S4096x16x1x128
  shapeCasts_S4096x16x1x128_S4096x16x128 : S4096x16x1x128.ShapeCasts S4096x16x128
  slices_S4096x16x2x128_S4096x16x1x128_0_0_1_0 : S4096x16x2x128.Slices ![0, 0, 1, 0] S4096x16x1x128
  bcast_S16x128_S1x16x128_1_2 : S16x128.BroadcastsInDim S1x16x128 (![1, 2] : Fin 2 → Fin S1x16x128.rank)
  bcast_S1x16x128_S4096x16x128_0_1_2 : S1x16x128.BroadcastsInDim S4096x16x128 (![0, 1, 2] : Fin 3 → Fin S4096x16x128.rank)
  bcast_S4096x16x128_S4096x16x1x128_0_1_3 : S4096x16x128.BroadcastsInDim S4096x16x1x128 (![0, 1, 3] : Fin 3 → Fin S4096x16x1x128.rank)
  concatenates_S4096x16x1x128_S4096x16x1x128_S4096x16x2x128_d2 : Shape.Concatenates [S4096x16x1x128, S4096x16x1x128] S4096x16x2x128 2
  shapeCasts_S4096x16x2x128_S4096x4096 : S4096x16x2x128.ShapeCasts S4096x4096
  shapeCasts_S4096x4096_S4096x8x2x256 : S4096x4096.ShapeCasts S4096x8x2x256
  slices_S12x2048_S1x2048_8_0 : S12x2048.Slices ![8, 0] S1x2048
  shapeCasts_S2048_S8x256 : S2048.ShapeCasts S8x256
  slices_S4096x8x2x256_S4096x8x1x256_0_0_0_0 : S4096x8x2x256.Slices ![0, 0, 0, 0] S4096x8x1x256
  shapeCasts_S4096x8x1x256_S4096x8x256 : S4096x8x1x256.ShapeCasts S4096x8x256
  slices_S4096x8x2x256_S4096x8x1x256_0_0_1_0 : S4096x8x2x256.Slices ![0, 0, 1, 0] S4096x8x1x256
  bcast_S8x256_S1x8x256_1_2 : S8x256.BroadcastsInDim S1x8x256 (![1, 2] : Fin 2 → Fin S1x8x256.rank)
  bcast_S1x8x256_S4096x8x256_0_1_2 : S1x8x256.BroadcastsInDim S4096x8x256 (![0, 1, 2] : Fin 3 → Fin S4096x8x256.rank)
  bcast_S4096x8x256_S4096x8x1x256_0_1_3 : S4096x8x256.BroadcastsInDim S4096x8x1x256 (![0, 1, 3] : Fin 3 → Fin S4096x8x1x256.rank)
  concatenates_S4096x8x1x256_S4096x8x1x256_S4096x8x2x256_d2 : Shape.Concatenates [S4096x8x1x256, S4096x8x1x256] S4096x8x2x256 2
  shapeCasts_S4096x8x2x256_S4096x4096 : S4096x8x2x256.ShapeCasts S4096x4096
  shapeCasts_S4096x4096_S4096x4x2x512 : S4096x4096.ShapeCasts S4096x4x2x512
  slices_S12x2048_S1x2048_9_0 : S12x2048.Slices ![9, 0] S1x2048
  shapeCasts_S2048_S4x512 : S2048.ShapeCasts S4x512
  slices_S4096x4x2x512_S4096x4x1x512_0_0_0_0 : S4096x4x2x512.Slices ![0, 0, 0, 0] S4096x4x1x512
  shapeCasts_S4096x4x1x512_S4096x4x512 : S4096x4x1x512.ShapeCasts S4096x4x512
  slices_S4096x4x2x512_S4096x4x1x512_0_0_1_0 : S4096x4x2x512.Slices ![0, 0, 1, 0] S4096x4x1x512
  bcast_S4x512_S1x4x512_1_2 : S4x512.BroadcastsInDim S1x4x512 (![1, 2] : Fin 2 → Fin S1x4x512.rank)
  bcast_S1x4x512_S4096x4x512_0_1_2 : S1x4x512.BroadcastsInDim S4096x4x512 (![0, 1, 2] : Fin 3 → Fin S4096x4x512.rank)
  bcast_S4096x4x512_S4096x4x1x512_0_1_3 : S4096x4x512.BroadcastsInDim S4096x4x1x512 (![0, 1, 3] : Fin 3 → Fin S4096x4x1x512.rank)
  concatenates_S4096x4x1x512_S4096x4x1x512_S4096x4x2x512_d2 : Shape.Concatenates [S4096x4x1x512, S4096x4x1x512] S4096x4x2x512 2
  shapeCasts_S4096x4x2x512_S4096x4096 : S4096x4x2x512.ShapeCasts S4096x4096
  shapeCasts_S4096x4096_S4096x2x2x1024 : S4096x4096.ShapeCasts S4096x2x2x1024
  slices_S12x2048_S1x2048_10_0 : S12x2048.Slices ![10, 0] S1x2048
  shapeCasts_S2048_S2x1024 : S2048.ShapeCasts S2x1024
  slices_S4096x2x2x1024_S4096x2x1x1024_0_0_0_0 : S4096x2x2x1024.Slices ![0, 0, 0, 0] S4096x2x1x1024
  shapeCasts_S4096x2x1x1024_S4096x2x1024 : S4096x2x1x1024.ShapeCasts S4096x2x1024
  slices_S4096x2x2x1024_S4096x2x1x1024_0_0_1_0 : S4096x2x2x1024.Slices ![0, 0, 1, 0] S4096x2x1x1024
  bcast_S2x1024_S1x2x1024_1_2 : S2x1024.BroadcastsInDim S1x2x1024 (![1, 2] : Fin 2 → Fin S1x2x1024.rank)
  bcast_S1x2x1024_S4096x2x1024_0_1_2 : S1x2x1024.BroadcastsInDim S4096x2x1024 (![0, 1, 2] : Fin 3 → Fin S4096x2x1024.rank)
  bcast_S4096x2x1024_S4096x2x1x1024_0_1_3 : S4096x2x1024.BroadcastsInDim S4096x2x1x1024 (![0, 1, 3] : Fin 3 → Fin S4096x2x1x1024.rank)
  concatenates_S4096x2x1x1024_S4096x2x1x1024_S4096x2x2x1024_d2 : Shape.Concatenates [S4096x2x1x1024, S4096x2x1x1024] S4096x2x2x1024 2
  shapeCasts_S4096x2x2x1024_S4096x4096 : S4096x2x2x1024.ShapeCasts S4096x4096
  shapeCasts_S4096x4096_S4096x1x2x2048 : S4096x4096.ShapeCasts S4096x1x2x2048
  slices_S12x2048_S1x2048_11_0 : S12x2048.Slices ![11, 0] S1x2048
  shapeCasts_S2048_S1x2048 : S2048.ShapeCasts S1x2048
  slices_S4096x1x2x2048_S4096x1x1x2048_0_0_0_0 : S4096x1x2x2048.Slices ![0, 0, 0, 0] S4096x1x1x2048
  shapeCasts_S4096x1x1x2048_S4096x1x2048 : S4096x1x1x2048.ShapeCasts S4096x1x2048
  slices_S4096x1x2x2048_S4096x1x1x2048_0_0_1_0 : S4096x1x2x2048.Slices ![0, 0, 1, 0] S4096x1x1x2048
  bcast_S1x2048_S1x1x2048_1_2 : S1x2048.BroadcastsInDim S1x1x2048 (![1, 2] : Fin 2 → Fin S1x1x2048.rank)
  bcast_S1x1x2048_S4096x1x2048_0_1_2 : S1x1x2048.BroadcastsInDim S4096x1x2048 (![0, 1, 2] : Fin 3 → Fin S4096x1x2048.rank)
  bcast_S4096x1x2048_S4096x1x1x2048_0_1_3 : S4096x1x2048.BroadcastsInDim S4096x1x1x2048 (![0, 1, 3] : Fin 3 → Fin S4096x1x1x2048.rank)
  concatenates_S4096x1x1x2048_S4096x1x1x2048_S4096x1x2x2048_d2 : Shape.Concatenates [S4096x1x1x2048, S4096x1x1x2048] S4096x1x2x2048 2
  shapeCasts_S4096x1x2x2048_S4096x4096 : S4096x1x2x2048.ShapeCasts S4096x4096

variable [Facts₀]

class Facts : Prop extends Facts₀ where

variable [Facts]
-- ==== Proof.Butterfly.lean ====
/-
  The mathematics both programs compute, stated once over functions on the natural numbers.

  A row of 4096 numbers goes through twelve butterfly stages.  Stage k works at distance d = 2^k: position i is
  the LOWER member of its pair when bit k of i is clear (i / d even) and the UPPER member otherwise; the pair's
  number is (i / 2d)·d + i mod d; with c, s the cosine and sine of that pair's angle, the lower member becomes
  c·v(i) − s·v(i+d) and the upper member s·v(i−d) + c·v(i): a plane rotation of every pair.

  The stages at distance ≤ 64 never leave a block of 128 consecutive positions, and a rotation is linear, so
  their composition on block number c is a 128 × 128 matrix: row i' of it is what the seven stages make of the
  unit vector at i' (with block c's own angles).  `chunkMat` is that matrix and `mixed` the row after the matrix
  has been applied block by block.  The remaining five stages then act on `mixed`.
-/
import Idealize.ShloMosaic.PureOps.Ideal
import Idealize.ShloMosaic.Lib.ValueIdx

noncomputable section

namespace Cert.Butterfly

open Idealize.ShloMosaic Idealize.ShloMosaic.ValueIdx

/-- The number of the pair that position `i` belongs to at distance `d`. -/
def pairIdx (d i : ℕ) : ℕ := i / (2 * d) * d + i % d

/-- One butterfly stage at distance `d`: every pair (i, i+d) is rotated by its angle, whose cosine and sine are
    `c`, `s` at the pair's number. -/
def stage (d : ℕ) (c s v : ℕ → EReal) (i : ℕ) : EReal :=
  if i / d % 2 = 0 then c (pairIdx d i) * v i - s (pairIdx d i) * v (i + d)
  else s (pairIdx d i) * v (i - d) + c (pairIdx d i) * v i

/-- Stages `a, a+1, …, a+n−1`, in that order; stage `k` works at distance `2^k` with the tables `C k`, `S k`. -/
def stages (C S : ℕ → ℕ → EReal) (a : ℕ) : ℕ → (ℕ → EReal) → ℕ → EReal
  | 0, v => v
  | n + 1, v => stage (2 ^ (a + n)) (C (a + n)) (S (a + n)) (stages C S a n v)

theorem stages_zero (C S : ℕ → ℕ → EReal) (a : ℕ) (v : ℕ → EReal) : stages C S a 0 v = v := rfl

theorem stages_succ (C S : ℕ → ℕ → EReal) (a n : ℕ) (v : ℕ → EReal) :
    stages C S a (n + 1) v = stage (2 ^ (a + n)) (C (a + n)) (S (a + n)) (stages C S a n v) := rfl

/-- The unit vector at `i`. -/
def unitVec (i j : ℕ) : EReal := if i = j then 1 else 0

/-- Block `c`'s share of a table: its 64 pairs are the pairs `64c … 64c+63` of the whole row. -/
def blockTab (T : ℕ → ℕ → EReal) (c : ℕ) (k p : ℕ) : EReal := T k (64 * c + p)

/-- The matrix of the first seven stages on block `c`: entry (i, j) is position `j` of what the seven stages,
    with block `c`'s angles, make of the unit vector at `i`. -/
def chunkMat (C S : ℕ → ℕ → EReal) (c i j : ℕ) : EReal :=
  stages (blockTab C c) (blockTab S c) 0 7 (unitVec i) j

/-- The row after every block of 128 positions has been multiplied by its matrix. -/
def mixed (C S : ℕ → ℕ → EReal) (v : ℕ → EReal) (i : ℕ) : EReal :=
  ∑ i' ∈ Finset.range 128, v (128 * (i / 128) + i') * chunkMat C S (i / 128) i' (i % 128)

/-- Row `b` of a 4096 × 4096 array as a function on the naturals (zero past the end). -/
def row (x : (⟨2, ![4096, 4096]⟩ : Shape).Idx → EReal) (b : Fin 4096) (i : ℕ) : EReal :=
  if h : i < 4096 then x (ix2 b ⟨i, h⟩) else 0

/-- The table of `f` (cosine or sine) of the angles: stage `k`, pair `p` (zero outside the 12 × 2048 array). -/
def tab (f : EReal → EReal) (θ : (⟨2, ![12, 2048]⟩ : Shape).Idx → EReal) (k p : ℕ) : EReal :=
  if h : k < 12 ∧ p < 2048 then f (θ (ix2 ⟨k, h.1⟩ ⟨p, h.2⟩)) else 0

/-- What the reference computes at row `b`, position `i`: all twelve stages. -/
def refOut (x : (⟨2, ![4096, 4096]⟩ : Shape).Idx → EReal) (θ : (⟨2, ![12, 2048]⟩ : Shape).Idx → EReal)
    (b : Fin 4096) (i : ℕ) : EReal :=
  stages (tab Ideal.cos θ) (tab Ideal.sin θ) 0 12 (row x b) i

/-- What the kernel computes at row `b`, position `i`: the block matrices, then stages 7 … 11. -/
def kerOut (x : (⟨2, ![4096, 4096]⟩ : Shape).Idx → EReal) (θ : (⟨2, ![12, 2048]⟩ : Shape).Idx → EReal)
    (b : Fin 4096) (i : ℕ) : EReal :=
  stages (tab Ideal.cos θ) (tab Ideal.sin θ) 7 5 (mixed (tab Ideal.cos θ) (tab Ideal.sin θ) (row x b)) i

end Cert.Butterfly

end
-- ==== Proof.ButterflyBlock.lean ====
/-
  A butterfly stage whose distance is a whole number of blocks, read block by block.

  Positions are written 128·cb + q with q < 128 (block number cb, place q inside the block).  When the distance
  is 128·e, the quotient by the distance only sees the block number: (128·cb + q) / (128·e) = cb / e, the pair's
  number is 128·(cb / 2e · e + cb mod e) + q, and the partner sits at the same place q of block cb ± e.
-/
import proofs.«122426_j35845797052976_2_alg».proof.Proof.Butterfly

noncomputable section

namespace Cert.Butterfly

/-- The quotient of position 128·cb + q by the distance 128·e is the quotient of the block numbers. -/
theorem div_block (e cb q : ℕ) (hq : q < 128) : (128 * cb + q) / (128 * e) = cb / e := by
  have hdiv : (128 * cb + q) / 128 = cb := by omega
  rw [← Nat.div_div_eq_div_mul, hdiv]

/-- The pair's number at distance 128·e, read block-wise. -/
theorem pairIdx_block (e cb q : ℕ) (hq : q < 128) :
    pairIdx (128 * e) (128 * cb + q) = 128 * (cb / (2 * e) * e + cb % e) + q := by
  have hdiv : (128 * cb + q) / 128 = cb := by omega
  have hmod : (128 * cb + q) % 128 = q := by omega
  have h2 : (128 * cb + q) / (2 * (128 * e)) = cb / (2 * e) := by
    rw [show 2 * (128 * e) = 128 * (2 * e) by ring, ← Nat.div_div_eq_div_mul, hdiv]
  have h3 : (128 * cb + q) % (128 * e) = q + 128 * (cb % e) := by
    rw [Nat.mod_mul, hdiv, hmod]
  unfold pairIdx
  rw [h2, h3]; ring

/-- A stage at distance 128·e acts on the blocks: block cb is paired with block cb ± e, place by place. -/
theorem stage_block (e : ℕ) (he : 0 < e) (c s v : ℕ → EReal) (cb q : ℕ) (hq : q < 128) :
    stage (128 * e) c s v (128 * cb + q) =
      if cb / e % 2 = 0 then c (128 * (cb / (2 * e) * e + cb % e) + q) * v (128 * cb + q) - s (128 * (cb / (2 * e) * e + cb % e) + q) * v (128 * (cb + e) + q)
      else s (128 * (cb / (2 * e) * e + cb % e) + q) * v (128 * (cb - e) + q) + c (128 * (cb / (2 * e) * e + cb % e) + q) * v (128 * cb + q) := by
  unfold stage
  rw [div_block e cb q hq, pairIdx_block e cb q hq]
  by_cases h : cb / e % 2 = 0
  · rw [if_pos h, if_pos h, show 128 * cb + q + 128 * e = 128 * (cb + e) + q by ring]
  · have hle : e ≤ cb := by
      rcases Nat.lt_or_ge cb e with hlt | hge
      · rw [Nat.div_eq_of_lt hlt] at h; exact absurd rfl h
      · exact hge
    rw [if_neg h, if_neg h, show 128 * cb + q - 128 * e = 128 * (cb - e) + q by omega]

/-- The block-matrix row at position 128·cb + q only involves block cb. -/
theorem mixed_block (C S : ℕ → ℕ → EReal) (v : ℕ → EReal) (cb q : ℕ) (hq : q < 128) :
    mixed C S v (128 * cb + q) = ∑ i' ∈ Finset.range 128, v (128 * cb + i') * chunkMat C S cb i' q := by
  have hdiv : (128 * cb + q) / 128 = cb := by omega
  have hmod : (128 * cb + q) % 128 = q := by omega
  unfold mixed
  rw [hdiv, hmod]

end Cert.Butterfly

end
-- ==== Proof.HiBlocks.lean ====
/-
  Stages 7 … 11 read block by block.

  From stage 7 on the distance is a multiple 128·e of the block length (e = 1, 2, 4, 8, 16), so a stage pairs whole
  blocks: block cb is the lower member of its pair when cb / e is even and the upper member otherwise, its partner is
  block cb ± e, and lane q of one block meets lane q of the other.  The pair's angles sit in row
  (cb / 2e)·e + cb mod e of that stage's table, one angle per lane.
-/
import proofs.«122426_j35845797052976_2_alg».proof.Proof.Butterfly
import proofs.«122426_j35845797052976_2_alg».proof.Proof.ButterflyBlock

noncomputable section

namespace Cert.Butterfly

/-- One stage on blocks: `Y cb q` is lane `q` of block `cb`, `tc r q` / `ts r q` the cosine and sine in row `r`, lane
    `q` of the stage's table, `e` the distance counted in blocks. -/
def hiStep (e : ℕ) (tc ts : ℕ → ℕ → EReal) (Y : ℕ → ℕ → EReal) (cb q : ℕ) : EReal :=
  if cb / e % 2 = 0 then tc (cb / (2 * e) * e + cb % e) q * Y cb q - ts (cb / (2 * e) * e + cb % e) q * Y (cb + e) q
  else ts (cb / (2 * e) * e + cb % e) q * Y (cb - e) q + tc (cb / (2 * e) * e + cb % e) q * Y cb q

/-- The first `n` block stages, distances 1, 2, 4, … blocks. -/
def hiSteps (Tc Ts : ℕ → ℕ → ℕ → EReal) : ℕ → (ℕ → ℕ → EReal) → ℕ → ℕ → EReal
  | 0, Y => Y
  | n + 1, Y => hiStep (2 ^ n) (Tc n) (Ts n) (hiSteps Tc Ts n Y)

theorem hiSteps_zero (Tc Ts : ℕ → ℕ → ℕ → EReal) (Y : ℕ → ℕ → EReal) : hiSteps Tc Ts 0 Y = Y := rfl

theorem hiSteps_succ (Tc Ts : ℕ → ℕ → ℕ → EReal) (n : ℕ) (Y : ℕ → ℕ → EReal) :
    hiSteps Tc Ts (n + 1) Y = hiStep (2 ^ n) (Tc n) (Ts n) (hiSteps Tc Ts n Y) := rfl

/-- Stages 7, 8, … of a row, read at lane `q` of block `cb`, are the block stages of the row cut into blocks, with the
    tables cut into rows of 128 lanes. -/
theorem stages_hi (C S : ℕ → ℕ → EReal) (v : ℕ → EReal) (n : ℕ) :
    ∀ (cb q : ℕ), q < 128 →
      stages C S 7 n v (128 * cb + q)
        = hiSteps (fun k r l => C (7 + k) (128 * r + l)) (fun k r l => S (7 + k) (128 * r + l)) n
            (fun b l => v (128 * b + l)) cb q := by
  induction n with
  | zero => intro cb q _; rfl
  | succ n ih =>
    intro cb q hq
    rw [stages_succ, hiSteps_succ, show (2 : ℕ) ^ (7 + n) = 128 * 2 ^ n by rw [pow_add]; norm_num,
      stage_block (2 ^ n) (Nat.pos_of_ne_zero (by positivity)) _ _ _ cb q hq]
    unfold hiStep
    rw [ih cb q hq, ih (cb + 2 ^ n) q hq, ih (cb - 2 ^ n) q hq]

end Cert.Butterfly

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.KernelBlock.lean ====
/-
  What one grid step of the kernel leaves in its output block, entry by entry.

  The step holds 256 rows.  For each row it multiplies every block of 128 consecutive entries by that block's
  128 × 128 matrix (a product into the zero accumulator, the operands' change of float format being the identity on
  the extended reals), which gives 32 blocks `Y cb`; then it runs the five block stages on them, reading the cosine
  and sine of each pair of blocks from one row of the stage's [16, 128] table, one angle per lane.
-/
import proofs.«122426_j35845797052976_2_alg».proof.Proof.Gen.KernelIdeal.Frame
import proofs.«122426_j35845797052976_2_alg».proof.Proof.Butterfly
import proofs.«122426_j35845797052976_2_alg».proof.Proof.HiBlocks
import proofs.«122426_j35845797052976_2_alg».proof.Proof.LibMatmul2
import Idealize.ShloMosaic.Lib.ValueLayout

set_option maxRecDepth 16384

noncomputable section

namespace Cert.KernelIdeal.Body

open Cert.KernelIdeal Cert.KernelIdeal.Gen Idealize.ShloMosaic Idealize.ShloMosaic.ValueIdx Cert.Butterfly

/-- Entry (stage `n`, row `r`, lane `l`) of a [5, 16, 128] table (zero outside it). -/
def T (X : Vec Ideal S5x16x128 .f32) (n r l : ℕ) : EReal :=
  if h : n < 5 ∧ r < 16 ∧ l < 128 then X (ix3 ⟨n, h.1⟩ ⟨r, h.2.1⟩ ⟨l, h.2.2⟩) else 0

/-- Lane `l` of row `p`'s 128 entries from column `o` on, times matrix number `cb`: the sum over k of
    x(p, o + k) · m(cb, k, l) (zero where the indices leave the arrays). -/
def Yraw (x0 : Vec Ideal S256x4096 .f32) (x1 : Vec Ideal S32x128x128 .bf16) (p : Fin 256) (o cb l : ℕ) : EReal :=
  if h : o + 128 ≤ 4096 ∧ cb < 32 ∧ l < 128 then
    ∑ k : Fin 128, x0 (ix2 p ⟨o + k.val, by have := k.isLt; omega⟩) * x1 (ix3 ⟨cb, h.2.1⟩ k ⟨l, h.2.2⟩)
  else 0

/-- Block `cb` of row `p` after its matrix. -/
def Y (x0 : Vec Ideal S256x4096 .f32) (x1 : Vec Ideal S32x128x128 .bf16) (p : Fin 256) (cb l : ℕ) : EReal :=
  Yraw x0 x1 p (128 * cb) cb l

/-- A load through a unit-stride rectangle reads the array at the offset plus the local index. -/
theorem ld_unit_apply {S : Shape} {α : EltTy → Type} {e : EltTy} (X : S.Idx → α e) (off size : Fin S.rank → ℕ)
    (inb : ∀ a, off a + size a ≤ S.size a) (y : (Rect.unit off size inb).shape.Idx) (k : S.Idx)
    (hk : ∀ a, (k a).val = off a + (y a).val) : View.ld X (Rect.unit off size inb) y = X k := by
  show X ((Rect.unit off size inb).emb y) = X k
  refine congrArg X (funext fun a => Fin.ext ?_)
  rw [Rect.emb_apply, hk a]
  show off a + 1 * (y a).val = _
  omega

/-- One lane of one table row as the body spells it: the stage's [1, 16, 128] slab loaded, its unit axis dropped,
    row `r` sliced out, cast to a vector and back to a row, and repeated down the 256 rows. -/
theorem tab_lane (X : Vec Ideal S5x16x128 .f32) (n r : ℕ)
    (inb : ∀ a, (![n, 0, 0] : Fin 3 → ℕ) a + S1x16x128.size a ≤ S5x16x128.size a)
    (h1 : S1x16x128.ShapeCasts S16x128) (h2 : S16x128.Slices ![r, 0] S1x128) (h3 : S1x128.ShapeCasts S128)
    (h4 : S128.ShapeCasts S1x128) (h5 : S1x128.Broadcasts S256x128) (p : Fin 256) (q : Fin 128) :
    broadcastTo S256x128 (shapeCast S1x128 (shapeCast S128 (extractStridedSlice S1x128 ![r, 0]
        (shapeCast S16x128 (View.ld X (Rect.unit (s := S5x16x128) ![n, 0, 0] S1x16x128.size inb) : Vec Ideal S1x16x128 .f32) h1) h2) h3) h4) h5 (ix2 p q)
      = T X n r q.val := by
  have hn : n < 5 := by have := inb 0; simp at this; omega
  have hr : r < 16 := by have := h2.2 0; simp at this; omega
  rw [broadcastTo_1b_ab_apply, shapeCast_shapeCast, slice2_axis0_eq, shapeCast_1ab_ab_apply]
  rw [ld_unit_apply X _ _ inb _ (ix3 ⟨n, hn⟩ ⟨r, hr⟩ q) (fun a => by
    match a with
    | ⟨0, _⟩ => simp
    | ⟨1, _⟩ => simp
    | ⟨2, _⟩ => simp)]
  unfold T
  rw [dif_pos ⟨hn, hr, q.isLt⟩]

/-- One block's product as the body spells it: the row block loaded from column `o`, the matrices loaded whole,
    matrix `cb` sliced out and its unit axis dropped, a plain product into the zero accumulator. -/
theorem mm_lane (x0 : Vec Ideal S256x4096 .f32) (x1 : Vec Ideal S32x128x128 .bf16) (o cb : ℕ)
    (inb0 : ∀ a, (![0, o] : Fin 2 → ℕ) a + S256x128.size a ≤ S256x4096.size a)
    (inb1 : ∀ a, (![0, 0, 0] : Fin 3 → ℕ) a + S32x128x128.size a ≤ S32x128x128.size a)
    (hb : FTy.bf16.bits < FTy.f32.bits) (h1 : S32x128x128.ShapeCasts S32x128x128)
    (h2 : S32x128x128.Slices ![cb, 0, 0] S1x128x128) (h3 : S1x128x128.ShapeCasts S128x128)
    (p : Fin 256) (q : Fin 128) :
    matmul (F := Ideal) dot_S256x128_S128x128_S256x128_1_0_0_1_n_n none
        (truncf .bf16 (View.ld x0 (Rect.unit (s := S256x4096) ![0, o] S256x128.size inb0)) hb : FVec Ideal S256x128 .bf16)
        (shapeCast S128x128 (extractStridedSlice S1x128x128 ![cb, 0, 0]
          (shapeCast S32x128x128 (View.ld x1 (Rect.unit (s := S32x128x128) ![0, 0, 0] S32x128x128.size inb1)) h1) h2) h3 : FVec Ideal S128x128 .bf16)
        (constant (F := Ideal) S256x128 .f32 0x00000000#32) (ix2 p q)
      = Yraw x0 x1 p o cb q.val := by
  have ho : o + 128 ≤ 4096 := by have := inb0 1; simp at this; omega
  have hc : cb < 32 := by have := h2.2 0; simp at this; omega
  rw [show dot_S256x128_S128x128_S256x128_1_0_0_1_n_n = Cert.Lib.plain2 dot_S256x128_S128x128_S256x128_1_0_0_1_n_n_wf from rfl,
    Cert.Lib.matmul2_zero_apply]
  unfold Yraw
  rw [dif_pos ⟨ho, hc, q.isLt⟩]
  refine Finset.sum_congr rfl fun k _ => ?_
  congr 1
  · exact ld_unit_apply x0 (![0, o]) S256x128.size inb0 (ix2 p k) _ (fun a => by
      match a with
      | ⟨0, _⟩ => simp
      | ⟨1, _⟩ => simp)
  · rw [shapeCast_1ab_ab_apply]
    rw [extractStridedSlice_apply _ _ h2 _ (ix3 ⟨cb, hc⟩ k q) (fun a => by
      match a with
      | ⟨0, _⟩ => simp
      | ⟨1, _⟩ => simp
      | ⟨2, _⟩ => simp)]
    have hz : (![0, 0, 0] : Fin 3 → ℕ) = fun _ => 0 := by
      funext a
      match a with
      | ⟨0, _⟩ => rfl
      | ⟨1, _⟩ => rfl
      | ⟨2, _⟩ => rfl
    rw [View.ld_unit_zero (S := S32x128x128) hz]
    exact congrFun (shapeCast_self x1 h1) _

end Cert.KernelIdeal.Body

end
-- ==== Proof.KernelPiecesA.lean ====
/-
  Blocks 0 … 15 of what one grid step stores: each stored block, read at row p and lane q, is the five block stages
  applied to the row's 32 products — the same rewriting for every block: unfold the body's operations, read the
  entrywise operations, the table lanes and the products at (p, q), and evaluate which member of its pair the block is at
  each of the five distances.
-/
import proofs.«122426_j35845797052976_2_alg».proof.Proof.KernelBlock

set_option maxRecDepth 16384

noncomputable section

namespace Cert.KernelIdeal.Body

open Cert.KernelIdeal Cert.KernelIdeal.Gen Idealize.ShloMosaic Idealize.ShloMosaic.ValueIdx Cert.Butterfly

theorem piece0 (x0 : Vec Ideal S256x4096 .f32) (x1 : Vec Ideal S32x128x128 .bf16) (x2 x3 : Vec Ideal S5x16x128 .f32)
    (p : Fin 256) (q : Fin 128) :
    (k0_pay325 (k0_pay254 (k0_pay252 (k0_pay183 (k0_pay112 (k0_pay42 (k0_pay2 (View.ld x1 r0_0) (View.ld x0 r0_1)) (k0_pay3 (View.ld x1 r0_0) (View.ld x0 r0_2)) (View.ld x2 r0_33) (View.ld x3 r0_33)) (k0_pay46 (k0_pay4 (View.ld x1 r0_0) (View.ld x0 r0_3)) (k0_pay5 (View.ld x1 r0_0) (View.ld x0 r0_4)) (View.ld x2 r0_33) (View.ld x3 r0_33)) (k0_pay108 (View.ld x3 r0_34)) (k0_pay109 (View.ld x2 r0_34))) (k0_pay120 (k0_pay51 (k0_pay6 (View.ld x1 r0_0) (View.ld x0 r0_5)) (k0_pay7 (View.ld x1 r0_0) (View.ld x0 r0_6)) (k0_pay38 (View.ld x2 r0_33)) (k0_pay39 (View.ld x3 r0_33))) (k0_pay55 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (View.ld x2 r0_35) (View.ld x3 r0_35)) (View.ld x2 r0_36)) (k0_pay253 (k0_pay200 (k0_pay130 (k0_pay59 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay64 (k0_pay15 (k0_pay1 (View.ld x1 r0_0)) (View.ld x0 r0_12)) (k0_pay62 (k0_pay39 (View.ld x3 r0_33))) (k0_pay63 (k0_pay14 (k0_pay1 (View.ld x1 r0_0)) (View.ld x0 r0_11)) (k0_pay38 (View.ld x2 r0_33)))) (k0_pay107 (View.ld x2 r0_34)) (k0_pay108 (View.ld x3 r0_34))) (k0_pay138 (k0_pay68 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay72 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (View.ld x3 r0_36))) (k0_pay287 (k0_pay216 (k0_pay148 (k0_pay76 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay81 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay156 (k0_pay85 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay89 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay233 (k0_pay164 (k0_pay93 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay97 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay172 (k0_pay101 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay105 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay249 (View.ld x3 r0_36)) (k0_pay284 (k0_pay248 (View.ld x2 r0_36)))) (View.ld x2 r0_37) (View.ld x3 r0_37)) (ix2 p q)
      = hiSteps (T x2) (T x3) 5 (Y x0 x1 p) 0 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece1 (x0 : Vec Ideal S256x4096 .f32) (x1 : Vec Ideal S32x128x128 .bf16) (x2 x3 : Vec Ideal S5x16x128 .f32)
    (p : Fin 256) (q : Fin 128) :
    (k0_pay329 (k0_pay258 (k0_pay187 (k0_pay116 (k0_pay43 (k0_pay2 (View.ld x1 r0_0) (View.ld x0 r0_1)) (k0_pay3 (View.ld x1 r0_0) (View.ld x0 r0_2)) (View.ld x2 r0_33) (View.ld x3 r0_33)) (k0_pay48 (k0_pay4 (View.ld x1 r0_0) (View.ld x0 r0_3)) (k0_pay5 (View.ld x1 r0_0) (View.ld x0 r0_4)) (k0_pay44 (View.ld x2 r0_33)) (k0_pay47 (View.ld x3 r0_33))) (k0_pay107 (View.ld x2 r0_34)) (k0_pay108 (View.ld x3 r0_34))) (k0_pay124 (k0_pay52 (k0_pay6 (View.ld x1 r0_0) (View.ld x0 r0_5)) (k0_pay7 (View.ld x1 r0_0) (View.ld x0 r0_6)) (k0_pay38 (View.ld x2 r0_33)) (k0_pay39 (View.ld x3 r0_33))) (k0_pay56 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (View.ld x2 r0_35) (View.ld x3 r0_35)) (k0_pay204 (k0_pay134 (k0_pay60 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay65 (k0_pay14 (k0_pay1 (View.ld x1 r0_0)) (View.ld x0 r0_11)) (k0_pay15 (k0_pay1 (View.ld x1 r0_0)) (View.ld x0 r0_12)) (k0_pay61 (k0_pay38 (View.ld x2 r0_33))) (k0_pay62 (k0_pay39 (View.ld x3 r0_33)))) (k0_pay107 (View.ld x2 r0_34)) (k0_pay108 (View.ld x3 r0_34))) (k0_pay144 (k0_pay142 (k0_pay69 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay107 (View.ld x2 r0_34))) (k0_pay143 (k0_pay73 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay108 (View.ld x3 r0_34)))) (k0_pay179 (View.ld x2 r0_35)) (k0_pay180 (View.ld x3 r0_35))) (k0_pay248 (View.ld x2 r0_36)) (k0_pay249 (View.ld x3 r0_36))) (k0_pay291 (k0_pay220 (k0_pay152 (k0_pay77 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay82 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay160 (k0_pay86 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay90 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay158 (k0_pay107 (View.ld x2 r0_34))) (k0_pay159 (k0_pay108 (View.ld x3 r0_34)))) (k0_pay179 (View.ld x2 r0_35)) (k0_pay180 (View.ld x3 r0_35))) (k0_pay238 (k0_pay177 (k0_pay102 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay106 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay108 (View.ld x3 r0_34)) (k0_pay174 (k0_pay107 (View.ld x2 r0_34)))) (k0_pay236 (k0_pay180 (View.ld x3 r0_35))) (k0_pay237 (k0_pay168 (k0_pay94 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay98 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay179 (View.ld x2 r0_35)))) (k0_pay248 (View.ld x2 r0_36)) (k0_pay249 (View.ld x3 r0_36))) (View.ld x2 r0_37) (View.ld x3 r0_37)) (ix2 p q)
      = hiSteps (T x2) (T x3) 5 (Y x0 x1 p) 1 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece2 (x0 : Vec Ideal S256x4096 .f32) (x1 : Vec Ideal S32x128x128 .bf16) (x2 x3 : Vec Ideal S5x16x128 .f32)
    (p : Fin 256) (q : Fin 128) :
    (k0_pay333 (k0_pay262 (k0_pay192 (k0_pay113 (k0_pay42 (k0_pay2 (View.ld x1 r0_0) (View.ld x0 r0_1)) (k0_pay3 (View.ld x1 r0_0) (View.ld x0 r0_2)) (View.ld x2 r0_33) (View.ld x3 r0_33)) (k0_pay46 (k0_pay4 (View.ld x1 r0_0) (View.ld x0 r0_3)) (k0_pay5 (View.ld x1 r0_0) (View.ld x0 r0_4)) (View.ld x2 r0_33) (View.ld x3 r0_33)) (k0_pay108 (View.ld x3 r0_34)) (k0_pay109 (View.ld x2 r0_34))) (k0_pay121 (k0_pay51 (k0_pay6 (View.ld x1 r0_0) (View.ld x0 r0_5)) (k0_pay7 (View.ld x1 r0_0) (View.ld x0 r0_6)) (k0_pay38 (View.ld x2 r0_33)) (k0_pay39 (View.ld x3 r0_33))) (k0_pay55 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (k0_pay189 (View.ld x2 r0_35)) (k0_pay190 (View.ld x3 r0_35))) (k0_pay208 (k0_pay131 (k0_pay59 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay64 (k0_pay15 (k0_pay1 (View.ld x1 r0_0)) (View.ld x0 r0_12)) (k0_pay62 (k0_pay39 (View.ld x3 r0_33))) (k0_pay63 (k0_pay14 (k0_pay1 (View.ld x1 r0_0)) (View.ld x0 r0_11)) (k0_pay38 (View.ld x2 r0_33)))) (k0_pay107 (View.ld x2 r0_34)) (k0_pay108 (View.ld x3 r0_34))) (k0_pay139 (k0_pay68 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay72 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay248 (View.ld x2 r0_36)) (k0_pay249 (View.ld x3 r0_36))) (k0_pay295 (k0_pay225 (k0_pay149 (k0_pay76 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay81 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay157 (k0_pay85 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay89 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay242 (k0_pay165 (k0_pay93 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay97 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay173 (k0_pay101 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay105 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay248 (View.ld x2 r0_36)) (k0_pay249 (View.ld x3 r0_36))) (View.ld x2 r0_37) (View.ld x3 r0_37)) (ix2 p q)
      = hiSteps (T x2) (T x3) 5 (Y x0 x1 p) 2 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece3 (x0 : Vec Ideal S256x4096 .f32) (x1 : Vec Ideal S32x128x128 .bf16) (x2 x3 : Vec Ideal S5x16x128 .f32)
    (p : Fin 256) (q : Fin 128) :
    (k0_pay338 (k0_pay266 (k0_pay196 (k0_pay117 (k0_pay43 (k0_pay2 (View.ld x1 r0_0) (View.ld x0 r0_1)) (k0_pay3 (View.ld x1 r0_0) (View.ld x0 r0_2)) (View.ld x2 r0_33) (View.ld x3 r0_33)) (k0_pay48 (k0_pay4 (View.ld x1 r0_0) (View.ld x0 r0_3)) (k0_pay5 (View.ld x1 r0_0) (View.ld x0 r0_4)) (k0_pay44 (View.ld x2 r0_33)) (k0_pay47 (View.ld x3 r0_33))) (k0_pay107 (View.ld x2 r0_34)) (k0_pay108 (View.ld x3 r0_34))) (k0_pay127 (k0_pay56 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay125 (k0_pay52 (k0_pay6 (View.ld x1 r0_0) (View.ld x0 r0_5)) (k0_pay7 (View.ld x1 r0_0) (View.ld x0 r0_6)) (k0_pay38 (View.ld x2 r0_33)) (k0_pay39 (View.ld x3 r0_33))) (k0_pay108 (View.ld x3 r0_34))) (k0_pay126 (k0_pay107 (View.ld x2 r0_34)))) (k0_pay179 (View.ld x2 r0_35)) (k0_pay180 (View.ld x3 r0_35))) (k0_pay212 (k0_pay135 (k0_pay60 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay65 (k0_pay14 (k0_pay1 (View.ld x1 r0_0)) (View.ld x0 r0_11)) (k0_pay15 (k0_pay1 (View.ld x1 r0_0)) (View.ld x0 r0_12)) (k0_pay61 (k0_pay38 (View.ld x2 r0_33))) (k0_pay62 (k0_pay39 (View.ld x3 r0_33)))) (k0_pay107 (View.ld x2 r0_34)) (k0_pay108 (View.ld x3 r0_34))) (k0_pay145 (k0_pay69 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay73 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay140 (k0_pay107 (View.ld x2 r0_34))) (k0_pay141 (k0_pay108 (View.ld x3 r0_34)))) (k0_pay179 (View.ld x2 r0_35)) (k0_pay180 (View.ld x3 r0_35))) (k0_pay248 (View.ld x2 r0_36)) (k0_pay249 (View.ld x3 r0_36))) (k0_pay299 (k0_pay229 (k0_pay153 (k0_pay77 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay82 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay161 (k0_pay86 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay90 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay158 (k0_pay107 (View.ld x2 r0_34))) (k0_pay159 (k0_pay108 (View.ld x3 r0_34)))) (k0_pay179 (View.ld x2 r0_35)) (k0_pay180 (View.ld x3 r0_35))) (k0_pay246 (k0_pay169 (k0_pay94 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay98 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay178 (k0_pay102 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay106 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay108 (View.ld x3 r0_34)) (k0_pay174 (k0_pay107 (View.ld x2 r0_34)))) (k0_pay179 (View.ld x2 r0_35)) (k0_pay180 (View.ld x3 r0_35))) (k0_pay248 (View.ld x2 r0_36)) (k0_pay249 (View.ld x3 r0_36))) (k0_pay321 (View.ld x2 r0_37)) (k0_pay322 (View.ld x3 r0_37))) (ix2 p q)
      = hiSteps (T x2) (T x3) 5 (Y x0 x1 p) 3 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece4 (x0 : Vec Ideal S256x4096 .f32) (x1 : Vec Ideal S32x128x128 .bf16) (x2 x3 : Vec Ideal S5x16x128 .f32)
    (p : Fin 256) (q : Fin 128) :
    (k0_pay342 (k0_pay270 (k0_pay184 (k0_pay112 (k0_pay42 (k0_pay2 (View.ld x1 r0_0) (View.ld x0 r0_1)) (k0_pay3 (View.ld x1 r0_0) (View.ld x0 r0_2)) (View.ld x2 r0_33) (View.ld x3 r0_33)) (k0_pay46 (k0_pay4 (View.ld x1 r0_0) (View.ld x0 r0_3)) (k0_pay5 (View.ld x1 r0_0) (View.ld x0 r0_4)) (View.ld x2 r0_33) (View.ld x3 r0_33)) (k0_pay108 (View.ld x3 r0_34)) (k0_pay109 (View.ld x2 r0_34))) (k0_pay120 (k0_pay51 (k0_pay6 (View.ld x1 r0_0) (View.ld x0 r0_5)) (k0_pay7 (View.ld x1 r0_0) (View.ld x0 r0_6)) (k0_pay38 (View.ld x2 r0_33)) (k0_pay39 (View.ld x3 r0_33))) (k0_pay55 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (View.ld x2 r0_35) (View.ld x3 r0_35)) (k0_pay201 (k0_pay130 (k0_pay59 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay64 (k0_pay15 (k0_pay1 (View.ld x1 r0_0)) (View.ld x0 r0_12)) (k0_pay62 (k0_pay39 (View.ld x3 r0_33))) (k0_pay63 (k0_pay14 (k0_pay1 (View.ld x1 r0_0)) (View.ld x0 r0_11)) (k0_pay38 (View.ld x2 r0_33)))) (k0_pay107 (View.ld x2 r0_34)) (k0_pay108 (View.ld x3 r0_34))) (k0_pay138 (k0_pay68 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay72 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay268 (k0_pay248 (View.ld x2 r0_36))) (k0_pay269 (k0_pay249 (View.ld x3 r0_36)))) (k0_pay305 (k0_pay217 (k0_pay148 (k0_pay76 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay81 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay156 (k0_pay85 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay89 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay234 (k0_pay164 (k0_pay93 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay97 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay172 (k0_pay101 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay105 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay248 (View.ld x2 r0_36)) (k0_pay249 (View.ld x3 r0_36))) (k0_pay321 (View.ld x2 r0_37)) (k0_pay322 (View.ld x3 r0_37))) (ix2 p q)
      = hiSteps (T x2) (T x3) 5 (Y x0 x1 p) 4 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece5 (x0 : Vec Ideal S256x4096 .f32) (x1 : Vec Ideal S32x128x128 .bf16) (x2 x3 : Vec Ideal S5x16x128 .f32)
    (p : Fin 256) (q : Fin 128) :
    (k0_pay346 (k0_pay274 (k0_pay188 (k0_pay116 (k0_pay43 (k0_pay2 (View.ld x1 r0_0) (View.ld x0 r0_1)) (k0_pay3 (View.ld x1 r0_0) (View.ld x0 r0_2)) (View.ld x2 r0_33) (View.ld x3 r0_33)) (k0_pay48 (k0_pay4 (View.ld x1 r0_0) (View.ld x0 r0_3)) (k0_pay5 (View.ld x1 r0_0) (View.ld x0 r0_4)) (k0_pay44 (View.ld x2 r0_33)) (k0_pay47 (View.ld x3 r0_33))) (k0_pay107 (View.ld x2 r0_34)) (k0_pay108 (View.ld x3 r0_34))) (k0_pay124 (k0_pay52 (k0_pay6 (View.ld x1 r0_0) (View.ld x0 r0_5)) (k0_pay7 (View.ld x1 r0_0) (View.ld x0 r0_6)) (k0_pay38 (View.ld x2 r0_33)) (k0_pay39 (View.ld x3 r0_33))) (k0_pay56 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (View.ld x2 r0_35) (View.ld x3 r0_35)) (k0_pay205 (k0_pay134 (k0_pay60 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay65 (k0_pay14 (k0_pay1 (View.ld x1 r0_0)) (View.ld x0 r0_11)) (k0_pay15 (k0_pay1 (View.ld x1 r0_0)) (View.ld x0 r0_12)) (k0_pay61 (k0_pay38 (View.ld x2 r0_33))) (k0_pay62 (k0_pay39 (View.ld x3 r0_33)))) (k0_pay107 (View.ld x2 r0_34)) (k0_pay108 (View.ld x3 r0_34))) (k0_pay144 (k0_pay142 (k0_pay69 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay107 (View.ld x2 r0_34))) (k0_pay143 (k0_pay73 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay108 (View.ld x3 r0_34)))) (k0_pay179 (View.ld x2 r0_35)) (k0_pay180 (View.ld x3 r0_35))) (k0_pay248 (View.ld x2 r0_36)) (k0_pay249 (View.ld x3 r0_36))) (k0_pay309 (k0_pay222 (k0_pay152 (k0_pay77 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay82 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay160 (k0_pay86 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay90 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay158 (k0_pay107 (View.ld x2 r0_34))) (k0_pay159 (k0_pay108 (View.ld x3 r0_34)))) (k0_pay218 (k0_pay179 (View.ld x2 r0_35))) (k0_pay221 (k0_pay180 (View.ld x3 r0_35)))) (k0_pay239 (k0_pay168 (k0_pay94 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay98 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay177 (k0_pay102 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay106 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay108 (View.ld x3 r0_34)) (k0_pay174 (k0_pay107 (View.ld x2 r0_34)))) (k0_pay235 (k0_pay179 (View.ld x2 r0_35))) (k0_pay236 (k0_pay180 (View.ld x3 r0_35)))) (k0_pay248 (View.ld x2 r0_36)) (k0_pay249 (View.ld x3 r0_36))) (k0_pay321 (View.ld x2 r0_37)) (k0_pay322 (View.ld x3 r0_37))) (ix2 p q)
      = hiSteps (T x2) (T x3) 5 (Y x0 x1 p) 5 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece6 (x0 : Vec Ideal S256x4096 .f32) (x1 : Vec Ideal S32x128x128 .bf16) (x2 x3 : Vec Ideal S5x16x128 .f32)
    (p : Fin 256) (q : Fin 128) :
    (k0_pay351 (k0_pay313 (k0_pay226 (k0_pay149 (k0_pay76 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay81 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay157 (k0_pay85 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay89 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay243 (k0_pay165 (k0_pay93 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay97 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay173 (k0_pay101 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay105 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay248 (View.ld x2 r0_36)) (k0_pay249 (View.ld x3 r0_36))) (k0_pay349 (k0_pay322 (View.ld x3 r0_37))) (k0_pay350 (k0_pay278 (k0_pay193 (k0_pay113 (k0_pay42 (k0_pay2 (View.ld x1 r0_0) (View.ld x0 r0_1)) (k0_pay3 (View.ld x1 r0_0) (View.ld x0 r0_2)) (View.ld x2 r0_33) (View.ld x3 r0_33)) (k0_pay46 (k0_pay4 (View.ld x1 r0_0) (View.ld x0 r0_3)) (k0_pay5 (View.ld x1 r0_0) (View.ld x0 r0_4)) (View.ld x2 r0_33) (View.ld x3 r0_33)) (k0_pay108 (View.ld x3 r0_34)) (k0_pay109 (View.ld x2 r0_34))) (k0_pay121 (k0_pay51 (k0_pay6 (View.ld x1 r0_0) (View.ld x0 r0_5)) (k0_pay7 (View.ld x1 r0_0) (View.ld x0 r0_6)) (k0_pay38 (View.ld x2 r0_33)) (k0_pay39 (View.ld x3 r0_33))) (k0_pay55 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (k0_pay189 (View.ld x2 r0_35)) (k0_pay190 (View.ld x3 r0_35))) (k0_pay209 (k0_pay131 (k0_pay59 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay64 (k0_pay15 (k0_pay1 (View.ld x1 r0_0)) (View.ld x0 r0_12)) (k0_pay62 (k0_pay39 (View.ld x3 r0_33))) (k0_pay63 (k0_pay14 (k0_pay1 (View.ld x1 r0_0)) (View.ld x0 r0_11)) (k0_pay38 (View.ld x2 r0_33)))) (k0_pay107 (View.ld x2 r0_34)) (k0_pay108 (View.ld x3 r0_34))) (k0_pay139 (k0_pay68 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay72 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay248 (View.ld x2 r0_36)) (k0_pay249 (View.ld x3 r0_36))) (k0_pay321 (View.ld x2 r0_37)))) (ix2 p q)
      = hiSteps (T x2) (T x3) 5 (Y x0 x1 p) 6 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece7 (x0 : Vec Ideal S256x4096 .f32) (x1 : Vec Ideal S32x128x128 .bf16) (x2 x3 : Vec Ideal S5x16x128 .f32)
    (p : Fin 256) (q : Fin 128) :
    (k0_pay355 (k0_pay282 (k0_pay197 (k0_pay117 (k0_pay43 (k0_pay2 (View.ld x1 r0_0) (View.ld x0 r0_1)) (k0_pay3 (View.ld x1 r0_0) (View.ld x0 r0_2)) (View.ld x2 r0_33) (View.ld x3 r0_33)) (k0_pay48 (k0_pay4 (View.ld x1 r0_0) (View.ld x0 r0_3)) (k0_pay5 (View.ld x1 r0_0) (View.ld x0 r0_4)) (k0_pay44 (View.ld x2 r0_33)) (k0_pay47 (View.ld x3 r0_33))) (k0_pay107 (View.ld x2 r0_34)) (k0_pay108 (View.ld x3 r0_34))) (k0_pay127 (k0_pay56 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay125 (k0_pay52 (k0_pay6 (View.ld x1 r0_0) (View.ld x0 r0_5)) (k0_pay7 (View.ld x1 r0_0) (View.ld x0 r0_6)) (k0_pay38 (View.ld x2 r0_33)) (k0_pay39 (View.ld x3 r0_33))) (k0_pay108 (View.ld x3 r0_34))) (k0_pay126 (k0_pay107 (View.ld x2 r0_34)))) (k0_pay179 (View.ld x2 r0_35)) (k0_pay180 (View.ld x3 r0_35))) (k0_pay213 (k0_pay135 (k0_pay60 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay65 (k0_pay14 (k0_pay1 (View.ld x1 r0_0)) (View.ld x0 r0_11)) (k0_pay15 (k0_pay1 (View.ld x1 r0_0)) (View.ld x0 r0_12)) (k0_pay61 (k0_pay38 (View.ld x2 r0_33))) (k0_pay62 (k0_pay39 (View.ld x3 r0_33)))) (k0_pay107 (View.ld x2 r0_34)) (k0_pay108 (View.ld x3 r0_34))) (k0_pay145 (k0_pay69 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay73 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay140 (k0_pay107 (View.ld x2 r0_34))) (k0_pay141 (k0_pay108 (View.ld x3 r0_34)))) (k0_pay179 (View.ld x2 r0_35)) (k0_pay180 (View.ld x3 r0_35))) (k0_pay248 (View.ld x2 r0_36)) (k0_pay249 (View.ld x3 r0_36))) (k0_pay319 (k0_pay317 (k0_pay230 (k0_pay153 (k0_pay77 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay82 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay161 (k0_pay86 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay90 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay158 (k0_pay107 (View.ld x2 r0_34))) (k0_pay159 (k0_pay108 (View.ld x3 r0_34)))) (k0_pay179 (View.ld x2 r0_35)) (k0_pay180 (View.ld x3 r0_35))) (k0_pay248 (View.ld x2 r0_36))) (k0_pay318 (k0_pay247 (k0_pay169 (k0_pay94 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay98 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay178 (k0_pay102 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay106 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay108 (View.ld x3 r0_34)) (k0_pay174 (k0_pay107 (View.ld x2 r0_34)))) (k0_pay179 (View.ld x2 r0_35)) (k0_pay180 (View.ld x3 r0_35))) (k0_pay249 (View.ld x3 r0_36)))) (k0_pay321 (View.ld x2 r0_37)) (k0_pay322 (View.ld x3 r0_37))) (ix2 p q)
      = hiSteps (T x2) (T x3) 5 (Y x0 x1 p) 7 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece8 (x0 : Vec Ideal S256x4096 .f32) (x1 : Vec Ideal S32x128x128 .bf16) (x2 x3 : Vec Ideal S5x16x128 .f32)
    (p : Fin 256) (q : Fin 128) :
    (k0_pay359 (k0_pay255 (k0_pay183 (k0_pay112 (k0_pay42 (k0_pay2 (View.ld x1 r0_0) (View.ld x0 r0_1)) (k0_pay3 (View.ld x1 r0_0) (View.ld x0 r0_2)) (View.ld x2 r0_33) (View.ld x3 r0_33)) (k0_pay46 (k0_pay4 (View.ld x1 r0_0) (View.ld x0 r0_3)) (k0_pay5 (View.ld x1 r0_0) (View.ld x0 r0_4)) (View.ld x2 r0_33) (View.ld x3 r0_33)) (k0_pay108 (View.ld x3 r0_34)) (k0_pay109 (View.ld x2 r0_34))) (k0_pay120 (k0_pay51 (k0_pay6 (View.ld x1 r0_0) (View.ld x0 r0_5)) (k0_pay7 (View.ld x1 r0_0) (View.ld x0 r0_6)) (k0_pay38 (View.ld x2 r0_33)) (k0_pay39 (View.ld x3 r0_33))) (k0_pay55 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (View.ld x2 r0_35) (View.ld x3 r0_35)) (k0_pay200 (k0_pay130 (k0_pay59 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay64 (k0_pay15 (k0_pay1 (View.ld x1 r0_0)) (View.ld x0 r0_12)) (k0_pay62 (k0_pay39 (View.ld x3 r0_33))) (k0_pay63 (k0_pay14 (k0_pay1 (View.ld x1 r0_0)) (View.ld x0 r0_11)) (k0_pay38 (View.ld x2 r0_33)))) (k0_pay107 (View.ld x2 r0_34)) (k0_pay108 (View.ld x3 r0_34))) (k0_pay138 (k0_pay68 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay72 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay250 (View.ld x2 r0_36)) (k0_pay251 (View.ld x3 r0_36))) (k0_pay288 (k0_pay216 (k0_pay148 (k0_pay76 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay81 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay156 (k0_pay85 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay89 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay233 (k0_pay164 (k0_pay93 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay97 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay172 (k0_pay101 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay105 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay249 (View.ld x3 r0_36)) (k0_pay284 (k0_pay248 (View.ld x2 r0_36)))) (k0_pay321 (View.ld x2 r0_37)) (k0_pay322 (View.ld x3 r0_37))) (ix2 p q)
      = hiSteps (T x2) (T x3) 5 (Y x0 x1 p) 8 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece9 (x0 : Vec Ideal S256x4096 .f32) (x1 : Vec Ideal S32x128x128 .bf16) (x2 x3 : Vec Ideal S5x16x128 .f32)
    (p : Fin 256) (q : Fin 128) :
    (k0_pay363 (k0_pay259 (k0_pay187 (k0_pay116 (k0_pay43 (k0_pay2 (View.ld x1 r0_0) (View.ld x0 r0_1)) (k0_pay3 (View.ld x1 r0_0) (View.ld x0 r0_2)) (View.ld x2 r0_33) (View.ld x3 r0_33)) (k0_pay48 (k0_pay4 (View.ld x1 r0_0) (View.ld x0 r0_3)) (k0_pay5 (View.ld x1 r0_0) (View.ld x0 r0_4)) (k0_pay44 (View.ld x2 r0_33)) (k0_pay47 (View.ld x3 r0_33))) (k0_pay107 (View.ld x2 r0_34)) (k0_pay108 (View.ld x3 r0_34))) (k0_pay124 (k0_pay52 (k0_pay6 (View.ld x1 r0_0) (View.ld x0 r0_5)) (k0_pay7 (View.ld x1 r0_0) (View.ld x0 r0_6)) (k0_pay38 (View.ld x2 r0_33)) (k0_pay39 (View.ld x3 r0_33))) (k0_pay56 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (View.ld x2 r0_35) (View.ld x3 r0_35)) (k0_pay204 (k0_pay134 (k0_pay60 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay65 (k0_pay14 (k0_pay1 (View.ld x1 r0_0)) (View.ld x0 r0_11)) (k0_pay15 (k0_pay1 (View.ld x1 r0_0)) (View.ld x0 r0_12)) (k0_pay61 (k0_pay38 (View.ld x2 r0_33))) (k0_pay62 (k0_pay39 (View.ld x3 r0_33)))) (k0_pay107 (View.ld x2 r0_34)) (k0_pay108 (View.ld x3 r0_34))) (k0_pay144 (k0_pay142 (k0_pay69 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay107 (View.ld x2 r0_34))) (k0_pay143 (k0_pay73 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay108 (View.ld x3 r0_34)))) (k0_pay179 (View.ld x2 r0_35)) (k0_pay180 (View.ld x3 r0_35))) (k0_pay248 (View.ld x2 r0_36)) (k0_pay249 (View.ld x3 r0_36))) (k0_pay292 (k0_pay220 (k0_pay152 (k0_pay77 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay82 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay160 (k0_pay86 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay90 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay158 (k0_pay107 (View.ld x2 r0_34))) (k0_pay159 (k0_pay108 (View.ld x3 r0_34)))) (k0_pay179 (View.ld x2 r0_35)) (k0_pay180 (View.ld x3 r0_35))) (k0_pay238 (k0_pay177 (k0_pay102 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay106 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay108 (View.ld x3 r0_34)) (k0_pay174 (k0_pay107 (View.ld x2 r0_34)))) (k0_pay236 (k0_pay180 (View.ld x3 r0_35))) (k0_pay237 (k0_pay168 (k0_pay94 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay98 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay179 (View.ld x2 r0_35)))) (k0_pay248 (View.ld x2 r0_36)) (k0_pay249 (View.ld x3 r0_36))) (k0_pay321 (View.ld x2 r0_37)) (k0_pay322 (View.ld x3 r0_37))) (ix2 p q)
      = hiSteps (T x2) (T x3) 5 (Y x0 x1 p) 9 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece10 (x0 : Vec Ideal S256x4096 .f32) (x1 : Vec Ideal S32x128x128 .bf16) (x2 x3 : Vec Ideal S5x16x128 .f32)
    (p : Fin 256) (q : Fin 128) :
    (k0_pay368 (k0_pay263 (k0_pay192 (k0_pay113 (k0_pay42 (k0_pay2 (View.ld x1 r0_0) (View.ld x0 r0_1)) (k0_pay3 (View.ld x1 r0_0) (View.ld x0 r0_2)) (View.ld x2 r0_33) (View.ld x3 r0_33)) (k0_pay46 (k0_pay4 (View.ld x1 r0_0) (View.ld x0 r0_3)) (k0_pay5 (View.ld x1 r0_0) (View.ld x0 r0_4)) (View.ld x2 r0_33) (View.ld x3 r0_33)) (k0_pay108 (View.ld x3 r0_34)) (k0_pay109 (View.ld x2 r0_34))) (k0_pay121 (k0_pay51 (k0_pay6 (View.ld x1 r0_0) (View.ld x0 r0_5)) (k0_pay7 (View.ld x1 r0_0) (View.ld x0 r0_6)) (k0_pay38 (View.ld x2 r0_33)) (k0_pay39 (View.ld x3 r0_33))) (k0_pay55 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (k0_pay189 (View.ld x2 r0_35)) (k0_pay190 (View.ld x3 r0_35))) (k0_pay208 (k0_pay131 (k0_pay59 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay64 (k0_pay15 (k0_pay1 (View.ld x1 r0_0)) (View.ld x0 r0_12)) (k0_pay62 (k0_pay39 (View.ld x3 r0_33))) (k0_pay63 (k0_pay14 (k0_pay1 (View.ld x1 r0_0)) (View.ld x0 r0_11)) (k0_pay38 (View.ld x2 r0_33)))) (k0_pay107 (View.ld x2 r0_34)) (k0_pay108 (View.ld x3 r0_34))) (k0_pay139 (k0_pay68 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay72 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay248 (View.ld x2 r0_36)) (k0_pay249 (View.ld x3 r0_36))) (k0_pay296 (k0_pay225 (k0_pay149 (k0_pay76 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay81 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay157 (k0_pay85 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay89 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay242 (k0_pay165 (k0_pay93 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay97 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay173 (k0_pay101 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay105 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay248 (View.ld x2 r0_36)) (k0_pay249 (View.ld x3 r0_36))) (k0_pay365 (k0_pay321 (View.ld x2 r0_37))) (k0_pay366 (k0_pay322 (View.ld x3 r0_37)))) (ix2 p q)
      = hiSteps (T x2) (T x3) 5 (Y x0 x1 p) 10 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece11 (x0 : Vec Ideal S256x4096 .f32) (x1 : Vec Ideal S32x128x128 .bf16) (x2 x3 : Vec Ideal S5x16x128 .f32)
    (p : Fin 256) (q : Fin 128) :
    (k0_pay372 (k0_pay267 (k0_pay196 (k0_pay117 (k0_pay43 (k0_pay2 (View.ld x1 r0_0) (View.ld x0 r0_1)) (k0_pay3 (View.ld x1 r0_0) (View.ld x0 r0_2)) (View.ld x2 r0_33) (View.ld x3 r0_33)) (k0_pay48 (k0_pay4 (View.ld x1 r0_0) (View.ld x0 r0_3)) (k0_pay5 (View.ld x1 r0_0) (View.ld x0 r0_4)) (k0_pay44 (View.ld x2 r0_33)) (k0_pay47 (View.ld x3 r0_33))) (k0_pay107 (View.ld x2 r0_34)) (k0_pay108 (View.ld x3 r0_34))) (k0_pay127 (k0_pay56 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay125 (k0_pay52 (k0_pay6 (View.ld x1 r0_0) (View.ld x0 r0_5)) (k0_pay7 (View.ld x1 r0_0) (View.ld x0 r0_6)) (k0_pay38 (View.ld x2 r0_33)) (k0_pay39 (View.ld x3 r0_33))) (k0_pay108 (View.ld x3 r0_34))) (k0_pay126 (k0_pay107 (View.ld x2 r0_34)))) (k0_pay179 (View.ld x2 r0_35)) (k0_pay180 (View.ld x3 r0_35))) (k0_pay212 (k0_pay135 (k0_pay60 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay65 (k0_pay14 (k0_pay1 (View.ld x1 r0_0)) (View.ld x0 r0_11)) (k0_pay15 (k0_pay1 (View.ld x1 r0_0)) (View.ld x0 r0_12)) (k0_pay61 (k0_pay38 (View.ld x2 r0_33))) (k0_pay62 (k0_pay39 (View.ld x3 r0_33)))) (k0_pay107 (View.ld x2 r0_34)) (k0_pay108 (View.ld x3 r0_34))) (k0_pay145 (k0_pay69 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay73 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay140 (k0_pay107 (View.ld x2 r0_34))) (k0_pay141 (k0_pay108 (View.ld x3 r0_34)))) (k0_pay179 (View.ld x2 r0_35)) (k0_pay180 (View.ld x3 r0_35))) (k0_pay248 (View.ld x2 r0_36)) (k0_pay249 (View.ld x3 r0_36))) (k0_pay302 (k0_pay246 (k0_pay169 (k0_pay94 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay98 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay178 (k0_pay102 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay106 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay108 (View.ld x3 r0_34)) (k0_pay174 (k0_pay107 (View.ld x2 r0_34)))) (k0_pay179 (View.ld x2 r0_35)) (k0_pay180 (View.ld x3 r0_35))) (k0_pay300 (k0_pay229 (k0_pay153 (k0_pay77 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay82 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay161 (k0_pay86 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay90 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay158 (k0_pay107 (View.ld x2 r0_34))) (k0_pay159 (k0_pay108 (View.ld x3 r0_34)))) (k0_pay179 (View.ld x2 r0_35)) (k0_pay180 (View.ld x3 r0_35))) (k0_pay249 (View.ld x3 r0_36))) (k0_pay301 (k0_pay248 (View.ld x2 r0_36)))) (k0_pay321 (View.ld x2 r0_37)) (k0_pay322 (View.ld x3 r0_37))) (ix2 p q)
      = hiSteps (T x2) (T x3) 5 (Y x0 x1 p) 11 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece12 (x0 : Vec Ideal S256x4096 .f32) (x1 : Vec Ideal S32x128x128 .bf16) (x2 x3 : Vec Ideal S5x16x128 .f32)
    (p : Fin 256) (q : Fin 128) :
    (k0_pay376 (k0_pay271 (k0_pay184 (k0_pay112 (k0_pay42 (k0_pay2 (View.ld x1 r0_0) (View.ld x0 r0_1)) (k0_pay3 (View.ld x1 r0_0) (View.ld x0 r0_2)) (View.ld x2 r0_33) (View.ld x3 r0_33)) (k0_pay46 (k0_pay4 (View.ld x1 r0_0) (View.ld x0 r0_3)) (k0_pay5 (View.ld x1 r0_0) (View.ld x0 r0_4)) (View.ld x2 r0_33) (View.ld x3 r0_33)) (k0_pay108 (View.ld x3 r0_34)) (k0_pay109 (View.ld x2 r0_34))) (k0_pay120 (k0_pay51 (k0_pay6 (View.ld x1 r0_0) (View.ld x0 r0_5)) (k0_pay7 (View.ld x1 r0_0) (View.ld x0 r0_6)) (k0_pay38 (View.ld x2 r0_33)) (k0_pay39 (View.ld x3 r0_33))) (k0_pay55 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (View.ld x2 r0_35) (View.ld x3 r0_35)) (k0_pay201 (k0_pay130 (k0_pay59 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay64 (k0_pay15 (k0_pay1 (View.ld x1 r0_0)) (View.ld x0 r0_12)) (k0_pay62 (k0_pay39 (View.ld x3 r0_33))) (k0_pay63 (k0_pay14 (k0_pay1 (View.ld x1 r0_0)) (View.ld x0 r0_11)) (k0_pay38 (View.ld x2 r0_33)))) (k0_pay107 (View.ld x2 r0_34)) (k0_pay108 (View.ld x3 r0_34))) (k0_pay138 (k0_pay68 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay72 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay268 (k0_pay248 (View.ld x2 r0_36))) (k0_pay269 (k0_pay249 (View.ld x3 r0_36)))) (k0_pay306 (k0_pay217 (k0_pay148 (k0_pay76 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay81 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay156 (k0_pay85 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay89 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay234 (k0_pay164 (k0_pay93 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay97 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay172 (k0_pay101 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay105 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay248 (View.ld x2 r0_36)) (k0_pay249 (View.ld x3 r0_36))) (k0_pay321 (View.ld x2 r0_37)) (k0_pay322 (View.ld x3 r0_37))) (ix2 p q)
      = hiSteps (T x2) (T x3) 5 (Y x0 x1 p) 12 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece13 (x0 : Vec Ideal S256x4096 .f32) (x1 : Vec Ideal S32x128x128 .bf16) (x2 x3 : Vec Ideal S5x16x128 .f32)
    (p : Fin 256) (q : Fin 128) :
    (k0_pay380 (k0_pay275 (k0_pay188 (k0_pay116 (k0_pay43 (k0_pay2 (View.ld x1 r0_0) (View.ld x0 r0_1)) (k0_pay3 (View.ld x1 r0_0) (View.ld x0 r0_2)) (View.ld x2 r0_33) (View.ld x3 r0_33)) (k0_pay48 (k0_pay4 (View.ld x1 r0_0) (View.ld x0 r0_3)) (k0_pay5 (View.ld x1 r0_0) (View.ld x0 r0_4)) (k0_pay44 (View.ld x2 r0_33)) (k0_pay47 (View.ld x3 r0_33))) (k0_pay107 (View.ld x2 r0_34)) (k0_pay108 (View.ld x3 r0_34))) (k0_pay124 (k0_pay52 (k0_pay6 (View.ld x1 r0_0) (View.ld x0 r0_5)) (k0_pay7 (View.ld x1 r0_0) (View.ld x0 r0_6)) (k0_pay38 (View.ld x2 r0_33)) (k0_pay39 (View.ld x3 r0_33))) (k0_pay56 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (View.ld x2 r0_35) (View.ld x3 r0_35)) (k0_pay205 (k0_pay134 (k0_pay60 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay65 (k0_pay14 (k0_pay1 (View.ld x1 r0_0)) (View.ld x0 r0_11)) (k0_pay15 (k0_pay1 (View.ld x1 r0_0)) (View.ld x0 r0_12)) (k0_pay61 (k0_pay38 (View.ld x2 r0_33))) (k0_pay62 (k0_pay39 (View.ld x3 r0_33)))) (k0_pay107 (View.ld x2 r0_34)) (k0_pay108 (View.ld x3 r0_34))) (k0_pay144 (k0_pay142 (k0_pay69 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay107 (View.ld x2 r0_34))) (k0_pay143 (k0_pay73 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay108 (View.ld x3 r0_34)))) (k0_pay179 (View.ld x2 r0_35)) (k0_pay180 (View.ld x3 r0_35))) (k0_pay248 (View.ld x2 r0_36)) (k0_pay249 (View.ld x3 r0_36))) (k0_pay310 (k0_pay222 (k0_pay152 (k0_pay77 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay82 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay160 (k0_pay86 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay90 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay158 (k0_pay107 (View.ld x2 r0_34))) (k0_pay159 (k0_pay108 (View.ld x3 r0_34)))) (k0_pay218 (k0_pay179 (View.ld x2 r0_35))) (k0_pay221 (k0_pay180 (View.ld x3 r0_35)))) (k0_pay239 (k0_pay168 (k0_pay94 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay98 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay177 (k0_pay102 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay106 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay108 (View.ld x3 r0_34)) (k0_pay174 (k0_pay107 (View.ld x2 r0_34)))) (k0_pay235 (k0_pay179 (View.ld x2 r0_35))) (k0_pay236 (k0_pay180 (View.ld x3 r0_35)))) (k0_pay248 (View.ld x2 r0_36)) (k0_pay249 (View.ld x3 r0_36))) (k0_pay321 (View.ld x2 r0_37)) (k0_pay322 (View.ld x3 r0_37))) (ix2 p q)
      = hiSteps (T x2) (T x3) 5 (Y x0 x1 p) 13 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece14 (x0 : Vec Ideal S256x4096 .f32) (x1 : Vec Ideal S32x128x128 .bf16) (x2 x3 : Vec Ideal S5x16x128 .f32)
    (p : Fin 256) (q : Fin 128) :
    (k0_pay384 (k0_pay279 (k0_pay193 (k0_pay113 (k0_pay42 (k0_pay2 (View.ld x1 r0_0) (View.ld x0 r0_1)) (k0_pay3 (View.ld x1 r0_0) (View.ld x0 r0_2)) (View.ld x2 r0_33) (View.ld x3 r0_33)) (k0_pay46 (k0_pay4 (View.ld x1 r0_0) (View.ld x0 r0_3)) (k0_pay5 (View.ld x1 r0_0) (View.ld x0 r0_4)) (View.ld x2 r0_33) (View.ld x3 r0_33)) (k0_pay108 (View.ld x3 r0_34)) (k0_pay109 (View.ld x2 r0_34))) (k0_pay121 (k0_pay51 (k0_pay6 (View.ld x1 r0_0) (View.ld x0 r0_5)) (k0_pay7 (View.ld x1 r0_0) (View.ld x0 r0_6)) (k0_pay38 (View.ld x2 r0_33)) (k0_pay39 (View.ld x3 r0_33))) (k0_pay55 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (k0_pay189 (View.ld x2 r0_35)) (k0_pay190 (View.ld x3 r0_35))) (k0_pay209 (k0_pay131 (k0_pay59 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay64 (k0_pay15 (k0_pay1 (View.ld x1 r0_0)) (View.ld x0 r0_12)) (k0_pay62 (k0_pay39 (View.ld x3 r0_33))) (k0_pay63 (k0_pay14 (k0_pay1 (View.ld x1 r0_0)) (View.ld x0 r0_11)) (k0_pay38 (View.ld x2 r0_33)))) (k0_pay107 (View.ld x2 r0_34)) (k0_pay108 (View.ld x3 r0_34))) (k0_pay139 (k0_pay68 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay72 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay248 (View.ld x2 r0_36)) (k0_pay249 (View.ld x3 r0_36))) (k0_pay314 (k0_pay226 (k0_pay149 (k0_pay76 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay81 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay157 (k0_pay85 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay89 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay243 (k0_pay165 (k0_pay93 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay97 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay173 (k0_pay101 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay105 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay248 (View.ld x2 r0_36)) (k0_pay249 (View.ld x3 r0_36))) (k0_pay321 (View.ld x2 r0_37)) (k0_pay322 (View.ld x3 r0_37))) (ix2 p q)
      = hiSteps (T x2) (T x3) 5 (Y x0 x1 p) 14 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece15 (x0 : Vec Ideal S256x4096 .f32) (x1 : Vec Ideal S32x128x128 .bf16) (x2 x3 : Vec Ideal S5x16x128 .f32)
    (p : Fin 256) (q : Fin 128) :
    (k0_pay388 (k0_pay283 (k0_pay197 (k0_pay117 (k0_pay43 (k0_pay2 (View.ld x1 r0_0) (View.ld x0 r0_1)) (k0_pay3 (View.ld x1 r0_0) (View.ld x0 r0_2)) (View.ld x2 r0_33) (View.ld x3 r0_33)) (k0_pay48 (k0_pay4 (View.ld x1 r0_0) (View.ld x0 r0_3)) (k0_pay5 (View.ld x1 r0_0) (View.ld x0 r0_4)) (k0_pay44 (View.ld x2 r0_33)) (k0_pay47 (View.ld x3 r0_33))) (k0_pay107 (View.ld x2 r0_34)) (k0_pay108 (View.ld x3 r0_34))) (k0_pay127 (k0_pay56 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay125 (k0_pay52 (k0_pay6 (View.ld x1 r0_0) (View.ld x0 r0_5)) (k0_pay7 (View.ld x1 r0_0) (View.ld x0 r0_6)) (k0_pay38 (View.ld x2 r0_33)) (k0_pay39 (View.ld x3 r0_33))) (k0_pay108 (View.ld x3 r0_34))) (k0_pay126 (k0_pay107 (View.ld x2 r0_34)))) (k0_pay179 (View.ld x2 r0_35)) (k0_pay180 (View.ld x3 r0_35))) (k0_pay213 (k0_pay135 (k0_pay60 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay65 (k0_pay14 (k0_pay1 (View.ld x1 r0_0)) (View.ld x0 r0_11)) (k0_pay15 (k0_pay1 (View.ld x1 r0_0)) (View.ld x0 r0_12)) (k0_pay61 (k0_pay38 (View.ld x2 r0_33))) (k0_pay62 (k0_pay39 (View.ld x3 r0_33)))) (k0_pay107 (View.ld x2 r0_34)) (k0_pay108 (View.ld x3 r0_34))) (k0_pay145 (k0_pay69 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay73 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay140 (k0_pay107 (View.ld x2 r0_34))) (k0_pay141 (k0_pay108 (View.ld x3 r0_34)))) (k0_pay179 (View.ld x2 r0_35)) (k0_pay180 (View.ld x3 r0_35))) (k0_pay248 (View.ld x2 r0_36)) (k0_pay249 (View.ld x3 r0_36))) (k0_pay320 (k0_pay230 (k0_pay153 (k0_pay77 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay82 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay161 (k0_pay86 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay90 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay158 (k0_pay107 (View.ld x2 r0_34))) (k0_pay159 (k0_pay108 (View.ld x3 r0_34)))) (k0_pay179 (View.ld x2 r0_35)) (k0_pay180 (View.ld x3 r0_35))) (k0_pay247 (k0_pay169 (k0_pay94 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay98 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay178 (k0_pay102 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay106 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay108 (View.ld x3 r0_34)) (k0_pay174 (k0_pay107 (View.ld x2 r0_34)))) (k0_pay179 (View.ld x2 r0_35)) (k0_pay180 (View.ld x3 r0_35))) (k0_pay315 (k0_pay248 (View.ld x2 r0_36))) (k0_pay316 (k0_pay249 (View.ld x3 r0_36)))) (k0_pay321 (View.ld x2 r0_37)) (k0_pay322 (View.ld x3 r0_37))) (ix2 p q)
      = hiSteps (T x2) (T x3) 5 (Y x0 x1 p) 15 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

end Cert.KernelIdeal.Body

end
-- ==== Proof.KernelPiecesB.lean ====
/-
  Blocks 16 … 31 of what one grid step stores: each stored block, read at row p and lane q, is the five block stages
  applied to the row's 32 products — the same rewriting for every block: unfold the body's operations, read the
  entrywise operations, the table lanes and the products at (p, q), and evaluate which member of its pair the block is at
  each of the five distances.
-/
import proofs.«122426_j35845797052976_2_alg».proof.Proof.KernelBlock

set_option maxRecDepth 16384

noncomputable section

namespace Cert.KernelIdeal.Body

open Cert.KernelIdeal Cert.KernelIdeal.Gen Idealize.ShloMosaic Idealize.ShloMosaic.ValueIdx Cert.Butterfly

theorem piece16 (x0 : Vec Ideal S256x4096 .f32) (x1 : Vec Ideal S32x128x128 .bf16) (x2 x3 : Vec Ideal S5x16x128 .f32)
    (p : Fin 256) (q : Fin 128) :
    (k0_pay326 (k0_pay254 (k0_pay252 (k0_pay183 (k0_pay112 (k0_pay42 (k0_pay2 (View.ld x1 r0_0) (View.ld x0 r0_1)) (k0_pay3 (View.ld x1 r0_0) (View.ld x0 r0_2)) (View.ld x2 r0_33) (View.ld x3 r0_33)) (k0_pay46 (k0_pay4 (View.ld x1 r0_0) (View.ld x0 r0_3)) (k0_pay5 (View.ld x1 r0_0) (View.ld x0 r0_4)) (View.ld x2 r0_33) (View.ld x3 r0_33)) (k0_pay108 (View.ld x3 r0_34)) (k0_pay109 (View.ld x2 r0_34))) (k0_pay120 (k0_pay51 (k0_pay6 (View.ld x1 r0_0) (View.ld x0 r0_5)) (k0_pay7 (View.ld x1 r0_0) (View.ld x0 r0_6)) (k0_pay38 (View.ld x2 r0_33)) (k0_pay39 (View.ld x3 r0_33))) (k0_pay55 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (View.ld x2 r0_35) (View.ld x3 r0_35)) (View.ld x2 r0_36)) (k0_pay253 (k0_pay200 (k0_pay130 (k0_pay59 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay64 (k0_pay15 (k0_pay1 (View.ld x1 r0_0)) (View.ld x0 r0_12)) (k0_pay62 (k0_pay39 (View.ld x3 r0_33))) (k0_pay63 (k0_pay14 (k0_pay1 (View.ld x1 r0_0)) (View.ld x0 r0_11)) (k0_pay38 (View.ld x2 r0_33)))) (k0_pay107 (View.ld x2 r0_34)) (k0_pay108 (View.ld x3 r0_34))) (k0_pay138 (k0_pay68 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay72 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (View.ld x3 r0_36))) (k0_pay287 (k0_pay216 (k0_pay148 (k0_pay76 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay81 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay156 (k0_pay85 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay89 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay233 (k0_pay164 (k0_pay93 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay97 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay172 (k0_pay101 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay105 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay249 (View.ld x3 r0_36)) (k0_pay284 (k0_pay248 (View.ld x2 r0_36)))) (View.ld x2 r0_37) (View.ld x3 r0_37)) (ix2 p q)
      = hiSteps (T x2) (T x3) 5 (Y x0 x1 p) 16 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece17 (x0 : Vec Ideal S256x4096 .f32) (x1 : Vec Ideal S32x128x128 .bf16) (x2 x3 : Vec Ideal S5x16x128 .f32)
    (p : Fin 256) (q : Fin 128) :
    (k0_pay330 (k0_pay258 (k0_pay187 (k0_pay116 (k0_pay43 (k0_pay2 (View.ld x1 r0_0) (View.ld x0 r0_1)) (k0_pay3 (View.ld x1 r0_0) (View.ld x0 r0_2)) (View.ld x2 r0_33) (View.ld x3 r0_33)) (k0_pay48 (k0_pay4 (View.ld x1 r0_0) (View.ld x0 r0_3)) (k0_pay5 (View.ld x1 r0_0) (View.ld x0 r0_4)) (k0_pay44 (View.ld x2 r0_33)) (k0_pay47 (View.ld x3 r0_33))) (k0_pay107 (View.ld x2 r0_34)) (k0_pay108 (View.ld x3 r0_34))) (k0_pay124 (k0_pay52 (k0_pay6 (View.ld x1 r0_0) (View.ld x0 r0_5)) (k0_pay7 (View.ld x1 r0_0) (View.ld x0 r0_6)) (k0_pay38 (View.ld x2 r0_33)) (k0_pay39 (View.ld x3 r0_33))) (k0_pay56 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (View.ld x2 r0_35) (View.ld x3 r0_35)) (k0_pay204 (k0_pay134 (k0_pay60 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay65 (k0_pay14 (k0_pay1 (View.ld x1 r0_0)) (View.ld x0 r0_11)) (k0_pay15 (k0_pay1 (View.ld x1 r0_0)) (View.ld x0 r0_12)) (k0_pay61 (k0_pay38 (View.ld x2 r0_33))) (k0_pay62 (k0_pay39 (View.ld x3 r0_33)))) (k0_pay107 (View.ld x2 r0_34)) (k0_pay108 (View.ld x3 r0_34))) (k0_pay144 (k0_pay142 (k0_pay69 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay107 (View.ld x2 r0_34))) (k0_pay143 (k0_pay73 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay108 (View.ld x3 r0_34)))) (k0_pay179 (View.ld x2 r0_35)) (k0_pay180 (View.ld x3 r0_35))) (k0_pay248 (View.ld x2 r0_36)) (k0_pay249 (View.ld x3 r0_36))) (k0_pay291 (k0_pay220 (k0_pay152 (k0_pay77 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay82 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay160 (k0_pay86 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay90 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay158 (k0_pay107 (View.ld x2 r0_34))) (k0_pay159 (k0_pay108 (View.ld x3 r0_34)))) (k0_pay179 (View.ld x2 r0_35)) (k0_pay180 (View.ld x3 r0_35))) (k0_pay238 (k0_pay177 (k0_pay102 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay106 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay108 (View.ld x3 r0_34)) (k0_pay174 (k0_pay107 (View.ld x2 r0_34)))) (k0_pay236 (k0_pay180 (View.ld x3 r0_35))) (k0_pay237 (k0_pay168 (k0_pay94 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay98 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay179 (View.ld x2 r0_35)))) (k0_pay248 (View.ld x2 r0_36)) (k0_pay249 (View.ld x3 r0_36))) (View.ld x2 r0_37) (View.ld x3 r0_37)) (ix2 p q)
      = hiSteps (T x2) (T x3) 5 (Y x0 x1 p) 17 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece18 (x0 : Vec Ideal S256x4096 .f32) (x1 : Vec Ideal S32x128x128 .bf16) (x2 x3 : Vec Ideal S5x16x128 .f32)
    (p : Fin 256) (q : Fin 128) :
    (k0_pay335 (k0_pay262 (k0_pay192 (k0_pay113 (k0_pay42 (k0_pay2 (View.ld x1 r0_0) (View.ld x0 r0_1)) (k0_pay3 (View.ld x1 r0_0) (View.ld x0 r0_2)) (View.ld x2 r0_33) (View.ld x3 r0_33)) (k0_pay46 (k0_pay4 (View.ld x1 r0_0) (View.ld x0 r0_3)) (k0_pay5 (View.ld x1 r0_0) (View.ld x0 r0_4)) (View.ld x2 r0_33) (View.ld x3 r0_33)) (k0_pay108 (View.ld x3 r0_34)) (k0_pay109 (View.ld x2 r0_34))) (k0_pay121 (k0_pay51 (k0_pay6 (View.ld x1 r0_0) (View.ld x0 r0_5)) (k0_pay7 (View.ld x1 r0_0) (View.ld x0 r0_6)) (k0_pay38 (View.ld x2 r0_33)) (k0_pay39 (View.ld x3 r0_33))) (k0_pay55 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (k0_pay189 (View.ld x2 r0_35)) (k0_pay190 (View.ld x3 r0_35))) (k0_pay208 (k0_pay131 (k0_pay59 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay64 (k0_pay15 (k0_pay1 (View.ld x1 r0_0)) (View.ld x0 r0_12)) (k0_pay62 (k0_pay39 (View.ld x3 r0_33))) (k0_pay63 (k0_pay14 (k0_pay1 (View.ld x1 r0_0)) (View.ld x0 r0_11)) (k0_pay38 (View.ld x2 r0_33)))) (k0_pay107 (View.ld x2 r0_34)) (k0_pay108 (View.ld x3 r0_34))) (k0_pay139 (k0_pay68 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay72 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay248 (View.ld x2 r0_36)) (k0_pay249 (View.ld x3 r0_36))) (k0_pay295 (k0_pay225 (k0_pay149 (k0_pay76 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay81 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay157 (k0_pay85 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay89 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay242 (k0_pay165 (k0_pay93 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay97 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay173 (k0_pay101 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay105 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay248 (View.ld x2 r0_36)) (k0_pay249 (View.ld x3 r0_36))) (k0_pay331 (View.ld x2 r0_37)) (k0_pay334 (View.ld x3 r0_37))) (ix2 p q)
      = hiSteps (T x2) (T x3) 5 (Y x0 x1 p) 18 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece19 (x0 : Vec Ideal S256x4096 .f32) (x1 : Vec Ideal S32x128x128 .bf16) (x2 x3 : Vec Ideal S5x16x128 .f32)
    (p : Fin 256) (q : Fin 128) :
    (k0_pay339 (k0_pay266 (k0_pay196 (k0_pay117 (k0_pay43 (k0_pay2 (View.ld x1 r0_0) (View.ld x0 r0_1)) (k0_pay3 (View.ld x1 r0_0) (View.ld x0 r0_2)) (View.ld x2 r0_33) (View.ld x3 r0_33)) (k0_pay48 (k0_pay4 (View.ld x1 r0_0) (View.ld x0 r0_3)) (k0_pay5 (View.ld x1 r0_0) (View.ld x0 r0_4)) (k0_pay44 (View.ld x2 r0_33)) (k0_pay47 (View.ld x3 r0_33))) (k0_pay107 (View.ld x2 r0_34)) (k0_pay108 (View.ld x3 r0_34))) (k0_pay127 (k0_pay56 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay125 (k0_pay52 (k0_pay6 (View.ld x1 r0_0) (View.ld x0 r0_5)) (k0_pay7 (View.ld x1 r0_0) (View.ld x0 r0_6)) (k0_pay38 (View.ld x2 r0_33)) (k0_pay39 (View.ld x3 r0_33))) (k0_pay108 (View.ld x3 r0_34))) (k0_pay126 (k0_pay107 (View.ld x2 r0_34)))) (k0_pay179 (View.ld x2 r0_35)) (k0_pay180 (View.ld x3 r0_35))) (k0_pay212 (k0_pay135 (k0_pay60 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay65 (k0_pay14 (k0_pay1 (View.ld x1 r0_0)) (View.ld x0 r0_11)) (k0_pay15 (k0_pay1 (View.ld x1 r0_0)) (View.ld x0 r0_12)) (k0_pay61 (k0_pay38 (View.ld x2 r0_33))) (k0_pay62 (k0_pay39 (View.ld x3 r0_33)))) (k0_pay107 (View.ld x2 r0_34)) (k0_pay108 (View.ld x3 r0_34))) (k0_pay145 (k0_pay69 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay73 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay140 (k0_pay107 (View.ld x2 r0_34))) (k0_pay141 (k0_pay108 (View.ld x3 r0_34)))) (k0_pay179 (View.ld x2 r0_35)) (k0_pay180 (View.ld x3 r0_35))) (k0_pay248 (View.ld x2 r0_36)) (k0_pay249 (View.ld x3 r0_36))) (k0_pay299 (k0_pay229 (k0_pay153 (k0_pay77 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay82 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay161 (k0_pay86 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay90 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay158 (k0_pay107 (View.ld x2 r0_34))) (k0_pay159 (k0_pay108 (View.ld x3 r0_34)))) (k0_pay179 (View.ld x2 r0_35)) (k0_pay180 (View.ld x3 r0_35))) (k0_pay246 (k0_pay169 (k0_pay94 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay98 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay178 (k0_pay102 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay106 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay108 (View.ld x3 r0_34)) (k0_pay174 (k0_pay107 (View.ld x2 r0_34)))) (k0_pay179 (View.ld x2 r0_35)) (k0_pay180 (View.ld x3 r0_35))) (k0_pay248 (View.ld x2 r0_36)) (k0_pay249 (View.ld x3 r0_36))) (k0_pay321 (View.ld x2 r0_37)) (k0_pay322 (View.ld x3 r0_37))) (ix2 p q)
      = hiSteps (T x2) (T x3) 5 (Y x0 x1 p) 19 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece20 (x0 : Vec Ideal S256x4096 .f32) (x1 : Vec Ideal S32x128x128 .bf16) (x2 x3 : Vec Ideal S5x16x128 .f32)
    (p : Fin 256) (q : Fin 128) :
    (k0_pay343 (k0_pay270 (k0_pay184 (k0_pay112 (k0_pay42 (k0_pay2 (View.ld x1 r0_0) (View.ld x0 r0_1)) (k0_pay3 (View.ld x1 r0_0) (View.ld x0 r0_2)) (View.ld x2 r0_33) (View.ld x3 r0_33)) (k0_pay46 (k0_pay4 (View.ld x1 r0_0) (View.ld x0 r0_3)) (k0_pay5 (View.ld x1 r0_0) (View.ld x0 r0_4)) (View.ld x2 r0_33) (View.ld x3 r0_33)) (k0_pay108 (View.ld x3 r0_34)) (k0_pay109 (View.ld x2 r0_34))) (k0_pay120 (k0_pay51 (k0_pay6 (View.ld x1 r0_0) (View.ld x0 r0_5)) (k0_pay7 (View.ld x1 r0_0) (View.ld x0 r0_6)) (k0_pay38 (View.ld x2 r0_33)) (k0_pay39 (View.ld x3 r0_33))) (k0_pay55 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (View.ld x2 r0_35) (View.ld x3 r0_35)) (k0_pay201 (k0_pay130 (k0_pay59 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay64 (k0_pay15 (k0_pay1 (View.ld x1 r0_0)) (View.ld x0 r0_12)) (k0_pay62 (k0_pay39 (View.ld x3 r0_33))) (k0_pay63 (k0_pay14 (k0_pay1 (View.ld x1 r0_0)) (View.ld x0 r0_11)) (k0_pay38 (View.ld x2 r0_33)))) (k0_pay107 (View.ld x2 r0_34)) (k0_pay108 (View.ld x3 r0_34))) (k0_pay138 (k0_pay68 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay72 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay268 (k0_pay248 (View.ld x2 r0_36))) (k0_pay269 (k0_pay249 (View.ld x3 r0_36)))) (k0_pay305 (k0_pay217 (k0_pay148 (k0_pay76 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay81 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay156 (k0_pay85 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay89 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay234 (k0_pay164 (k0_pay93 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay97 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay172 (k0_pay101 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay105 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay248 (View.ld x2 r0_36)) (k0_pay249 (View.ld x3 r0_36))) (k0_pay321 (View.ld x2 r0_37)) (k0_pay322 (View.ld x3 r0_37))) (ix2 p q)
      = hiSteps (T x2) (T x3) 5 (Y x0 x1 p) 20 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece21 (x0 : Vec Ideal S256x4096 .f32) (x1 : Vec Ideal S32x128x128 .bf16) (x2 x3 : Vec Ideal S5x16x128 .f32)
    (p : Fin 256) (q : Fin 128) :
    (k0_pay347 (k0_pay274 (k0_pay188 (k0_pay116 (k0_pay43 (k0_pay2 (View.ld x1 r0_0) (View.ld x0 r0_1)) (k0_pay3 (View.ld x1 r0_0) (View.ld x0 r0_2)) (View.ld x2 r0_33) (View.ld x3 r0_33)) (k0_pay48 (k0_pay4 (View.ld x1 r0_0) (View.ld x0 r0_3)) (k0_pay5 (View.ld x1 r0_0) (View.ld x0 r0_4)) (k0_pay44 (View.ld x2 r0_33)) (k0_pay47 (View.ld x3 r0_33))) (k0_pay107 (View.ld x2 r0_34)) (k0_pay108 (View.ld x3 r0_34))) (k0_pay124 (k0_pay52 (k0_pay6 (View.ld x1 r0_0) (View.ld x0 r0_5)) (k0_pay7 (View.ld x1 r0_0) (View.ld x0 r0_6)) (k0_pay38 (View.ld x2 r0_33)) (k0_pay39 (View.ld x3 r0_33))) (k0_pay56 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (View.ld x2 r0_35) (View.ld x3 r0_35)) (k0_pay205 (k0_pay134 (k0_pay60 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay65 (k0_pay14 (k0_pay1 (View.ld x1 r0_0)) (View.ld x0 r0_11)) (k0_pay15 (k0_pay1 (View.ld x1 r0_0)) (View.ld x0 r0_12)) (k0_pay61 (k0_pay38 (View.ld x2 r0_33))) (k0_pay62 (k0_pay39 (View.ld x3 r0_33)))) (k0_pay107 (View.ld x2 r0_34)) (k0_pay108 (View.ld x3 r0_34))) (k0_pay144 (k0_pay142 (k0_pay69 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay107 (View.ld x2 r0_34))) (k0_pay143 (k0_pay73 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay108 (View.ld x3 r0_34)))) (k0_pay179 (View.ld x2 r0_35)) (k0_pay180 (View.ld x3 r0_35))) (k0_pay248 (View.ld x2 r0_36)) (k0_pay249 (View.ld x3 r0_36))) (k0_pay309 (k0_pay222 (k0_pay152 (k0_pay77 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay82 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay160 (k0_pay86 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay90 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay158 (k0_pay107 (View.ld x2 r0_34))) (k0_pay159 (k0_pay108 (View.ld x3 r0_34)))) (k0_pay218 (k0_pay179 (View.ld x2 r0_35))) (k0_pay221 (k0_pay180 (View.ld x3 r0_35)))) (k0_pay239 (k0_pay168 (k0_pay94 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay98 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay177 (k0_pay102 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay106 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay108 (View.ld x3 r0_34)) (k0_pay174 (k0_pay107 (View.ld x2 r0_34)))) (k0_pay235 (k0_pay179 (View.ld x2 r0_35))) (k0_pay236 (k0_pay180 (View.ld x3 r0_35)))) (k0_pay248 (View.ld x2 r0_36)) (k0_pay249 (View.ld x3 r0_36))) (k0_pay321 (View.ld x2 r0_37)) (k0_pay322 (View.ld x3 r0_37))) (ix2 p q)
      = hiSteps (T x2) (T x3) 5 (Y x0 x1 p) 21 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece22 (x0 : Vec Ideal S256x4096 .f32) (x1 : Vec Ideal S32x128x128 .bf16) (x2 x3 : Vec Ideal S5x16x128 .f32)
    (p : Fin 256) (q : Fin 128) :
    (k0_pay352 (k0_pay278 (k0_pay193 (k0_pay113 (k0_pay42 (k0_pay2 (View.ld x1 r0_0) (View.ld x0 r0_1)) (k0_pay3 (View.ld x1 r0_0) (View.ld x0 r0_2)) (View.ld x2 r0_33) (View.ld x3 r0_33)) (k0_pay46 (k0_pay4 (View.ld x1 r0_0) (View.ld x0 r0_3)) (k0_pay5 (View.ld x1 r0_0) (View.ld x0 r0_4)) (View.ld x2 r0_33) (View.ld x3 r0_33)) (k0_pay108 (View.ld x3 r0_34)) (k0_pay109 (View.ld x2 r0_34))) (k0_pay121 (k0_pay51 (k0_pay6 (View.ld x1 r0_0) (View.ld x0 r0_5)) (k0_pay7 (View.ld x1 r0_0) (View.ld x0 r0_6)) (k0_pay38 (View.ld x2 r0_33)) (k0_pay39 (View.ld x3 r0_33))) (k0_pay55 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (k0_pay189 (View.ld x2 r0_35)) (k0_pay190 (View.ld x3 r0_35))) (k0_pay209 (k0_pay131 (k0_pay59 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay64 (k0_pay15 (k0_pay1 (View.ld x1 r0_0)) (View.ld x0 r0_12)) (k0_pay62 (k0_pay39 (View.ld x3 r0_33))) (k0_pay63 (k0_pay14 (k0_pay1 (View.ld x1 r0_0)) (View.ld x0 r0_11)) (k0_pay38 (View.ld x2 r0_33)))) (k0_pay107 (View.ld x2 r0_34)) (k0_pay108 (View.ld x3 r0_34))) (k0_pay139 (k0_pay68 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay72 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay248 (View.ld x2 r0_36)) (k0_pay249 (View.ld x3 r0_36))) (k0_pay313 (k0_pay226 (k0_pay149 (k0_pay76 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay81 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay157 (k0_pay85 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay89 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay243 (k0_pay165 (k0_pay93 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay97 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay173 (k0_pay101 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay105 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay248 (View.ld x2 r0_36)) (k0_pay249 (View.ld x3 r0_36))) (k0_pay348 (k0_pay321 (View.ld x2 r0_37))) (k0_pay349 (k0_pay322 (View.ld x3 r0_37)))) (ix2 p q)
      = hiSteps (T x2) (T x3) 5 (Y x0 x1 p) 22 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece23 (x0 : Vec Ideal S256x4096 .f32) (x1 : Vec Ideal S32x128x128 .bf16) (x2 x3 : Vec Ideal S5x16x128 .f32)
    (p : Fin 256) (q : Fin 128) :
    (k0_pay356 (k0_pay282 (k0_pay197 (k0_pay117 (k0_pay43 (k0_pay2 (View.ld x1 r0_0) (View.ld x0 r0_1)) (k0_pay3 (View.ld x1 r0_0) (View.ld x0 r0_2)) (View.ld x2 r0_33) (View.ld x3 r0_33)) (k0_pay48 (k0_pay4 (View.ld x1 r0_0) (View.ld x0 r0_3)) (k0_pay5 (View.ld x1 r0_0) (View.ld x0 r0_4)) (k0_pay44 (View.ld x2 r0_33)) (k0_pay47 (View.ld x3 r0_33))) (k0_pay107 (View.ld x2 r0_34)) (k0_pay108 (View.ld x3 r0_34))) (k0_pay127 (k0_pay56 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay125 (k0_pay52 (k0_pay6 (View.ld x1 r0_0) (View.ld x0 r0_5)) (k0_pay7 (View.ld x1 r0_0) (View.ld x0 r0_6)) (k0_pay38 (View.ld x2 r0_33)) (k0_pay39 (View.ld x3 r0_33))) (k0_pay108 (View.ld x3 r0_34))) (k0_pay126 (k0_pay107 (View.ld x2 r0_34)))) (k0_pay179 (View.ld x2 r0_35)) (k0_pay180 (View.ld x3 r0_35))) (k0_pay213 (k0_pay135 (k0_pay60 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay65 (k0_pay14 (k0_pay1 (View.ld x1 r0_0)) (View.ld x0 r0_11)) (k0_pay15 (k0_pay1 (View.ld x1 r0_0)) (View.ld x0 r0_12)) (k0_pay61 (k0_pay38 (View.ld x2 r0_33))) (k0_pay62 (k0_pay39 (View.ld x3 r0_33)))) (k0_pay107 (View.ld x2 r0_34)) (k0_pay108 (View.ld x3 r0_34))) (k0_pay145 (k0_pay69 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay73 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay140 (k0_pay107 (View.ld x2 r0_34))) (k0_pay141 (k0_pay108 (View.ld x3 r0_34)))) (k0_pay179 (View.ld x2 r0_35)) (k0_pay180 (View.ld x3 r0_35))) (k0_pay248 (View.ld x2 r0_36)) (k0_pay249 (View.ld x3 r0_36))) (k0_pay319 (k0_pay317 (k0_pay230 (k0_pay153 (k0_pay77 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay82 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay161 (k0_pay86 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay90 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay158 (k0_pay107 (View.ld x2 r0_34))) (k0_pay159 (k0_pay108 (View.ld x3 r0_34)))) (k0_pay179 (View.ld x2 r0_35)) (k0_pay180 (View.ld x3 r0_35))) (k0_pay248 (View.ld x2 r0_36))) (k0_pay318 (k0_pay247 (k0_pay169 (k0_pay94 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay98 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay178 (k0_pay102 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay106 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay108 (View.ld x3 r0_34)) (k0_pay174 (k0_pay107 (View.ld x2 r0_34)))) (k0_pay179 (View.ld x2 r0_35)) (k0_pay180 (View.ld x3 r0_35))) (k0_pay249 (View.ld x3 r0_36)))) (k0_pay321 (View.ld x2 r0_37)) (k0_pay322 (View.ld x3 r0_37))) (ix2 p q)
      = hiSteps (T x2) (T x3) 5 (Y x0 x1 p) 23 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece24 (x0 : Vec Ideal S256x4096 .f32) (x1 : Vec Ideal S32x128x128 .bf16) (x2 x3 : Vec Ideal S5x16x128 .f32)
    (p : Fin 256) (q : Fin 128) :
    (k0_pay360 (k0_pay255 (k0_pay183 (k0_pay112 (k0_pay42 (k0_pay2 (View.ld x1 r0_0) (View.ld x0 r0_1)) (k0_pay3 (View.ld x1 r0_0) (View.ld x0 r0_2)) (View.ld x2 r0_33) (View.ld x3 r0_33)) (k0_pay46 (k0_pay4 (View.ld x1 r0_0) (View.ld x0 r0_3)) (k0_pay5 (View.ld x1 r0_0) (View.ld x0 r0_4)) (View.ld x2 r0_33) (View.ld x3 r0_33)) (k0_pay108 (View.ld x3 r0_34)) (k0_pay109 (View.ld x2 r0_34))) (k0_pay120 (k0_pay51 (k0_pay6 (View.ld x1 r0_0) (View.ld x0 r0_5)) (k0_pay7 (View.ld x1 r0_0) (View.ld x0 r0_6)) (k0_pay38 (View.ld x2 r0_33)) (k0_pay39 (View.ld x3 r0_33))) (k0_pay55 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (View.ld x2 r0_35) (View.ld x3 r0_35)) (k0_pay200 (k0_pay130 (k0_pay59 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay64 (k0_pay15 (k0_pay1 (View.ld x1 r0_0)) (View.ld x0 r0_12)) (k0_pay62 (k0_pay39 (View.ld x3 r0_33))) (k0_pay63 (k0_pay14 (k0_pay1 (View.ld x1 r0_0)) (View.ld x0 r0_11)) (k0_pay38 (View.ld x2 r0_33)))) (k0_pay107 (View.ld x2 r0_34)) (k0_pay108 (View.ld x3 r0_34))) (k0_pay138 (k0_pay68 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay72 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay250 (View.ld x2 r0_36)) (k0_pay251 (View.ld x3 r0_36))) (k0_pay288 (k0_pay216 (k0_pay148 (k0_pay76 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay81 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay156 (k0_pay85 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay89 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay233 (k0_pay164 (k0_pay93 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay97 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay172 (k0_pay101 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay105 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay249 (View.ld x3 r0_36)) (k0_pay284 (k0_pay248 (View.ld x2 r0_36)))) (k0_pay321 (View.ld x2 r0_37)) (k0_pay322 (View.ld x3 r0_37))) (ix2 p q)
      = hiSteps (T x2) (T x3) 5 (Y x0 x1 p) 24 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece25 (x0 : Vec Ideal S256x4096 .f32) (x1 : Vec Ideal S32x128x128 .bf16) (x2 x3 : Vec Ideal S5x16x128 .f32)
    (p : Fin 256) (q : Fin 128) :
    (k0_pay364 (k0_pay259 (k0_pay187 (k0_pay116 (k0_pay43 (k0_pay2 (View.ld x1 r0_0) (View.ld x0 r0_1)) (k0_pay3 (View.ld x1 r0_0) (View.ld x0 r0_2)) (View.ld x2 r0_33) (View.ld x3 r0_33)) (k0_pay48 (k0_pay4 (View.ld x1 r0_0) (View.ld x0 r0_3)) (k0_pay5 (View.ld x1 r0_0) (View.ld x0 r0_4)) (k0_pay44 (View.ld x2 r0_33)) (k0_pay47 (View.ld x3 r0_33))) (k0_pay107 (View.ld x2 r0_34)) (k0_pay108 (View.ld x3 r0_34))) (k0_pay124 (k0_pay52 (k0_pay6 (View.ld x1 r0_0) (View.ld x0 r0_5)) (k0_pay7 (View.ld x1 r0_0) (View.ld x0 r0_6)) (k0_pay38 (View.ld x2 r0_33)) (k0_pay39 (View.ld x3 r0_33))) (k0_pay56 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (View.ld x2 r0_35) (View.ld x3 r0_35)) (k0_pay204 (k0_pay134 (k0_pay60 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay65 (k0_pay14 (k0_pay1 (View.ld x1 r0_0)) (View.ld x0 r0_11)) (k0_pay15 (k0_pay1 (View.ld x1 r0_0)) (View.ld x0 r0_12)) (k0_pay61 (k0_pay38 (View.ld x2 r0_33))) (k0_pay62 (k0_pay39 (View.ld x3 r0_33)))) (k0_pay107 (View.ld x2 r0_34)) (k0_pay108 (View.ld x3 r0_34))) (k0_pay144 (k0_pay142 (k0_pay69 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay107 (View.ld x2 r0_34))) (k0_pay143 (k0_pay73 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay108 (View.ld x3 r0_34)))) (k0_pay179 (View.ld x2 r0_35)) (k0_pay180 (View.ld x3 r0_35))) (k0_pay248 (View.ld x2 r0_36)) (k0_pay249 (View.ld x3 r0_36))) (k0_pay292 (k0_pay220 (k0_pay152 (k0_pay77 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay82 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay160 (k0_pay86 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay90 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay158 (k0_pay107 (View.ld x2 r0_34))) (k0_pay159 (k0_pay108 (View.ld x3 r0_34)))) (k0_pay179 (View.ld x2 r0_35)) (k0_pay180 (View.ld x3 r0_35))) (k0_pay238 (k0_pay177 (k0_pay102 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay106 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay108 (View.ld x3 r0_34)) (k0_pay174 (k0_pay107 (View.ld x2 r0_34)))) (k0_pay236 (k0_pay180 (View.ld x3 r0_35))) (k0_pay237 (k0_pay168 (k0_pay94 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay98 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay179 (View.ld x2 r0_35)))) (k0_pay248 (View.ld x2 r0_36)) (k0_pay249 (View.ld x3 r0_36))) (k0_pay321 (View.ld x2 r0_37)) (k0_pay322 (View.ld x3 r0_37))) (ix2 p q)
      = hiSteps (T x2) (T x3) 5 (Y x0 x1 p) 25 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece26 (x0 : Vec Ideal S256x4096 .f32) (x1 : Vec Ideal S32x128x128 .bf16) (x2 x3 : Vec Ideal S5x16x128 .f32)
    (p : Fin 256) (q : Fin 128) :
    (k0_pay369 (k0_pay263 (k0_pay192 (k0_pay113 (k0_pay42 (k0_pay2 (View.ld x1 r0_0) (View.ld x0 r0_1)) (k0_pay3 (View.ld x1 r0_0) (View.ld x0 r0_2)) (View.ld x2 r0_33) (View.ld x3 r0_33)) (k0_pay46 (k0_pay4 (View.ld x1 r0_0) (View.ld x0 r0_3)) (k0_pay5 (View.ld x1 r0_0) (View.ld x0 r0_4)) (View.ld x2 r0_33) (View.ld x3 r0_33)) (k0_pay108 (View.ld x3 r0_34)) (k0_pay109 (View.ld x2 r0_34))) (k0_pay121 (k0_pay51 (k0_pay6 (View.ld x1 r0_0) (View.ld x0 r0_5)) (k0_pay7 (View.ld x1 r0_0) (View.ld x0 r0_6)) (k0_pay38 (View.ld x2 r0_33)) (k0_pay39 (View.ld x3 r0_33))) (k0_pay55 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (k0_pay189 (View.ld x2 r0_35)) (k0_pay190 (View.ld x3 r0_35))) (k0_pay208 (k0_pay131 (k0_pay59 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay64 (k0_pay15 (k0_pay1 (View.ld x1 r0_0)) (View.ld x0 r0_12)) (k0_pay62 (k0_pay39 (View.ld x3 r0_33))) (k0_pay63 (k0_pay14 (k0_pay1 (View.ld x1 r0_0)) (View.ld x0 r0_11)) (k0_pay38 (View.ld x2 r0_33)))) (k0_pay107 (View.ld x2 r0_34)) (k0_pay108 (View.ld x3 r0_34))) (k0_pay139 (k0_pay68 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay72 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay248 (View.ld x2 r0_36)) (k0_pay249 (View.ld x3 r0_36))) (k0_pay296 (k0_pay225 (k0_pay149 (k0_pay76 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay81 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay157 (k0_pay85 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay89 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay242 (k0_pay165 (k0_pay93 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay97 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay173 (k0_pay101 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay105 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay248 (View.ld x2 r0_36)) (k0_pay249 (View.ld x3 r0_36))) (k0_pay365 (k0_pay321 (View.ld x2 r0_37))) (k0_pay366 (k0_pay322 (View.ld x3 r0_37)))) (ix2 p q)
      = hiSteps (T x2) (T x3) 5 (Y x0 x1 p) 26 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece27 (x0 : Vec Ideal S256x4096 .f32) (x1 : Vec Ideal S32x128x128 .bf16) (x2 x3 : Vec Ideal S5x16x128 .f32)
    (p : Fin 256) (q : Fin 128) :
    (k0_pay373 (k0_pay267 (k0_pay196 (k0_pay117 (k0_pay43 (k0_pay2 (View.ld x1 r0_0) (View.ld x0 r0_1)) (k0_pay3 (View.ld x1 r0_0) (View.ld x0 r0_2)) (View.ld x2 r0_33) (View.ld x3 r0_33)) (k0_pay48 (k0_pay4 (View.ld x1 r0_0) (View.ld x0 r0_3)) (k0_pay5 (View.ld x1 r0_0) (View.ld x0 r0_4)) (k0_pay44 (View.ld x2 r0_33)) (k0_pay47 (View.ld x3 r0_33))) (k0_pay107 (View.ld x2 r0_34)) (k0_pay108 (View.ld x3 r0_34))) (k0_pay127 (k0_pay56 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay125 (k0_pay52 (k0_pay6 (View.ld x1 r0_0) (View.ld x0 r0_5)) (k0_pay7 (View.ld x1 r0_0) (View.ld x0 r0_6)) (k0_pay38 (View.ld x2 r0_33)) (k0_pay39 (View.ld x3 r0_33))) (k0_pay108 (View.ld x3 r0_34))) (k0_pay126 (k0_pay107 (View.ld x2 r0_34)))) (k0_pay179 (View.ld x2 r0_35)) (k0_pay180 (View.ld x3 r0_35))) (k0_pay212 (k0_pay135 (k0_pay60 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay65 (k0_pay14 (k0_pay1 (View.ld x1 r0_0)) (View.ld x0 r0_11)) (k0_pay15 (k0_pay1 (View.ld x1 r0_0)) (View.ld x0 r0_12)) (k0_pay61 (k0_pay38 (View.ld x2 r0_33))) (k0_pay62 (k0_pay39 (View.ld x3 r0_33)))) (k0_pay107 (View.ld x2 r0_34)) (k0_pay108 (View.ld x3 r0_34))) (k0_pay145 (k0_pay69 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay73 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay140 (k0_pay107 (View.ld x2 r0_34))) (k0_pay141 (k0_pay108 (View.ld x3 r0_34)))) (k0_pay179 (View.ld x2 r0_35)) (k0_pay180 (View.ld x3 r0_35))) (k0_pay248 (View.ld x2 r0_36)) (k0_pay249 (View.ld x3 r0_36))) (k0_pay302 (k0_pay246 (k0_pay169 (k0_pay94 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay98 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay178 (k0_pay102 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay106 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay108 (View.ld x3 r0_34)) (k0_pay174 (k0_pay107 (View.ld x2 r0_34)))) (k0_pay179 (View.ld x2 r0_35)) (k0_pay180 (View.ld x3 r0_35))) (k0_pay300 (k0_pay229 (k0_pay153 (k0_pay77 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay82 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay161 (k0_pay86 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay90 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay158 (k0_pay107 (View.ld x2 r0_34))) (k0_pay159 (k0_pay108 (View.ld x3 r0_34)))) (k0_pay179 (View.ld x2 r0_35)) (k0_pay180 (View.ld x3 r0_35))) (k0_pay249 (View.ld x3 r0_36))) (k0_pay301 (k0_pay248 (View.ld x2 r0_36)))) (k0_pay321 (View.ld x2 r0_37)) (k0_pay322 (View.ld x3 r0_37))) (ix2 p q)
      = hiSteps (T x2) (T x3) 5 (Y x0 x1 p) 27 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece28 (x0 : Vec Ideal S256x4096 .f32) (x1 : Vec Ideal S32x128x128 .bf16) (x2 x3 : Vec Ideal S5x16x128 .f32)
    (p : Fin 256) (q : Fin 128) :
    (k0_pay377 (k0_pay271 (k0_pay184 (k0_pay112 (k0_pay42 (k0_pay2 (View.ld x1 r0_0) (View.ld x0 r0_1)) (k0_pay3 (View.ld x1 r0_0) (View.ld x0 r0_2)) (View.ld x2 r0_33) (View.ld x3 r0_33)) (k0_pay46 (k0_pay4 (View.ld x1 r0_0) (View.ld x0 r0_3)) (k0_pay5 (View.ld x1 r0_0) (View.ld x0 r0_4)) (View.ld x2 r0_33) (View.ld x3 r0_33)) (k0_pay108 (View.ld x3 r0_34)) (k0_pay109 (View.ld x2 r0_34))) (k0_pay120 (k0_pay51 (k0_pay6 (View.ld x1 r0_0) (View.ld x0 r0_5)) (k0_pay7 (View.ld x1 r0_0) (View.ld x0 r0_6)) (k0_pay38 (View.ld x2 r0_33)) (k0_pay39 (View.ld x3 r0_33))) (k0_pay55 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (View.ld x2 r0_35) (View.ld x3 r0_35)) (k0_pay201 (k0_pay130 (k0_pay59 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay64 (k0_pay15 (k0_pay1 (View.ld x1 r0_0)) (View.ld x0 r0_12)) (k0_pay62 (k0_pay39 (View.ld x3 r0_33))) (k0_pay63 (k0_pay14 (k0_pay1 (View.ld x1 r0_0)) (View.ld x0 r0_11)) (k0_pay38 (View.ld x2 r0_33)))) (k0_pay107 (View.ld x2 r0_34)) (k0_pay108 (View.ld x3 r0_34))) (k0_pay138 (k0_pay68 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay72 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay268 (k0_pay248 (View.ld x2 r0_36))) (k0_pay269 (k0_pay249 (View.ld x3 r0_36)))) (k0_pay306 (k0_pay217 (k0_pay148 (k0_pay76 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay81 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay156 (k0_pay85 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay89 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay234 (k0_pay164 (k0_pay93 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay97 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay172 (k0_pay101 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay105 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay248 (View.ld x2 r0_36)) (k0_pay249 (View.ld x3 r0_36))) (k0_pay321 (View.ld x2 r0_37)) (k0_pay322 (View.ld x3 r0_37))) (ix2 p q)
      = hiSteps (T x2) (T x3) 5 (Y x0 x1 p) 28 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece29 (x0 : Vec Ideal S256x4096 .f32) (x1 : Vec Ideal S32x128x128 .bf16) (x2 x3 : Vec Ideal S5x16x128 .f32)
    (p : Fin 256) (q : Fin 128) :
    (k0_pay381 (k0_pay275 (k0_pay188 (k0_pay116 (k0_pay43 (k0_pay2 (View.ld x1 r0_0) (View.ld x0 r0_1)) (k0_pay3 (View.ld x1 r0_0) (View.ld x0 r0_2)) (View.ld x2 r0_33) (View.ld x3 r0_33)) (k0_pay48 (k0_pay4 (View.ld x1 r0_0) (View.ld x0 r0_3)) (k0_pay5 (View.ld x1 r0_0) (View.ld x0 r0_4)) (k0_pay44 (View.ld x2 r0_33)) (k0_pay47 (View.ld x3 r0_33))) (k0_pay107 (View.ld x2 r0_34)) (k0_pay108 (View.ld x3 r0_34))) (k0_pay124 (k0_pay52 (k0_pay6 (View.ld x1 r0_0) (View.ld x0 r0_5)) (k0_pay7 (View.ld x1 r0_0) (View.ld x0 r0_6)) (k0_pay38 (View.ld x2 r0_33)) (k0_pay39 (View.ld x3 r0_33))) (k0_pay56 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (View.ld x2 r0_35) (View.ld x3 r0_35)) (k0_pay205 (k0_pay134 (k0_pay60 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay65 (k0_pay14 (k0_pay1 (View.ld x1 r0_0)) (View.ld x0 r0_11)) (k0_pay15 (k0_pay1 (View.ld x1 r0_0)) (View.ld x0 r0_12)) (k0_pay61 (k0_pay38 (View.ld x2 r0_33))) (k0_pay62 (k0_pay39 (View.ld x3 r0_33)))) (k0_pay107 (View.ld x2 r0_34)) (k0_pay108 (View.ld x3 r0_34))) (k0_pay144 (k0_pay142 (k0_pay69 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay107 (View.ld x2 r0_34))) (k0_pay143 (k0_pay73 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay108 (View.ld x3 r0_34)))) (k0_pay179 (View.ld x2 r0_35)) (k0_pay180 (View.ld x3 r0_35))) (k0_pay248 (View.ld x2 r0_36)) (k0_pay249 (View.ld x3 r0_36))) (k0_pay310 (k0_pay222 (k0_pay152 (k0_pay77 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay82 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay160 (k0_pay86 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay90 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay158 (k0_pay107 (View.ld x2 r0_34))) (k0_pay159 (k0_pay108 (View.ld x3 r0_34)))) (k0_pay218 (k0_pay179 (View.ld x2 r0_35))) (k0_pay221 (k0_pay180 (View.ld x3 r0_35)))) (k0_pay239 (k0_pay168 (k0_pay94 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay98 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay177 (k0_pay102 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay106 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay108 (View.ld x3 r0_34)) (k0_pay174 (k0_pay107 (View.ld x2 r0_34)))) (k0_pay235 (k0_pay179 (View.ld x2 r0_35))) (k0_pay236 (k0_pay180 (View.ld x3 r0_35)))) (k0_pay248 (View.ld x2 r0_36)) (k0_pay249 (View.ld x3 r0_36))) (k0_pay321 (View.ld x2 r0_37)) (k0_pay322 (View.ld x3 r0_37))) (ix2 p q)
      = hiSteps (T x2) (T x3) 5 (Y x0 x1 p) 29 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece30 (x0 : Vec Ideal S256x4096 .f32) (x1 : Vec Ideal S32x128x128 .bf16) (x2 x3 : Vec Ideal S5x16x128 .f32)
    (p : Fin 256) (q : Fin 128) :
    (k0_pay385 (k0_pay279 (k0_pay193 (k0_pay113 (k0_pay42 (k0_pay2 (View.ld x1 r0_0) (View.ld x0 r0_1)) (k0_pay3 (View.ld x1 r0_0) (View.ld x0 r0_2)) (View.ld x2 r0_33) (View.ld x3 r0_33)) (k0_pay46 (k0_pay4 (View.ld x1 r0_0) (View.ld x0 r0_3)) (k0_pay5 (View.ld x1 r0_0) (View.ld x0 r0_4)) (View.ld x2 r0_33) (View.ld x3 r0_33)) (k0_pay108 (View.ld x3 r0_34)) (k0_pay109 (View.ld x2 r0_34))) (k0_pay121 (k0_pay51 (k0_pay6 (View.ld x1 r0_0) (View.ld x0 r0_5)) (k0_pay7 (View.ld x1 r0_0) (View.ld x0 r0_6)) (k0_pay38 (View.ld x2 r0_33)) (k0_pay39 (View.ld x3 r0_33))) (k0_pay55 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay107 (View.ld x2 r0_34)) (k0_pay108 (View.ld x3 r0_34))) (k0_pay189 (View.ld x2 r0_35)) (k0_pay190 (View.ld x3 r0_35))) (k0_pay209 (k0_pay131 (k0_pay59 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay64 (k0_pay15 (k0_pay1 (View.ld x1 r0_0)) (View.ld x0 r0_12)) (k0_pay62 (k0_pay39 (View.ld x3 r0_33))) (k0_pay63 (k0_pay14 (k0_pay1 (View.ld x1 r0_0)) (View.ld x0 r0_11)) (k0_pay38 (View.ld x2 r0_33)))) (k0_pay107 (View.ld x2 r0_34)) (k0_pay108 (View.ld x3 r0_34))) (k0_pay139 (k0_pay68 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay72 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay248 (View.ld x2 r0_36)) (k0_pay249 (View.ld x3 r0_36))) (k0_pay314 (k0_pay226 (k0_pay149 (k0_pay76 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay81 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay157 (k0_pay85 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay89 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay243 (k0_pay165 (k0_pay93 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay97 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay173 (k0_pay101 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay105 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay107 (View.ld x2 r0_34)) (k0_pay108 (View.ld x3 r0_34))) (k0_pay179 (View.ld x2 r0_35)) (k0_pay180 (View.ld x3 r0_35))) (k0_pay248 (View.ld x2 r0_36)) (k0_pay249 (View.ld x3 r0_36))) (k0_pay321 (View.ld x2 r0_37)) (k0_pay322 (View.ld x3 r0_37))) (ix2 p q)
      = hiSteps (T x2) (T x3) 5 (Y x0 x1 p) 30 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

theorem piece31 (x0 : Vec Ideal S256x4096 .f32) (x1 : Vec Ideal S32x128x128 .bf16) (x2 x3 : Vec Ideal S5x16x128 .f32)
    (p : Fin 256) (q : Fin 128) :
    (k0_pay389 (k0_pay283 (k0_pay197 (k0_pay117 (k0_pay43 (k0_pay2 (View.ld x1 r0_0) (View.ld x0 r0_1)) (k0_pay3 (View.ld x1 r0_0) (View.ld x0 r0_2)) (View.ld x2 r0_33) (View.ld x3 r0_33)) (k0_pay48 (k0_pay4 (View.ld x1 r0_0) (View.ld x0 r0_3)) (k0_pay5 (View.ld x1 r0_0) (View.ld x0 r0_4)) (k0_pay44 (View.ld x2 r0_33)) (k0_pay47 (View.ld x3 r0_33))) (k0_pay107 (View.ld x2 r0_34)) (k0_pay108 (View.ld x3 r0_34))) (k0_pay127 (k0_pay56 (k0_pay10 (k0_pay8 (View.ld x0 r0_7)) (k0_pay9 (View.ld x1 r0_0))) (k0_pay11 (k0_pay1 (View.ld x1 r0_0)) (View.ld x0 r0_8)) (k0_pay38 (View.ld x2 r0_33)) (k0_pay39 (View.ld x3 r0_33))) (k0_pay125 (k0_pay52 (k0_pay6 (View.ld x1 r0_0) (View.ld x0 r0_5)) (k0_pay7 (View.ld x1 r0_0) (View.ld x0 r0_6)) (k0_pay38 (View.ld x2 r0_33)) (k0_pay39 (View.ld x3 r0_33))) (k0_pay108 (View.ld x3 r0_34))) (k0_pay126 (k0_pay107 (View.ld x2 r0_34)))) (k0_pay179 (View.ld x2 r0_35)) (k0_pay180 (View.ld x3 r0_35))) (k0_pay213 (k0_pay135 (k0_pay60 (k0_pay12 (k0_pay1 (View.ld x1 r0_0)) (View.ld x0 r0_9)) (k0_pay13 (k0_pay1 (View.ld x1 r0_0)) (View.ld x0 r0_10)) (k0_pay38 (View.ld x2 r0_33)) (k0_pay39 (View.ld x3 r0_33))) (k0_pay65 (k0_pay14 (k0_pay1 (View.ld x1 r0_0)) (View.ld x0 r0_11)) (k0_pay15 (k0_pay1 (View.ld x1 r0_0)) (View.ld x0 r0_12)) (k0_pay61 (k0_pay38 (View.ld x2 r0_33))) (k0_pay62 (k0_pay39 (View.ld x3 r0_33)))) (k0_pay107 (View.ld x2 r0_34)) (k0_pay108 (View.ld x3 r0_34))) (k0_pay145 (k0_pay69 (k0_pay16 (k0_pay1 (View.ld x1 r0_0)) (View.ld x0 r0_13)) (k0_pay17 (k0_pay1 (View.ld x1 r0_0)) (View.ld x0 r0_14)) (k0_pay38 (View.ld x2 r0_33)) (k0_pay39 (View.ld x3 r0_33))) (k0_pay73 (k0_pay18 (k0_pay1 (View.ld x1 r0_0)) (View.ld x0 r0_15)) (k0_pay19 (k0_pay1 (View.ld x1 r0_0)) (View.ld x0 r0_16)) (k0_pay38 (View.ld x2 r0_33)) (k0_pay39 (View.ld x3 r0_33))) (k0_pay140 (k0_pay107 (View.ld x2 r0_34))) (k0_pay141 (k0_pay108 (View.ld x3 r0_34)))) (k0_pay179 (View.ld x2 r0_35)) (k0_pay180 (View.ld x3 r0_35))) (k0_pay248 (View.ld x2 r0_36)) (k0_pay249 (View.ld x3 r0_36))) (k0_pay320 (k0_pay230 (k0_pay153 (k0_pay77 (k0_pay20 (k0_pay1 (View.ld x1 r0_0)) (View.ld x0 r0_17)) (k0_pay21 (k0_pay1 (View.ld x1 r0_0)) (View.ld x0 r0_18)) (k0_pay38 (View.ld x2 r0_33)) (k0_pay39 (View.ld x3 r0_33))) (k0_pay82 (k0_pay22 (k0_pay1 (View.ld x1 r0_0)) (View.ld x0 r0_19)) (k0_pay23 (k0_pay1 (View.ld x1 r0_0)) (View.ld x0 r0_20)) (k0_pay78 (k0_pay38 (View.ld x2 r0_33))) (k0_pay79 (k0_pay39 (View.ld x3 r0_33)))) (k0_pay107 (View.ld x2 r0_34)) (k0_pay108 (View.ld x3 r0_34))) (k0_pay161 (k0_pay86 (k0_pay24 (k0_pay1 (View.ld x1 r0_0)) (View.ld x0 r0_21)) (k0_pay27 (k0_pay25 (View.ld x0 r0_22)) (k0_pay26 (k0_pay1 (View.ld x1 r0_0)))) (k0_pay38 (View.ld x2 r0_33)) (k0_pay39 (View.ld x3 r0_33))) (k0_pay90 (k0_pay28 (k0_pay1 (View.ld x1 r0_0)) (View.ld x0 r0_23)) (k0_pay29 (k0_pay1 (View.ld x1 r0_0)) (View.ld x0 r0_24)) (k0_pay38 (View.ld x2 r0_33)) (k0_pay39 (View.ld x3 r0_33))) (k0_pay158 (k0_pay107 (View.ld x2 r0_34))) (k0_pay159 (k0_pay108 (View.ld x3 r0_34)))) (k0_pay179 (View.ld x2 r0_35)) (k0_pay180 (View.ld x3 r0_35))) (k0_pay247 (k0_pay169 (k0_pay94 (k0_pay30 (k0_pay1 (View.ld x1 r0_0)) (View.ld x0 r0_25)) (k0_pay31 (k0_pay1 (View.ld x1 r0_0)) (View.ld x0 r0_26)) (k0_pay38 (View.ld x2 r0_33)) (k0_pay39 (View.ld x3 r0_33))) (k0_pay98 (k0_pay32 (k0_pay1 (View.ld x1 r0_0)) (View.ld x0 r0_27)) (k0_pay33 (k0_pay1 (View.ld x1 r0_0)) (View.ld x0 r0_28)) (k0_pay38 (View.ld x2 r0_33)) (k0_pay39 (View.ld x3 r0_33))) (k0_pay107 (View.ld x2 r0_34)) (k0_pay108 (View.ld x3 r0_34))) (k0_pay178 (k0_pay102 (k0_pay34 (k0_pay1 (View.ld x1 r0_0)) (View.ld x0 r0_29)) (k0_pay35 (k0_pay1 (View.ld x1 r0_0)) (View.ld x0 r0_30)) (k0_pay38 (View.ld x2 r0_33)) (k0_pay39 (View.ld x3 r0_33))) (k0_pay106 (k0_pay36 (k0_pay1 (View.ld x1 r0_0)) (View.ld x0 r0_31)) (k0_pay37 (k0_pay1 (View.ld x1 r0_0)) (View.ld x0 r0_32)) (k0_pay38 (View.ld x2 r0_33)) (k0_pay39 (View.ld x3 r0_33))) (k0_pay108 (View.ld x3 r0_34)) (k0_pay174 (k0_pay107 (View.ld x2 r0_34)))) (k0_pay179 (View.ld x2 r0_35)) (k0_pay180 (View.ld x3 r0_35))) (k0_pay315 (k0_pay248 (View.ld x2 r0_36))) (k0_pay316 (k0_pay249 (View.ld x3 r0_36)))) (k0_pay321 (View.ld x2 r0_37)) (k0_pay322 (View.ld x3 r0_37))) (ix2 p q)
      = hiSteps (T x2) (T x3) 5 (Y x0 x1 p) 31 q.val := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389]
  simp only [subf_apply, addf_apply, mulf_apply, mm_lane, tab_lane x2 0 0, tab_lane x2 0 1, tab_lane x2 0 2, tab_lane x2 0 3, tab_lane x2 0 4, tab_lane x2 0 5, tab_lane x2 0 6, tab_lane x2 0 7, tab_lane x2 0 8, tab_lane x2 0 9, tab_lane x2 0 10, tab_lane x2 0 11, tab_lane x2 0 12, tab_lane x2 0 13, tab_lane x2 0 14, tab_lane x2 0 15, tab_lane x2 1 0, tab_lane x2 1 1, tab_lane x2 1 2, tab_lane x2 1 3, tab_lane x2 1 4, tab_lane x2 1 5, tab_lane x2 1 6, tab_lane x2 1 7, tab_lane x2 1 8, tab_lane x2 1 9, tab_lane x2 1 10, tab_lane x2 1 11, tab_lane x2 1 12, tab_lane x2 1 13, tab_lane x2 1 14, tab_lane x2 1 15, tab_lane x2 2 0, tab_lane x2 2 1, tab_lane x2 2 2, tab_lane x2 2 3, tab_lane x2 2 4, tab_lane x2 2 5, tab_lane x2 2 6, tab_lane x2 2 7, tab_lane x2 2 8, tab_lane x2 2 9, tab_lane x2 2 10, tab_lane x2 2 11, tab_lane x2 2 12, tab_lane x2 2 13, tab_lane x2 2 14, tab_lane x2 2 15, tab_lane x2 3 0, tab_lane x2 3 1, tab_lane x2 3 2, tab_lane x2 3 3, tab_lane x2 3 4, tab_lane x2 3 5, tab_lane x2 3 6, tab_lane x2 3 7, tab_lane x2 3 8, tab_lane x2 3 9, tab_lane x2 3 10, tab_lane x2 3 11, tab_lane x2 3 12, tab_lane x2 3 13, tab_lane x2 3 14, tab_lane x2 3 15, tab_lane x2 4 0, tab_lane x2 4 1, tab_lane x2 4 2, tab_lane x2 4 3, tab_lane x2 4 4, tab_lane x2 4 5, tab_lane x2 4 6, tab_lane x2 4 7, tab_lane x2 4 8, tab_lane x2 4 9, tab_lane x2 4 10, tab_lane x2 4 11, tab_lane x2 4 12, tab_lane x2 4 13, tab_lane x2 4 14, tab_lane x2 4 15, tab_lane x3 0 0, tab_lane x3 0 1, tab_lane x3 0 2, tab_lane x3 0 3, tab_lane x3 0 4, tab_lane x3 0 5, tab_lane x3 0 6, tab_lane x3 0 7, tab_lane x3 0 8, tab_lane x3 0 9, tab_lane x3 0 10, tab_lane x3 0 11, tab_lane x3 0 12, tab_lane x3 0 13, tab_lane x3 0 14, tab_lane x3 0 15, tab_lane x3 1 0, tab_lane x3 1 1, tab_lane x3 1 2, tab_lane x3 1 3, tab_lane x3 1 4, tab_lane x3 1 5, tab_lane x3 1 6, tab_lane x3 1 7, tab_lane x3 1 8, tab_lane x3 1 9, tab_lane x3 1 10, tab_lane x3 1 11, tab_lane x3 1 12, tab_lane x3 1 13, tab_lane x3 1 14, tab_lane x3 1 15, tab_lane x3 2 0, tab_lane x3 2 1, tab_lane x3 2 2, tab_lane x3 2 3, tab_lane x3 2 4, tab_lane x3 2 5, tab_lane x3 2 6, tab_lane x3 2 7, tab_lane x3 2 8, tab_lane x3 2 9, tab_lane x3 2 10, tab_lane x3 2 11, tab_lane x3 2 12, tab_lane x3 2 13, tab_lane x3 2 14, tab_lane x3 2 15, tab_lane x3 3 0, tab_lane x3 3 1, tab_lane x3 3 2, tab_lane x3 3 3, tab_lane x3 3 4, tab_lane x3 3 5, tab_lane x3 3 6, tab_lane x3 3 7, tab_lane x3 3 8, tab_lane x3 3 9, tab_lane x3 3 10, tab_lane x3 3 11, tab_lane x3 3 12, tab_lane x3 3 13, tab_lane x3 3 14, tab_lane x3 3 15, tab_lane x3 4 0, tab_lane x3 4 1, tab_lane x3 4 2, tab_lane x3 4 3, tab_lane x3 4 4, tab_lane x3 4 5, tab_lane x3 4 6, tab_lane x3 4 7, tab_lane x3 4 8, tab_lane x3 4 9, tab_lane x3 4 10, tab_lane x3 4 11, tab_lane x3 4 12, tab_lane x3 4 13, tab_lane x3 4 14, tab_lane x3 4 15]
  simp only [hiSteps, hiStep, Y]
  norm_num

end Cert.KernelIdeal.Body

end
-- ==== Proof.KernelOut.lean ====
/-
  The output block of one grid step as ONE function of the step's input blocks.

  The step stores its result in 32 pieces, piece cb covering columns 128·cb … 128·cb + 127 of all 256 rows.  Each piece is
  the five block stages at block cb; so the whole block, read at row p and column i, is the block stages at block
  i / 128, lane i mod 128 — whichever piece the column falls in.
-/
import proofs.«122426_j35845797052976_2_alg».proof.Proof.KernelPiecesA
import proofs.«122426_j35845797052976_2_alg».proof.Proof.KernelPiecesB

set_option maxRecDepth 16384

noncomputable section

namespace Cert.KernelIdeal.Body

open Cert.KernelIdeal Cert.KernelIdeal.Gen Idealize.ShloMosaic Idealize.ShloMosaic.ValueIdx Cert.Butterfly

/-- The output block, entry by entry: row `y 0`; column `y 1` is lane `(y 1) % 128` of block `(y 1) / 128`. -/
def blockOut (x0 : Vec Ideal S256x4096 .f32) (x1 : Vec Ideal S32x128x128 .bf16) (x2 x3 : Vec Ideal S5x16x128 .f32)
    (y : S256x4096.Idx) : EReal :=
  hiSteps (T x2) (T x3) 5 (Y x0 x1 (y 0)) ((y 1).val / 128) ((y 1).val % 128)

/-- At an index of the piece that starts at column `o = 128·cb`, the block and the lane are `cb` and the local column. -/
theorem blockOut_emb (x0 : Vec Ideal S256x4096 .f32) (x1 : Vec Ideal S32x128x128 .bf16) (x2 x3 : Vec Ideal S5x16x128 .f32)
    (o cb : ℕ) (inb : ∀ a, (![0, o] : Fin 2 → ℕ) a + S256x128.size a ≤ S256x4096.size a) (ho : o = 128 * cb)
    (x : (Rect.unit (s := S256x4096) ![0, o] S256x128.size inb).shape.Idx) :
    blockOut x0 x1 x2 x3 ((Rect.unit (s := S256x4096) ![0, o] S256x128.size inb).emb x)
      = hiSteps (T x2) (T x3) 5 (Y x0 x1 (x 0)) cb (x 1).val := by
  have e0 : (Rect.unit (s := S256x4096) ![0, o] S256x128.size inb).emb x 0 = x 0 :=
    Fin.ext (by rw [Rect.emb_apply]; show 0 + 1 * (x 0).val = _; omega)
  have e1 : ((Rect.unit (s := S256x4096) ![0, o] S256x128.size inb).emb x 1).val = 128 * cb + (x 1).val := by
    rw [Rect.emb_apply]; show o + 1 * (x 1).val = _; omega
  have hq : (x 1).val < 128 := (x 1).isLt
  unfold blockOut
  rw [e0, e1, show (128 * cb + (x 1).val) / 128 = cb by omega, show (128 * cb + (x 1).val) % 128 = (x 1).val by omega]

/-- What the body leaves in its output block is `blockOut` of its input blocks. -/
theorem out_eq (x0 : Vec Ideal S256x4096 .f32) (x1 : Vec Ideal S32x128x128 .bf16) (x2 x3 : Vec Ideal S5x16x128 .f32) :
    out0_4 x0 x1 x2 x3 = blockOut x0 x1 x2 x3 := by
  funext y
  unfold out0_4
  refine View.canon_apply_of_pieces (Val := Elt Ideal) (blockOut x0 x1 x2 x3) _ ?_ y (cover0_4 _ _ _ _ _ _ _ _ _ _ _ _ _ _ _ _ _ _ _ _ _ _ _ _ _ _ _ _ _ _ _ _ y)
  simp only [List.forall_mem_cons, List.not_mem_nil, IsEmpty.forall_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro x
    rw [blockOut_emb x0 x1 x2 x3 3968 31 _ rfl x]
    exact (congrArg _ (eq_ix2 x)).trans (piece31 x0 x1 x2 x3 (x 0) (x 1))
  · intro x
    rw [blockOut_emb x0 x1 x2 x3 3840 30 _ rfl x]
    exact (congrArg _ (eq_ix2 x)).trans (piece30 x0 x1 x2 x3 (x 0) (x 1))
  · intro x
    rw [blockOut_emb x0 x1 x2 x3 3712 29 _ rfl x]
    exact (congrArg _ (eq_ix2 x)).trans (piece29 x0 x1 x2 x3 (x 0) (x 1))
  · intro x
    rw [blockOut_emb x0 x1 x2 x3 3584 28 _ rfl x]
    exact (congrArg _ (eq_ix2 x)).trans (piece28 x0 x1 x2 x3 (x 0) (x 1))
  · intro x
    rw [blockOut_emb x0 x1 x2 x3 3456 27 _ rfl x]
    exact (congrArg _ (eq_ix2 x)).trans (piece27 x0 x1 x2 x3 (x 0) (x 1))
  · intro x
    rw [blockOut_emb x0 x1 x2 x3 3328 26 _ rfl x]
    exact (congrArg _ (eq_ix2 x)).trans (piece26 x0 x1 x2 x3 (x 0) (x 1))
  · intro x
    rw [blockOut_emb x0 x1 x2 x3 3200 25 _ rfl x]
    exact (congrArg _ (eq_ix2 x)).trans (piece25 x0 x1 x2 x3 (x 0) (x 1))
  · intro x
    rw [blockOut_emb x0 x1 x2 x3 3072 24 _ rfl x]
    exact (congrArg _ (eq_ix2 x)).trans (piece24 x0 x1 x2 x3 (x 0) (x 1))
  · intro x
    rw [blockOut_emb x0 x1 x2 x3 2944 23 _ rfl x]
    exact (congrArg _ (eq_ix2 x)).trans (piece23 x0 x1 x2 x3 (x 0) (x 1))
  · intro x
    rw [blockOut_emb x0 x1 x2 x3 2816 22 _ rfl x]
    exact (congrArg _ (eq_ix2 x)).trans (piece22 x0 x1 x2 x3 (x 0) (x 1))
  · intro x
    rw [blockOut_emb x0 x1 x2 x3 2688 21 _ rfl x]
    exact (congrArg _ (eq_ix2 x)).trans (piece21 x0 x1 x2 x3 (x 0) (x 1))
  · intro x
    rw [blockOut_emb x0 x1 x2 x3 2560 20 _ rfl x]
    exact (congrArg _ (eq_ix2 x)).trans (piece20 x0 x1 x2 x3 (x 0) (x 1))
  · intro x
    rw [blockOut_emb x0 x1 x2 x3 2432 19 _ rfl x]
    exact (congrArg _ (eq_ix2 x)).trans (piece19 x0 x1 x2 x3 (x 0) (x 1))
  · intro x
    rw [blockOut_emb x0 x1 x2 x3 2304 18 _ rfl x]
    exact (congrArg _ (eq_ix2 x)).trans (piece18 x0 x1 x2 x3 (x 0) (x 1))
  · intro x
    rw [blockOut_emb x0 x1 x2 x3 2176 17 _ rfl x]
    exact (congrArg _ (eq_ix2 x)).trans (piece17 x0 x1 x2 x3 (x 0) (x 1))
  · intro x
    rw [blockOut_emb x0 x1 x2 x3 2048 16 _ rfl x]
    exact (congrArg _ (eq_ix2 x)).trans (piece16 x0 x1 x2 x3 (x 0) (x 1))
  · intro x
    rw [blockOut_emb x0 x1 x2 x3 1920 15 _ rfl x]
    exact (congrArg _ (eq_ix2 x)).trans (piece15 x0 x1 x2 x3 (x 0) (x 1))
  · intro x
    rw [blockOut_emb x0 x1 x2 x3 1792 14 _ rfl x]
    exact (congrArg _ (eq_ix2 x)).trans (piece14 x0 x1 x2 x3 (x 0) (x 1))
  · intro x
    rw [blockOut_emb x0 x1 x2 x3 1664 13 _ rfl x]
    exact (congrArg _ (eq_ix2 x)).trans (piece13 x0 x1 x2 x3 (x 0) (x 1))
  · intro x
    rw [blockOut_emb x0 x1 x2 x3 1536 12 _ rfl x]
    exact (congrArg _ (eq_ix2 x)).trans (piece12 x0 x1 x2 x3 (x 0) (x 1))
  · intro x
    rw [blockOut_emb x0 x1 x2 x3 1408 11 _ rfl x]
    exact (congrArg _ (eq_ix2 x)).trans (piece11 x0 x1 x2 x3 (x 0) (x 1))
  · intro x
    rw [blockOut_emb x0 x1 x2 x3 1280 10 _ rfl x]
    exact (congrArg _ (eq_ix2 x)).trans (piece10 x0 x1 x2 x3 (x 0) (x 1))
  · intro x
    rw [blockOut_emb x0 x1 x2 x3 1152 9 _ rfl x]
    exact (congrArg _ (eq_ix2 x)).trans (piece9 x0 x1 x2 x3 (x 0) (x 1))
  · intro x
    rw [blockOut_emb x0 x1 x2 x3 1024 8 _ rfl x]
    exact (congrArg _ (eq_ix2 x)).trans (piece8 x0 x1 x2 x3 (x 0) (x 1))
  · intro x
    rw [blockOut_emb x0 x1 x2 x3 896 7 _ rfl x]
    exact (congrArg _ (eq_ix2 x)).trans (piece7 x0 x1 x2 x3 (x 0) (x 1))
  · intro x
    rw [blockOut_emb x0 x1 x2 x3 768 6 _ rfl x]
    exact (congrArg _ (eq_ix2 x)).trans (piece6 x0 x1 x2 x3 (x 0) (x 1))
  · intro x
    rw [blockOut_emb x0 x1 x2 x3 640 5 _ rfl x]
    exact (congrArg _ (eq_ix2 x)).trans (piece5 x0 x1 x2 x3 (x 0) (x 1))
  · intro x
    rw [blockOut_emb x0 x1 x2 x3 512 4 _ rfl x]
    exact (congrArg _ (eq_ix2 x)).trans (piece4 x0 x1 x2 x3 (x 0) (x 1))
  · intro x
    rw [blockOut_emb x0 x1 x2 x3 384 3 _ rfl x]
    exact (congrArg _ (eq_ix2 x)).trans (piece3 x0 x1 x2 x3 (x 0) (x 1))
  · intro x
    rw [blockOut_emb x0 x1 x2 x3 256 2 _ rfl x]
    exact (congrArg _ (eq_ix2 x)).trans (piece2 x0 x1 x2 x3 (x 0) (x 1))
  · intro x
    rw [blockOut_emb x0 x1 x2 x3 128 1 _ rfl x]
    exact (congrArg _ (eq_ix2 x)).trans (piece1 x0 x1 x2 x3 (x 0) (x 1))
  · intro x
    rw [blockOut_emb x0 x1 x2 x3 0 0 _ rfl x]
    exact (congrArg _ (eq_ix2 x)).trans (piece0 x0 x1 x2 x3 (x 0) (x 1))

end Cert.KernelIdeal.Body

end
-- ==== Proof.HiBlocksCongr.lean ====
/-
  The block stages at lane q only look at lane q.

  With 32 blocks and block distances 1, 2, 4, 8, 16, a block stage reads, for block cb < 32, row
  (cb / 2e)·e + cb mod e < 16 of its table, block cb itself and its partner cb ± e, which is again below 32.  So two
  families of tables that agree at lane q on rows < 16 and two block arrays that agree at lane q on blocks < 32
  give the same result at lane q of every block < 32.
-/
import Mathlib.Tactic.IntervalCases
import proofs.«122426_j35845797052976_2_alg».proof.Proof.HiBlocks

noncomputable section

namespace Cert.Butterfly

/-- The block distances of stages 7 … 11. -/
def HiDist (e : ℕ) : Prop := e = 1 ∨ e = 2 ∨ e = 4 ∨ e = 8 ∨ e = 16

theorem hiDist_pow (n : ℕ) (hn : n < 5) : HiDist (2 ^ n) := by
  unfold HiDist
  interval_cases n <;> norm_num

/-- For a block below 32: the table row is below 16, the upper partner of a lower member is below 32, and so is the
    lower partner of any block. -/
theorem hi_arith (e : ℕ) (he : HiDist e) (cb : ℕ) (hcb : cb < 32) :
    cb / (2 * e) * e + cb % e < 16 ∧ (cb / e % 2 = 0 → cb + e < 32) ∧ cb - e < 32 := by
  rcases he with rfl | rfl | rfl | rfl | rfl <;> omega

/-- One block stage at lane q only looks at lane q, at table rows below 16 and at blocks below 32. -/
theorem hiStep_congr (e : ℕ) (he : HiDist e) (tc ts tc' ts' : ℕ → ℕ → EReal) (Y Y' : ℕ → ℕ → EReal) (q : ℕ)
    (hT : ∀ r, r < 16 → tc r q = tc' r q) (hS : ∀ r, r < 16 → ts r q = ts' r q)
    (hY : ∀ cb, cb < 32 → Y cb q = Y' cb q) (cb : ℕ) (hcb : cb < 32) :
    hiStep e tc ts Y cb q = hiStep e tc' ts' Y' cb q := by
  obtain ⟨hr, hlo, hhi⟩ := hi_arith e he cb hcb
  unfold hiStep
  by_cases hpar : cb / e % 2 = 0
  · rw [if_pos hpar, if_pos hpar, hT _ hr, hS _ hr, hY cb hcb, hY (cb + e) (hlo hpar)]
  · rw [if_neg hpar, if_neg hpar, hT _ hr, hS _ hr, hY cb hcb, hY (cb - e) hhi]

/-- The first n ≤ 5 block stages at lane q only look at lane q, at table rows below 16 and at blocks below 32. -/
theorem hiSteps_congr (Tc Ts Tc' Ts' : ℕ → ℕ → ℕ → EReal) (Y Y' : ℕ → ℕ → EReal) (q : ℕ)
    (hT : ∀ n r, n < 5 → r < 16 → Tc n r q = Tc' n r q) (hS : ∀ n r, n < 5 → r < 16 → Ts n r q = Ts' n r q)
    (hY : ∀ cb, cb < 32 → Y cb q = Y' cb q) (n : ℕ) (hn : n ≤ 5) :
    ∀ cb, cb < 32 → hiSteps Tc Ts n Y cb q = hiSteps Tc' Ts' n Y' cb q := by
  induction n with
  | zero => intro cb hcb; exact hY cb hcb
  | succ n ih =>
    intro cb hcb
    rw [hiSteps_succ, hiSteps_succ]
    exact hiStep_congr (2 ^ n) (hiDist_pow n (by omega)) (Tc n) (Ts n) (Tc' n) (Ts' n) _ _ q
      (fun r hr => hT n r (by omega) hr) (fun r hr => hS n r (by omega) hr) (ih (by omega)) cb hcb

end Cert.Butterfly

end
-- ==== Proof.KernelValue.lean ====
/-
  The kernel's result array, entry by entry.

  Grid step t handles rows 256·t … 256·t + 255: its row block is those rows of the argument, its three table blocks are
  the whole arrays the host prepared (the 32 block matrices, and the cosines and sines of stages 7 … 11).  With the
  matrices equal to the seven-stage matrices of the specification and the tables equal to the specification's tables,
  the step's output block is the specification's `kerOut` on those rows; the 16 steps' blocks tile the result array.
-/
import proofs.«122426_j35845797052976_2_alg».proof.Proof.Gen.KernelIdeal.Value
import proofs.«122426_j35845797052976_2_alg».proof.Proof.KernelOut
import proofs.«122426_j35845797052976_2_alg».proof.Proof.ButterflyBlock
import proofs.«122426_j35845797052976_2_alg».proof.Proof.HiBlocksCongr
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Cert.Butterfly
open Idealize.ShloMosaic.Pipeline (Dat)

/-- One step's output block is the specification on its rows: the block stages of the specification read lane by
    lane are the body's block stages, because at lane q they only look at lane q of the tables' rows below 16 and of
    the blocks below 32, where the two sides' tables and blocks agree. -/
theorem block_value (X : S4096x4096.Idx → EReal) (θ : S12x2048.Idx → EReal) (tv : ℕ) (htv : tv < 16)
    (x0 : Vec Ideal S256x4096 .f32) (x1 : Vec Ideal S32x128x128 .bf16) (x2 x3 : Vec Ideal S5x16x128 .f32)
    (h0 : ∀ (p : Fin 256) (i : Fin 4096), x0 (ix2 p i) = X (ix2 ⟨256 * tv + p.val, by have := p.isLt; omega⟩ i))
    (h1 : ∀ (cb : Fin 32) (i j : Fin 128),
      x1 (ix3 cb i j) = chunkMat (tab Ideal.cos θ) (tab Ideal.sin θ) cb.val i.val j.val)
    (h2 : ∀ (n : Fin 5) (r : Fin 16) (q : Fin 128), x2 (ix3 n r q) = tab Ideal.cos θ (7 + n.val) (128 * r.val + q.val))
    (h3 : ∀ (n : Fin 5) (r : Fin 16) (q : Fin 128), x3 (ix3 n r q) = tab Ideal.sin θ (7 + n.val) (128 * r.val + q.val))
    (p : Fin 256) (i : Fin 4096) :
    Body.blockOut x0 x1 x2 x3 (ix2 p i) = kerOut X θ ⟨256 * tv + p.val, by have := p.isLt; omega⟩ i.val := by
  have hq : i.val % 128 < 128 := Nat.mod_lt _ (by norm_num)
  have hcb : i.val / 128 < 32 := by have := i.isLt; omega
  have hi : 128 * (i.val / 128) + i.val % 128 = i.val := Nat.div_add_mod _ _
  have hp := p.isLt
  unfold Body.blockOut kerOut
  show hiSteps (Body.T x2) (Body.T x3) 5 (Body.Y x0 x1 p) (i.val / 128) (i.val % 128) = _
  refine Eq.trans ?_ (congrArg (stages (tab Ideal.cos θ) (tab Ideal.sin θ) 7 5
    (mixed (tab Ideal.cos θ) (tab Ideal.sin θ) (row X ⟨256 * tv + p.val, by omega⟩))) hi)
  rw [stages_hi _ _ _ 5 _ _ hq]
  refine hiSteps_congr _ _ _ _ _ _ (i.val % 128) ?_ ?_ ?_ 5 le_rfl (i.val / 128) hcb
  · intro n r hn hr
    unfold Body.T
    rw [dif_pos ⟨hn, hr, hq⟩]
    exact h2 ⟨n, hn⟩ ⟨r, hr⟩ ⟨i.val % 128, hq⟩
  · intro n r hn hr
    unfold Body.T
    rw [dif_pos ⟨hn, hr, hq⟩]
    exact h3 ⟨n, hn⟩ ⟨r, hr⟩ ⟨i.val % 128, hq⟩
  · intro cb hcb'
    rw [mixed_block _ _ _ cb _ hq]
    unfold Body.Y Body.Yraw
    rw [dif_pos ⟨by omega, hcb', hq⟩, Finset.sum_range]
    refine Finset.sum_congr rfl fun k _ => ?_
    rw [h0, h1]
    congr 1
    unfold row
    have hk := k.isLt
    rw [dif_pos (by omega)]

/-- The same at any index of the block. -/
theorem block_value_idx (X : S4096x4096.Idx → EReal) (θ : S12x2048.Idx → EReal) (tv : ℕ) (htv : tv < 16)
    (x0 : Vec Ideal S256x4096 .f32) (x1 : Vec Ideal S32x128x128 .bf16) (x2 x3 : Vec Ideal S5x16x128 .f32)
    (h0 : ∀ (p : Fin 256) (i : Fin 4096), x0 (ix2 p i) = X (ix2 ⟨256 * tv + p.val, by have := p.isLt; omega⟩ i))
    (h1 : ∀ (cb : Fin 32) (i j : Fin 128),
      x1 (ix3 cb i j) = chunkMat (tab Ideal.cos θ) (tab Ideal.sin θ) cb.val i.val j.val)
    (h2 : ∀ (n : Fin 5) (r : Fin 16) (q : Fin 128), x2 (ix3 n r q) = tab Ideal.cos θ (7 + n.val) (128 * r.val + q.val))
    (h3 : ∀ (n : Fin 5) (r : Fin 16) (q : Fin 128), x3 (ix3 n r q) = tab Ideal.sin θ (7 + n.val) (128 * r.val + q.val))
    (y : S256x4096.Idx) :
    Body.blockOut x0 x1 x2 x3 y
      = kerOut X θ ⟨256 * tv + (y 0).val, by have h : (y 0).val < 256 := (y 0).isLt; omega⟩ (y 1).val := by
  obtain ⟨p, i, rfl⟩ : ∃ (p : Fin 256) (i : Fin 4096), y = ix2 p i := ⟨y 0, y 1, eq_ix2 y⟩
  exact block_value X θ tv htv x0 x1 x2 x3 h0 h1 h2 h3 p i

/-- The program's index maps, decided over the 16 grid steps: the row block and the output block move with the step,
    the three table blocks stay. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

variable (m : (ℓ : Loc nD τ sig) → Buf (Elt Ideal) ℓ)

/-- Step `t`'s row block is rows `256·t …` of the argument. -/
theorem iblk0_apply (c : Dev nD) (t : Fin cfg0.N) (p : Fin 256) (i : Fin 4096) :
    iblk m c 0 t (ix2 p i)
      = (m ((c : Thread nD τ).loc main_arg0) : S4096x4096.Idx → EReal)
          (ix2 ⟨256 * t.val + p.val, by have := p.isLt; have := t.isLt; have hN : cfg0.N = 16 := N_0; omega⟩ i) := by
  obtain ⟨a0, a1, -⟩ := idx_facts t
  unfold iblk
  show V m c main_arg0 (((cfg0.win 0).blk t).view.emb (ix2 p i)) = _
  rw [V_main_arg0]
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 4096 + 1 * i.val = i.val; omega

/-- Step `t`'s matrix block is the whole array of matrices. -/
theorem iblk1_apply (c : Dev nD) (t : Fin cfg0.N) (cb : Fin 32) (i j : Fin 128) :
    iblk m c 1 t (ix3 cb i j) = (V m c main_v214 : S32x128x128.Idx → EReal) (ix3 cb i j) := by
  obtain ⟨-, -, b0, b1, b2, -⟩ := idx_facts t
  unfold iblk
  show V m c main_v214 (((cfg0.win 1).blk t).view.emb (ix3 cb i j)) = _
  refine congrArg _ (funext fun a => Fin.ext ?_)
  match a with
  | ⟨0, _⟩ => show win0_1.index t (0 : Fin 3) * 32 + 1 * cb.val = cb.val; omega
  | ⟨1, _⟩ => show win0_1.index t (1 : Fin 3) * 128 + 1 * i.val = i.val; omega
  | ⟨2, _⟩ => show win0_1.index t (2 : Fin 3) * 128 + 1 * j.val = j.val; omega

/-- Step `t`'s cosine block is the whole cosine table. -/
theorem iblk2_apply (c : Dev nD) (t : Fin cfg0.N) (n : Fin 5) (r : Fin 16) (q : Fin 128) :
    iblk m c 2 t (ix3 n r q) = (V m c main_v216 : S5x16x128.Idx → EReal) (ix3 n r q) := by
  obtain ⟨-, -, -, -, -, c0, c1, c2, -⟩ := idx_facts t
  unfold iblk
  show V m c main_v216 (((cfg0.win 2).blk t).view.emb (ix3 n r q)) = _
  refine congrArg _ (funext fun a => Fin.ext ?_)
  match a with
  | ⟨0, _⟩ => show win0_2.index t (0 : Fin 3) * 5 + 1 * n.val = n.val; omega
  | ⟨1, _⟩ => show win0_2.index t (1 : Fin 3) * 16 + 1 * r.val = r.val; omega
  | ⟨2, _⟩ => show win0_2.index t (2 : Fin 3) * 128 + 1 * q.val = q.val; omega

/-- Step `t`'s sine block is the whole sine table. -/
theorem iblk3_apply (c : Dev nD) (t : Fin cfg0.N) (n : Fin 5) (r : Fin 16) (q : Fin 128) :
    iblk m c 3 t (ix3 n r q) = (V m c main_v217 : S5x16x128.Idx → EReal) (ix3 n r q) := by
  obtain ⟨-, -, -, -, -, -, -, -, d0, d1, d2, -⟩ := idx_facts t
  unfold iblk
  show V m c main_v217 (((cfg0.win 3).blk t).view.emb (ix3 n r q)) = _
  refine congrArg _ (funext fun a => Fin.ext ?_)
  match a with
  | ⟨0, _⟩ => show win0_3.index t (0 : Fin 3) * 5 + 1 * n.val = n.val; omega
  | ⟨1, _⟩ => show win0_3.index t (1 : Fin 3) * 16 + 1 * r.val = r.val; omega
  | ⟨2, _⟩ => show win0_3.index t (2 : Fin 3) * 128 + 1 * q.val = q.val; omega

/-- The argument arrays as extended-real arrays. -/
abbrev argX (c : Dev nD) : S4096x4096.Idx → EReal := m ((c : Thread nD τ).loc main_arg0)
abbrev argθ (c : Dev nD) : S12x2048.Idx → EReal := m ((c : Thread nD τ).loc main_arg1)

/-- The result array: the specification's `kerOut` of the arguments, row by row. -/
def result (c : Dev nD) : S4096x4096.Idx → EReal := fun i => kerOut (argX m c) (argθ m c) (i 0) (i 1).val

/-- What the host leaves in the three table arrays, as the specification names it. -/
structure HostTables (c : Dev nD) : Prop where
  mat : ∀ (cb : Fin 32) (i j : Fin 128), (V m c main_v214 : S32x128x128.Idx → EReal) (ix3 cb i j)
      = chunkMat (tab Ideal.cos (argθ m c)) (tab Ideal.sin (argθ m c)) cb.val i.val j.val
  cos : ∀ (n : Fin 5) (r : Fin 16) (q : Fin 128), (V m c main_v216 : S5x16x128.Idx → EReal) (ix3 n r q)
      = tab Ideal.cos (argθ m c) (7 + n.val) (128 * r.val + q.val)
  sin : ∀ (n : Fin 5) (r : Fin 16) (q : Fin 128), (V m c main_v217 : S5x16x128.Idx → EReal) (ix3 n r q)
      = tab Ideal.sin (argθ m c) (7 + n.val) (128 * r.val + q.val)

/-- WHAT STEP `t` WRITES BACK is block `t` of the result. -/
theorem flushed_eq (c : Dev nD) (hT : HostTables m c) (t : Fin cfg0.N) :
    (dats m 0 c).flushed 4 t = ((cfg0.win 4).blk t).view.read (Elt Ideal) (result m c) := by
  rw [Value.flushed4, Body.out_eq]
  obtain ⟨-, -, -, -, -, -, -, -, -, -, -, e0, e1⟩ := idx_facts t
  have htN : t.val < 16 := by have := t.isLt; have hN : cfg0.N = 16 := N_0; omega
  funext j
  show Body.blockOut (iblk m c 0 t) (iblk m c 1 t) (iblk m c 2 t) (iblk m c 3 t) j
    = result m c (((cfg0.win 4).blk t).view.emb j)
  refine (block_value_idx (argX m c) (argθ m c) t.val htN _ _ _ _
    (fun p i => iblk0_apply m c t p i)
    (fun cb i j => (iblk1_apply m c t cb i j).trans (hT.mat cb i j))
    (fun n r q => (iblk2_apply m c t n r q).trans (hT.cos n r q))
    (fun n r q => (iblk3_apply m c t n r q).trans (hT.sin n r q)) j).trans ?_
  unfold result
  congr 1
  · refine Fin.ext ?_
    show 256 * t.val + (j 0).val = win0_4.index t (0 : Fin 2) * 256 + 1 * (j 0).val
    omega
  · show (j 1).val = win0_4.index t (1 : Fin 2) * 4096 + 1 * (j 1).val
    omega

/-- An index of the result array is in step `t`'s block iff each coordinate is in the block's range. -/
theorem mem_blk (t : Fin cfg0.N) (i : S4096x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v218).slice (win0_4.rect t)).set ↔ _
  rw [View.set_slice_whole, Rect.mem_set_unit]
  exact Iff.rfl

/-- Every index of the result array is in the block of the step that handles its row. -/
theorem cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  refine ⟨⟨(i 0).val / 256, by show (i 0).val / 256 < grid0.N; rw [N_0]; omega⟩, flush0_4 _, ?_⟩
  obtain ⟨-, -, -, -, -, -, -, -, -, -, -, e0, e1⟩ := idx_facts ⟨(i 0).val / 256, by show (i 0).val / 256 < grid0.N; rw [N_0]; omega⟩
  rw [mem_blk]
  intro a
  match a with
  | ⟨0, _⟩ =>
    show win0_4.index _ (0 : Fin 2) * 256 ≤ (i 0).val ∧ (i 0).val < win0_4.index _ (0 : Fin 2) * 256 + 256
    rw [e0]; show (i 0).val / 256 * 256 ≤ (i 0).val ∧ (i 0).val < (i 0).val / 256 * 256 + 256; omega
  | ⟨1, _⟩ =>
    show win0_4.index _ (1 : Fin 2) * 4096 ≤ (i 1).val ∧ (i 1).val < win0_4.index _ (1 : Fin 2) * 4096 + 4096
    rw [e1]; omega

/-- THE RESULT ARRAY after the run. -/
theorem final (c : Dev nD) (hT : HostTables m c) : (dats m 0 c).arrAt 4 cfg0.N = result m c :=
  (dats m 0 c).arrAt_eq_of_cover 4 (result m c) (fun t _ => flushed_eq m c hT t) cover

/-- The kernel's run: every weakly fair execution terminates with the result array at `result`, the arguments unchanged. -/
theorem run (ρ : Dev nD → PrngReg) (hT : ∀ c, HostTables m c) :
    θ_run defs (onTc (τ := τ) (main (F := Ideal))) ⟨m, fun _ => 0, ρ⟩ fun r => ∀ c : Dev nD,
      r.2.mem ((c : Thread nD τ).loc main_v218) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hT c)), (h c).2⟩) (Value.run_blocks m ρ)

end Cert.KernelIdeal.KValue

end
-- ==== Proof.RefStage.lean ====
/-
  One butterfly stage as the reference's host program spells it, read at one entry.

  The program views a row of N = g·2·d numbers as a [g, 2, d] array (group, lower/upper member, position within
  the group's half), slices the two members out, multiplies them by the cosine and sine tables (each a [g, d]
  array, one angle per pair) and joins "c·v0 − s·v1" and "s·v0 + c·v1" back along the member axis.  Read at
  position i of the row this is the plane rotation 'Cert.Butterfly.stage' at distance d: the group is i / 2d, the
  member is i / d mod 2, the position within the half is i mod d, the pair's number is (i / 2d)·d + i mod d and
  the partner sits d places above (lower member) or below (upper member).

  The lemmas are stated over variables of literal rank (extents B, g, d arbitrary) with every relation between
  shapes as a hypothesis, so each of the twelve stages is an instance.
-/
import Idealize.ShloMosaic.Lib.ValueIdx
import Idealize.ShloMosaic.Lib.Pipeline.Value
import proofs.«122426_j35845797052976_2_alg».proof.Proof.Butterfly

noncomputable section

namespace Cert.RefStage

open Idealize.ShloMosaic Idealize.ShloMosaic.ValueIdx

/-! ## Arithmetic of the three coordinates of a position -/

/-- A position written by group, member and place within the half is inside the row. -/
theorem pos_lt {g d G h J : ℕ} (hG : G < g) (hh : h < 2) (hJ : J < d) : (G * 2 + h) * d + J < g * 2 * d := by
  have h1 : G * 2 + h + 1 ≤ g * 2 := by omega
  calc (G * 2 + h) * d + J < (G * 2 + h) * d + d := by omega
    _ = (G * 2 + h + 1) * d := by ring
    _ ≤ g * 2 * d := Nat.mul_le_mul_right d h1

/-- The group of a position inside the row is one of the g groups. -/
theorem group_lt {g d i : ℕ} (hi : i < g * 2 * d) : i / (2 * d) < g := by
  rcases Nat.eq_zero_or_pos d with hd | hd
  · subst hd; simp at hi
  · exact Nat.div_lt_of_lt_mul (by rw [Nat.mul_comm (2 * d) g, ← Nat.mul_assoc]; exact hi)

/-- A position is its group, member and place put together. -/
theorem pos_eq (d i : ℕ) : (i / (2 * d) * 2 + i / d % 2) * d + i % d = i := by
  have h1 : d * (i / d) + i % d = i := Nat.div_add_mod i d
  have h2 : 2 * (i / d / 2) + i / d % 2 = i / d := Nat.div_add_mod (i / d) 2
  have h3 : i / d / 2 = i / (2 * d) := by rw [Nat.div_div_eq_div_mul, Nat.mul_comm]
  rw [← h3]
  have h4 : i / d / 2 * 2 + i / d % 2 = i / d := by omega
  rw [h4, Nat.mul_comm]
  exact h1

/-! ## The pieces of the stage's term, each read at an index -/

section Pieces
variable {B g d : ℕ}

/-- A [g, d] table, given a leading unit axis and repeated over the B rows, reads the table's entry. -/
theorem coef_apply (t : FVec Ideal ⟨2, ![g, d]⟩ .f32)
    (hb1 : (⟨2, ![g, d]⟩ : Shape).BroadcastsInDim ⟨3, ![1, g, d]⟩ (![1, 2] : Fin 2 → Fin (⟨3, ![1, g, d]⟩ : Shape).rank))
    (hb2 : (⟨3, ![1, g, d]⟩ : Shape).BroadcastsInDim ⟨3, ![B, g, d]⟩ (![0, 1, 2] : Fin 3 → Fin (⟨3, ![B, g, d]⟩ : Shape).rank))
    (b : Fin B) (G : Fin g) (J : Fin d) :
    broadcastInDim ⟨3, ![B, g, d]⟩ ![0, 1, 2] hb2 (broadcastInDim ⟨3, ![1, g, d]⟩ ![1, 2] hb1 t) (ix3 b G J)
      = t (ix2 G J) := by
  have hG := G.isLt
  have hJ := J.isLt
  refine (broadcastInDim_apply _ hb2 _ (ix3 b G J) (ix3 (0 : Fin 1) G J) (fun a => match a with
    | ⟨0, _⟩ => by show (0 : ℕ) = if (1 : ℕ) = 1 then 0 else b.val; rw [if_pos rfl]
    | ⟨1, _⟩ => by show G.val = if g = 1 then 0 else G.val; split <;> omega
    | ⟨2, _⟩ => by show J.val = if d = 1 then 0 else J.val; split <;> omega)).trans ?_
  exact broadcastInDim_apply _ hb1 _ (ix3 (0 : Fin 1) G J) (ix2 G J) (fun a => match a with
    | ⟨0, _⟩ => by show G.val = if g = 1 then 0 else G.val; split <;> omega
    | ⟨1, _⟩ => by show J.val = if d = 1 then 0 else J.val; split <;> omega)

/-- Member o of every pair, sliced out of the [B, g, 2, d] view and its unit axis dropped, reads the view at that
    member. -/
theorem half_apply (X' : FVec Ideal ⟨4, ![B, g, 2, d]⟩ .f32) (o : ℕ)
    (hsl : (⟨4, ![B, g, 2, d]⟩ : Shape).Slices ![0, 0, o, 0] ⟨4, ![B, g, 1, d]⟩)
    (hdrop : (⟨4, ![B, g, 1, d]⟩ : Shape).ShapeCasts ⟨3, ![B, g, d]⟩)
    (b : Fin B) (G : Fin g) (h : Fin 2) (ho : h.val = o) (J : Fin d) :
    shapeCast ⟨3, ![B, g, d]⟩ (extractStridedSlice ⟨4, ![B, g, 1, d]⟩ ![0, 0, o, 0] X' hsl) hdrop (ix3 b G J)
      = X' (ix4 b G h J) := by
  refine (shapeCast_apply _ hdrop (ix3 b G J) (ix4 b G (0 : Fin 1) J) (by
    rw [Shape.rowMajor_val_four, Shape.rowMajor_val_three]
    show ((b.val * g + G.val) * 1 + 0) * d + J.val = (b.val * g + G.val) * d + J.val
    rw [Nat.mul_one, Nat.add_zero])).trans ?_
  exact extractStridedSlice_apply _ X' hsl (ix4 b G (0 : Fin 1) J) (ix4 b G h J) (fun a => match a with
    | ⟨0, _⟩ => by show b.val = 0 + b.val; omega
    | ⟨1, _⟩ => by show G.val = 0 + G.val; omega
    | ⟨2, _⟩ => by show h.val = o + 0; omega
    | ⟨3, _⟩ => by show J.val = 0 + J.val; omega)

end Pieces

/-! ## The stage's term read at a position of the row -/

section Stage
variable {B g d N : ℕ}

/-- THE STAGE AT A POSITION.  The two rotated halves, joined along the member axis and flattened to rows of N,
    read at position i of row b: the plane rotation at distance d of the row v that the [B, g, 2, d] view X'
    spells (hypothesis hv), with the tables C, S that the [g, d] arrays c, s spell (hC, hS). -/
theorem stage_apply (hN : N = g * 2 * d)
    (X' : FVec Ideal ⟨4, ![B, g, 2, d]⟩ .f32) (c s : FVec Ideal ⟨2, ![g, d]⟩ .f32)
    (hsl0 : (⟨4, ![B, g, 2, d]⟩ : Shape).Slices ![0, 0, 0, 0] ⟨4, ![B, g, 1, d]⟩)
    (hsl1 : (⟨4, ![B, g, 2, d]⟩ : Shape).Slices ![0, 0, 1, 0] ⟨4, ![B, g, 1, d]⟩)
    (hdrop : (⟨4, ![B, g, 1, d]⟩ : Shape).ShapeCasts ⟨3, ![B, g, d]⟩)
    (hb1 : (⟨2, ![g, d]⟩ : Shape).BroadcastsInDim ⟨3, ![1, g, d]⟩ (![1, 2] : Fin 2 → Fin (⟨3, ![1, g, d]⟩ : Shape).rank))
    (hb2 : (⟨3, ![1, g, d]⟩ : Shape).BroadcastsInDim ⟨3, ![B, g, d]⟩ (![0, 1, 2] : Fin 3 → Fin (⟨3, ![B, g, d]⟩ : Shape).rank))
    (hb3 : (⟨3, ![B, g, d]⟩ : Shape).BroadcastsInDim ⟨4, ![B, g, 1, d]⟩ (![0, 1, 3] : Fin 3 → Fin (⟨4, ![B, g, 1, d]⟩ : Shape).rank))
    (hc : Shape.Concatenates [(⟨4, ![B, g, 1, d]⟩ : Shape), ⟨4, ![B, g, 1, d]⟩] ⟨4, ![B, g, 2, d]⟩ 2)
    (hs : (⟨4, ![B, g, 2, d]⟩ : Shape).ShapeCasts ⟨2, ![B, N]⟩)
    (b : Fin B) (C S v : ℕ → EReal)
    (hC : ∀ (G : Fin g) (J : Fin d), c (ix2 G J) = C (G.val * d + J.val))
    (hS : ∀ (G : Fin g) (J : Fin d), s (ix2 G J) = S (G.val * d + J.val))
    (hv : ∀ (G : Fin g) (h : Fin 2) (J : Fin d), X' (ix4 b G h J) = v ((G.val * 2 + h.val) * d + J.val))
    (i : Fin N) :
    shapeCast ⟨2, ![B, N]⟩
      (concatenate ⟨4, ![B, g, 2, d]⟩ 2
        [⟨⟨4, ![B, g, 1, d]⟩, broadcastInDim ⟨4, ![B, g, 1, d]⟩ ![0, 1, 3] hb3
            (subf
              (mulf (broadcastInDim ⟨3, ![B, g, d]⟩ ![0, 1, 2] hb2 (broadcastInDim ⟨3, ![1, g, d]⟩ ![1, 2] hb1 c))
                (shapeCast ⟨3, ![B, g, d]⟩ (extractStridedSlice ⟨4, ![B, g, 1, d]⟩ ![0, 0, 0, 0] X' hsl0) hdrop))
              (mulf (broadcastInDim ⟨3, ![B, g, d]⟩ ![0, 1, 2] hb2 (broadcastInDim ⟨3, ![1, g, d]⟩ ![1, 2] hb1 s))
                (shapeCast ⟨3, ![B, g, d]⟩ (extractStridedSlice ⟨4, ![B, g, 1, d]⟩ ![0, 0, 1, 0] X' hsl1) hdrop)))⟩,
         ⟨⟨4, ![B, g, 1, d]⟩, broadcastInDim ⟨4, ![B, g, 1, d]⟩ ![0, 1, 3] hb3
            (addf
              (mulf (broadcastInDim ⟨3, ![B, g, d]⟩ ![0, 1, 2] hb2 (broadcastInDim ⟨3, ![1, g, d]⟩ ![1, 2] hb1 s))
                (shapeCast ⟨3, ![B, g, d]⟩ (extractStridedSlice ⟨4, ![B, g, 1, d]⟩ ![0, 0, 0, 0] X' hsl0) hdrop))
              (mulf (broadcastInDim ⟨3, ![B, g, d]⟩ ![0, 1, 2] hb2 (broadcastInDim ⟨3, ![1, g, d]⟩ ![1, 2] hb1 c))
                (shapeCast ⟨3, ![B, g, d]⟩ (extractStridedSlice ⟨4, ![B, g, 1, d]⟩ ![0, 0, 1, 0] X' hsl1) hdrop)))⟩]
        hc) hs (ix2 b i)
      = Cert.Butterfly.stage d C S v i.val := by
  subst hN
  have hi := i.isLt
  have hb := b.isLt
  have hdpos : 0 < d := by
    rcases Nat.eq_zero_or_pos d with h0 | h0
    · subst h0; simp at hi
    · exact h0
  -- the position's group, member and place within the half
  obtain ⟨G, hG⟩ : ∃ G : Fin g, G.val = i.val / (2 * d) := ⟨⟨_, group_lt hi⟩, rfl⟩
  obtain ⟨J, hJ⟩ : ∃ J : Fin d, J.val = i.val % d := ⟨⟨_, Nat.mod_lt _ hdpos⟩, rfl⟩
  obtain ⟨h, hh⟩ : ∃ h : Fin 2, h.val = i.val / d % 2 := ⟨⟨_, Nat.mod_lt _ (by decide)⟩, rfl⟩
  have hGlt := G.isLt
  have hJlt := J.isLt
  have hpos : (G.val * 2 + h.val) * d + J.val = i.val := by rw [hG, hh, hJ]; exact pos_eq d i.val
  have e1 : G.val * d + J.val = Cert.Butterfly.pairIdx d i.val := by unfold Cert.Butterfly.pairIdx; rw [hG, hJ]
  -- the flattening: row b, position i is entry (b, G, h, J) of the joined array
  refine (shapeCast_apply _ hs (ix2 b i) (ix4 b G h J) (by
    rw [Shape.rowMajor_val_four, Shape.rowMajor_val_two]
    show ((b.val * g + G.val) * 2 + h.val) * d + J.val = b.val * (g * 2 * d) + i.val
    rw [← hpos]; ring)).trans ?_
  unfold Cert.Butterfly.stage
  by_cases h0 : i.val / d % 2 = 0
  · -- the lower member: the first piece
    rw [if_pos h0]
    have hh0 : h.val = 0 := by omega
    refine (concatenate_pair_apply_left _ _ _ hc (ix4 b G h J) rfl (ix4 b G (0 : Fin 1) J) (fun a => match a with
      | ⟨0, _⟩ => rfl
      | ⟨1, _⟩ => rfl
      | ⟨2, _⟩ => by show (0 : ℕ) = h.val; omega
      | ⟨3, _⟩ => rfl)).trans ?_
    refine (broadcastInDim_apply _ hb3 _ (ix4 b G (0 : Fin 1) J) (ix3 b G J) (fun a => match a with
      | ⟨0, _⟩ => by show b.val = if B = 1 then 0 else b.val; split <;> omega
      | ⟨1, _⟩ => by show G.val = if g = 1 then 0 else G.val; split <;> omega
      | ⟨2, _⟩ => by show J.val = if d = 1 then 0 else J.val; split <;> omega)).trans ?_
    rw [subf_apply, mulf_apply, mulf_apply, coef_apply c hb1 hb2 b G J, coef_apply s hb1 hb2 b G J,
      half_apply X' 0 hsl0 hdrop b G 0 rfl J, half_apply X' 1 hsl1 hdrop b G 1 rfl J, hC, hS, hv, hv]
    have e2 : (G.val * 2 + (0 : Fin 2).val) * d + J.val = i.val := by
      rw [← hpos, hh0]; rfl
    have e3 : (G.val * 2 + (1 : Fin 2).val) * d + J.val = i.val + d := by
      rw [← hpos, hh0]
      show (G.val * 2 + 1) * d + J.val = (G.val * 2 + 0) * d + J.val + d
      ring
    rw [e1, e2, e3]
  · -- the upper member: the second piece
    rw [if_neg h0]
    have hh1 : h.val = 1 := by omega
    refine (concatenate_pair_apply_right _ _ _ hc (ix4 b G h J) rfl rfl (ix4 b G (0 : Fin 1) J) (fun a => match a with
      | ⟨0, _⟩ => fun _ => rfl
      | ⟨1, _⟩ => fun _ => rfl
      | ⟨2, _⟩ => fun hne => (hne (Fin.ext rfl)).elim
      | ⟨3, _⟩ => fun _ => rfl) (by show 0 + 1 = h.val; omega)).trans ?_
    refine (broadcastInDim_apply _ hb3 _ (ix4 b G (0 : Fin 1) J) (ix3 b G J) (fun a => match a with
      | ⟨0, _⟩ => by show b.val = if B = 1 then 0 else b.val; split <;> omega
      | ⟨1, _⟩ => by show G.val = if g = 1 then 0 else G.val; split <;> omega
      | ⟨2, _⟩ => by show J.val = if d = 1 then 0 else J.val; split <;> omega)).trans ?_
    rw [addf_apply, mulf_apply, mulf_apply, coef_apply c hb1 hb2 b G J, coef_apply s hb1 hb2 b G J,
      half_apply X' 0 hsl0 hdrop b G 0 rfl J, half_apply X' 1 hsl1 hdrop b G 1 rfl J, hC, hS, hv, hv]
    have e3 : (G.val * 2 + (1 : Fin 2).val) * d + J.val = i.val := by
      rw [← hpos, hh1]; rfl
    have e2 : (G.val * 2 + (0 : Fin 2).val) * d + J.val = i.val - d := by
      have e4 : (G.val * 2 + 1) * d + J.val = (G.val * 2 + 0) * d + J.val + d := by ring
      have e5 : (G.val * 2 + 1) * d + J.val = i.val := by rw [← hpos, hh1]
      show (G.val * 2 + 0) * d + J.val = i.val - d
      omega
    rw [e1, e2, e3]

/-- THE STAGE, VIEWED FOR THE NEXT ONE.  The same term flattened to rows of N and viewed again as [B, g', 2, d']
    (N = g'·2·d'), read at (b, G', h', J'): the rotated row at position (G'·2 + h')·d' + J'. -/
theorem stage_next {g' d' : ℕ} (hN : N = g * 2 * d) (hN' : N = g' * 2 * d')
    (X' : FVec Ideal ⟨4, ![B, g, 2, d]⟩ .f32) (c s : FVec Ideal ⟨2, ![g, d]⟩ .f32)
    (hsl0 : (⟨4, ![B, g, 2, d]⟩ : Shape).Slices ![0, 0, 0, 0] ⟨4, ![B, g, 1, d]⟩)
    (hsl1 : (⟨4, ![B, g, 2, d]⟩ : Shape).Slices ![0, 0, 1, 0] ⟨4, ![B, g, 1, d]⟩)
    (hdrop : (⟨4, ![B, g, 1, d]⟩ : Shape).ShapeCasts ⟨3, ![B, g, d]⟩)
    (hb1 : (⟨2, ![g, d]⟩ : Shape).BroadcastsInDim ⟨3, ![1, g, d]⟩ (![1, 2] : Fin 2 → Fin (⟨3, ![1, g, d]⟩ : Shape).rank))
    (hb2 : (⟨3, ![1, g, d]⟩ : Shape).BroadcastsInDim ⟨3, ![B, g, d]⟩ (![0, 1, 2] : Fin 3 → Fin (⟨3, ![B, g, d]⟩ : Shape).rank))
    (hb3 : (⟨3, ![B, g, d]⟩ : Shape).BroadcastsInDim ⟨4, ![B, g, 1, d]⟩ (![0, 1, 3] : Fin 3 → Fin (⟨4, ![B, g, 1, d]⟩ : Shape).rank))
    (hc : Shape.Concatenates [(⟨4, ![B, g, 1, d]⟩ : Shape), ⟨4, ![B, g, 1, d]⟩] ⟨4, ![B, g, 2, d]⟩ 2)
    (hs : (⟨4, ![B, g, 2, d]⟩ : Shape).ShapeCasts ⟨2, ![B, N]⟩)
    (hs' : (⟨2, ![B, N]⟩ : Shape).ShapeCasts ⟨4, ![B, g', 2, d']⟩)
    (b : Fin B) (C S v : ℕ → EReal)
    (hC : ∀ (G : Fin g) (J : Fin d), c (ix2 G J) = C (G.val * d + J.val))
    (hS : ∀ (G : Fin g) (J : Fin d), s (ix2 G J) = S (G.val * d + J.val))
    (hv : ∀ (G : Fin g) (h : Fin 2) (J : Fin d), X' (ix4 b G h J) = v ((G.val * 2 + h.val) * d + J.val))
    (G' : Fin g') (h' : Fin 2) (J' : Fin d') :
    shapeCast ⟨4, ![B, g', 2, d']⟩ (shapeCast ⟨2, ![B, N]⟩
      (concatenate ⟨4, ![B, g, 2, d]⟩ 2
        [⟨⟨4, ![B, g, 1, d]⟩, broadcastInDim ⟨4, ![B, g, 1, d]⟩ ![0, 1, 3] hb3
            (subf
              (mulf (broadcastInDim ⟨3, ![B, g, d]⟩ ![0, 1, 2] hb2 (broadcastInDim ⟨3, ![1, g, d]⟩ ![1, 2] hb1 c))
                (shapeCast ⟨3, ![B, g, d]⟩ (extractStridedSlice ⟨4, ![B, g, 1, d]⟩ ![0, 0, 0, 0] X' hsl0) hdrop))
              (mulf (broadcastInDim ⟨3, ![B, g, d]⟩ ![0, 1, 2] hb2 (broadcastInDim ⟨3, ![1, g, d]⟩ ![1, 2] hb1 s))
                (shapeCast ⟨3, ![B, g, d]⟩ (extractStridedSlice ⟨4, ![B, g, 1, d]⟩ ![0, 0, 1, 0] X' hsl1) hdrop)))⟩,
         ⟨⟨4, ![B, g, 1, d]⟩, broadcastInDim ⟨4, ![B, g, 1, d]⟩ ![0, 1, 3] hb3
            (addf
              (mulf (broadcastInDim ⟨3, ![B, g, d]⟩ ![0, 1, 2] hb2 (broadcastInDim ⟨3, ![1, g, d]⟩ ![1, 2] hb1 s))
                (shapeCast ⟨3, ![B, g, d]⟩ (extractStridedSlice ⟨4, ![B, g, 1, d]⟩ ![0, 0, 0, 0] X' hsl0) hdrop))
              (mulf (broadcastInDim ⟨3, ![B, g, d]⟩ ![0, 1, 2] hb2 (broadcastInDim ⟨3, ![1, g, d]⟩ ![1, 2] hb1 c))
                (shapeCast ⟨3, ![B, g, d]⟩ (extractStridedSlice ⟨4, ![B, g, 1, d]⟩ ![0, 0, 1, 0] X' hsl1) hdrop)))⟩]
        hc) hs) hs' (ix4 b G' h' J')
      = Cert.Butterfly.stage d C S v ((G'.val * 2 + h'.val) * d' + J'.val) := by
  have hlt : (G'.val * 2 + h'.val) * d' + J'.val < N := by
    rw [hN']; exact pos_lt G'.isLt h'.isLt J'.isLt
  refine (shapeCast_apply _ hs' (ix4 b G' h' J') (ix2 b ⟨_, hlt⟩) (by
    rw [Shape.rowMajor_val_two, Shape.rowMajor_val_four]
    show b.val * N + ((G'.val * 2 + h'.val) * d' + J'.val) = ((b.val * g' + G'.val) * 2 + h'.val) * d' + J'.val
    rw [hN']; ring)).trans ?_
  exact stage_apply hN X' c s hsl0 hsl1 hdrop hb1 hb2 hb3 hc hs b C S v hC hS hv ⟨_, hlt⟩

end Stage

/-! ## The stage's input and its tables -/

section Inputs

/-- A [B, N] array viewed as [B, g, 2, d] (N = g·2·d) reads, at (b, G, h, J), the array at row b, position
    (G·2 + h)·d + J. -/
theorem view_apply {B g d N : ℕ} (hN : N = g * 2 * d) (X : FVec Ideal ⟨2, ![B, N]⟩ .f32)
    (hs : (⟨2, ![B, N]⟩ : Shape).ShapeCasts ⟨4, ![B, g, 2, d]⟩) (b : Fin B) (G : Fin g) (h : Fin 2) (J : Fin d)
    (hlt : (G.val * 2 + h.val) * d + J.val < N) :
    shapeCast ⟨4, ![B, g, 2, d]⟩ X hs (ix4 b G h J) = X (ix2 b ⟨(G.val * 2 + h.val) * d + J.val, hlt⟩) :=
  shapeCast_apply _ hs (ix4 b G h J) (ix2 b ⟨_, hlt⟩) (by
    rw [Shape.rowMajor_val_two, Shape.rowMajor_val_four]
    show b.val * N + ((G.val * 2 + h.val) * d + J.val) = ((b.val * g + G.val) * 2 + h.val) * d + J.val
    rw [hN]; ring)

/-- Row k of the 12 × 2048 array of angles, flattened and viewed as [g, d] (g·d = 2048), reads at (G, J) the angle
    of pair G·d + J of stage k. -/
theorem angle_apply {g d : ℕ} (k : ℕ) (hk : k < 12) (θ : FVec Ideal ⟨2, ![12, 2048]⟩ .f32)
    (hsl : (⟨2, ![12, 2048]⟩ : Shape).Slices ![k, 0] ⟨2, ![1, 2048]⟩)
    (hc1 : (⟨2, ![1, 2048]⟩ : Shape).ShapeCasts ⟨1, ![2048]⟩)
    (hc2 : (⟨1, ![2048]⟩ : Shape).ShapeCasts ⟨2, ![g, d]⟩) (G : Fin g) (J : Fin d)
    (hlt : G.val * d + J.val < 2048) :
    shapeCast ⟨2, ![g, d]⟩ (shapeCast ⟨1, ![2048]⟩ (extractStridedSlice ⟨2, ![1, 2048]⟩ ![k, 0] θ hsl) hc1) hc2 (ix2 G J)
      = θ (ix2 ⟨k, hk⟩ ⟨G.val * d + J.val, hlt⟩) := by
  refine (shapeCast_apply _ hc2 (ix2 G J) (ix1 ⟨G.val * d + J.val, hlt⟩) (by
    rw [Shape.rowMajor_val_two, Shape.rowMajor_val_one]; rfl)).trans ?_
  refine (shapeCast_apply _ hc1 (ix1 ⟨G.val * d + J.val, hlt⟩) (ix2 (0 : Fin 1) ⟨G.val * d + J.val, hlt⟩) (by
    rw [Shape.rowMajor_val_two, Shape.rowMajor_val_one]
    show 0 * 2048 + (G.val * d + J.val) = G.val * d + J.val
    rw [Nat.zero_mul, Nat.zero_add])).trans ?_
  exact extractStridedSlice_apply _ θ hsl (ix2 (0 : Fin 1) ⟨G.val * d + J.val, hlt⟩) (ix2 ⟨k, hk⟩ ⟨G.val * d + J.val, hlt⟩)
    (fun a => match a with
      | ⟨0, _⟩ => by show k = k + 0; omega
      | ⟨1, _⟩ => by show G.val * d + J.val = 0 + (G.val * d + J.val); omega)

/-- A pair's number within the [g, d] table is below g·d. -/
theorem pair_lt {g d G J : ℕ} (hG : G < g) (hJ : J < d) : G * d + J < g * d := by
  calc G * d + J < G * d + d := by omega
    _ = (G + 1) * d := by ring
    _ ≤ g * d := Nat.mul_le_mul_right d hG

/-- The cosines of stage k's angles, as the program computes them, are the specification's table. -/
theorem cos_apply {g d : ℕ} (k : ℕ) (hk : k < 12) (hgd : g * d = 2048) (θ : FVec Ideal ⟨2, ![12, 2048]⟩ .f32)
    (hsl : (⟨2, ![12, 2048]⟩ : Shape).Slices ![k, 0] ⟨2, ![1, 2048]⟩)
    (hc1 : (⟨2, ![1, 2048]⟩ : Shape).ShapeCasts ⟨1, ![2048]⟩)
    (hc2 : (⟨1, ![2048]⟩ : Shape).ShapeCasts ⟨2, ![g, d]⟩) (G : Fin g) (J : Fin d) :
    Host.cos (F := Ideal)
        (shapeCast ⟨2, ![g, d]⟩ (shapeCast ⟨1, ![2048]⟩ (extractStridedSlice ⟨2, ![1, 2048]⟩ ![k, 0] θ hsl) hc1) hc2)
        (ix2 G J)
      = Cert.Butterfly.tab Ideal.cos θ k (G.val * d + J.val) := by
  have hlt : G.val * d + J.val < 2048 := by rw [← hgd]; exact pair_lt G.isLt J.isLt
  show Ideal.cos (shapeCast ⟨2, ![g, d]⟩ (shapeCast ⟨1, ![2048]⟩ (extractStridedSlice ⟨2, ![1, 2048]⟩ ![k, 0] θ hsl) hc1) hc2
    (ix2 G J)) = _
  rw [angle_apply k hk θ hsl hc1 hc2 G J hlt]
  unfold Cert.Butterfly.tab
  rw [dif_pos ⟨hk, hlt⟩]

/-- The sines of stage k's angles, as the program computes them, are the specification's table. -/
theorem sin_apply {g d : ℕ} (k : ℕ) (hk : k < 12) (hgd : g * d = 2048) (θ : FVec Ideal ⟨2, ![12, 2048]⟩ .f32)
    (hsl : (⟨2, ![12, 2048]⟩ : Shape).Slices ![k, 0] ⟨2, ![1, 2048]⟩)
    (hc1 : (⟨2, ![1, 2048]⟩ : Shape).ShapeCasts ⟨1, ![2048]⟩)
    (hc2 : (⟨1, ![2048]⟩ : Shape).ShapeCasts ⟨2, ![g, d]⟩) (G : Fin g) (J : Fin d) :
    Host.sin (F := Ideal)
        (shapeCast ⟨2, ![g, d]⟩ (shapeCast ⟨1, ![2048]⟩ (extractStridedSlice ⟨2, ![1, 2048]⟩ ![k, 0] θ hsl) hc1) hc2)
        (ix2 G J)
      = Cert.Butterfly.tab Ideal.sin θ k (G.val * d + J.val) := by
  have hlt : G.val * d + J.val < 2048 := by rw [← hgd]; exact pair_lt G.isLt J.isLt
  show Ideal.sin (shapeCast ⟨2, ![g, d]⟩ (shapeCast ⟨1, ![2048]⟩ (extractStridedSlice ⟨2, ![1, 2048]⟩ ![k, 0] θ hsl) hc1) hc2
    (ix2 G J)) = _
  rw [angle_apply k hk θ hsl hc1 hc2 G J hlt]
  unfold Cert.Butterfly.tab
  rw [dif_pos ⟨hk, hlt⟩]

end Inputs

end Cert.RefStage

end
-- ==== Proof.RefValue.lean ====
/-
  The reference program's value: its twelve stages, as the program spells them, are the twelve plane rotations of
  the specification.

  The host program keeps the 4096 × 4096 array reshaped for the stage at hand: before stage k (distance d = 2^k,
  g = 2048 / d groups) it is a [4096, g, 2, d] array whose entry (b, G, h, J) is position (G·2 + h)·d + J of row b.
  Each stage's term is an instance of the generic stage lemma, its cosine and sine tables are row k of the
  angles read through two reshapes, and the flattened result is viewed for the next stage; so, by one step per
  stage, the array before stage k holds what the first k stages of the specification make of each row, and the
  program's result (the last stage, flattened) is the specification's 'refOut'.
-/
import proofs.«122426_j35845797052976_2_alg».proof.Proof.Gen.ReferenceIdeal.Run
import proofs.«122426_j35845797052976_2_alg».proof.Proof.Butterfly
import proofs.«122426_j35845797052976_2_alg».proof.Proof.RefStage

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.Butterfly Cert.RefStage

/-- The input array. -/
abbrev X (V0 : Valuation τ sig (Elt Ideal)) : (⟨2, ![4096, 4096]⟩ : Shape).Idx → EReal := V0 (Proc.devRef .tc main_arg0)
/-- The angles. -/
abbrev Θ (V0 : Valuation τ sig (Elt Ideal)) : (⟨2, ![12, 2048]⟩ : Shape).Idx → EReal := V0 (Proc.devRef .tc main_arg1)
/-- Row b of the input after the first n stages of the specification. -/
abbrev upTo (V0 : Valuation τ sig (Elt Ideal)) (b : Fin 4096) (n : ℕ) : ℕ → EReal :=
  stages (tab Ideal.cos (Θ V0)) (tab Ideal.sin (Θ V0)) 0 n (row (X V0) b)

/-- One more stage of the specification, the distance written as a number. -/
theorem upTo_succ (V0 : Valuation τ sig (Elt Ideal)) (b : Fin 4096) (k d : ℕ) (hd : 2 ^ k = d) :
    upTo V0 b (k + 1) = stage d (tab Ideal.cos (Θ V0) k) (tab Ideal.sin (Θ V0) k) (upTo V0 b k) := by
  show stages _ _ 0 (k + 1) _ = _
  rw [stages_succ, Nat.zero_add, hd]

/-- Before the first stage the [4096, 2048, 2, 1] view holds the input's rows. -/
theorem before0 (V0 : Valuation τ sig (Elt Ideal)) (b : Fin 4096) (G : Fin 2048) (h : Fin 2) (J : Fin 1) :
    (res_main_v0 V0 : S4096x2048x2x1.Idx → EReal) (ix4 b G h J) = upTo V0 b 0 ((G.val * 2 + h.val) * 1 + J.val) := by
  have hlt : (G.val * 2 + h.val) * 1 + J.val < 4096 := by omega
  unfold res_main_v0
  refine (view_apply (B := 4096) (g := 2048) (d := 1) (N := 4096) (by norm_num) (X V0) _ b G h J hlt).trans ?_
  show X V0 (ix2 b ⟨_, hlt⟩) = row (X V0) b _
  unfold row
  rw [dif_pos hlt]

/-- Before stage 1 the [4096, 1024, 2, 2] view holds what the first stage makes of each row. -/
theorem before1 (V0 : Valuation τ sig (Elt Ideal)) (b : Fin 4096) (G : Fin 1024) (h : Fin 2) (J : Fin 2) :
    (res_main_v28 V0 : S4096x1024x2x2.Idx → EReal) (ix4 b G h J) = upTo V0 b 1 ((G.val * 2 + h.val) * 2 + J.val) := by
  unfold res_main_v28 res_main_v7 res_main_v9
  refine (stage_next (B := 4096) (g := 2048) (d := 1) (N := 4096) (g' := 1024) (d' := 2) (by norm_num) (by norm_num)
    (res_main_v0 V0) (res_main_v4 V0) (res_main_v5 V0) _ _ _ _ _ _ _ _ _ b
    (tab Ideal.cos (Θ V0) 0) (tab Ideal.sin (Θ V0) 0) (upTo V0 b 0)
    (fun G J => cos_apply 0 (by norm_num) (by norm_num) (Θ V0) _ _ _ G J)
    (fun G J => sin_apply 0 (by norm_num) (by norm_num) (Θ V0) _ _ _ G J)
    (fun G h J => before0 V0 b G h J) G h J).trans ?_
  exact (congrFun (upTo_succ V0 b 0 1 (by norm_num)) _).symm

/-- Before stage 2 the [4096, 512, 2, 4] view holds what the first 2 stages make of each row. -/
theorem before2 (V0 : Valuation τ sig (Elt Ideal)) (b : Fin 4096) (G : Fin 512) (h : Fin 2) (J : Fin 4) :
    (res_main_v56 V0 : S4096x512x2x4.Idx → EReal) (ix4 b G h J) = upTo V0 b 2 ((G.val * 2 + h.val) * 4 + J.val) := by
  unfold res_main_v56 res_main_v35 res_main_v37
  refine (stage_next (B := 4096) (g := 1024) (d := 2) (N := 4096) (g' := 512) (d' := 4) (by norm_num) (by norm_num)
    (res_main_v28 V0) (res_main_v32 V0) (res_main_v33 V0) _ _ _ _ _ _ _ _ _ b
    (tab Ideal.cos (Θ V0) 1) (tab Ideal.sin (Θ V0) 1) (upTo V0 b 1)
    (fun G J => cos_apply 1 (by norm_num) (by norm_num) (Θ V0) _ _ _ G J)
    (fun G J => sin_apply 1 (by norm_num) (by norm_num) (Θ V0) _ _ _ G J)
    (fun G h J => before1 V0 b G h J) G h J).trans ?_
  exact (congrFun (upTo_succ V0 b 1 2 (by norm_num)) _).symm

/-- Before stage 3 the [4096, 256, 2, 8] view holds what the first 3 stages make of each row. -/
theorem before3 (V0 : Valuation τ sig (Elt Ideal)) (b : Fin 4096) (G : Fin 256) (h : Fin 2) (J : Fin 8) :
    (res_main_v84 V0 : S4096x256x2x8.Idx → EReal) (ix4 b G h J) = upTo V0 b 3 ((G.val * 2 + h.val) * 8 + J.val) := by
  unfold res_main_v84 res_main_v63 res_main_v65
  refine (stage_next (B := 4096) (g := 512) (d := 4) (N := 4096) (g' := 256) (d' := 8) (by norm_num) (by norm_num)
    (res_main_v56 V0) (res_main_v60 V0) (res_main_v61 V0) _ _ _ _ _ _ _ _ _ b
    (tab Ideal.cos (Θ V0) 2) (tab Ideal.sin (Θ V0) 2) (upTo V0 b 2)
    (fun G J => cos_apply 2 (by norm_num) (by norm_num) (Θ V0) _ _ _ G J)
    (fun G J => sin_apply 2 (by norm_num) (by norm_num) (Θ V0) _ _ _ G J)
    (fun G h J => before2 V0 b G h J) G h J).trans ?_
  exact (congrFun (upTo_succ V0 b 2 4 (by norm_num)) _).symm

/-- Before stage 4 the [4096, 128, 2, 16] view holds what the first 4 stages make of each row. -/
theorem before4 (V0 : Valuation τ sig (Elt Ideal)) (b : Fin 4096) (G : Fin 128) (h : Fin 2) (J : Fin 16) :
    (res_main_v112 V0 : S4096x128x2x16.Idx → EReal) (ix4 b G h J) = upTo V0 b 4 ((G.val * 2 + h.val) * 16 + J.val) := by
  unfold res_main_v112 res_main_v91 res_main_v93
  refine (stage_next (B := 4096) (g := 256) (d := 8) (N := 4096) (g' := 128) (d' := 16) (by norm_num) (by norm_num)
    (res_main_v84 V0) (res_main_v88 V0) (res_main_v89 V0) _ _ _ _ _ _ _ _ _ b
    (tab Ideal.cos (Θ V0) 3) (tab Ideal.sin (Θ V0) 3) (upTo V0 b 3)
    (fun G J => cos_apply 3 (by norm_num) (by norm_num) (Θ V0) _ _ _ G J)
    (fun G J => sin_apply 3 (by norm_num) (by norm_num) (Θ V0) _ _ _ G J)
    (fun G h J => before3 V0 b G h J) G h J).trans ?_
  exact (congrFun (upTo_succ V0 b 3 8 (by norm_num)) _).symm

/-- Before stage 5 the [4096, 64, 2, 32] view holds what the first 5 stages make of each row. -/
theorem before5 (V0 : Valuation τ sig (Elt Ideal)) (b : Fin 4096) (G : Fin 64) (h : Fin 2) (J : Fin 32) :
    (res_main_v140 V0 : S4096x64x2x32.Idx → EReal) (ix4 b G h J) = upTo V0 b 5 ((G.val * 2 + h.val) * 32 + J.val) := by
  unfold res_main_v140 res_main_v119 res_main_v121
  refine (stage_next (B := 4096) (g := 128) (d := 16) (N := 4096) (g' := 64) (d' := 32) (by norm_num) (by norm_num)
    (res_main_v112 V0) (res_main_v116 V0) (res_main_v117 V0) _ _ _ _ _ _ _ _ _ b
    (tab Ideal.cos (Θ V0) 4) (tab Ideal.sin (Θ V0) 4) (upTo V0 b 4)
    (fun G J => cos_apply 4 (by norm_num) (by norm_num) (Θ V0) _ _ _ G J)
    (fun G J => sin_apply 4 (by norm_num) (by norm_num) (Θ V0) _ _ _ G J)
    (fun G h J => before4 V0 b G h J) G h J).trans ?_
  exact (congrFun (upTo_succ V0 b 4 16 (by norm_num)) _).symm

/-- Before stage 6 the [4096, 32, 2, 64] view holds what the first 6 stages make of each row. -/
theorem before6 (V0 : Valuation τ sig (Elt Ideal)) (b : Fin 4096) (G : Fin 32) (h : Fin 2) (J : Fin 64) :
    (res_main_v168 V0 : S4096x32x2x64.Idx → EReal) (ix4 b G h J) = upTo V0 b 6 ((G.val * 2 + h.val) * 64 + J.val) := by
  unfold res_main_v168 res_main_v147 res_main_v149
  refine (stage_next (B := 4096) (g := 64) (d := 32) (N := 4096) (g' := 32) (d' := 64) (by norm_num) (by norm_num)
    (res_main_v140 V0) (res_main_v144 V0) (res_main_v145 V0) _ _ _ _ _ _ _ _ _ b
    (tab Ideal.cos (Θ V0) 5) (tab Ideal.sin (Θ V0) 5) (upTo V0 b 5)
    (fun G J => cos_apply 5 (by norm_num) (by norm_num) (Θ V0) _ _ _ G J)
    (fun G J => sin_apply 5 (by norm_num) (by norm_num) (Θ V0) _ _ _ G J)
    (fun G h J => before5 V0 b G h J) G h J).trans ?_
  exact (congrFun (upTo_succ V0 b 5 32 (by norm_num)) _).symm

/-- Before stage 7 the [4096, 16, 2, 128] view holds what the first 7 stages make of each row. -/
theorem before7 (V0 : Valuation τ sig (Elt Ideal)) (b : Fin 4096) (G : Fin 16) (h : Fin 2) (J : Fin 128) :
    (res_main_v196 V0 : S4096x16x2x128.Idx → EReal) (ix4 b G h J) = upTo V0 b 7 ((G.val * 2 + h.val) * 128 + J.val) := by
  unfold res_main_v196 res_main_v175 res_main_v177
  refine (stage_next (B := 4096) (g := 32) (d := 64) (N := 4096) (g' := 16) (d' := 128) (by norm_num) (by norm_num)
    (res_main_v168 V0) (res_main_v172 V0) (res_main_v173 V0) _ _ _ _ _ _ _ _ _ b
    (tab Ideal.cos (Θ V0) 6) (tab Ideal.sin (Θ V0) 6) (upTo V0 b 6)
    (fun G J => cos_apply 6 (by norm_num) (by norm_num) (Θ V0) _ _ _ G J)
    (fun G J => sin_apply 6 (by norm_num) (by norm_num) (Θ V0) _ _ _ G J)
    (fun G h J => before6 V0 b G h J) G h J).trans ?_
  exact (congrFun (upTo_succ V0 b 6 64 (by norm_num)) _).symm

/-- Before stage 8 the [4096, 8, 2, 256] view holds what the first 8 stages make of each row. -/
theorem before8 (V0 : Valuation τ sig (Elt Ideal)) (b : Fin 4096) (G : Fin 8) (h : Fin 2) (J : Fin 256) :
    (res_main_v224 V0 : S4096x8x2x256.Idx → EReal) (ix4 b G h J) = upTo V0 b 8 ((G.val * 2 + h.val) * 256 + J.val) := by
  unfold res_main_v224 res_main_v203 res_main_v205
  refine (stage_next (B := 4096) (g := 16) (d := 128) (N := 4096) (g' := 8) (d' := 256) (by norm_num) (by norm_num)
    (res_main_v196 V0) (res_main_v200 V0) (res_main_v201 V0) _ _ _ _ _ _ _ _ _ b
    (tab Ideal.cos (Θ V0) 7) (tab Ideal.sin (Θ V0) 7) (upTo V0 b 7)
    (fun G J => cos_apply 7 (by norm_num) (by norm_num) (Θ V0) _ _ _ G J)
    (fun G J => sin_apply 7 (by norm_num) (by norm_num) (Θ V0) _ _ _ G J)
    (fun G h J => before7 V0 b G h J) G h J).trans ?_
  exact (congrFun (upTo_succ V0 b 7 128 (by norm_num)) _).symm

/-- Before stage 9 the [4096, 4, 2, 512] view holds what the first 9 stages make of each row. -/
theorem before9 (V0 : Valuation τ sig (Elt Ideal)) (b : Fin 4096) (G : Fin 4) (h : Fin 2) (J : Fin 512) :
    (res_main_v252 V0 : S4096x4x2x512.Idx → EReal) (ix4 b G h J) = upTo V0 b 9 ((G.val * 2 + h.val) * 512 + J.val) := by
  unfold res_main_v252 res_main_v231 res_main_v233
  refine (stage_next (B := 4096) (g := 8) (d := 256) (N := 4096) (g' := 4) (d' := 512) (by norm_num) (by norm_num)
    (res_main_v224 V0) (res_main_v228 V0) (res_main_v229 V0) _ _ _ _ _ _ _ _ _ b
    (tab Ideal.cos (Θ V0) 8) (tab Ideal.sin (Θ V0) 8) (upTo V0 b 8)
    (fun G J => cos_apply 8 (by norm_num) (by norm_num) (Θ V0) _ _ _ G J)
    (fun G J => sin_apply 8 (by norm_num) (by norm_num) (Θ V0) _ _ _ G J)
    (fun G h J => before8 V0 b G h J) G h J).trans ?_
  exact (congrFun (upTo_succ V0 b 8 256 (by norm_num)) _).symm

/-- Before stage 10 the [4096, 2, 2, 1024] view holds what the first 10 stages make of each row. -/
theorem before10 (V0 : Valuation τ sig (Elt Ideal)) (b : Fin 4096) (G : Fin 2) (h : Fin 2) (J : Fin 1024) :
    (res_main_v280 V0 : S4096x2x2x1024.Idx → EReal) (ix4 b G h J) = upTo V0 b 10 ((G.val * 2 + h.val) * 1024 + J.val) := by
  unfold res_main_v280 res_main_v259 res_main_v261
  refine (stage_next (B := 4096) (g := 4) (d := 512) (N := 4096) (g' := 2) (d' := 1024) (by norm_num) (by norm_num)
    (res_main_v252 V0) (res_main_v256 V0) (res_main_v257 V0) _ _ _ _ _ _ _ _ _ b
    (tab Ideal.cos (Θ V0) 9) (tab Ideal.sin (Θ V0) 9) (upTo V0 b 9)
    (fun G J => cos_apply 9 (by norm_num) (by norm_num) (Θ V0) _ _ _ G J)
    (fun G J => sin_apply 9 (by norm_num) (by norm_num) (Θ V0) _ _ _ G J)
    (fun G h J => before9 V0 b G h J) G h J).trans ?_
  exact (congrFun (upTo_succ V0 b 9 512 (by norm_num)) _).symm

/-- Before stage 11 the [4096, 1, 2, 2048] view holds what the first 11 stages make of each row. -/
theorem before11 (V0 : Valuation τ sig (Elt Ideal)) (b : Fin 4096) (G : Fin 1) (h : Fin 2) (J : Fin 2048) :
    (res_main_v308 V0 : S4096x1x2x2048.Idx → EReal) (ix4 b G h J) = upTo V0 b 11 ((G.val * 2 + h.val) * 2048 + J.val) := by
  unfold res_main_v308 res_main_v287 res_main_v289
  refine (stage_next (B := 4096) (g := 2) (d := 1024) (N := 4096) (g' := 1) (d' := 2048) (by norm_num) (by norm_num)
    (res_main_v280 V0) (res_main_v284 V0) (res_main_v285 V0) _ _ _ _ _ _ _ _ _ b
    (tab Ideal.cos (Θ V0) 10) (tab Ideal.sin (Θ V0) 10) (upTo V0 b 10)
    (fun G J => cos_apply 10 (by norm_num) (by norm_num) (Θ V0) _ _ _ G J)
    (fun G J => sin_apply 10 (by norm_num) (by norm_num) (Θ V0) _ _ _ G J)
    (fun G h J => before10 V0 b G h J) G h J).trans ?_
  exact (congrFun (upTo_succ V0 b 10 1024 (by norm_num)) _).symm

/-- THE REFERENCE'S VALUE: entry (b, i) of the program's result is position i of what the twelve stages of the
    specification make of row b of the input. -/
theorem ref_value (V0 : Valuation τ sig (Elt Ideal)) (b i : Fin 4096) :
    (Cert.ReferenceIdeal.Value.val6 V0 (Proc.devRef .tc main_v335) : S4096x4096.Idx → EReal) (ValueIdx.ix2 b i)
      = Cert.Butterfly.refOut (V0 (Proc.devRef .tc main_arg0)) (V0 (Proc.devRef .tc main_arg1)) b i.val := by
  refine (congrFun (val6_main_v335 V0) (ix2 b i)).trans ?_
  unfold res_main_v315 res_main_v317
  refine (stage_apply (B := 4096) (g := 1) (d := 2048) (N := 4096) (by norm_num)
    (res_main_v308 V0) (res_main_v312 V0) (res_main_v313 V0) _ _ _ _ _ _ _ _ b
    (tab Ideal.cos (Θ V0) 11) (tab Ideal.sin (Θ V0) 11) (upTo V0 b 11)
    (fun G J => cos_apply 11 (by norm_num) (by norm_num) (Θ V0) _ _ _ G J)
    (fun G J => sin_apply 11 (by norm_num) (by norm_num) (Θ V0) _ _ _ G J)
    (fun G h J => before11 V0 b G h J) i).trans ?_
  exact (congrFun (upTo_succ V0 b 11 2048 (by norm_num)) _).symm

end Cert.ReferenceIdeal.RefValue

end
-- ==== Proof.LibERealSum.lean ====
/-
  Finite sums on the extended reals.

  The extended reals are not a semiring: `(a + b) · c = a · c + b · c` fails when `a` and `b` are opposite
  infinities. Two facts survive and are what a proof needs when a quotient by a positive real has to cross a
  finite sum: a sum of real numbers, read in the extended reals, is the real sum; and multiplication by a
  NONNEGATIVE REAL distributes over a finite sum of arbitrary extended reals.
-/
import Mathlib.Data.EReal.Inv

namespace Cert.Lib

open scoped BigOperators

/-- A finite sum of reals, read in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real distributes over a finite sum of arbitrary extended reals. -/
theorem sum_mul_coe {ι : Type*} (s : Finset ι) (x : ι → EReal) {c : ℝ} (hc : 0 ≤ c) :
    (∑ i ∈ s, x i) * (c : EReal) = ∑ i ∈ s, x i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

end Cert.Lib
-- ==== Proof.ButterflyLaws.lean ====
/-
  The law behind the kernel: the first seven butterfly stages, applied to a whole row, are the block matrices.

  Two facts make it true.  LOCALITY: a stage at distance d ≤ 64 (d a power of two) pairs positions inside one
  block of 128, and the pairs of block cb are the pairs 64·cb … 64·cb + 63 of the row, so the first seven stages
  on the row, read on block cb, are the first seven stages on that block alone with the block's own angles.
  LINEARITY: every stage is a linear map of the vector when all numbers are real, so what the seven stages make
  of a block is the combination, with the block's entries as coefficients, of what they make of the unit vectors:
  that combination is the product with the block's matrix.

  Linearity is an identity of real numbers (the extended reals do not distribute over opposite infinities), so
  it is proved on a real-valued mirror of the stages and carried back through the coercion.
-/
import Mathlib.Tactic.IntervalCases
import proofs.«122426_j35845797052976_2_alg».proof.Proof.Butterfly
import proofs.«122426_j35845797052976_2_alg».proof.Proof.ButterflyBlock
import proofs.«122426_j35845797052976_2_alg».proof.Proof.LibERealSum

noncomputable section

namespace Cert.Butterfly

open Idealize.ShloMosaic Idealize.ShloMosaic.ValueIdx

/-- Every entry of the vector is a real number. -/
def IsReal (v : ℕ → EReal) : Prop := ∀ i, ∃ r : ℝ, v i = (r : EReal)

/-- Every entry of the table is a real number. -/
def IsRealTab (T : ℕ → ℕ → EReal) : Prop := ∀ k p, ∃ r : ℝ, T k p = (r : EReal)

/-! ### Arithmetic of a short distance inside a block -/

/-- The distances of the first seven stages. -/
def ShortDist (d : ℕ) : Prop := d = 1 ∨ d = 2 ∨ d = 4 ∨ d = 8 ∨ d = 16 ∨ d = 32 ∨ d = 64

theorem shortDist_pow (n : ℕ) (hn : n < 7) : ShortDist (2 ^ (0 + n)) := by
  unfold ShortDist
  interval_cases n <;> norm_num

/-- At a short distance, position 128·cb + j has the parity of j, its pair is pair number 64·cb + (pair of j),
    and its partner stays in the block. -/
theorem block_arith (d : ℕ) (hd : ShortDist d) (cb j : ℕ) (hj : j < 128) :
    (128 * cb + j) / d % 2 = j / d % 2 ∧ pairIdx d (128 * cb + j) = 64 * cb + pairIdx d j ∧
      (j / d % 2 = 0 → j + d < 128) ∧ (¬ j / d % 2 = 0 → d ≤ j ∧ j - d < 128) := by
  unfold pairIdx
  rcases hd with rfl | rfl | rfl | rfl | rfl | rfl | rfl <;> omega

/-! ### Locality -/

/-- One short stage on the row, read on block cb, is the same stage on the block alone. -/
theorem stage_local (d : ℕ) (hd : ShortDist d) (c s u u' : ℕ → EReal) (cb : ℕ)
    (h : ∀ j, j < 128 → u (128 * cb + j) = u' j) (j : ℕ) (hj : j < 128) :
    stage d c s u (128 * cb + j) = stage d (fun p => c (64 * cb + p)) (fun p => s (64 * cb + p)) u' j := by
  obtain ⟨hq, hp, hlo, hhi⟩ := block_arith d hd cb j hj
  unfold stage
  rw [hq, hp]
  by_cases hpar : j / d % 2 = 0
  · rw [if_pos hpar, if_pos hpar, h j hj, show 128 * cb + j + d = 128 * cb + (j + d) by omega,
      h (j + d) (hlo hpar)]
  · obtain ⟨hle, hlt⟩ := hhi hpar
    rw [if_neg hpar, if_neg hpar, h j hj, show 128 * cb + j - d = 128 * cb + (j - d) by omega,
      h (j - d) hlt]

/-- The first n ≤ 7 stages on the row, read on block cb, are the first n stages on the block alone, with the
    block's own angles. -/
theorem stages_local (C S : ℕ → ℕ → EReal) (v : ℕ → EReal) (cb : ℕ) (n : ℕ) (hn : n ≤ 7) :
    ∀ j, j < 128 → stages C S 0 n v (128 * cb + j) =
      stages (blockTab C cb) (blockTab S cb) 0 n (fun j' => v (128 * cb + j')) j := by
  induction n with
  | zero => intro j _; rfl
  | succ n ih =>
    intro j hj
    rw [stages_succ, stages_succ]
    exact stage_local (2 ^ (0 + n)) (shortDist_pow n (by omega)) (C (0 + n)) (S (0 + n)) _ _ cb
      (ih (by omega)) j hj

/-! ### The real-valued mirror -/

/-- A butterfly stage on real numbers. -/
def stageR (d : ℕ) (c s v : ℕ → ℝ) (i : ℕ) : ℝ :=
  if i / d % 2 = 0 then c (pairIdx d i) * v i - s (pairIdx d i) * v (i + d)
  else s (pairIdx d i) * v (i - d) + c (pairIdx d i) * v i

/-- Stages a, a+1, …, a+n−1 on real numbers. -/
def stagesR (C S : ℕ → ℕ → ℝ) (a : ℕ) : ℕ → (ℕ → ℝ) → ℕ → ℝ
  | 0, v => v
  | n + 1, v => stageR (2 ^ (a + n)) (C (a + n)) (S (a + n)) (stagesR C S a n v)

/-- The real unit vector at i. -/
def unitVecR (i j : ℕ) : ℝ := if i = j then 1 else 0

theorem unitVec_coe (i : ℕ) : unitVec i = fun j => ((unitVecR i j : ℝ) : EReal) := by
  funext j
  unfold unitVec unitVecR
  split_ifs <;> simp

/-- A stage on real coercions is the coercion of the real stage. -/
theorem stage_coe (d : ℕ) (c s v : ℕ → ℝ) (i : ℕ) :
    stage d (fun p => ((c p : ℝ) : EReal)) (fun p => ((s p : ℝ) : EReal)) (fun j => ((v j : ℝ) : EReal)) i =
      ((stageR d c s v i : ℝ) : EReal) := by
  unfold stage stageR
  by_cases h : i / d % 2 = 0
  · rw [if_pos h, if_pos h, EReal.coe_sub, EReal.coe_mul, EReal.coe_mul]
  · rw [if_neg h, if_neg h, EReal.coe_add, EReal.coe_mul, EReal.coe_mul]

/-- Stages on real coercions are the coercion of the real stages. -/
theorem stages_coe (C S : ℕ → ℕ → ℝ) (a n : ℕ) (v : ℕ → ℝ) :
    stages (fun k p => ((C k p : ℝ) : EReal)) (fun k p => ((S k p : ℝ) : EReal)) a n
        (fun j => ((v j : ℝ) : EReal)) = fun j => ((stagesR C S a n v j : ℝ) : EReal) := by
  induction n with
  | zero => rfl
  | succ n ih =>
    rw [stages_succ, ih]
    funext i
    exact stage_coe (2 ^ (a + n)) (C (a + n)) (S (a + n)) (stagesR C S a n v) i

/-! ### Linearity on a block -/

/-- One short real stage keeps a combination of vectors a combination, on the block. -/
theorem stageR_linear (d : ℕ) (hd : ShortDist d) (c s : ℕ → ℝ) (A : ℕ → ℝ) (B : ℕ → ℕ → ℝ) (w : ℕ → ℝ)
    (h : ∀ j, j < 128 → A j = ∑ i' ∈ Finset.range 128, w i' * B i' j) (j : ℕ) (hj : j < 128) :
    stageR d c s A j = ∑ i' ∈ Finset.range 128, w i' * stageR d c s (B i') j := by
  obtain ⟨_, _, hlo, hhi⟩ := block_arith d hd 0 j hj
  unfold stageR
  by_cases hpar : j / d % 2 = 0
  · simp only [if_pos hpar]
    rw [h j hj, h (j + d) (hlo hpar), Finset.mul_sum, Finset.mul_sum, ← Finset.sum_sub_distrib]
    exact Finset.sum_congr rfl (fun i' _ => by ring)
  · obtain ⟨_, hlt⟩ := hhi hpar
    simp only [if_neg hpar]
    rw [h j hj, h (j - d) hlt, Finset.mul_sum, Finset.mul_sum, ← Finset.sum_add_distrib]
    exact Finset.sum_congr rfl (fun i' _ => by ring)

/-- What the first n ≤ 7 real stages make of a block is the combination, with the block's entries as
    coefficients, of what they make of the unit vectors. -/
theorem stagesR_linear (C S : ℕ → ℕ → ℝ) (w : ℕ → ℝ) (n : ℕ) (hn : n ≤ 7) :
    ∀ j, j < 128 → stagesR C S 0 n w j =
      ∑ i' ∈ Finset.range 128, w i' * stagesR C S 0 n (unitVecR i') j := by
  induction n with
  | zero =>
    intro j hj
    show w j = ∑ i' ∈ Finset.range 128, w i' * unitVecR i' j
    rw [Finset.sum_eq_single_of_mem j (Finset.mem_range.2 hj)]
    · simp [unitVecR]
    · intro b _ hb
      simp [unitVecR, hb]
  | succ n ih =>
    intro j hj
    show stageR (2 ^ (0 + n)) (C (0 + n)) (S (0 + n)) (stagesR C S 0 n w) j =
      ∑ i' ∈ Finset.range 128, w i' *
        stageR (2 ^ (0 + n)) (C (0 + n)) (S (0 + n)) (stagesR C S 0 n (unitVecR i')) j
    exact stageR_linear (2 ^ (0 + n)) (shortDist_pow n (by omega)) (C (0 + n)) (S (0 + n)) _
      (fun i' => stagesR C S 0 n (unitVecR i')) w (ih (by omega)) j hj

/-- Linearity on a block, in the extended reals, for real-valued tables and a real-valued block. -/
theorem stages_linear (Cb Sb : ℕ → ℕ → EReal) (hC : IsRealTab Cb) (hS : IsRealTab Sb) (w : ℕ → EReal)
    (hw : IsReal w) (n : ℕ) (hn : n ≤ 7) (j : ℕ) (hj : j < 128) :
    stages Cb Sb 0 n w j = ∑ i' ∈ Finset.range 128, w i' * stages Cb Sb 0 n (unitVec i') j := by
  unfold IsRealTab at hC hS
  unfold IsReal at hw
  choose Cr hCr using hC
  choose Sr hSr using hS
  choose wr hwr using hw
  obtain rfl : Cb = fun k p => ((Cr k p : ℝ) : EReal) := by funext k p; exact hCr k p
  obtain rfl : Sb = fun k p => ((Sr k p : ℝ) : EReal) := by funext k p; exact hSr k p
  obtain rfl : w = fun j => ((wr j : ℝ) : EReal) := funext hwr
  simp only [unitVec_coe, stages_coe, ← EReal.coe_mul, Cert.Lib.sum_coe]
  rw [stagesR_linear Cr Sr wr n hn j hj]

/-! ### The law -/

/-- Applying the block matrices is running the first seven stages. -/
theorem mixed_eq_stages (C S : ℕ → ℕ → EReal) (hC : IsRealTab C) (hS : IsRealTab S) (v : ℕ → EReal)
    (hv : IsReal v) (i : ℕ) : mixed C S v i = stages C S 0 7 v i := by
  obtain ⟨cb, j, hj, rfl⟩ : ∃ cb j, j < 128 ∧ i = 128 * cb + j :=
    ⟨i / 128, i % 128, Nat.mod_lt _ (by norm_num), (Nat.div_add_mod i 128).symm⟩
  rw [mixed_block C S v cb j hj, stages_local C S v cb 7 le_rfl j hj,
    stages_linear (blockTab C cb) (blockTab S cb) (fun k p => hC k (64 * cb + p))
      (fun k p => hS k (64 * cb + p)) (fun j' => v (128 * cb + j')) (fun j' => hv (128 * cb + j')) 7 le_rfl j hj]
  rfl

/-- Twelve stages are seven stages followed by five. -/
theorem stages_split (C S : ℕ → ℕ → EReal) (v : ℕ → EReal) :
    stages C S 0 12 v = stages C S 7 5 (stages C S 0 7 v) := rfl

/-- A row of a real-valued array is real-valued. -/
theorem row_isReal (x : (⟨2, ![4096, 4096]⟩ : Shape).Idx → EReal) (hx : ∀ j, ∃ r : ℝ, x j = (r : EReal))
    (b : Fin 4096) : IsReal (row x b) := by
  intro i
  unfold row
  split_ifs with h
  · exact hx _
  · exact ⟨0, EReal.coe_zero.symm⟩

/-- The cosine table of real angles is real-valued. -/
theorem tab_cos_isReal (θ : (⟨2, ![12, 2048]⟩ : Shape).Idx → EReal) (hθ : ∀ j, ∃ r : ℝ, θ j = (r : EReal)) :
    IsRealTab (tab Ideal.cos θ) := by
  intro k p
  unfold tab
  split_ifs with h
  · obtain ⟨r, hr⟩ := hθ (ix2 ⟨k, h.1⟩ ⟨p, h.2⟩)
    exact ⟨Real.cos r, by rw [hr]; rfl⟩
  · exact ⟨0, EReal.coe_zero.symm⟩

/-- The sine table of real angles is real-valued. -/
theorem tab_sin_isReal (θ : (⟨2, ![12, 2048]⟩ : Shape).Idx → EReal) (hθ : ∀ j, ∃ r : ℝ, θ j = (r : EReal)) :
    IsRealTab (tab Ideal.sin θ) := by
  intro k p
  unfold tab
  split_ifs with h
  · obtain ⟨r, hr⟩ := hθ (ix2 ⟨k, h.1⟩ ⟨p, h.2⟩)
    exact ⟨Real.sin r, by rw [hr]; rfl⟩
  · exact ⟨0, EReal.coe_zero.symm⟩

/-- The kernel's formula and the reference's formula agree on real-valued inputs. -/
theorem kerOut_eq_refOut (x : (⟨2, ![4096, 4096]⟩ : Shape).Idx → EReal)
    (θ : (⟨2, ![12, 2048]⟩ : Shape).Idx → EReal) (hx : ∀ j, ∃ r : ℝ, x j = (r : EReal))
    (hθ : ∀ j, ∃ r : ℝ, θ j = (r : EReal)) (b : Fin 4096) (i : ℕ) : kerOut x θ b i = refOut x θ b i := by
  unfold kerOut refOut
  rw [stages_split, show mixed (tab Ideal.cos θ) (tab Ideal.sin θ) (row x b) =
      stages (tab Ideal.cos θ) (tab Ideal.sin θ) 0 7 (row x b) from
    funext (mixed_eq_stages _ _ (tab_cos_isReal θ hθ) (tab_sin_isReal θ hθ) _ (row_isReal x hx b))]

end Cert.Butterfly

end
-- ==== Proof.LibFiniteEntries.lean ====
/-
  Finite entries: from an and-reduction of |v| < +∞ to real numbers.

  A precondition "every entry of v is finite" is printed as the and-reduction, over all axes, of the entrywise
  comparison |v| < +∞, where |v| is max(v, −v) and +∞ is the f32 word 0x7F800000, and is asserted to be 1. Then the
  comparison is 1 at every entry, and an extended real whose absolute value is below +∞ is a real number. Stated for
  an array of any shape, so that one conjunct of a conjunction of such tests is read with one application.
-/
import Idealize.ShloMosaic.PureOps.Ideal
import Idealize.ShloMosaic.Lib.ReduceAll
import Idealize.ShloMosaic.Lib.ValueIdx

noncomputable section

namespace Cert.Lib

open Idealize.ShloMosaic Idealize.ShloMosaic.ValueIdx

/-- The scalar shape has one index. -/
instance scalarIdx_subsingleton : Subsingleton (⟨0, ![]⟩ : Shape).Idx := ⟨fun _ _ => funext fun d => d.elim0⟩

/-- An extended real whose absolute value max(v, −v) is below +∞ is a real number. -/
theorem exists_real_of_abs_lt_top (v : EReal) (h : max v (-v) < ⊤) : ∃ r : ℝ, v = (r : EReal) := by
  induction v using EReal.rec with
  | bot => simp at h
  | coe r => exact ⟨r, rfl⟩
  | top => simp at h

/-- On one value: the ordered comparison |v| < +∞ (the word 0x7F800000) coming out 1 says that v is a real number. -/
theorem real_of_abs_olt_inf (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  unfold Ideal.cmp at h
  refine exists_real_of_abs_lt_top v ?_
  by_contra hn
  simp [hn] at h

/-- One "all entries finite" test: if the and-reduction over all axes of |v| < +∞ (the bound a scalar constant repeated
    over the shape, the reduction started from the constant 1) is 1, every entry of v is a real number. -/
theorem real_of_all_finite {s : Shape} {axes : List (Fin s.rank)} (v : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi (cmpf .olt (Host.absf v) (broadcastInDim s ![] hb (constant (F := Ideal) ⟨0, ![]⟩ .f32 0x7F800000#32)))
        (constantI ⟨0, ![]⟩ 1 1#1) hr hu ix0 = 1#1) (i : s.Idx) : ∃ r : ℝ, v i = (r : EReal) :=
  real_of_abs_olt_inf (v i) (Host.reduce_andi_all _ _ hr hu ix0 h i)

end Cert.Lib

end
-- ==== Proof.FiniteInputs.lean ====
/-
  The precondition says that both argument arrays hold real numbers.

  The precondition is the conjunction of two tests, one per argument array: the and-reduction over all axes of
  the entrywise comparison |v| < +∞ is 1.  A conjunction of two one-bit words that is 1 has both words 1, and
  a test that is 1 says that every entry of its array is a real number.
-/
import proofs.«122426_j35845797052976_2_alg».proof.Defs
import proofs.«122426_j35845797052976_2_alg».proof.Proof.Gen.Pre_finite_inputs
import proofs.«122426_j35845797052976_2_alg».proof.Proof.LibFiniteEntries

noncomputable section

namespace Cert.Proof.Finite

open Idealize.ShloMosaic Idealize.SL.Sem Idealize.ShloMosaic.ValueIdx

/-- Under the precondition, on every device, every entry of both argument arrays is a real number. -/
theorem real_args (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) :
    (∀ j, ∃ r : ℝ, (m ((c.tc : Thread Cert.KernelIdeal.nD Cert.KernelIdeal.τ).loc Cert.KernelIdeal.main_arg0) :
        Cert.KernelIdeal.S4096x4096.Idx → EReal) j = (r : EReal))
    ∧ (∀ j, ∃ r : ℝ, (m ((c.tc : Thread Cert.KernelIdeal.nD Cert.KernelIdeal.τ).loc Cert.KernelIdeal.main_arg1) :
        Cert.KernelIdeal.S12x2048.Idx → EReal) j = (r : EReal)) := by
  have h0 := congrFun (h c) ix0
  dsimp only [Cert.Pre_finite_inputs.fn, andi] at h0
  obtain ⟨ha, hb⟩ := IntOp.andi_eq_one.1 h0
  exact ⟨fun j => Cert.Lib.real_of_all_finite _ _ _ _ ha j, fun j => Cert.Lib.real_of_all_finite _ _ _ _ hb j⟩

end Cert.Proof.Finite

end
-- ==== Proof.LibAfterAppend.lean ====
/-
  The buffer contents after two stretches of host operations run one after the other are the contents after the
  second stretch, taken from the contents after the first.
-/
import Idealize.ShloMosaic.Lib.StableHlo.Run

namespace Cert.Lib

open Idealize.ShloMosaic Idealize.ShloMosaic.StableHlo

variable {τ : Topo} {sig : RefSig} {Val : EltTy → Type}

/-- The fold of a concatenation of operation lists is the fold of the second list from the fold of the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib
-- ==== Proof.HostTerms.lean ====
/-
  The host side of the kernel: the pieces its 128 × 128 block matrices are computed from, each read at one entry.

  Before the grid runs, the program regroups the first seven rows of the 12 × 2048 array of angles as
  (block, stage, pair within the block) — pair p of block c at stage k is pair 64·c + p of the whole row —, builds
  the 128 × 128 identity by comparing row and column numbers, and runs seven butterfly stages on the identity for
  all 32 blocks at once.  This module reads the regrouped angles and the identity at an index, and states how one
  stage extends a chain of stages on a block: a stage at a distance dividing 64 reads, at a position of a block
  of 128, only positions of that block and the block's own 64 pairs, so what the program computes on the block
  agrees with the specification's stage on the whole row.
-/
import proofs.«122426_j35845797052976_2_alg».proof.Proof.Gen.KernelIdeal
import proofs.«122426_j35845797052976_2_alg».proof.Proof.Butterfly
import Idealize.ShloMosaic.Lib.ValueIdx
import Idealize.ShloMosaic.Lib.Pipeline.Value
import Idealize.ShloMosaic.Lib.Affine

noncomputable section

namespace Cert.KernelIdeal.HostTables

open Idealize.ShloMosaic Idealize.ShloMosaic.StableHlo Idealize.ShloMosaic.ValueIdx Idealize.ShloMosaic.TcCoe
open Cert.KernelIdeal Cert.Butterfly

/-- Two arrays of one shape laid one after the other along an axis. -/
def cat2 {α : Type} (t s : Shape) (ax : Fin t.rank) (h : Shape.Concatenates [s, s] t ax) (a b : s.Idx → α) : t.Idx → α :=
  concatenate t ax [⟨s, a⟩, ⟨s, b⟩] h

/-- A pair of arrays laid along an axis, read in the first. -/
theorem cat2_left {α : Type} (t s : Shape) (ax : Fin t.rank) (h : Shape.Concatenates [s, s] t ax) (a b : s.Idx → α)
    (j : t.Idx) (hr : s.rank = t.rank) (i : s.Idx) (hi : ∀ b' : Fin s.rank, (i b').val = (j (b'.cast hr)).val) :
    cat2 t s ax h a b j = a i := concatenate_pair_apply_left ax a b h j hr i hi

/-- A pair of arrays laid along an axis, read in the second. -/
theorem cat2_right {α : Type} (t s : Shape) (ax : Fin t.rank) (h : Shape.Concatenates [s, s] t ax) (a b : s.Idx → α)
    (j : t.Idx) (hr : s.rank = t.rank) (i : s.Idx)
    (hi : ∀ b' : Fin s.rank, b'.cast hr ≠ ax → (i b').val = (j (b'.cast hr)).val)
    (ha : (i (ax.cast hr.symm)).val + s.size (ax.cast hr.symm) = (j ax).val) :
    cat2 t s ax h a b j = b i := concatenate_pair_apply_right ax a b h j hr hr i hi ha

theorem hostCos_apply {s : Shape} (x : FVec Ideal s .f32) (i : s.Idx) : Host.cos x i = Ideal.cos (x i) := rfl
theorem hostSin_apply {s : Shape} (x : FVec Ideal s .f32) (i : s.Idx) : Host.sin x i = Ideal.sin (x i) := rfl

/-- Block `cb`'s angles of stage `k` through `f`, as a function of the pair's number (zero past the block's 64 pairs). -/
def angT (f : EReal → EReal) (A : FVec Ideal S32x7x64 .f32) (cb : Fin 32) (k : Fin 7) (p : ℕ) : EReal :=
  if h : p < 64 then f (A (ix3 cb k ⟨p, h⟩)) else 0

/-- Row `i` of block `cb` as a function on the naturals (zero past the end). -/
def rowN (Y : FVec Ideal S32x128x128 .f32) (cb : Fin 32) (i : Fin 128) (n : ℕ) : EReal :=
  if h : n < 128 then Y (ix3 cb i ⟨n, h⟩) else 0

/-! ### The identity and the regrouped angles -/

/-- The 128 × 128 identity as the host program builds it: row number equal to column number, as a 0/1 word, converted. -/
def eyeTerm : FVec Ideal S128x128 .f32 :=
  uitofp .f32 (cmpi .eq (addi (iotaInDim S128x128 32 0) (broadcastInDim S128x128 ![] Gen.bcast_S_S128x128 (constantI S_ 32 0#32)))
    (iotaInDim S128x128 32 1))

theorem eye_read (i j : Fin 128) : eyeTerm (ix2 i j) = unitVec i.val j.val := by
  have hi := i.isLt; have hj := j.isLt
  unfold unitVec
  show (((IntOp.cmpi .eq (IntOp.addi (BitVec.ofNat 32 i.val) (0#32)) (BitVec.ofNat 32 j.val)).toNat : ℝ) : EReal) = _
  have ha : IntOp.addi (BitVec.ofNat 32 i.val) (0#32) = BitVec.ofNat 32 i.val := by simp [IntOp.addi]
  rw [ha]
  by_cases h : i.val = j.val
  · rw [if_pos h, h]
    have h1 : IntOp.cmpi .eq (BitVec.ofNat 32 j.val) (BitVec.ofNat 32 j.val) = 1#1 := IntOp.cmpi_eq.2 rfl
    rw [h1]; simp
  · rw [if_neg h]
    have h0 : IntOp.cmpi .eq (BitVec.ofNat 32 i.val) (BitVec.ofNat 32 j.val) = 0#1 := by
      apply eq_zero_of_ne_one
      intro h1
      have h2 := congrArg BitVec.toNat (IntOp.cmpi_eq.1 h1)
      simp only [BitVec.toNat_ofNat] at h2
      omega
    rw [h0]; simp

/-- The first seven rows of the angles regrouped as (block, stage, pair within the block). -/
def v3Term (θ : FVec Ideal S12x2048 .f32) : FVec Ideal S32x7x64 .f32 :=
  transpose S32x7x64 [1, 0, 2] (shapeCast S7x32x64 (extractStridedSlice S7x2048 ![0, 0] θ Gen.slices_S12x2048_S7x2048_0_0)
    Gen.shapeCasts_S7x2048_S7x32x64) Gen.transposes_S7x32x64_S32x7x64_1_0_2

theorem v3_read (θ : FVec Ideal S12x2048 .f32) (cb : Fin 32) (k : Fin 7) (p : Fin 64) (k' : Fin 12) (q : Fin 2048)
    (hk : k'.val = k.val) (hq : q.val = 64 * cb.val + p.val) : v3Term θ (ix3 cb k p) = θ (ix2 k' q) := by
  unfold v3Term
  refine (transpose_apply _ _ _ (ix3 cb k p) (ix3 k cb p) (fun b => ?_)).trans ?_
  · match b with
    | ⟨0, _⟩ => rfl
    | ⟨1, _⟩ => rfl
    | ⟨2, _⟩ => rfl
  refine (shapeCast_apply _ _ (ix3 k cb p) (ix2 k q) ?_).trans ?_
  · rw [Shape.rowMajor_val_two, Shape.rowMajor_val_three]
    show k.val * 2048 + q.val = (k.val * 32 + cb.val) * 64 + p.val
    omega
  refine extractStridedSlice_apply _ _ _ _ (ix2 k' q) fun a => ?_
  match a with
  | ⟨0, _⟩ => show k'.val = 0 + k.val; omega
  | ⟨1, _⟩ => show q.val = 0 + q.val; omega

/-- A block's table of stage `k` read off the regrouped angles is the block's share of the specification's table. -/
theorem angT_v3 (f : EReal → EReal) (θ : FVec Ideal S12x2048 .f32) (cb : Fin 32) (k : Fin 7) (p : ℕ) (hp : p < 64) :
    angT f (v3Term θ) cb k p = blockTab (tab f θ) cb.val k.val p := by
  have hcb := cb.isLt; have hk := k.isLt
  have h1 : k.val < 12 := by omega
  have h2 : 64 * cb.val + p < 2048 := by omega
  unfold angT blockTab tab
  rw [dif_pos hp, dif_pos ⟨h1, h2⟩, v3_read θ cb k ⟨p, hp⟩ ⟨k.val, h1⟩ ⟨64 * cb.val + p, h2⟩ rfl rfl]

/-! ### The stages chained -/

/-- A stage at a distance dividing 64 reads, at a position of a block of 128, only that block's positions and the
    block's 64 pairs. -/
theorem stage_congr {d : ℕ} (hd : d = 1 ∨ d = 2 ∨ d = 4 ∨ d = 8 ∨ d = 16 ∨ d = 32 ∨ d = 64) {c c' s s' v v' : ℕ → EReal}
    (hc : ∀ p, p < 64 → c p = c' p) (hs : ∀ p, p < 64 → s p = s' p) (hv : ∀ n, n < 128 → v n = v' n)
    (j : ℕ) (hj : j < 128) : stage d c s v j = stage d c' s' v' j := by
  have h1 : j / (2 * d) * d + j % d < 64 := by rcases hd with rfl | rfl | rfl | rfl | rfl | rfl | rfl <;> omega
  have h2 : j / d % 2 = 0 → j + d < 128 := by rcases hd with rfl | rfl | rfl | rfl | rfl | rfl | rfl <;> omega
  unfold stage pairIdx
  by_cases h0 : j / d % 2 = 0
  · rw [if_pos h0, if_pos h0, hc _ h1, hs _ h1, hv j hj, hv (j + d) (h2 h0)]
  · rw [if_neg h0, if_neg h0, hc _ h1, hs _ h1, hv j hj, hv (j - d) (by omega)]

/-- One more stage: if row `i` of block `cb` of `Y` holds the first `k` stages of the unit vector and `Y'` is stage `k` of
    `Y` with the regrouped angles, row `i` of block `cb` of `Y'` holds the first `k + 1` stages. -/
theorem chain_step (θ : FVec Ideal S12x2048 .f32) (cb : Fin 32) (i : Fin 128) (k : Fin 7) (d : ℕ) (hd : d = 2 ^ (0 + k.val))
    (v : ℕ → EReal) (Y' : FVec Ideal S32x128x128 .f32)
    (hY' : ∀ j : Fin 128, Y' (ix3 cb i j)
      = stage d (angT Ideal.cos (v3Term θ) cb k) (angT Ideal.sin (v3Term θ) cb k) v j.val)
    (hv : ∀ n, n < 128 → v n = stages (blockTab (tab Ideal.cos θ) cb.val) (blockTab (tab Ideal.sin θ) cb.val) 0 k.val (unitVec i.val) n) :
    ∀ n, n < 128 → rowN Y' cb i n
      = stages (blockTab (tab Ideal.cos θ) cb.val) (blockTab (tab Ideal.sin θ) cb.val) 0 (k.val + 1) (unitVec i.val) n := by
  intro n hn
  have hd' : d = 1 ∨ d = 2 ∨ d = 4 ∨ d = 8 ∨ d = 16 ∨ d = 32 ∨ d = 64 := by
    obtain ⟨k, hk⟩ := k
    interval_cases k <;> simp [hd]
  rw [stages_succ, ← hd, Nat.zero_add]
  unfold rowN
  rw [dif_pos hn, hY' ⟨n, hn⟩]
  exact stage_congr hd' (fun p hp => angT_v3 Ideal.cos θ cb k p hp) (fun p hp => angT_v3 Ideal.sin θ cb k p hp) hv n hn

end Cert.KernelIdeal.HostTables

end
-- ==== Proof.HostTermsA.lean ====
/-
  Stages 0 … 3 of the seven the host program runs on the identity, each as the program spells it and read at one entry.

  A stage views every row of 128 numbers as g groups of a lower and an upper half of d numbers (g·2·d = 128),
  multiplies the halves by the cosines and sines of the block's g·d angles of that stage, and joins
  "c·lower − s·upper" and "s·lower + c·upper" back.  Read at position j of a row this is the plane rotation at
  distance d: the group is j / 2d, the half is j / d mod 2, the place within the half is j mod d, the pair's number
  is (j / 2d)·d + j mod d and the partner sits d places above (lower half) or below (upper half).  Stage 0 differs
  only in that its input is the one identity, shared by all blocks.
-/
import proofs.«122426_j35845797052976_2_alg».proof.Proof.HostTerms

noncomputable section

namespace Cert.KernelIdeal.HostTables

open Idealize.ShloMosaic Idealize.ShloMosaic.StableHlo Idealize.ShloMosaic.ValueIdx Idealize.ShloMosaic.TcCoe
open Cert.KernelIdeal Cert.Butterfly

/-! ### Stage 0: distance 1, 64 pairs, run on the one identity for all blocks -/

/-- The identity's rows cut into 64 pairs. -/
def X0 (E : FVec Ideal S128x128 .f32) : FVec Ideal S128x64x2x1 .f32 :=
  shapeCast S128x64x2x1 E Gen.shapeCasts_S128x128_S128x64x2x1

/-- Stage 0's angles of every block, one per pair. -/
def ang0 (A : FVec Ideal S32x7x64 .f32) : FVec Ideal S32x64x1 .f32 :=
  shapeCast S32x64x1 (shapeCast S32x64 (extractStridedSlice S32x1x64 ![0, 0, 0] A Gen.slices_S32x7x64_S32x1x64_0_0_0)
    Gen.shapeCasts_S32x1x64_S32x64) Gen.shapeCasts_S32x64_S32x64x1

/-- The lower members. -/
def lower0 (X : FVec Ideal S128x64x2x1 .f32) : FVec Ideal S128x64x1 .f32 :=
  shapeCast S128x64x1 (extractStridedSlice S128x64x1x1 ![0, 0, 0, 0] X Gen.slices_S128x64x2x1_S128x64x1x1_0_0_0_0) Gen.shapeCasts_S128x64x1x1_S128x64x1

/-- The upper members. -/
def upper0 (X : FVec Ideal S128x64x2x1 .f32) : FVec Ideal S128x64x1 .f32 :=
  shapeCast S128x64x1 (extractStridedSlice S128x64x1x1 ![0, 0, 1, 0] X Gen.slices_S128x64x2x1_S128x64x1x1_0_0_1_0) Gen.shapeCasts_S128x64x1x1_S128x64x1

/-- A block's table repeated for each of the 128 rows. -/
def spreadT0 (t : FVec Ideal S32x64x1 .f32) : FVec Ideal S32x128x64x1 .f32 :=
  broadcastInDim S32x128x64x1 ![0, 1, 2, 3] Gen.bcast_S32x1x64x1_S32x128x64x1_0_1_2_3 (broadcastInDim S32x1x64x1 ![0, 2, 3] Gen.bcast_S32x64x1_S32x1x64x1_0_2_3 t)

/-- The identity's members repeated for each of the 32 blocks. -/
def spreadH0 (h : FVec Ideal S128x64x1 .f32) : FVec Ideal S32x128x64x1 .f32 :=
  broadcastInDim S32x128x64x1 ![0, 1, 2, 3] Gen.bcast_S1x128x64x1_S32x128x64x1_0_1_2_3 (broadcastInDim S1x128x64x1 ![1, 2, 3] Gen.bcast_S128x64x1_S1x128x64x1_1_2_3 h)

/-- Stage 0 as the host program computes it from the angles `A` and the identity `E`. -/
def term0 (A : FVec Ideal S32x7x64 .f32) (E : FVec Ideal S128x128 .f32) : FVec Ideal S32x128x128 .f32 :=
  shapeCast S32x128x128
    (cat2 S32x128x64x2x1 S32x128x64x1x1 3 Gen.concatenates_S32x128x64x1x1_S32x128x64x1x1_S32x128x64x2x1_d3
      (broadcastInDim S32x128x64x1x1 ![0, 1, 2, 4] Gen.bcast_S32x128x64x1_S32x128x64x1x1_0_1_2_4
        (subf (mulf (spreadT0 (Host.cos (ang0 A))) (spreadH0 (lower0 (X0 E)))) (mulf (spreadT0 (Host.sin (ang0 A))) (spreadH0 (upper0 (X0 E))))))
      (broadcastInDim S32x128x64x1x1 ![0, 1, 2, 4] Gen.bcast_S32x128x64x1_S32x128x64x1x1_0_1_2_4
        (addf (mulf (spreadT0 (Host.sin (ang0 A))) (spreadH0 (lower0 (X0 E)))) (mulf (spreadT0 (Host.cos (ang0 A))) (spreadH0 (upper0 (X0 E)))))))
    Gen.shapeCasts_S32x128x64x2x1_S32x128x128

/-- Row `i` of a 128 × 128 array as a function on the naturals (zero past the end). -/
def rowE (E : FVec Ideal S128x128 .f32) (i : Fin 128) (n : ℕ) : EReal :=
  if h : n < 128 then E (ix2 i ⟨n, h⟩) else 0

theorem X0_read (E : FVec Ideal S128x128 .f32) (i : Fin 128) (G : Fin 64) (h : Fin 2) (J : Fin 1) (n : Fin 128)
    (hn : n.val = G.val * (2 * 1) + h.val * 1 + J.val) : X0 E (ix4 i G h J) = E (ix2 i n) := by
  unfold X0
  refine shapeCast_apply _ _ _ (ix2 i n) ?_
  rw [Shape.rowMajor_val_two, Shape.rowMajor_val_four]
  show i.val * 128 + n.val = (((i.val * 64 + G.val) * 2 + h.val) * 1 + J.val)
  omega

theorem ang0_read (A : FVec Ideal S32x7x64 .f32) (cb : Fin 32) (G : Fin 64) (J : Fin 1) (p : Fin 64)
    (hp : p.val = G.val * 1 + J.val) : ang0 A (ix3 cb G J) = A (ix3 cb (0 : Fin 7) p) := by
  unfold ang0
  refine (shapeCast_apply _ _ _ (ix2 cb p) ?_).trans ?_
  · rw [Shape.rowMajor_val_two, Shape.rowMajor_val_three]
    show cb.val * 64 + p.val = (cb.val * 64 + G.val) * 1 + J.val
    omega
  refine (shapeCast_apply _ _ _ (ix3 cb (0 : Fin 1) p) ?_).trans ?_
  · rw [Shape.rowMajor_val_three, Shape.rowMajor_val_two]
    show (cb.val * 1 + 0) * 64 + p.val = cb.val * 64 + p.val
    omega
  refine extractStridedSlice_apply _ _ _ _ (ix3 cb (0 : Fin 7) p) fun a => ?_
  match a with
  | ⟨0, _⟩ => show cb.val = 0 + cb.val; omega
  | ⟨1, _⟩ => rfl
  | ⟨2, _⟩ => show p.val = 0 + p.val; omega

theorem lower0_read (X : FVec Ideal S128x64x2x1 .f32) (i : Fin 128) (G : Fin 64) (J : Fin 1) :
    lower0 X (ix3 i G J) = X (ix4 i G (0 : Fin 2) J) := by
  unfold lower0
  refine (shapeCast_apply _ _ _ (ix4 i G (0 : Fin 1) J) ?_).trans ?_
  · rw [Shape.rowMajor_val_four, Shape.rowMajor_val_three]
    show (((i.val * 64 + G.val) * 1 + 0) * 1 + J.val) = (i.val * 64 + G.val) * 1 + J.val
    omega
  refine extractStridedSlice_apply _ _ _ _ (ix4 i G (0 : Fin 2) J) fun a => ?_
  match a with
  | ⟨0, _⟩ => show i.val = 0 + i.val; omega
  | ⟨1, _⟩ => show G.val = 0 + G.val; omega
  | ⟨2, _⟩ => rfl
  | ⟨3, _⟩ => show J.val = 0 + J.val; omega

theorem upper0_read (X : FVec Ideal S128x64x2x1 .f32) (i : Fin 128) (G : Fin 64) (J : Fin 1) :
    upper0 X (ix3 i G J) = X (ix4 i G (1 : Fin 2) J) := by
  unfold upper0
  refine (shapeCast_apply _ _ _ (ix4 i G (0 : Fin 1) J) ?_).trans ?_
  · rw [Shape.rowMajor_val_four, Shape.rowMajor_val_three]
    show (((i.val * 64 + G.val) * 1 + 0) * 1 + J.val) = (i.val * 64 + G.val) * 1 + J.val
    omega
  refine extractStridedSlice_apply _ _ _ _ (ix4 i G (1 : Fin 2) J) fun a => ?_
  match a with
  | ⟨0, _⟩ => show i.val = 0 + i.val; omega
  | ⟨1, _⟩ => show G.val = 0 + G.val; omega
  | ⟨2, _⟩ => rfl
  | ⟨3, _⟩ => show J.val = 0 + J.val; omega

theorem spreadT0_read (t : FVec Ideal S32x64x1 .f32) (cb : Fin 32) (i : Fin 128) (G : Fin 64) (J : Fin 1) :
    spreadT0 t (ix4 cb i G J) = t (ix3 cb G J) := by
  have hG := G.isLt; have hJ := J.isLt
  unfold spreadT0
  refine (broadcastInDim_apply _ _ _ (ix4 cb i G J) (ix4 cb (0 : Fin 1) G J) fun a => ?_).trans ?_
  · match a with
    | ⟨0, _⟩ => show cb.val = if (32 : ℕ) = 1 then 0 else cb.val; rfl
    | ⟨1, _⟩ => show (0 : ℕ) = if (1 : ℕ) = 1 then 0 else i.val; rfl
    | ⟨2, _⟩ => show G.val = if (64 : ℕ) = 1 then 0 else G.val; rfl
    | ⟨3, _⟩ => show J.val = if (1 : ℕ) = 1 then 0 else J.val; split <;> omega
  refine broadcastInDim_apply _ _ _ (ix4 cb (0 : Fin 1) G J) (ix3 cb G J) fun a => ?_
  match a with
  | ⟨0, _⟩ => show cb.val = if (32 : ℕ) = 1 then 0 else cb.val; rfl
  | ⟨1, _⟩ => show G.val = if (64 : ℕ) = 1 then 0 else G.val; rfl
  | ⟨2, _⟩ => show J.val = if (1 : ℕ) = 1 then 0 else J.val; split <;> omega

theorem spreadH0_read (h : FVec Ideal S128x64x1 .f32) (cb : Fin 32) (i : Fin 128) (G : Fin 64) (J : Fin 1) :
    spreadH0 h (ix4 cb i G J) = h (ix3 i G J) := by
  have hG := G.isLt; have hJ := J.isLt
  unfold spreadH0
  refine (broadcastInDim_apply _ _ _ (ix4 cb i G J) (ix4 (0 : Fin 1) i G J) fun a => ?_).trans ?_
  · match a with
    | ⟨0, _⟩ => show (0 : ℕ) = if (1 : ℕ) = 1 then 0 else cb.val; rfl
    | ⟨1, _⟩ => show i.val = if (128 : ℕ) = 1 then 0 else i.val; rfl
    | ⟨2, _⟩ => show G.val = if (64 : ℕ) = 1 then 0 else G.val; rfl
    | ⟨3, _⟩ => show J.val = if (1 : ℕ) = 1 then 0 else J.val; split <;> omega
  refine broadcastInDim_apply _ _ _ (ix4 (0 : Fin 1) i G J) (ix3 i G J) fun a => ?_
  match a with
  | ⟨0, _⟩ => show i.val = if (128 : ℕ) = 1 then 0 else i.val; rfl
  | ⟨1, _⟩ => show G.val = if (64 : ℕ) = 1 then 0 else G.val; rfl
  | ⟨2, _⟩ => show J.val = if (1 : ℕ) = 1 then 0 else J.val; split <;> omega

/-- Stage 0 of the host program is the butterfly stage at distance 1 on every row of the identity, with each block's angles. -/
theorem term0_read (A : FVec Ideal S32x7x64 .f32) (E : FVec Ideal S128x128 .f32) (cb : Fin 32) (i j : Fin 128) :
    term0 A E (ix3 cb i j)
      = stage 1 (angT Ideal.cos A cb (0 : Fin 7)) (angT Ideal.sin A cb (0 : Fin 7)) (rowE E i) j.val := by
  have hj := j.isLt
  have hG : j.val / (2 * 1) < 64 := by omega
  have hJ : j.val % 1 < 1 := by omega
  have hp : j.val / (2 * 1) * 1 + j.val % 1 < 64 := by omega
  unfold stage pairIdx term0
  by_cases hh : j.val / 1 % 2 = 0
  · rw [if_pos hh]
    have hjd : j.val + 1 < 128 := by omega
    refine (shapeCast_apply _ _ _ (ix5 cb i ⟨j.val / (2 * 1), hG⟩ (0 : Fin 2) ⟨j.val % 1, hJ⟩) ?_).trans ?_
    · rw [Shape.rowMajor_val_five, Shape.rowMajor_val_three]
      show ((((cb.val * 128 + i.val) * 64 + j.val / (2 * 1)) * 2 + 0) * 1 + j.val % 1) = (cb.val * 128 + i.val) * 128 + j.val
      omega
    refine (cat2_left S32x128x64x2x1 S32x128x64x1x1 3 _ _ _ _ rfl (ix5 cb i ⟨j.val / (2 * 1), hG⟩ (0 : Fin 1) ⟨j.val % 1, hJ⟩) (fun b => ?_)).trans ?_
    · match b with
      | ⟨0, _⟩ => rfl
      | ⟨1, _⟩ => rfl
      | ⟨2, _⟩ => rfl
      | ⟨3, _⟩ => rfl
      | ⟨4, _⟩ => rfl
    refine (broadcastInDim_apply _ _ _ _ (ix4 cb i ⟨j.val / (2 * 1), hG⟩ ⟨j.val % 1, hJ⟩) (fun a => ?_)).trans ?_
    · match a with
      | ⟨0, _⟩ => show cb.val = if (32 : ℕ) = 1 then 0 else cb.val; rfl
      | ⟨1, _⟩ => show i.val = if (128 : ℕ) = 1 then 0 else i.val; rfl
      | ⟨2, _⟩ => show j.val / (2 * 1) = if (64 : ℕ) = 1 then 0 else j.val / (2 * 1); rfl
      | ⟨3, _⟩ => show j.val % 1 = if (1 : ℕ) = 1 then 0 else j.val % 1; split <;> omega
    rw [subf_apply, mulf_apply, mulf_apply, spreadT0_read, spreadT0_read, spreadH0_read, spreadH0_read, lower0_read, upper0_read,
      X0_read E i ⟨j.val / (2 * 1), hG⟩ (0 : Fin 2) ⟨j.val % 1, hJ⟩ ⟨j.val, hj⟩ (by show j.val = j.val / (2 * 1) * (2 * 1) + 0 * 1 + j.val % 1; omega),
      X0_read E i ⟨j.val / (2 * 1), hG⟩ (1 : Fin 2) ⟨j.val % 1, hJ⟩ ⟨j.val + 1, hjd⟩ (by show j.val + 1 = j.val / (2 * 1) * (2 * 1) + 1 * 1 + j.val % 1; omega),
      hostCos_apply, hostSin_apply, ang0_read A cb ⟨j.val / (2 * 1), hG⟩ ⟨j.val % 1, hJ⟩ ⟨j.val / (2 * 1) * 1 + j.val % 1, hp⟩ rfl]
    simp only [angT, rowE, dif_pos hp, dif_pos hj, dif_pos hjd]
  · rw [if_neg hh]
    have hdj : 1 ≤ j.val := by omega
    have hjd : j.val - 1 < 128 := by omega
    refine (shapeCast_apply _ _ _ (ix5 cb i ⟨j.val / (2 * 1), hG⟩ (1 : Fin 2) ⟨j.val % 1, hJ⟩) ?_).trans ?_
    · rw [Shape.rowMajor_val_five, Shape.rowMajor_val_three]
      show ((((cb.val * 128 + i.val) * 64 + j.val / (2 * 1)) * 2 + 1) * 1 + j.val % 1) = (cb.val * 128 + i.val) * 128 + j.val
      omega
    refine (cat2_right S32x128x64x2x1 S32x128x64x1x1 3 _ _ _ _ rfl (ix5 cb i ⟨j.val / (2 * 1), hG⟩ (0 : Fin 1) ⟨j.val % 1, hJ⟩) (fun b hb => ?_) rfl).trans ?_
    · match b with
      | ⟨0, _⟩ => rfl
      | ⟨1, _⟩ => rfl
      | ⟨2, _⟩ => rfl
      | ⟨3, _⟩ => exact absurd rfl hb
      | ⟨4, _⟩ => rfl
    refine (broadcastInDim_apply _ _ _ _ (ix4 cb i ⟨j.val / (2 * 1), hG⟩ ⟨j.val % 1, hJ⟩) (fun a => ?_)).trans ?_
    · match a with
      | ⟨0, _⟩ => show cb.val = if (32 : ℕ) = 1 then 0 else cb.val; rfl
      | ⟨1, _⟩ => show i.val = if (128 : ℕ) = 1 then 0 else i.val; rfl
      | ⟨2, _⟩ => show j.val / (2 * 1) = if (64 : ℕ) = 1 then 0 else j.val / (2 * 1); rfl
      | ⟨3, _⟩ => show j.val % 1 = if (1 : ℕ) = 1 then 0 else j.val % 1; split <;> omega
    rw [addf_apply, mulf_apply, mulf_apply, spreadT0_read, spreadT0_read, spreadH0_read, spreadH0_read, lower0_read, upper0_read,
      X0_read E i ⟨j.val / (2 * 1), hG⟩ (0 : Fin 2) ⟨j.val % 1, hJ⟩ ⟨j.val - 1, hjd⟩ (by show j.val - 1 = j.val / (2 * 1) * (2 * 1) + 0 * 1 + j.val % 1; omega),
      X0_read E i ⟨j.val / (2 * 1), hG⟩ (1 : Fin 2) ⟨j.val % 1, hJ⟩ ⟨j.val, hj⟩ (by show j.val = j.val / (2 * 1) * (2 * 1) + 1 * 1 + j.val % 1; omega),
      hostCos_apply, hostSin_apply, ang0_read A cb ⟨j.val / (2 * 1), hG⟩ ⟨j.val % 1, hJ⟩ ⟨j.val / (2 * 1) * 1 + j.val % 1, hp⟩ rfl]
    simp only [angT, rowE, dif_pos hp, dif_pos hj, dif_pos hjd]

/-! ### Stage 1: distance 2, 32 groups of two halves of 2 -/

/-- The rows cut into 32 groups of a lower and an upper half of 2. -/
def X1 (Y : FVec Ideal S32x128x128 .f32) : FVec Ideal S32x128x32x2x2 .f32 :=
  shapeCast S32x128x32x2x2 Y Gen.shapeCasts_S32x128x128_S32x128x32x2x2

/-- Stage 1's angles of every block, one per group and place in the half. -/
def ang1 (A : FVec Ideal S32x7x64 .f32) : FVec Ideal S32x32x2 .f32 :=
  shapeCast S32x32x2 (shapeCast S32x64 (extractStridedSlice S32x1x64 ![0, 1, 0] A Gen.slices_S32x7x64_S32x1x64_0_1_0)
    Gen.shapeCasts_S32x1x64_S32x64) Gen.shapeCasts_S32x64_S32x32x2

/-- The lower halves. -/
def lower1 (X : FVec Ideal S32x128x32x2x2 .f32) : FVec Ideal S32x128x32x2 .f32 :=
  shapeCast S32x128x32x2 (extractStridedSlice S32x128x32x1x2 ![0, 0, 0, 0, 0] X Gen.slices_S32x128x32x2x2_S32x128x32x1x2_0_0_0_0_0) Gen.shapeCasts_S32x128x32x1x2_S32x128x32x2

/-- The upper halves. -/
def upper1 (X : FVec Ideal S32x128x32x2x2 .f32) : FVec Ideal S32x128x32x2 .f32 :=
  shapeCast S32x128x32x2 (extractStridedSlice S32x128x32x1x2 ![0, 0, 0, 1, 0] X Gen.slices_S32x128x32x2x2_S32x128x32x1x2_0_0_0_1_0) Gen.shapeCasts_S32x128x32x1x2_S32x128x32x2

/-- A block's table repeated for each of the 128 rows. -/
def spread1 (t : FVec Ideal S32x32x2 .f32) : FVec Ideal S32x128x32x2 .f32 :=
  broadcastInDim S32x128x32x2 ![0, 1, 2, 3] Gen.bcast_S32x1x32x2_S32x128x32x2_0_1_2_3 (broadcastInDim S32x1x32x2 ![0, 2, 3] Gen.bcast_S32x32x2_S32x1x32x2_0_2_3 t)

/-- Stage 1 as the host program computes it from the angles `A` and the previous stage's result `Y`. -/
def term1 (A : FVec Ideal S32x7x64 .f32) (Y : FVec Ideal S32x128x128 .f32) : FVec Ideal S32x128x128 .f32 :=
  shapeCast S32x128x128
    (cat2 S32x128x32x2x2 S32x128x32x1x2 3 Gen.concatenates_S32x128x32x1x2_S32x128x32x1x2_S32x128x32x2x2_d3
      (broadcastInDim S32x128x32x1x2 ![0, 1, 2, 4] Gen.bcast_S32x128x32x2_S32x128x32x1x2_0_1_2_4
        (subf (mulf (spread1 (Host.cos (ang1 A))) (lower1 (X1 Y))) (mulf (spread1 (Host.sin (ang1 A))) (upper1 (X1 Y)))))
      (broadcastInDim S32x128x32x1x2 ![0, 1, 2, 4] Gen.bcast_S32x128x32x2_S32x128x32x1x2_0_1_2_4
        (addf (mulf (spread1 (Host.sin (ang1 A))) (lower1 (X1 Y))) (mulf (spread1 (Host.cos (ang1 A))) (upper1 (X1 Y))))))
    Gen.shapeCasts_S32x128x32x2x2_S32x128x128

theorem X1_read (Y : FVec Ideal S32x128x128 .f32) (cb : Fin 32) (i : Fin 128) (G : Fin 32) (h : Fin 2) (J : Fin 2) (n : Fin 128)
    (hn : n.val = G.val * (2 * 2) + h.val * 2 + J.val) : X1 Y (ix5 cb i G h J) = Y (ix3 cb i n) := by
  unfold X1
  refine shapeCast_apply _ _ _ (ix3 cb i n) ?_
  rw [Shape.rowMajor_val_three, Shape.rowMajor_val_five]
  show (cb.val * 128 + i.val) * 128 + n.val = ((((cb.val * 128 + i.val) * 32 + G.val) * 2 + h.val) * 2 + J.val)
  omega

theorem ang1_read (A : FVec Ideal S32x7x64 .f32) (cb : Fin 32) (G : Fin 32) (J : Fin 2) (p : Fin 64)
    (hp : p.val = G.val * 2 + J.val) : ang1 A (ix3 cb G J) = A (ix3 cb (1 : Fin 7) p) := by
  unfold ang1
  refine (shapeCast_apply _ _ _ (ix2 cb p) ?_).trans ?_
  · rw [Shape.rowMajor_val_two, Shape.rowMajor_val_three]
    show cb.val * 64 + p.val = (cb.val * 32 + G.val) * 2 + J.val
    omega
  refine (shapeCast_apply _ _ _ (ix3 cb (0 : Fin 1) p) ?_).trans ?_
  · rw [Shape.rowMajor_val_three, Shape.rowMajor_val_two]
    show (cb.val * 1 + 0) * 64 + p.val = cb.val * 64 + p.val
    omega
  refine extractStridedSlice_apply _ _ _ _ (ix3 cb (1 : Fin 7) p) fun a => ?_
  match a with
  | ⟨0, _⟩ => show cb.val = 0 + cb.val; omega
  | ⟨1, _⟩ => rfl
  | ⟨2, _⟩ => show p.val = 0 + p.val; omega

theorem lower1_read (X : FVec Ideal S32x128x32x2x2 .f32) (cb : Fin 32) (i : Fin 128) (G : Fin 32) (J : Fin 2) :
    lower1 X (ix4 cb i G J) = X (ix5 cb i G (0 : Fin 2) J) := by
  unfold lower1
  refine (shapeCast_apply _ _ _ (ix5 cb i G (0 : Fin 1) J) ?_).trans ?_
  · rw [Shape.rowMajor_val_five, Shape.rowMajor_val_four]
    show ((((cb.val * 128 + i.val) * 32 + G.val) * 1 + 0) * 2 + J.val) = ((cb.val * 128 + i.val) * 32 + G.val) * 2 + J.val
    omega
  refine extractStridedSlice_apply _ _ _ _ (ix5 cb i G (0 : Fin 2) J) fun a => ?_
  match a with
  | ⟨0, _⟩ => show cb.val = 0 + cb.val; omega
  | ⟨1, _⟩ => show i.val = 0 + i.val; omega
  | ⟨2, _⟩ => show G.val = 0 + G.val; omega
  | ⟨3, _⟩ => rfl
  | ⟨4, _⟩ => show J.val = 0 + J.val; omega

theorem upper1_read (X : FVec Ideal S32x128x32x2x2 .f32) (cb : Fin 32) (i : Fin 128) (G : Fin 32) (J : Fin 2) :
    upper1 X (ix4 cb i G J) = X (ix5 cb i G (1 : Fin 2) J) := by
  unfold upper1
  refine (shapeCast_apply _ _ _ (ix5 cb i G (0 : Fin 1) J) ?_).trans ?_
  · rw [Shape.rowMajor_val_five, Shape.rowMajor_val_four]
    show ((((cb.val * 128 + i.val) * 32 + G.val) * 1 + 0) * 2 + J.val) = ((cb.val * 128 + i.val) * 32 + G.val) * 2 + J.val
    omega
  refine extractStridedSlice_apply _ _ _ _ (ix5 cb i G (1 : Fin 2) J) fun a => ?_
  match a with
  | ⟨0, _⟩ => show cb.val = 0 + cb.val; omega
  | ⟨1, _⟩ => show i.val = 0 + i.val; omega
  | ⟨2, _⟩ => show G.val = 0 + G.val; omega
  | ⟨3, _⟩ => rfl
  | ⟨4, _⟩ => show J.val = 0 + J.val; omega

theorem spread1_read (t : FVec Ideal S32x32x2 .f32) (cb : Fin 32) (i : Fin 128) (G : Fin 32) (J : Fin 2) :
    spread1 t (ix4 cb i G J) = t (ix3 cb G J) := by
  have hG := G.isLt; have hJ := J.isLt
  unfold spread1
  refine (broadcastInDim_apply _ _ _ (ix4 cb i G J) (ix4 cb (0 : Fin 1) G J) fun a => ?_).trans ?_
  · match a with
    | ⟨0, _⟩ => show cb.val = if (32 : ℕ) = 1 then 0 else cb.val; rfl
    | ⟨1, _⟩ => show (0 : ℕ) = if (1 : ℕ) = 1 then 0 else i.val; rfl
    | ⟨2, _⟩ => show G.val = if (32 : ℕ) = 1 then 0 else G.val; split <;> omega
    | ⟨3, _⟩ => show J.val = if (2 : ℕ) = 1 then 0 else J.val; split <;> omega
  refine broadcastInDim_apply _ _ _ (ix4 cb (0 : Fin 1) G J) (ix3 cb G J) fun a => ?_
  match a with
  | ⟨0, _⟩ => show cb.val = if (32 : ℕ) = 1 then 0 else cb.val; rfl
  | ⟨1, _⟩ => show G.val = if (32 : ℕ) = 1 then 0 else G.val; split <;> omega
  | ⟨2, _⟩ => show J.val = if (2 : ℕ) = 1 then 0 else J.val; split <;> omega

/-- Stage 1 of the host program is the butterfly stage at distance 2 on every row of every block. -/
theorem term1_read (A : FVec Ideal S32x7x64 .f32) (Y : FVec Ideal S32x128x128 .f32) (cb : Fin 32) (i j : Fin 128) :
    term1 A Y (ix3 cb i j)
      = stage 2 (angT Ideal.cos A cb (1 : Fin 7)) (angT Ideal.sin A cb (1 : Fin 7)) (rowN Y cb i) j.val := by
  have hj := j.isLt
  have hG : j.val / (2 * 2) < 32 := by omega
  have hJ : j.val % 2 < 2 := by omega
  have hp : j.val / (2 * 2) * 2 + j.val % 2 < 64 := by omega
  unfold stage pairIdx term1
  by_cases hh : j.val / 2 % 2 = 0
  · rw [if_pos hh]
    have hjd : j.val + 2 < 128 := by omega
    refine (shapeCast_apply _ _ _ (ix5 cb i ⟨j.val / (2 * 2), hG⟩ (0 : Fin 2) ⟨j.val % 2, hJ⟩) ?_).trans ?_
    · rw [Shape.rowMajor_val_five, Shape.rowMajor_val_three]
      show ((((cb.val * 128 + i.val) * 32 + j.val / (2 * 2)) * 2 + 0) * 2 + j.val % 2) = (cb.val * 128 + i.val) * 128 + j.val
      omega
    refine (cat2_left S32x128x32x2x2 S32x128x32x1x2 3 _ _ _ _ rfl (ix5 cb i ⟨j.val / (2 * 2), hG⟩ (0 : Fin 1) ⟨j.val % 2, hJ⟩) (fun b => ?_)).trans ?_
    · match b with
      | ⟨0, _⟩ => rfl
      | ⟨1, _⟩ => rfl
      | ⟨2, _⟩ => rfl
      | ⟨3, _⟩ => rfl
      | ⟨4, _⟩ => rfl
    refine (broadcastInDim_apply _ _ _ _ (ix4 cb i ⟨j.val / (2 * 2), hG⟩ ⟨j.val % 2, hJ⟩) (fun a => ?_)).trans ?_
    · match a with
      | ⟨0, _⟩ => show cb.val = if (32 : ℕ) = 1 then 0 else cb.val; rfl
      | ⟨1, _⟩ => show i.val = if (128 : ℕ) = 1 then 0 else i.val; rfl
      | ⟨2, _⟩ => show j.val / (2 * 2) = if (32 : ℕ) = 1 then 0 else j.val / (2 * 2); split <;> omega
      | ⟨3, _⟩ => show j.val % 2 = if (2 : ℕ) = 1 then 0 else j.val % 2; split <;> omega
    rw [subf_apply, mulf_apply, mulf_apply, spread1_read, spread1_read, lower1_read, upper1_read,
      X1_read Y cb i ⟨j.val / (2 * 2), hG⟩ (0 : Fin 2) ⟨j.val % 2, hJ⟩ ⟨j.val, hj⟩ (by show j.val = j.val / (2 * 2) * (2 * 2) + 0 * 2 + j.val % 2; omega),
      X1_read Y cb i ⟨j.val / (2 * 2), hG⟩ (1 : Fin 2) ⟨j.val % 2, hJ⟩ ⟨j.val + 2, hjd⟩ (by show j.val + 2 = j.val / (2 * 2) * (2 * 2) + 1 * 2 + j.val % 2; omega),
      hostCos_apply, hostSin_apply, ang1_read A cb ⟨j.val / (2 * 2), hG⟩ ⟨j.val % 2, hJ⟩ ⟨j.val / (2 * 2) * 2 + j.val % 2, hp⟩ rfl]
    simp only [angT, rowN, dif_pos hp, dif_pos hj, dif_pos hjd]
  · rw [if_neg hh]
    have hdj : 2 ≤ j.val := by omega
    have hjd : j.val - 2 < 128 := by omega
    refine (shapeCast_apply _ _ _ (ix5 cb i ⟨j.val / (2 * 2), hG⟩ (1 : Fin 2) ⟨j.val % 2, hJ⟩) ?_).trans ?_
    · rw [Shape.rowMajor_val_five, Shape.rowMajor_val_three]
      show ((((cb.val * 128 + i.val) * 32 + j.val / (2 * 2)) * 2 + 1) * 2 + j.val % 2) = (cb.val * 128 + i.val) * 128 + j.val
      omega
    refine (cat2_right S32x128x32x2x2 S32x128x32x1x2 3 _ _ _ _ rfl (ix5 cb i ⟨j.val / (2 * 2), hG⟩ (0 : Fin 1) ⟨j.val % 2, hJ⟩) (fun b hb => ?_) rfl).trans ?_
    · match b with
      | ⟨0, _⟩ => rfl
      | ⟨1, _⟩ => rfl
      | ⟨2, _⟩ => rfl
      | ⟨3, _⟩ => exact absurd rfl hb
      | ⟨4, _⟩ => rfl
    refine (broadcastInDim_apply _ _ _ _ (ix4 cb i ⟨j.val / (2 * 2), hG⟩ ⟨j.val % 2, hJ⟩) (fun a => ?_)).trans ?_
    · match a with
      | ⟨0, _⟩ => show cb.val = if (32 : ℕ) = 1 then 0 else cb.val; rfl
      | ⟨1, _⟩ => show i.val = if (128 : ℕ) = 1 then 0 else i.val; rfl
      | ⟨2, _⟩ => show j.val / (2 * 2) = if (32 : ℕ) = 1 then 0 else j.val / (2 * 2); split <;> omega
      | ⟨3, _⟩ => show j.val % 2 = if (2 : ℕ) = 1 then 0 else j.val % 2; split <;> omega
    rw [addf_apply, mulf_apply, mulf_apply, spread1_read, spread1_read, lower1_read, upper1_read,
      X1_read Y cb i ⟨j.val / (2 * 2), hG⟩ (0 : Fin 2) ⟨j.val % 2, hJ⟩ ⟨j.val - 2, hjd⟩ (by show j.val - 2 = j.val / (2 * 2) * (2 * 2) + 0 * 2 + j.val % 2; omega),
      X1_read Y cb i ⟨j.val / (2 * 2), hG⟩ (1 : Fin 2) ⟨j.val % 2, hJ⟩ ⟨j.val, hj⟩ (by show j.val = j.val / (2 * 2) * (2 * 2) + 1 * 2 + j.val % 2; omega),
      hostCos_apply, hostSin_apply, ang1_read A cb ⟨j.val / (2 * 2), hG⟩ ⟨j.val % 2, hJ⟩ ⟨j.val / (2 * 2) * 2 + j.val % 2, hp⟩ rfl]
    simp only [angT, rowN, dif_pos hp, dif_pos hj, dif_pos hjd]

/-! ### Stage 2: distance 4, 16 groups of two halves of 4 -/

/-- The rows cut into 16 groups of a lower and an upper half of 4. -/
def X2 (Y : FVec Ideal S32x128x128 .f32) : FVec Ideal S32x128x16x2x4 .f32 :=
  shapeCast S32x128x16x2x4 Y Gen.shapeCasts_S32x128x128_S32x128x16x2x4

/-- Stage 2's angles of every block, one per group and place in the half. -/
def ang2 (A : FVec Ideal S32x7x64 .f32) : FVec Ideal S32x16x4 .f32 :=
  shapeCast S32x16x4 (shapeCast S32x64 (extractStridedSlice S32x1x64 ![0, 2, 0] A Gen.slices_S32x7x64_S32x1x64_0_2_0)
    Gen.shapeCasts_S32x1x64_S32x64) Gen.shapeCasts_S32x64_S32x16x4

/-- The lower halves. -/
def lower2 (X : FVec Ideal S32x128x16x2x4 .f32) : FVec Ideal S32x128x16x4 .f32 :=
  shapeCast S32x128x16x4 (extractStridedSlice S32x128x16x1x4 ![0, 0, 0, 0, 0] X Gen.slices_S32x128x16x2x4_S32x128x16x1x4_0_0_0_0_0) Gen.shapeCasts_S32x128x16x1x4_S32x128x16x4

/-- The upper halves. -/
def upper2 (X : FVec Ideal S32x128x16x2x4 .f32) : FVec Ideal S32x128x16x4 .f32 :=
  shapeCast S32x128x16x4 (extractStridedSlice S32x128x16x1x4 ![0, 0, 0, 1, 0] X Gen.slices_S32x128x16x2x4_S32x128x16x1x4_0_0_0_1_0) Gen.shapeCasts_S32x128x16x1x4_S32x128x16x4

/-- A block's table repeated for each of the 128 rows. -/
def spread2 (t : FVec Ideal S32x16x4 .f32) : FVec Ideal S32x128x16x4 .f32 :=
  broadcastInDim S32x128x16x4 ![0, 1, 2, 3] Gen.bcast_S32x1x16x4_S32x128x16x4_0_1_2_3 (broadcastInDim S32x1x16x4 ![0, 2, 3] Gen.bcast_S32x16x4_S32x1x16x4_0_2_3 t)

/-- Stage 2 as the host program computes it from the angles `A` and the previous stage's result `Y`. -/
def term2 (A : FVec Ideal S32x7x64 .f32) (Y : FVec Ideal S32x128x128 .f32) : FVec Ideal S32x128x128 .f32 :=
  shapeCast S32x128x128
    (cat2 S32x128x16x2x4 S32x128x16x1x4 3 Gen.concatenates_S32x128x16x1x4_S32x128x16x1x4_S32x128x16x2x4_d3
      (broadcastInDim S32x128x16x1x4 ![0, 1, 2, 4] Gen.bcast_S32x128x16x4_S32x128x16x1x4_0_1_2_4
        (subf (mulf (spread2 (Host.cos (ang2 A))) (lower2 (X2 Y))) (mulf (spread2 (Host.sin (ang2 A))) (upper2 (X2 Y)))))
      (broadcastInDim S32x128x16x1x4 ![0, 1, 2, 4] Gen.bcast_S32x128x16x4_S32x128x16x1x4_0_1_2_4
        (addf (mulf (spread2 (Host.sin (ang2 A))) (lower2 (X2 Y))) (mulf (spread2 (Host.cos (ang2 A))) (upper2 (X2 Y))))))
    Gen.shapeCasts_S32x128x16x2x4_S32x128x128

theorem X2_read (Y : FVec Ideal S32x128x128 .f32) (cb : Fin 32) (i : Fin 128) (G : Fin 16) (h : Fin 2) (J : Fin 4) (n : Fin 128)
    (hn : n.val = G.val * (2 * 4) + h.val * 4 + J.val) : X2 Y (ix5 cb i G h J) = Y (ix3 cb i n) := by
  unfold X2
  refine shapeCast_apply _ _ _ (ix3 cb i n) ?_
  rw [Shape.rowMajor_val_three, Shape.rowMajor_val_five]
  show (cb.val * 128 + i.val) * 128 + n.val = ((((cb.val * 128 + i.val) * 16 + G.val) * 2 + h.val) * 4 + J.val)
  omega

theorem ang2_read (A : FVec Ideal S32x7x64 .f32) (cb : Fin 32) (G : Fin 16) (J : Fin 4) (p : Fin 64)
    (hp : p.val = G.val * 4 + J.val) : ang2 A (ix3 cb G J) = A (ix3 cb (2 : Fin 7) p) := by
  unfold ang2
  refine (shapeCast_apply _ _ _ (ix2 cb p) ?_).trans ?_
  · rw [Shape.rowMajor_val_two, Shape.rowMajor_val_three]
    show cb.val * 64 + p.val = (cb.val * 16 + G.val) * 4 + J.val
    omega
  refine (shapeCast_apply _ _ _ (ix3 cb (0 : Fin 1) p) ?_).trans ?_
  · rw [Shape.rowMajor_val_three, Shape.rowMajor_val_two]
    show (cb.val * 1 + 0) * 64 + p.val = cb.val * 64 + p.val
    omega
  refine extractStridedSlice_apply _ _ _ _ (ix3 cb (2 : Fin 7) p) fun a => ?_
  match a with
  | ⟨0, _⟩ => show cb.val = 0 + cb.val; omega
  | ⟨1, _⟩ => rfl
  | ⟨2, _⟩ => show p.val = 0 + p.val; omega

theorem lower2_read (X : FVec Ideal S32x128x16x2x4 .f32) (cb : Fin 32) (i : Fin 128) (G : Fin 16) (J : Fin 4) :
    lower2 X (ix4 cb i G J) = X (ix5 cb i G (0 : Fin 2) J) := by
  unfold lower2
  refine (shapeCast_apply _ _ _ (ix5 cb i G (0 : Fin 1) J) ?_).trans ?_
  · rw [Shape.rowMajor_val_five, Shape.rowMajor_val_four]
    show ((((cb.val * 128 + i.val) * 16 + G.val) * 1 + 0) * 4 + J.val) = ((cb.val * 128 + i.val) * 16 + G.val) * 4 + J.val
    omega
  refine extractStridedSlice_apply _ _ _ _ (ix5 cb i G (0 : Fin 2) J) fun a => ?_
  match a with
  | ⟨0, _⟩ => show cb.val = 0 + cb.val; omega
  | ⟨1, _⟩ => show i.val = 0 + i.val; omega
  | ⟨2, _⟩ => show G.val = 0 + G.val; omega
  | ⟨3, _⟩ => rfl
  | ⟨4, _⟩ => show J.val = 0 + J.val; omega

theorem upper2_read (X : FVec Ideal S32x128x16x2x4 .f32) (cb : Fin 32) (i : Fin 128) (G : Fin 16) (J : Fin 4) :
    upper2 X (ix4 cb i G J) = X (ix5 cb i G (1 : Fin 2) J) := by
  unfold upper2
  refine (shapeCast_apply _ _ _ (ix5 cb i G (0 : Fin 1) J) ?_).trans ?_
  · rw [Shape.rowMajor_val_five, Shape.rowMajor_val_four]
    show ((((cb.val * 128 + i.val) * 16 + G.val) * 1 + 0) * 4 + J.val) = ((cb.val * 128 + i.val) * 16 + G.val) * 4 + J.val
    omega
  refine extractStridedSlice_apply _ _ _ _ (ix5 cb i G (1 : Fin 2) J) fun a => ?_
  match a with
  | ⟨0, _⟩ => show cb.val = 0 + cb.val; omega
  | ⟨1, _⟩ => show i.val = 0 + i.val; omega
  | ⟨2, _⟩ => show G.val = 0 + G.val; omega
  | ⟨3, _⟩ => rfl
  | ⟨4, _⟩ => show J.val = 0 + J.val; omega

theorem spread2_read (t : FVec Ideal S32x16x4 .f32) (cb : Fin 32) (i : Fin 128) (G : Fin 16) (J : Fin 4) :
    spread2 t (ix4 cb i G J) = t (ix3 cb G J) := by
  have hG := G.isLt; have hJ := J.isLt
  unfold spread2
  refine (broadcastInDim_apply _ _ _ (ix4 cb i G J) (ix4 cb (0 : Fin 1) G J) fun a => ?_).trans ?_
  · match a with
    | ⟨0, _⟩ => show cb.val = if (32 : ℕ) = 1 then 0 else cb.val; rfl
    | ⟨1, _⟩ => show (0 : ℕ) = if (1 : ℕ) = 1 then 0 else i.val; rfl
    | ⟨2, _⟩ => show G.val = if (16 : ℕ) = 1 then 0 else G.val; split <;> omega
    | ⟨3, _⟩ => show J.val = if (4 : ℕ) = 1 then 0 else J.val; split <;> omega
  refine broadcastInDim_apply _ _ _ (ix4 cb (0 : Fin 1) G J) (ix3 cb G J) fun a => ?_
  match a with
  | ⟨0, _⟩ => show cb.val = if (32 : ℕ) = 1 then 0 else cb.val; rfl
  | ⟨1, _⟩ => show G.val = if (16 : ℕ) = 1 then 0 else G.val; split <;> omega
  | ⟨2, _⟩ => show J.val = if (4 : ℕ) = 1 then 0 else J.val; split <;> omega

/-- Stage 2 of the host program is the butterfly stage at distance 4 on every row of every block. -/
theorem term2_read (A : FVec Ideal S32x7x64 .f32) (Y : FVec Ideal S32x128x128 .f32) (cb : Fin 32) (i j : Fin 128) :
    term2 A Y (ix3 cb i j)
      = stage 4 (angT Ideal.cos A cb (2 : Fin 7)) (angT Ideal.sin A cb (2 : Fin 7)) (rowN Y cb i) j.val := by
  have hj := j.isLt
  have hG : j.val / (2 * 4) < 16 := by omega
  have hJ : j.val % 4 < 4 := by omega
  have hp : j.val / (2 * 4) * 4 + j.val % 4 < 64 := by omega
  unfold stage pairIdx term2
  by_cases hh : j.val / 4 % 2 = 0
  · rw [if_pos hh]
    have hjd : j.val + 4 < 128 := by omega
    refine (shapeCast_apply _ _ _ (ix5 cb i ⟨j.val / (2 * 4), hG⟩ (0 : Fin 2) ⟨j.val % 4, hJ⟩) ?_).trans ?_
    · rw [Shape.rowMajor_val_five, Shape.rowMajor_val_three]
      show ((((cb.val * 128 + i.val) * 16 + j.val / (2 * 4)) * 2 + 0) * 4 + j.val % 4) = (cb.val * 128 + i.val) * 128 + j.val
      omega
    refine (cat2_left S32x128x16x2x4 S32x128x16x1x4 3 _ _ _ _ rfl (ix5 cb i ⟨j.val / (2 * 4), hG⟩ (0 : Fin 1) ⟨j.val % 4, hJ⟩) (fun b => ?_)).trans ?_
    · match b with
      | ⟨0, _⟩ => rfl
      | ⟨1, _⟩ => rfl
      | ⟨2, _⟩ => rfl
      | ⟨3, _⟩ => rfl
      | ⟨4, _⟩ => rfl
    refine (broadcastInDim_apply _ _ _ _ (ix4 cb i ⟨j.val / (2 * 4), hG⟩ ⟨j.val % 4, hJ⟩) (fun a => ?_)).trans ?_
    · match a with
      | ⟨0, _⟩ => show cb.val = if (32 : ℕ) = 1 then 0 else cb.val; rfl
      | ⟨1, _⟩ => show i.val = if (128 : ℕ) = 1 then 0 else i.val; rfl
      | ⟨2, _⟩ => show j.val / (2 * 4) = if (16 : ℕ) = 1 then 0 else j.val / (2 * 4); split <;> omega
      | ⟨3, _⟩ => show j.val % 4 = if (4 : ℕ) = 1 then 0 else j.val % 4; split <;> omega
    rw [subf_apply, mulf_apply, mulf_apply, spread2_read, spread2_read, lower2_read, upper2_read,
      X2_read Y cb i ⟨j.val / (2 * 4), hG⟩ (0 : Fin 2) ⟨j.val % 4, hJ⟩ ⟨j.val, hj⟩ (by show j.val = j.val / (2 * 4) * (2 * 4) + 0 * 4 + j.val % 4; omega),
      X2_read Y cb i ⟨j.val / (2 * 4), hG⟩ (1 : Fin 2) ⟨j.val % 4, hJ⟩ ⟨j.val + 4, hjd⟩ (by show j.val + 4 = j.val / (2 * 4) * (2 * 4) + 1 * 4 + j.val % 4; omega),
      hostCos_apply, hostSin_apply, ang2_read A cb ⟨j.val / (2 * 4), hG⟩ ⟨j.val % 4, hJ⟩ ⟨j.val / (2 * 4) * 4 + j.val % 4, hp⟩ rfl]
    simp only [angT, rowN, dif_pos hp, dif_pos hj, dif_pos hjd]
  · rw [if_neg hh]
    have hdj : 4 ≤ j.val := by omega
    have hjd : j.val - 4 < 128 := by omega
    refine (shapeCast_apply _ _ _ (ix5 cb i ⟨j.val / (2 * 4), hG⟩ (1 : Fin 2) ⟨j.val % 4, hJ⟩) ?_).trans ?_
    · rw [Shape.rowMajor_val_five, Shape.rowMajor_val_three]
      show ((((cb.val * 128 + i.val) * 16 + j.val / (2 * 4)) * 2 + 1) * 4 + j.val % 4) = (cb.val * 128 + i.val) * 128 + j.val
      omega
    refine (cat2_right S32x128x16x2x4 S32x128x16x1x4 3 _ _ _ _ rfl (ix5 cb i ⟨j.val / (2 * 4), hG⟩ (0 : Fin 1) ⟨j.val % 4, hJ⟩) (fun b hb => ?_) rfl).trans ?_
    · match b with
      | ⟨0, _⟩ => rfl
      | ⟨1, _⟩ => rfl
      | ⟨2, _⟩ => rfl
      | ⟨3, _⟩ => exact absurd rfl hb
      | ⟨4, _⟩ => rfl
    refine (broadcastInDim_apply _ _ _ _ (ix4 cb i ⟨j.val / (2 * 4), hG⟩ ⟨j.val % 4, hJ⟩) (fun a => ?_)).trans ?_
    · match a with
      | ⟨0, _⟩ => show cb.val = if (32 : ℕ) = 1 then 0 else cb.val; rfl
      | ⟨1, _⟩ => show i.val = if (128 : ℕ) = 1 then 0 else i.val; rfl
      | ⟨2, _⟩ => show j.val / (2 * 4) = if (16 : ℕ) = 1 then 0 else j.val / (2 * 4); split <;> omega
      | ⟨3, _⟩ => show j.val % 4 = if (4 : ℕ) = 1 then 0 else j.val % 4; split <;> omega
    rw [addf_apply, mulf_apply, mulf_apply, spread2_read, spread2_read, lower2_read, upper2_read,
      X2_read Y cb i ⟨j.val / (2 * 4), hG⟩ (0 : Fin 2) ⟨j.val % 4, hJ⟩ ⟨j.val - 4, hjd⟩ (by show j.val - 4 = j.val / (2 * 4) * (2 * 4) + 0 * 4 + j.val % 4; omega),
      X2_read Y cb i ⟨j.val / (2 * 4), hG⟩ (1 : Fin 2) ⟨j.val % 4, hJ⟩ ⟨j.val, hj⟩ (by show j.val = j.val / (2 * 4) * (2 * 4) + 1 * 4 + j.val % 4; omega),
      hostCos_apply, hostSin_apply, ang2_read A cb ⟨j.val / (2 * 4), hG⟩ ⟨j.val % 4, hJ⟩ ⟨j.val / (2 * 4) * 4 + j.val % 4, hp⟩ rfl]
    simp only [angT, rowN, dif_pos hp, dif_pos hj, dif_pos hjd]

/-! ### Stage 3: distance 8, 8 groups of two halves of 8 -/

/-- The rows cut into 8 groups of a lower and an upper half of 8. -/
def X3 (Y : FVec Ideal S32x128x128 .f32) : FVec Ideal S32x128x8x2x8 .f32 :=
  shapeCast S32x128x8x2x8 Y Gen.shapeCasts_S32x128x128_S32x128x8x2x8

/-- Stage 3's angles of every block, one per group and place in the half. -/
def ang3 (A : FVec Ideal S32x7x64 .f32) : FVec Ideal S32x8x8 .f32 :=
  shapeCast S32x8x8 (shapeCast S32x64 (extractStridedSlice S32x1x64 ![0, 3, 0] A Gen.slices_S32x7x64_S32x1x64_0_3_0)
    Gen.shapeCasts_S32x1x64_S32x64) Gen.shapeCasts_S32x64_S32x8x8

/-- The lower halves. -/
def lower3 (X : FVec Ideal S32x128x8x2x8 .f32) : FVec Ideal S32x128x8x8 .f32 :=
  shapeCast S32x128x8x8 (extractStridedSlice S32x128x8x1x8 ![0, 0, 0, 0, 0] X Gen.slices_S32x128x8x2x8_S32x128x8x1x8_0_0_0_0_0) Gen.shapeCasts_S32x128x8x1x8_S32x128x8x8

/-- The upper halves. -/
def upper3 (X : FVec Ideal S32x128x8x2x8 .f32) : FVec Ideal S32x128x8x8 .f32 :=
  shapeCast S32x128x8x8 (extractStridedSlice S32x128x8x1x8 ![0, 0, 0, 1, 0] X Gen.slices_S32x128x8x2x8_S32x128x8x1x8_0_0_0_1_0) Gen.shapeCasts_S32x128x8x1x8_S32x128x8x8

/-- A block's table repeated for each of the 128 rows. -/
def spread3 (t : FVec Ideal S32x8x8 .f32) : FVec Ideal S32x128x8x8 .f32 :=
  broadcastInDim S32x128x8x8 ![0, 1, 2, 3] Gen.bcast_S32x1x8x8_S32x128x8x8_0_1_2_3 (broadcastInDim S32x1x8x8 ![0, 2, 3] Gen.bcast_S32x8x8_S32x1x8x8_0_2_3 t)

/-- Stage 3 as the host program computes it from the angles `A` and the previous stage's result `Y`. -/
def term3 (A : FVec Ideal S32x7x64 .f32) (Y : FVec Ideal S32x128x128 .f32) : FVec Ideal S32x128x128 .f32 :=
  shapeCast S32x128x128
    (cat2 S32x128x8x2x8 S32x128x8x1x8 3 Gen.concatenates_S32x128x8x1x8_S32x128x8x1x8_S32x128x8x2x8_d3
      (broadcastInDim S32x128x8x1x8 ![0, 1, 2, 4] Gen.bcast_S32x128x8x8_S32x128x8x1x8_0_1_2_4
        (subf (mulf (spread3 (Host.cos (ang3 A))) (lower3 (X3 Y))) (mulf (spread3 (Host.sin (ang3 A))) (upper3 (X3 Y)))))
      (broadcastInDim S32x128x8x1x8 ![0, 1, 2, 4] Gen.bcast_S32x128x8x8_S32x128x8x1x8_0_1_2_4
        (addf (mulf (spread3 (Host.sin (ang3 A))) (lower3 (X3 Y))) (mulf (spread3 (Host.cos (ang3 A))) (upper3 (X3 Y))))))
    Gen.shapeCasts_S32x128x8x2x8_S32x128x128

theorem X3_read (Y : FVec Ideal S32x128x128 .f32) (cb : Fin 32) (i : Fin 128) (G : Fin 8) (h : Fin 2) (J : Fin 8) (n : Fin 128)
    (hn : n.val = G.val * (2 * 8) + h.val * 8 + J.val) : X3 Y (ix5 cb i G h J) = Y (ix3 cb i n) := by
  unfold X3
  refine shapeCast_apply _ _ _ (ix3 cb i n) ?_
  rw [Shape.rowMajor_val_three, Shape.rowMajor_val_five]
  show (cb.val * 128 + i.val) * 128 + n.val = ((((cb.val * 128 + i.val) * 8 + G.val) * 2 + h.val) * 8 + J.val)
  omega

theorem ang3_read (A : FVec Ideal S32x7x64 .f32) (cb : Fin 32) (G : Fin 8) (J : Fin 8) (p : Fin 64)
    (hp : p.val = G.val * 8 + J.val) : ang3 A (ix3 cb G J) = A (ix3 cb (3 : Fin 7) p) := by
  unfold ang3
  refine (shapeCast_apply _ _ _ (ix2 cb p) ?_).trans ?_
  · rw [Shape.rowMajor_val_two, Shape.rowMajor_val_three]
    show cb.val * 64 + p.val = (cb.val * 8 + G.val) * 8 + J.val
    omega
  refine (shapeCast_apply _ _ _ (ix3 cb (0 : Fin 1) p) ?_).trans ?_
  · rw [Shape.rowMajor_val_three, Shape.rowMajor_val_two]
    show (cb.val * 1 + 0) * 64 + p.val = cb.val * 64 + p.val
    omega
  refine extractStridedSlice_apply _ _ _ _ (ix3 cb (3 : Fin 7) p) fun a => ?_
  match a with
  | ⟨0, _⟩ => show cb.val = 0 + cb.val; omega
  | ⟨1, _⟩ => rfl
  | ⟨2, _⟩ => show p.val = 0 + p.val; omega

theorem lower3_read (X : FVec Ideal S32x128x8x2x8 .f32) (cb : Fin 32) (i : Fin 128) (G : Fin 8) (J : Fin 8) :
    lower3 X (ix4 cb i G J) = X (ix5 cb i G (0 : Fin 2) J) := by
  unfold lower3
  refine (shapeCast_apply _ _ _ (ix5 cb i G (0 : Fin 1) J) ?_).trans ?_
  · rw [Shape.rowMajor_val_five, Shape.rowMajor_val_four]
    show ((((cb.val * 128 + i.val) * 8 + G.val) * 1 + 0) * 8 + J.val) = ((cb.val * 128 + i.val) * 8 + G.val) * 8 + J.val
    omega
  refine extractStridedSlice_apply _ _ _ _ (ix5 cb i G (0 : Fin 2) J) fun a => ?_
  match a with
  | ⟨0, _⟩ => show cb.val = 0 + cb.val; omega
  | ⟨1, _⟩ => show i.val = 0 + i.val; omega
  | ⟨2, _⟩ => show G.val = 0 + G.val; omega
  | ⟨3, _⟩ => rfl
  | ⟨4, _⟩ => show J.val = 0 + J.val; omega

theorem upper3_read (X : FVec Ideal S32x128x8x2x8 .f32) (cb : Fin 32) (i : Fin 128) (G : Fin 8) (J : Fin 8) :
    upper3 X (ix4 cb i G J) = X (ix5 cb i G (1 : Fin 2) J) := by
  unfold upper3
  refine (shapeCast_apply _ _ _ (ix5 cb i G (0 : Fin 1) J) ?_).trans ?_
  · rw [Shape.rowMajor_val_five, Shape.rowMajor_val_four]
    show ((((cb.val * 128 + i.val) * 8 + G.val) * 1 + 0) * 8 + J.val) = ((cb.val * 128 + i.val) * 8 + G.val) * 8 + J.val
    omega
  refine extractStridedSlice_apply _ _ _ _ (ix5 cb i G (1 : Fin 2) J) fun a => ?_
  match a with
  | ⟨0, _⟩ => show cb.val = 0 + cb.val; omega
  | ⟨1, _⟩ => show i.val = 0 + i.val; omega
  | ⟨2, _⟩ => show G.val = 0 + G.val; omega
  | ⟨3, _⟩ => rfl
  | ⟨4, _⟩ => show J.val = 0 + J.val; omega

theorem spread3_read (t : FVec Ideal S32x8x8 .f32) (cb : Fin 32) (i : Fin 128) (G : Fin 8) (J : Fin 8) :
    spread3 t (ix4 cb i G J) = t (ix3 cb G J) := by
  have hG := G.isLt; have hJ := J.isLt
  unfold spread3
  refine (broadcastInDim_apply _ _ _ (ix4 cb i G J) (ix4 cb (0 : Fin 1) G J) fun a => ?_).trans ?_
  · match a with
    | ⟨0, _⟩ => show cb.val = if (32 : ℕ) = 1 then 0 else cb.val; rfl
    | ⟨1, _⟩ => show (0 : ℕ) = if (1 : ℕ) = 1 then 0 else i.val; rfl
    | ⟨2, _⟩ => show G.val = if (8 : ℕ) = 1 then 0 else G.val; split <;> omega
    | ⟨3, _⟩ => show J.val = if (8 : ℕ) = 1 then 0 else J.val; split <;> omega
  refine broadcastInDim_apply _ _ _ (ix4 cb (0 : Fin 1) G J) (ix3 cb G J) fun a => ?_
  match a with
  | ⟨0, _⟩ => show cb.val = if (32 : ℕ) = 1 then 0 else cb.val; rfl
  | ⟨1, _⟩ => show G.val = if (8 : ℕ) = 1 then 0 else G.val; split <;> omega
  | ⟨2, _⟩ => show J.val = if (8 : ℕ) = 1 then 0 else J.val; split <;> omega

/-- Stage 3 of the host program is the butterfly stage at distance 8 on every row of every block. -/
theorem term3_read (A : FVec Ideal S32x7x64 .f32) (Y : FVec Ideal S32x128x128 .f32) (cb : Fin 32) (i j : Fin 128) :
    term3 A Y (ix3 cb i j)
      = stage 8 (angT Ideal.cos A cb (3 : Fin 7)) (angT Ideal.sin A cb (3 : Fin 7)) (rowN Y cb i) j.val := by
  have hj := j.isLt
  have hG : j.val / (2 * 8) < 8 := by omega
  have hJ : j.val % 8 < 8 := by omega
  have hp : j.val / (2 * 8) * 8 + j.val % 8 < 64 := by omega
  unfold stage pairIdx term3
  by_cases hh : j.val / 8 % 2 = 0
  · rw [if_pos hh]
    have hjd : j.val + 8 < 128 := by omega
    refine (shapeCast_apply _ _ _ (ix5 cb i ⟨j.val / (2 * 8), hG⟩ (0 : Fin 2) ⟨j.val % 8, hJ⟩) ?_).trans ?_
    · rw [Shape.rowMajor_val_five, Shape.rowMajor_val_three]
      show ((((cb.val * 128 + i.val) * 8 + j.val / (2 * 8)) * 2 + 0) * 8 + j.val % 8) = (cb.val * 128 + i.val) * 128 + j.val
      omega
    refine (cat2_left S32x128x8x2x8 S32x128x8x1x8 3 _ _ _ _ rfl (ix5 cb i ⟨j.val / (2 * 8), hG⟩ (0 : Fin 1) ⟨j.val % 8, hJ⟩) (fun b => ?_)).trans ?_
    · match b with
      | ⟨0, _⟩ => rfl
      | ⟨1, _⟩ => rfl
      | ⟨2, _⟩ => rfl
      | ⟨3, _⟩ => rfl
      | ⟨4, _⟩ => rfl
    refine (broadcastInDim_apply _ _ _ _ (ix4 cb i ⟨j.val / (2 * 8), hG⟩ ⟨j.val % 8, hJ⟩) (fun a => ?_)).trans ?_
    · match a with
      | ⟨0, _⟩ => show cb.val = if (32 : ℕ) = 1 then 0 else cb.val; rfl
      | ⟨1, _⟩ => show i.val = if (128 : ℕ) = 1 then 0 else i.val; rfl
      | ⟨2, _⟩ => show j.val / (2 * 8) = if (8 : ℕ) = 1 then 0 else j.val / (2 * 8); split <;> omega
      | ⟨3, _⟩ => show j.val % 8 = if (8 : ℕ) = 1 then 0 else j.val % 8; split <;> omega
    rw [subf_apply, mulf_apply, mulf_apply, spread3_read, spread3_read, lower3_read, upper3_read,
      X3_read Y cb i ⟨j.val / (2 * 8), hG⟩ (0 : Fin 2) ⟨j.val % 8, hJ⟩ ⟨j.val, hj⟩ (by show j.val = j.val / (2 * 8) * (2 * 8) + 0 * 8 + j.val % 8; omega),
      X3_read Y cb i ⟨j.val / (2 * 8), hG⟩ (1 : Fin 2) ⟨j.val % 8, hJ⟩ ⟨j.val + 8, hjd⟩ (by show j.val + 8 = j.val / (2 * 8) * (2 * 8) + 1 * 8 + j.val % 8; omega),
      hostCos_apply, hostSin_apply, ang3_read A cb ⟨j.val / (2 * 8), hG⟩ ⟨j.val % 8, hJ⟩ ⟨j.val / (2 * 8) * 8 + j.val % 8, hp⟩ rfl]
    simp only [angT, rowN, dif_pos hp, dif_pos hj, dif_pos hjd]
  · rw [if_neg hh]
    have hdj : 8 ≤ j.val := by omega
    have hjd : j.val - 8 < 128 := by omega
    refine (shapeCast_apply _ _ _ (ix5 cb i ⟨j.val / (2 * 8), hG⟩ (1 : Fin 2) ⟨j.val % 8, hJ⟩) ?_).trans ?_
    · rw [Shape.rowMajor_val_five, Shape.rowMajor_val_three]
      show ((((cb.val * 128 + i.val) * 8 + j.val / (2 * 8)) * 2 + 1) * 8 + j.val % 8) = (cb.val * 128 + i.val) * 128 + j.val
      omega
    refine (cat2_right S32x128x8x2x8 S32x128x8x1x8 3 _ _ _ _ rfl (ix5 cb i ⟨j.val / (2 * 8), hG⟩ (0 : Fin 1) ⟨j.val % 8, hJ⟩) (fun b hb => ?_) rfl).trans ?_
    · match b with
      | ⟨0, _⟩ => rfl
      | ⟨1, _⟩ => rfl
      | ⟨2, _⟩ => rfl
      | ⟨3, _⟩ => exact absurd rfl hb
      | ⟨4, _⟩ => rfl
    refine (broadcastInDim_apply _ _ _ _ (ix4 cb i ⟨j.val / (2 * 8), hG⟩ ⟨j.val % 8, hJ⟩) (fun a => ?_)).trans ?_
    · match a with
      | ⟨0, _⟩ => show cb.val = if (32 : ℕ) = 1 then 0 else cb.val; rfl
      | ⟨1, _⟩ => show i.val = if (128 : ℕ) = 1 then 0 else i.val; rfl
      | ⟨2, _⟩ => show j.val / (2 * 8) = if (8 : ℕ) = 1 then 0 else j.val / (2 * 8); split <;> omega
      | ⟨3, _⟩ => show j.val % 8 = if (8 : ℕ) = 1 then 0 else j.val % 8; split <;> omega
    rw [addf_apply, mulf_apply, mulf_apply, spread3_read, spread3_read, lower3_read, upper3_read,
      X3_read Y cb i ⟨j.val / (2 * 8), hG⟩ (0 : Fin 2) ⟨j.val % 8, hJ⟩ ⟨j.val - 8, hjd⟩ (by show j.val - 8 = j.val / (2 * 8) * (2 * 8) + 0 * 8 + j.val % 8; omega),
      X3_read Y cb i ⟨j.val / (2 * 8), hG⟩ (1 : Fin 2) ⟨j.val % 8, hJ⟩ ⟨j.val, hj⟩ (by show j.val = j.val / (2 * 8) * (2 * 8) + 1 * 8 + j.val % 8; omega),
      hostCos_apply, hostSin_apply, ang3_read A cb ⟨j.val / (2 * 8), hG⟩ ⟨j.val % 8, hJ⟩ ⟨j.val / (2 * 8) * 8 + j.val % 8, hp⟩ rfl]
    simp only [angT, rowN, dif_pos hp, dif_pos hj, dif_pos hjd]

end Cert.KernelIdeal.HostTables

end
-- ==== Proof.HostTermsB.lean ====
/-
  Stages 4 … 6 of the seven the host program runs on the identity (distances 16, 32, 64), each as the program spells
  it and read at one entry: the plane rotation at that distance of every row of every block, with the block's angles.
-/
import proofs.«122426_j35845797052976_2_alg».proof.Proof.HostTerms

noncomputable section

namespace Cert.KernelIdeal.HostTables

open Idealize.ShloMosaic Idealize.ShloMosaic.StableHlo Idealize.ShloMosaic.ValueIdx Idealize.ShloMosaic.TcCoe
open Cert.KernelIdeal Cert.Butterfly

/-! ### Stage 4: distance 16, 4 groups of two halves of 16 -/

/-- The rows cut into 4 groups of a lower and an upper half of 16. -/
def X4 (Y : FVec Ideal S32x128x128 .f32) : FVec Ideal S32x128x4x2x16 .f32 :=
  shapeCast S32x128x4x2x16 Y Gen.shapeCasts_S32x128x128_S32x128x4x2x16

/-- Stage 4's angles of every block, one per group and place in the half. -/
def ang4 (A : FVec Ideal S32x7x64 .f32) : FVec Ideal S32x4x16 .f32 :=
  shapeCast S32x4x16 (shapeCast S32x64 (extractStridedSlice S32x1x64 ![0, 4, 0] A Gen.slices_S32x7x64_S32x1x64_0_4_0)
    Gen.shapeCasts_S32x1x64_S32x64) Gen.shapeCasts_S32x64_S32x4x16

/-- The lower halves. -/
def lower4 (X : FVec Ideal S32x128x4x2x16 .f32) : FVec Ideal S32x128x4x16 .f32 :=
  shapeCast S32x128x4x16 (extractStridedSlice S32x128x4x1x16 ![0, 0, 0, 0, 0] X Gen.slices_S32x128x4x2x16_S32x128x4x1x16_0_0_0_0_0) Gen.shapeCasts_S32x128x4x1x16_S32x128x4x16

/-- The upper halves. -/
def upper4 (X : FVec Ideal S32x128x4x2x16 .f32) : FVec Ideal S32x128x4x16 .f32 :=
  shapeCast S32x128x4x16 (extractStridedSlice S32x128x4x1x16 ![0, 0, 0, 1, 0] X Gen.slices_S32x128x4x2x16_S32x128x4x1x16_0_0_0_1_0) Gen.shapeCasts_S32x128x4x1x16_S32x128x4x16

/-- A block's table repeated for each of the 128 rows. -/
def spread4 (t : FVec Ideal S32x4x16 .f32) : FVec Ideal S32x128x4x16 .f32 :=
  broadcastInDim S32x128x4x16 ![0, 1, 2, 3] Gen.bcast_S32x1x4x16_S32x128x4x16_0_1_2_3 (broadcastInDim S32x1x4x16 ![0, 2, 3] Gen.bcast_S32x4x16_S32x1x4x16_0_2_3 t)

/-- Stage 4 as the host program computes it from the angles `A` and the previous stage's result `Y`. -/
def term4 (A : FVec Ideal S32x7x64 .f32) (Y : FVec Ideal S32x128x128 .f32) : FVec Ideal S32x128x128 .f32 :=
  shapeCast S32x128x128
    (cat2 S32x128x4x2x16 S32x128x4x1x16 3 Gen.concatenates_S32x128x4x1x16_S32x128x4x1x16_S32x128x4x2x16_d3
      (broadcastInDim S32x128x4x1x16 ![0, 1, 2, 4] Gen.bcast_S32x128x4x16_S32x128x4x1x16_0_1_2_4
        (subf (mulf (spread4 (Host.cos (ang4 A))) (lower4 (X4 Y))) (mulf (spread4 (Host.sin (ang4 A))) (upper4 (X4 Y)))))
      (broadcastInDim S32x128x4x1x16 ![0, 1, 2, 4] Gen.bcast_S32x128x4x16_S32x128x4x1x16_0_1_2_4
        (addf (mulf (spread4 (Host.sin (ang4 A))) (lower4 (X4 Y))) (mulf (spread4 (Host.cos (ang4 A))) (upper4 (X4 Y))))))
    Gen.shapeCasts_S32x128x4x2x16_S32x128x128

theorem X4_read (Y : FVec Ideal S32x128x128 .f32) (cb : Fin 32) (i : Fin 128) (G : Fin 4) (h : Fin 2) (J : Fin 16) (n : Fin 128)
    (hn : n.val = G.val * (2 * 16) + h.val * 16 + J.val) : X4 Y (ix5 cb i G h J) = Y (ix3 cb i n) := by
  unfold X4
  refine shapeCast_apply _ _ _ (ix3 cb i n) ?_
  rw [Shape.rowMajor_val_three, Shape.rowMajor_val_five]
  show (cb.val * 128 + i.val) * 128 + n.val = ((((cb.val * 128 + i.val) * 4 + G.val) * 2 + h.val) * 16 + J.val)
  omega

theorem ang4_read (A : FVec Ideal S32x7x64 .f32) (cb : Fin 32) (G : Fin 4) (J : Fin 16) (p : Fin 64)
    (hp : p.val = G.val * 16 + J.val) : ang4 A (ix3 cb G J) = A (ix3 cb (4 : Fin 7) p) := by
  unfold ang4
  refine (shapeCast_apply _ _ _ (ix2 cb p) ?_).trans ?_
  · rw [Shape.rowMajor_val_two, Shape.rowMajor_val_three]
    show cb.val * 64 + p.val = (cb.val * 4 + G.val) * 16 + J.val
    omega
  refine (shapeCast_apply _ _ _ (ix3 cb (0 : Fin 1) p) ?_).trans ?_
  · rw [Shape.rowMajor_val_three, Shape.rowMajor_val_two]
    show (cb.val * 1 + 0) * 64 + p.val = cb.val * 64 + p.val
    omega
  refine extractStridedSlice_apply _ _ _ _ (ix3 cb (4 : Fin 7) p) fun a => ?_
  match a with
  | ⟨0, _⟩ => show cb.val = 0 + cb.val; omega
  | ⟨1, _⟩ => rfl
  | ⟨2, _⟩ => show p.val = 0 + p.val; omega

theorem lower4_read (X : FVec Ideal S32x128x4x2x16 .f32) (cb : Fin 32) (i : Fin 128) (G : Fin 4) (J : Fin 16) :
    lower4 X (ix4 cb i G J) = X (ix5 cb i G (0 : Fin 2) J) := by
  unfold lower4
  refine (shapeCast_apply _ _ _ (ix5 cb i G (0 : Fin 1) J) ?_).trans ?_
  · rw [Shape.rowMajor_val_five, Shape.rowMajor_val_four]
    show ((((cb.val * 128 + i.val) * 4 + G.val) * 1 + 0) * 16 + J.val) = ((cb.val * 128 + i.val) * 4 + G.val) * 16 + J.val
    omega
  refine extractStridedSlice_apply _ _ _ _ (ix5 cb i G (0 : Fin 2) J) fun a => ?_
  match a with
  | ⟨0, _⟩ => show cb.val = 0 + cb.val; omega
  | ⟨1, _⟩ => show i.val = 0 + i.val; omega
  | ⟨2, _⟩ => show G.val = 0 + G.val; omega
  | ⟨3, _⟩ => rfl
  | ⟨4, _⟩ => show J.val = 0 + J.val; omega

theorem upper4_read (X : FVec Ideal S32x128x4x2x16 .f32) (cb : Fin 32) (i : Fin 128) (G : Fin 4) (J : Fin 16) :
    upper4 X (ix4 cb i G J) = X (ix5 cb i G (1 : Fin 2) J) := by
  unfold upper4
  refine (shapeCast_apply _ _ _ (ix5 cb i G (0 : Fin 1) J) ?_).trans ?_
  · rw [Shape.rowMajor_val_five, Shape.rowMajor_val_four]
    show ((((cb.val * 128 + i.val) * 4 + G.val) * 1 + 0) * 16 + J.val) = ((cb.val * 128 + i.val) * 4 + G.val) * 16 + J.val
    omega
  refine extractStridedSlice_apply _ _ _ _ (ix5 cb i G (1 : Fin 2) J) fun a => ?_
  match a with
  | ⟨0, _⟩ => show cb.val = 0 + cb.val; omega
  | ⟨1, _⟩ => show i.val = 0 + i.val; omega
  | ⟨2, _⟩ => show G.val = 0 + G.val; omega
  | ⟨3, _⟩ => rfl
  | ⟨4, _⟩ => show J.val = 0 + J.val; omega

theorem spread4_read (t : FVec Ideal S32x4x16 .f32) (cb : Fin 32) (i : Fin 128) (G : Fin 4) (J : Fin 16) :
    spread4 t (ix4 cb i G J) = t (ix3 cb G J) := by
  have hG := G.isLt; have hJ := J.isLt
  unfold spread4
  refine (broadcastInDim_apply _ _ _ (ix4 cb i G J) (ix4 cb (0 : Fin 1) G J) fun a => ?_).trans ?_
  · match a with
    | ⟨0, _⟩ => show cb.val = if (32 : ℕ) = 1 then 0 else cb.val; rfl
    | ⟨1, _⟩ => show (0 : ℕ) = if (1 : ℕ) = 1 then 0 else i.val; rfl
    | ⟨2, _⟩ => show G.val = if (4 : ℕ) = 1 then 0 else G.val; split <;> omega
    | ⟨3, _⟩ => show J.val = if (16 : ℕ) = 1 then 0 else J.val; split <;> omega
  refine broadcastInDim_apply _ _ _ (ix4 cb (0 : Fin 1) G J) (ix3 cb G J) fun a => ?_
  match a with
  | ⟨0, _⟩ => show cb.val = if (32 : ℕ) = 1 then 0 else cb.val; rfl
  | ⟨1, _⟩ => show G.val = if (4 : ℕ) = 1 then 0 else G.val; split <;> omega
  | ⟨2, _⟩ => show J.val = if (16 : ℕ) = 1 then 0 else J.val; split <;> omega

/-- Stage 4 of the host program is the butterfly stage at distance 16 on every row of every block. -/
theorem term4_read (A : FVec Ideal S32x7x64 .f32) (Y : FVec Ideal S32x128x128 .f32) (cb : Fin 32) (i j : Fin 128) :
    term4 A Y (ix3 cb i j)
      = stage 16 (angT Ideal.cos A cb (4 : Fin 7)) (angT Ideal.sin A cb (4 : Fin 7)) (rowN Y cb i) j.val := by
  have hj := j.isLt
  have hG : j.val / (2 * 16) < 4 := by omega
  have hJ : j.val % 16 < 16 := by omega
  have hp : j.val / (2 * 16) * 16 + j.val % 16 < 64 := by omega
  unfold stage pairIdx term4
  by_cases hh : j.val / 16 % 2 = 0
  · rw [if_pos hh]
    have hjd : j.val + 16 < 128 := by omega
    refine (shapeCast_apply _ _ _ (ix5 cb i ⟨j.val / (2 * 16), hG⟩ (0 : Fin 2) ⟨j.val % 16, hJ⟩) ?_).trans ?_
    · rw [Shape.rowMajor_val_five, Shape.rowMajor_val_three]
      show ((((cb.val * 128 + i.val) * 4 + j.val / (2 * 16)) * 2 + 0) * 16 + j.val % 16) = (cb.val * 128 + i.val) * 128 + j.val
      omega
    refine (cat2_left S32x128x4x2x16 S32x128x4x1x16 3 _ _ _ _ rfl (ix5 cb i ⟨j.val / (2 * 16), hG⟩ (0 : Fin 1) ⟨j.val % 16, hJ⟩) (fun b => ?_)).trans ?_
    · match b with
      | ⟨0, _⟩ => rfl
      | ⟨1, _⟩ => rfl
      | ⟨2, _⟩ => rfl
      | ⟨3, _⟩ => rfl
      | ⟨4, _⟩ => rfl
    refine (broadcastInDim_apply _ _ _ _ (ix4 cb i ⟨j.val / (2 * 16), hG⟩ ⟨j.val % 16, hJ⟩) (fun a => ?_)).trans ?_
    · match a with
      | ⟨0, _⟩ => show cb.val = if (32 : ℕ) = 1 then 0 else cb.val; rfl
      | ⟨1, _⟩ => show i.val = if (128 : ℕ) = 1 then 0 else i.val; rfl
      | ⟨2, _⟩ => show j.val / (2 * 16) = if (4 : ℕ) = 1 then 0 else j.val / (2 * 16); split <;> omega
      | ⟨3, _⟩ => show j.val % 16 = if (16 : ℕ) = 1 then 0 else j.val % 16; split <;> omega
    rw [subf_apply, mulf_apply, mulf_apply, spread4_read, spread4_read, lower4_read, upper4_read,
      X4_read Y cb i ⟨j.val / (2 * 16), hG⟩ (0 : Fin 2) ⟨j.val % 16, hJ⟩ ⟨j.val, hj⟩ (by show j.val = j.val / (2 * 16) * (2 * 16) + 0 * 16 + j.val % 16; omega),
      X4_read Y cb i ⟨j.val / (2 * 16), hG⟩ (1 : Fin 2) ⟨j.val % 16, hJ⟩ ⟨j.val + 16, hjd⟩ (by show j.val + 16 = j.val / (2 * 16) * (2 * 16) + 1 * 16 + j.val % 16; omega),
      hostCos_apply, hostSin_apply, ang4_read A cb ⟨j.val / (2 * 16), hG⟩ ⟨j.val % 16, hJ⟩ ⟨j.val / (2 * 16) * 16 + j.val % 16, hp⟩ rfl]
    simp only [angT, rowN, dif_pos hp, dif_pos hj, dif_pos hjd]
  · rw [if_neg hh]
    have hdj : 16 ≤ j.val := by omega
    have hjd : j.val - 16 < 128 := by omega
    refine (shapeCast_apply _ _ _ (ix5 cb i ⟨j.val / (2 * 16), hG⟩ (1 : Fin 2) ⟨j.val % 16, hJ⟩) ?_).trans ?_
    · rw [Shape.rowMajor_val_five, Shape.rowMajor_val_three]
      show ((((cb.val * 128 + i.val) * 4 + j.val / (2 * 16)) * 2 + 1) * 16 + j.val % 16) = (cb.val * 128 + i.val) * 128 + j.val
      omega
    refine (cat2_right S32x128x4x2x16 S32x128x4x1x16 3 _ _ _ _ rfl (ix5 cb i ⟨j.val / (2 * 16), hG⟩ (0 : Fin 1) ⟨j.val % 16, hJ⟩) (fun b hb => ?_) rfl).trans ?_
    · match b with
      | ⟨0, _⟩ => rfl
      | ⟨1, _⟩ => rfl
      | ⟨2, _⟩ => rfl
      | ⟨3, _⟩ => exact absurd rfl hb
      | ⟨4, _⟩ => rfl
    refine (broadcastInDim_apply _ _ _ _ (ix4 cb i ⟨j.val / (2 * 16), hG⟩ ⟨j.val % 16, hJ⟩) (fun a => ?_)).trans ?_
    · match a with
      | ⟨0, _⟩ => show cb.val = if (32 : ℕ) = 1 then 0 else cb.val; rfl
      | ⟨1, _⟩ => show i.val = if (128 : ℕ) = 1 then 0 else i.val; rfl
      | ⟨2, _⟩ => show j.val / (2 * 16) = if (4 : ℕ) = 1 then 0 else j.val / (2 * 16); split <;> omega
      | ⟨3, _⟩ => show j.val % 16 = if (16 : ℕ) = 1 then 0 else j.val % 16; split <;> omega
    rw [addf_apply, mulf_apply, mulf_apply, spread4_read, spread4_read, lower4_read, upper4_read,
      X4_read Y cb i ⟨j.val / (2 * 16), hG⟩ (0 : Fin 2) ⟨j.val % 16, hJ⟩ ⟨j.val - 16, hjd⟩ (by show j.val - 16 = j.val / (2 * 16) * (2 * 16) + 0 * 16 + j.val % 16; omega),
      X4_read Y cb i ⟨j.val / (2 * 16), hG⟩ (1 : Fin 2) ⟨j.val % 16, hJ⟩ ⟨j.val, hj⟩ (by show j.val = j.val / (2 * 16) * (2 * 16) + 1 * 16 + j.val % 16; omega),
      hostCos_apply, hostSin_apply, ang4_read A cb ⟨j.val / (2 * 16), hG⟩ ⟨j.val % 16, hJ⟩ ⟨j.val / (2 * 16) * 16 + j.val % 16, hp⟩ rfl]
    simp only [angT, rowN, dif_pos hp, dif_pos hj, dif_pos hjd]

/-! ### Stage 5: distance 32, 2 groups of two halves of 32 -/

/-- The rows cut into 2 groups of a lower and an upper half of 32. -/
def X5 (Y : FVec Ideal S32x128x128 .f32) : FVec Ideal S32x128x2x2x32 .f32 :=
  shapeCast S32x128x2x2x32 Y Gen.shapeCasts_S32x128x128_S32x128x2x2x32

/-- Stage 5's angles of every block, one per group and place in the half. -/
def ang5 (A : FVec Ideal S32x7x64 .f32) : FVec Ideal S32x2x32 .f32 :=
  shapeCast S32x2x32 (shapeCast S32x64 (extractStridedSlice S32x1x64 ![0, 5, 0] A Gen.slices_S32x7x64_S32x1x64_0_5_0)
    Gen.shapeCasts_S32x1x64_S32x64) Gen.shapeCasts_S32x64_S32x2x32

/-- The lower halves. -/
def lower5 (X : FVec Ideal S32x128x2x2x32 .f32) : FVec Ideal S32x128x2x32 .f32 :=
  shapeCast S32x128x2x32 (extractStridedSlice S32x128x2x1x32 ![0, 0, 0, 0, 0] X Gen.slices_S32x128x2x2x32_S32x128x2x1x32_0_0_0_0_0) Gen.shapeCasts_S32x128x2x1x32_S32x128x2x32

/-- The upper halves. -/
def upper5 (X : FVec Ideal S32x128x2x2x32 .f32) : FVec Ideal S32x128x2x32 .f32 :=
  shapeCast S32x128x2x32 (extractStridedSlice S32x128x2x1x32 ![0, 0, 0, 1, 0] X Gen.slices_S32x128x2x2x32_S32x128x2x1x32_0_0_0_1_0) Gen.shapeCasts_S32x128x2x1x32_S32x128x2x32

/-- A block's table repeated for each of the 128 rows. -/
def spread5 (t : FVec Ideal S32x2x32 .f32) : FVec Ideal S32x128x2x32 .f32 :=
  broadcastInDim S32x128x2x32 ![0, 1, 2, 3] Gen.bcast_S32x1x2x32_S32x128x2x32_0_1_2_3 (broadcastInDim S32x1x2x32 ![0, 2, 3] Gen.bcast_S32x2x32_S32x1x2x32_0_2_3 t)

/-- Stage 5 as the host program computes it from the angles `A` and the previous stage's result `Y`. -/
def term5 (A : FVec Ideal S32x7x64 .f32) (Y : FVec Ideal S32x128x128 .f32) : FVec Ideal S32x128x128 .f32 :=
  shapeCast S32x128x128
    (cat2 S32x128x2x2x32 S32x128x2x1x32 3 Gen.concatenates_S32x128x2x1x32_S32x128x2x1x32_S32x128x2x2x32_d3
      (broadcastInDim S32x128x2x1x32 ![0, 1, 2, 4] Gen.bcast_S32x128x2x32_S32x128x2x1x32_0_1_2_4
        (subf (mulf (spread5 (Host.cos (ang5 A))) (lower5 (X5 Y))) (mulf (spread5 (Host.sin (ang5 A))) (upper5 (X5 Y)))))
      (broadcastInDim S32x128x2x1x32 ![0, 1, 2, 4] Gen.bcast_S32x128x2x32_S32x128x2x1x32_0_1_2_4
        (addf (mulf (spread5 (Host.sin (ang5 A))) (lower5 (X5 Y))) (mulf (spread5 (Host.cos (ang5 A))) (upper5 (X5 Y))))))
    Gen.shapeCasts_S32x128x2x2x32_S32x128x128

theorem X5_read (Y : FVec Ideal S32x128x128 .f32) (cb : Fin 32) (i : Fin 128) (G : Fin 2) (h : Fin 2) (J : Fin 32) (n : Fin 128)
    (hn : n.val = G.val * (2 * 32) + h.val * 32 + J.val) : X5 Y (ix5 cb i G h J) = Y (ix3 cb i n) := by
  unfold X5
  refine shapeCast_apply _ _ _ (ix3 cb i n) ?_
  rw [Shape.rowMajor_val_three, Shape.rowMajor_val_five]
  show (cb.val * 128 + i.val) * 128 + n.val = ((((cb.val * 128 + i.val) * 2 + G.val) * 2 + h.val) * 32 + J.val)
  omega

theorem ang5_read (A : FVec Ideal S32x7x64 .f32) (cb : Fin 32) (G : Fin 2) (J : Fin 32) (p : Fin 64)
    (hp : p.val = G.val * 32 + J.val) : ang5 A (ix3 cb G J) = A (ix3 cb (5 : Fin 7) p) := by
  unfold ang5
  refine (shapeCast_apply _ _ _ (ix2 cb p) ?_).trans ?_
  · rw [Shape.rowMajor_val_two, Shape.rowMajor_val_three]
    show cb.val * 64 + p.val = (cb.val * 2 + G.val) * 32 + J.val
    omega
  refine (shapeCast_apply _ _ _ (ix3 cb (0 : Fin 1) p) ?_).trans ?_
  · rw [Shape.rowMajor_val_three, Shape.rowMajor_val_two]
    show (cb.val * 1 + 0) * 64 + p.val = cb.val * 64 + p.val
    omega
  refine extractStridedSlice_apply _ _ _ _ (ix3 cb (5 : Fin 7) p) fun a => ?_
  match a with
  | ⟨0, _⟩ => show cb.val = 0 + cb.val; omega
  | ⟨1, _⟩ => rfl
  | ⟨2, _⟩ => show p.val = 0 + p.val; omega

theorem lower5_read (X : FVec Ideal S32x128x2x2x32 .f32) (cb : Fin 32) (i : Fin 128) (G : Fin 2) (J : Fin 32) :
    lower5 X (ix4 cb i G J) = X (ix5 cb i G (0 : Fin 2) J) := by
  unfold lower5
  refine (shapeCast_apply _ _ _ (ix5 cb i G (0 : Fin 1) J) ?_).trans ?_
  · rw [Shape.rowMajor_val_five, Shape.rowMajor_val_four]
    show ((((cb.val * 128 + i.val) * 2 + G.val) * 1 + 0) * 32 + J.val) = ((cb.val * 128 + i.val) * 2 + G.val) * 32 + J.val
    omega
  refine extractStridedSlice_apply _ _ _ _ (ix5 cb i G (0 : Fin 2) J) fun a => ?_
  match a with
  | ⟨0, _⟩ => show cb.val = 0 + cb.val; omega
  | ⟨1, _⟩ => show i.val = 0 + i.val; omega
  | ⟨2, _⟩ => show G.val = 0 + G.val; omega
  | ⟨3, _⟩ => rfl
  | ⟨4, _⟩ => show J.val = 0 + J.val; omega

theorem upper5_read (X : FVec Ideal S32x128x2x2x32 .f32) (cb : Fin 32) (i : Fin 128) (G : Fin 2) (J : Fin 32) :
    upper5 X (ix4 cb i G J) = X (ix5 cb i G (1 : Fin 2) J) := by
  unfold upper5
  refine (shapeCast_apply _ _ _ (ix5 cb i G (0 : Fin 1) J) ?_).trans ?_
  · rw [Shape.rowMajor_val_five, Shape.rowMajor_val_four]
    show ((((cb.val * 128 + i.val) * 2 + G.val) * 1 + 0) * 32 + J.val) = ((cb.val * 128 + i.val) * 2 + G.val) * 32 + J.val
    omega
  refine extractStridedSlice_apply _ _ _ _ (ix5 cb i G (1 : Fin 2) J) fun a => ?_
  match a with
  | ⟨0, _⟩ => show cb.val = 0 + cb.val; omega
  | ⟨1, _⟩ => show i.val = 0 + i.val; omega
  | ⟨2, _⟩ => show G.val = 0 + G.val; omega
  | ⟨3, _⟩ => rfl
  | ⟨4, _⟩ => show J.val = 0 + J.val; omega

theorem spread5_read (t : FVec Ideal S32x2x32 .f32) (cb : Fin 32) (i : Fin 128) (G : Fin 2) (J : Fin 32) :
    spread5 t (ix4 cb i G J) = t (ix3 cb G J) := by
  have hG := G.isLt; have hJ := J.isLt
  unfold spread5
  refine (broadcastInDim_apply _ _ _ (ix4 cb i G J) (ix4 cb (0 : Fin 1) G J) fun a => ?_).trans ?_
  · match a with
    | ⟨0, _⟩ => show cb.val = if (32 : ℕ) = 1 then 0 else cb.val; rfl
    | ⟨1, _⟩ => show (0 : ℕ) = if (1 : ℕ) = 1 then 0 else i.val; rfl
    | ⟨2, _⟩ => show G.val = if (2 : ℕ) = 1 then 0 else G.val; split <;> omega
    | ⟨3, _⟩ => show J.val = if (32 : ℕ) = 1 then 0 else J.val; split <;> omega
  refine broadcastInDim_apply _ _ _ (ix4 cb (0 : Fin 1) G J) (ix3 cb G J) fun a => ?_
  match a with
  | ⟨0, _⟩ => show cb.val = if (32 : ℕ) = 1 then 0 else cb.val; rfl
  | ⟨1, _⟩ => show G.val = if (2 : ℕ) = 1 then 0 else G.val; split <;> omega
  | ⟨2, _⟩ => show J.val = if (32 : ℕ) = 1 then 0 else J.val; split <;> omega

/-- Stage 5 of the host program is the butterfly stage at distance 32 on every row of every block. -/
theorem term5_read (A : FVec Ideal S32x7x64 .f32) (Y : FVec Ideal S32x128x128 .f32) (cb : Fin 32) (i j : Fin 128) :
    term5 A Y (ix3 cb i j)
      = stage 32 (angT Ideal.cos A cb (5 : Fin 7)) (angT Ideal.sin A cb (5 : Fin 7)) (rowN Y cb i) j.val := by
  have hj := j.isLt
  have hG : j.val / (2 * 32) < 2 := by omega
  have hJ : j.val % 32 < 32 := by omega
  have hp : j.val / (2 * 32) * 32 + j.val % 32 < 64 := by omega
  unfold stage pairIdx term5
  by_cases hh : j.val / 32 % 2 = 0
  · rw [if_pos hh]
    have hjd : j.val + 32 < 128 := by omega
    refine (shapeCast_apply _ _ _ (ix5 cb i ⟨j.val / (2 * 32), hG⟩ (0 : Fin 2) ⟨j.val % 32, hJ⟩) ?_).trans ?_
    · rw [Shape.rowMajor_val_five, Shape.rowMajor_val_three]
      show ((((cb.val * 128 + i.val) * 2 + j.val / (2 * 32)) * 2 + 0) * 32 + j.val % 32) = (cb.val * 128 + i.val) * 128 + j.val
      omega
    refine (cat2_left S32x128x2x2x32 S32x128x2x1x32 3 _ _ _ _ rfl (ix5 cb i ⟨j.val / (2 * 32), hG⟩ (0 : Fin 1) ⟨j.val % 32, hJ⟩) (fun b => ?_)).trans ?_
    · match b with
      | ⟨0, _⟩ => rfl
      | ⟨1, _⟩ => rfl
      | ⟨2, _⟩ => rfl
      | ⟨3, _⟩ => rfl
      | ⟨4, _⟩ => rfl
    refine (broadcastInDim_apply _ _ _ _ (ix4 cb i ⟨j.val / (2 * 32), hG⟩ ⟨j.val % 32, hJ⟩) (fun a => ?_)).trans ?_
    · match a with
      | ⟨0, _⟩ => show cb.val = if (32 : ℕ) = 1 then 0 else cb.val; rfl
      | ⟨1, _⟩ => show i.val = if (128 : ℕ) = 1 then 0 else i.val; rfl
      | ⟨2, _⟩ => show j.val / (2 * 32) = if (2 : ℕ) = 1 then 0 else j.val / (2 * 32); split <;> omega
      | ⟨3, _⟩ => show j.val % 32 = if (32 : ℕ) = 1 then 0 else j.val % 32; split <;> omega
    rw [subf_apply, mulf_apply, mulf_apply, spread5_read, spread5_read, lower5_read, upper5_read,
      X5_read Y cb i ⟨j.val / (2 * 32), hG⟩ (0 : Fin 2) ⟨j.val % 32, hJ⟩ ⟨j.val, hj⟩ (by show j.val = j.val / (2 * 32) * (2 * 32) + 0 * 32 + j.val % 32; omega),
      X5_read Y cb i ⟨j.val / (2 * 32), hG⟩ (1 : Fin 2) ⟨j.val % 32, hJ⟩ ⟨j.val + 32, hjd⟩ (by show j.val + 32 = j.val / (2 * 32) * (2 * 32) + 1 * 32 + j.val % 32; omega),
      hostCos_apply, hostSin_apply, ang5_read A cb ⟨j.val / (2 * 32), hG⟩ ⟨j.val % 32, hJ⟩ ⟨j.val / (2 * 32) * 32 + j.val % 32, hp⟩ rfl]
    simp only [angT, rowN, dif_pos hp, dif_pos hj, dif_pos hjd]
  · rw [if_neg hh]
    have hdj : 32 ≤ j.val := by omega
    have hjd : j.val - 32 < 128 := by omega
    refine (shapeCast_apply _ _ _ (ix5 cb i ⟨j.val / (2 * 32), hG⟩ (1 : Fin 2) ⟨j.val % 32, hJ⟩) ?_).trans ?_
    · rw [Shape.rowMajor_val_five, Shape.rowMajor_val_three]
      show ((((cb.val * 128 + i.val) * 2 + j.val / (2 * 32)) * 2 + 1) * 32 + j.val % 32) = (cb.val * 128 + i.val) * 128 + j.val
      omega
    refine (cat2_right S32x128x2x2x32 S32x128x2x1x32 3 _ _ _ _ rfl (ix5 cb i ⟨j.val / (2 * 32), hG⟩ (0 : Fin 1) ⟨j.val % 32, hJ⟩) (fun b hb => ?_) rfl).trans ?_
    · match b with
      | ⟨0, _⟩ => rfl
      | ⟨1, _⟩ => rfl
      | ⟨2, _⟩ => rfl
      | ⟨3, _⟩ => exact absurd rfl hb
      | ⟨4, _⟩ => rfl
    refine (broadcastInDim_apply _ _ _ _ (ix4 cb i ⟨j.val / (2 * 32), hG⟩ ⟨j.val % 32, hJ⟩) (fun a => ?_)).trans ?_
    · match a with
      | ⟨0, _⟩ => show cb.val = if (32 : ℕ) = 1 then 0 else cb.val; rfl
      | ⟨1, _⟩ => show i.val = if (128 : ℕ) = 1 then 0 else i.val; rfl
      | ⟨2, _⟩ => show j.val / (2 * 32) = if (2 : ℕ) = 1 then 0 else j.val / (2 * 32); split <;> omega
      | ⟨3, _⟩ => show j.val % 32 = if (32 : ℕ) = 1 then 0 else j.val % 32; split <;> omega
    rw [addf_apply, mulf_apply, mulf_apply, spread5_read, spread5_read, lower5_read, upper5_read,
      X5_read Y cb i ⟨j.val / (2 * 32), hG⟩ (0 : Fin 2) ⟨j.val % 32, hJ⟩ ⟨j.val - 32, hjd⟩ (by show j.val - 32 = j.val / (2 * 32) * (2 * 32) + 0 * 32 + j.val % 32; omega),
      X5_read Y cb i ⟨j.val / (2 * 32), hG⟩ (1 : Fin 2) ⟨j.val % 32, hJ⟩ ⟨j.val, hj⟩ (by show j.val = j.val / (2 * 32) * (2 * 32) + 1 * 32 + j.val % 32; omega),
      hostCos_apply, hostSin_apply, ang5_read A cb ⟨j.val / (2 * 32), hG⟩ ⟨j.val % 32, hJ⟩ ⟨j.val / (2 * 32) * 32 + j.val % 32, hp⟩ rfl]
    simp only [angT, rowN, dif_pos hp, dif_pos hj, dif_pos hjd]

/-! ### Stage 6: distance 64, 1 group of two halves of 64 -/

/-- The rows cut into 1 group of a lower and an upper half of 64. -/
def X6 (Y : FVec Ideal S32x128x128 .f32) : FVec Ideal S32x128x1x2x64 .f32 :=
  shapeCast S32x128x1x2x64 Y Gen.shapeCasts_S32x128x128_S32x128x1x2x64

/-- Stage 6's angles of every block, one per group and place in the half. -/
def ang6 (A : FVec Ideal S32x7x64 .f32) : FVec Ideal S32x1x64 .f32 :=
  shapeCast S32x1x64 (shapeCast S32x64 (extractStridedSlice S32x1x64 ![0, 6, 0] A Gen.slices_S32x7x64_S32x1x64_0_6_0)
    Gen.shapeCasts_S32x1x64_S32x64) Gen.shapeCasts_S32x64_S32x1x64

/-- The lower halves. -/
def lower6 (X : FVec Ideal S32x128x1x2x64 .f32) : FVec Ideal S32x128x1x64 .f32 :=
  shapeCast S32x128x1x64 (extractStridedSlice S32x128x1x1x64 ![0, 0, 0, 0, 0] X Gen.slices_S32x128x1x2x64_S32x128x1x1x64_0_0_0_0_0) Gen.shapeCasts_S32x128x1x1x64_S32x128x1x64

/-- The upper halves. -/
def upper6 (X : FVec Ideal S32x128x1x2x64 .f32) : FVec Ideal S32x128x1x64 .f32 :=
  shapeCast S32x128x1x64 (extractStridedSlice S32x128x1x1x64 ![0, 0, 0, 1, 0] X Gen.slices_S32x128x1x2x64_S32x128x1x1x64_0_0_0_1_0) Gen.shapeCasts_S32x128x1x1x64_S32x128x1x64

/-- A block's table repeated for each of the 128 rows. -/
def spread6 (t : FVec Ideal S32x1x64 .f32) : FVec Ideal S32x128x1x64 .f32 :=
  broadcastInDim S32x128x1x64 ![0, 1, 2, 3] Gen.bcast_S32x1x1x64_S32x128x1x64_0_1_2_3 (broadcastInDim S32x1x1x64 ![0, 2, 3] Gen.bcast_S32x1x64_S32x1x1x64_0_2_3 t)

/-- Stage 6 as the host program computes it from the angles `A` and the previous stage's result `Y`. -/
def term6 (A : FVec Ideal S32x7x64 .f32) (Y : FVec Ideal S32x128x128 .f32) : FVec Ideal S32x128x128 .f32 :=
  shapeCast S32x128x128
    (cat2 S32x128x1x2x64 S32x128x1x1x64 3 Gen.concatenates_S32x128x1x1x64_S32x128x1x1x64_S32x128x1x2x64_d3
      (broadcastInDim S32x128x1x1x64 ![0, 1, 2, 4] Gen.bcast_S32x128x1x64_S32x128x1x1x64_0_1_2_4
        (subf (mulf (spread6 (Host.cos (ang6 A))) (lower6 (X6 Y))) (mulf (spread6 (Host.sin (ang6 A))) (upper6 (X6 Y)))))
      (broadcastInDim S32x128x1x1x64 ![0, 1, 2, 4] Gen.bcast_S32x128x1x64_S32x128x1x1x64_0_1_2_4
        (addf (mulf (spread6 (Host.sin (ang6 A))) (lower6 (X6 Y))) (mulf (spread6 (Host.cos (ang6 A))) (upper6 (X6 Y))))))
    Gen.shapeCasts_S32x128x1x2x64_S32x128x128

theorem X6_read (Y : FVec Ideal S32x128x128 .f32) (cb : Fin 32) (i : Fin 128) (G : Fin 1) (h : Fin 2) (J : Fin 64) (n : Fin 128)
    (hn : n.val = G.val * (2 * 64) + h.val * 64 + J.val) : X6 Y (ix5 cb i G h J) = Y (ix3 cb i n) := by
  unfold X6
  refine shapeCast_apply _ _ _ (ix3 cb i n) ?_
  rw [Shape.rowMajor_val_three, Shape.rowMajor_val_five]
  show (cb.val * 128 + i.val) * 128 + n.val = ((((cb.val * 128 + i.val) * 1 + G.val) * 2 + h.val) * 64 + J.val)
  omega

theorem ang6_read (A : FVec Ideal S32x7x64 .f32) (cb : Fin 32) (G : Fin 1) (J : Fin 64) (p : Fin 64)
    (hp : p.val = G.val * 64 + J.val) : ang6 A (ix3 cb G J) = A (ix3 cb (6 : Fin 7) p) := by
  unfold ang6
  refine (shapeCast_apply _ _ _ (ix2 cb p) ?_).trans ?_
  · rw [Shape.rowMajor_val_two, Shape.rowMajor_val_three]
    show cb.val * 64 + p.val = (cb.val * 1 + G.val) * 64 + J.val
    omega
  refine (shapeCast_apply _ _ _ (ix3 cb (0 : Fin 1) p) ?_).trans ?_
  · rw [Shape.rowMajor_val_three, Shape.rowMajor_val_two]
    show (cb.val * 1 + 0) * 64 + p.val = cb.val * 64 + p.val
    omega
  refine extractStridedSlice_apply _ _ _ _ (ix3 cb (6 : Fin 7) p) fun a => ?_
  match a with
  | ⟨0, _⟩ => show cb.val = 0 + cb.val; omega
  | ⟨1, _⟩ => rfl
  | ⟨2, _⟩ => show p.val = 0 + p.val; omega

theorem lower6_read (X : FVec Ideal S32x128x1x2x64 .f32) (cb : Fin 32) (i : Fin 128) (G : Fin 1) (J : Fin 64) :
    lower6 X (ix4 cb i G J) = X (ix5 cb i G (0 : Fin 2) J) := by
  unfold lower6
  refine (shapeCast_apply _ _ _ (ix5 cb i G (0 : Fin 1) J) ?_).trans ?_
  · rw [Shape.rowMajor_val_five, Shape.rowMajor_val_four]
    show ((((cb.val * 128 + i.val) * 1 + G.val) * 1 + 0) * 64 + J.val) = ((cb.val * 128 + i.val) * 1 + G.val) * 64 + J.val
    omega
  refine extractStridedSlice_apply _ _ _ _ (ix5 cb i G (0 : Fin 2) J) fun a => ?_
  match a with
  | ⟨0, _⟩ => show cb.val = 0 + cb.val; omega
  | ⟨1, _⟩ => show i.val = 0 + i.val; omega
  | ⟨2, _⟩ => show G.val = 0 + G.val; omega
  | ⟨3, _⟩ => rfl
  | ⟨4, _⟩ => show J.val = 0 + J.val; omega

theorem upper6_read (X : FVec Ideal S32x128x1x2x64 .f32) (cb : Fin 32) (i : Fin 128) (G : Fin 1) (J : Fin 64) :
    upper6 X (ix4 cb i G J) = X (ix5 cb i G (1 : Fin 2) J) := by
  unfold upper6
  refine (shapeCast_apply _ _ _ (ix5 cb i G (0 : Fin 1) J) ?_).trans ?_
  · rw [Shape.rowMajor_val_five, Shape.rowMajor_val_four]
    show ((((cb.val * 128 + i.val) * 1 + G.val) * 1 + 0) * 64 + J.val) = ((cb.val * 128 + i.val) * 1 + G.val) * 64 + J.val
    omega
  refine extractStridedSlice_apply _ _ _ _ (ix5 cb i G (1 : Fin 2) J) fun a => ?_
  match a with
  | ⟨0, _⟩ => show cb.val = 0 + cb.val; omega
  | ⟨1, _⟩ => show i.val = 0 + i.val; omega
  | ⟨2, _⟩ => show G.val = 0 + G.val; omega
  | ⟨3, _⟩ => rfl
  | ⟨4, _⟩ => show J.val = 0 + J.val; omega

theorem spread6_read (t : FVec Ideal S32x1x64 .f32) (cb : Fin 32) (i : Fin 128) (G : Fin 1) (J : Fin 64) :
    spread6 t (ix4 cb i G J) = t (ix3 cb G J) := by
  have hG := G.isLt; have hJ := J.isLt
  unfold spread6
  refine (broadcastInDim_apply _ _ _ (ix4 cb i G J) (ix4 cb (0 : Fin 1) G J) fun a => ?_).trans ?_
  · match a with
    | ⟨0, _⟩ => show cb.val = if (32 : ℕ) = 1 then 0 else cb.val; rfl
    | ⟨1, _⟩ => show (0 : ℕ) = if (1 : ℕ) = 1 then 0 else i.val; rfl
    | ⟨2, _⟩ => show G.val = if (1 : ℕ) = 1 then 0 else G.val; split <;> omega
    | ⟨3, _⟩ => show J.val = if (64 : ℕ) = 1 then 0 else J.val; split <;> omega
  refine broadcastInDim_apply _ _ _ (ix4 cb (0 : Fin 1) G J) (ix3 cb G J) fun a => ?_
  match a with
  | ⟨0, _⟩ => show cb.val = if (32 : ℕ) = 1 then 0 else cb.val; rfl
  | ⟨1, _⟩ => show G.val = if (1 : ℕ) = 1 then 0 else G.val; split <;> omega
  | ⟨2, _⟩ => show J.val = if (64 : ℕ) = 1 then 0 else J.val; split <;> omega

/-- Stage 6 of the host program is the butterfly stage at distance 64 on every row of every block. -/
theorem term6_read (A : FVec Ideal S32x7x64 .f32) (Y : FVec Ideal S32x128x128 .f32) (cb : Fin 32) (i j : Fin 128) :
    term6 A Y (ix3 cb i j)
      = stage 64 (angT Ideal.cos A cb (6 : Fin 7)) (angT Ideal.sin A cb (6 : Fin 7)) (rowN Y cb i) j.val := by
  have hj := j.isLt
  have hG : j.val / (2 * 64) < 1 := by omega
  have hJ : j.val % 64 < 64 := by omega
  have hp : j.val / (2 * 64) * 64 + j.val % 64 < 64 := by omega
  unfold stage pairIdx term6
  by_cases hh : j.val / 64 % 2 = 0
  · rw [if_pos hh]
    have hjd : j.val + 64 < 128 := by omega
    refine (shapeCast_apply _ _ _ (ix5 cb i ⟨j.val / (2 * 64), hG⟩ (0 : Fin 2) ⟨j.val % 64, hJ⟩) ?_).trans ?_
    · rw [Shape.rowMajor_val_five, Shape.rowMajor_val_three]
      show ((((cb.val * 128 + i.val) * 1 + j.val / (2 * 64)) * 2 + 0) * 64 + j.val % 64) = (cb.val * 128 + i.val) * 128 + j.val
      omega
    refine (cat2_left S32x128x1x2x64 S32x128x1x1x64 3 _ _ _ _ rfl (ix5 cb i ⟨j.val / (2 * 64), hG⟩ (0 : Fin 1) ⟨j.val % 64, hJ⟩) (fun b => ?_)).trans ?_
    · match b with
      | ⟨0, _⟩ => rfl
      | ⟨1, _⟩ => rfl
      | ⟨2, _⟩ => rfl
      | ⟨3, _⟩ => rfl
      | ⟨4, _⟩ => rfl
    refine (broadcastInDim_apply _ _ _ _ (ix4 cb i ⟨j.val / (2 * 64), hG⟩ ⟨j.val % 64, hJ⟩) (fun a => ?_)).trans ?_
    · match a with
      | ⟨0, _⟩ => show cb.val = if (32 : ℕ) = 1 then 0 else cb.val; rfl
      | ⟨1, _⟩ => show i.val = if (128 : ℕ) = 1 then 0 else i.val; rfl
      | ⟨2, _⟩ => show j.val / (2 * 64) = if (1 : ℕ) = 1 then 0 else j.val / (2 * 64); split <;> omega
      | ⟨3, _⟩ => show j.val % 64 = if (64 : ℕ) = 1 then 0 else j.val % 64; split <;> omega
    rw [subf_apply, mulf_apply, mulf_apply, spread6_read, spread6_read, lower6_read, upper6_read,
      X6_read Y cb i ⟨j.val / (2 * 64), hG⟩ (0 : Fin 2) ⟨j.val % 64, hJ⟩ ⟨j.val, hj⟩ (by show j.val = j.val / (2 * 64) * (2 * 64) + 0 * 64 + j.val % 64; omega),
      X6_read Y cb i ⟨j.val / (2 * 64), hG⟩ (1 : Fin 2) ⟨j.val % 64, hJ⟩ ⟨j.val + 64, hjd⟩ (by show j.val + 64 = j.val / (2 * 64) * (2 * 64) + 1 * 64 + j.val % 64; omega),
      hostCos_apply, hostSin_apply, ang6_read A cb ⟨j.val / (2 * 64), hG⟩ ⟨j.val % 64, hJ⟩ ⟨j.val / (2 * 64) * 64 + j.val % 64, hp⟩ rfl]
    simp only [angT, rowN, dif_pos hp, dif_pos hj, dif_pos hjd]
  · rw [if_neg hh]
    have hdj : 64 ≤ j.val := by omega
    have hjd : j.val - 64 < 128 := by omega
    refine (shapeCast_apply _ _ _ (ix5 cb i ⟨j.val / (2 * 64), hG⟩ (1 : Fin 2) ⟨j.val % 64, hJ⟩) ?_).trans ?_
    · rw [Shape.rowMajor_val_five, Shape.rowMajor_val_three]
      show ((((cb.val * 128 + i.val) * 1 + j.val / (2 * 64)) * 2 + 1) * 64 + j.val % 64) = (cb.val * 128 + i.val) * 128 + j.val
      omega
    refine (cat2_right S32x128x1x2x64 S32x128x1x1x64 3 _ _ _ _ rfl (ix5 cb i ⟨j.val / (2 * 64), hG⟩ (0 : Fin 1) ⟨j.val % 64, hJ⟩) (fun b hb => ?_) rfl).trans ?_
    · match b with
      | ⟨0, _⟩ => rfl
      | ⟨1, _⟩ => rfl
      | ⟨2, _⟩ => rfl
      | ⟨3, _⟩ => exact absurd rfl hb
      | ⟨4, _⟩ => rfl
    refine (broadcastInDim_apply _ _ _ _ (ix4 cb i ⟨j.val / (2 * 64), hG⟩ ⟨j.val % 64, hJ⟩) (fun a => ?_)).trans ?_
    · match a with
      | ⟨0, _⟩ => show cb.val = if (32 : ℕ) = 1 then 0 else cb.val; rfl
      | ⟨1, _⟩ => show i.val = if (128 : ℕ) = 1 then 0 else i.val; rfl
      | ⟨2, _⟩ => show j.val / (2 * 64) = if (1 : ℕ) = 1 then 0 else j.val / (2 * 64); split <;> omega
      | ⟨3, _⟩ => show j.val % 64 = if (64 : ℕ) = 1 then 0 else j.val % 64; split <;> omega
    rw [addf_apply, mulf_apply, mulf_apply, spread6_read, spread6_read, lower6_read, upper6_read,
      X6_read Y cb i ⟨j.val / (2 * 64), hG⟩ (0 : Fin 2) ⟨j.val % 64, hJ⟩ ⟨j.val - 64, hjd⟩ (by show j.val - 64 = j.val / (2 * 64) * (2 * 64) + 0 * 64 + j.val % 64; omega),
      X6_read Y cb i ⟨j.val / (2 * 64), hG⟩ (1 : Fin 2) ⟨j.val % 64, hJ⟩ ⟨j.val, hj⟩ (by show j.val = j.val / (2 * 64) * (2 * 64) + 1 * 64 + j.val % 64; omega),
      hostCos_apply, hostSin_apply, ang6_read A cb ⟨j.val / (2 * 64), hG⟩ ⟨j.val % 64, hJ⟩ ⟨j.val / (2 * 64) * 64 + j.val % 64, hp⟩ rfl]
    simp only [angT, rowN, dif_pos hp, dif_pos hj, dif_pos hjd]

end Cert.KernelIdeal.HostTables

end
-- ==== Proof.HostTables.lean ====
/-
  What the kernel's grid finds in the array of block matrices.

  The host operations are cut into nine stretches — the regrouping of the angles and the identity; the seven
  stages; the change of format and the tables of the last five stages — and the buffer contents after each stretch
  are named.  Each stage's result buffer is that stage's term over the previous stretch's buffers; chained, row i
  of block c after k + 1 stages is the first k + 1 butterfly stages, with block c's angles, of the unit vector at
  i.  After seven stages that is the matrix 'Cert.Butterfly.chunkMat'; the change of format is the identity on
  exact numbers.
-/
import proofs.«122426_j35845797052976_2_alg».proof.Proof.Gen.KernelIdeal.Frame
import proofs.«122426_j35845797052976_2_alg».proof.Proof.LibAfterAppend
import proofs.«122426_j35845797052976_2_alg».proof.Proof.HostTermsA
import proofs.«122426_j35845797052976_2_alg».proof.Proof.HostTermsB
import Idealize.ShloMosaic.Lib.StableHlo.Run

noncomputable section

namespace Cert.KernelIdeal.HostTables

open Idealize.ShloMosaic Idealize.ShloMosaic.StableHlo Idealize.ShloMosaic.ValueIdx Idealize.ShloMosaic.TcCoe
open Cert.KernelIdeal Cert.Butterfly
open Cert.KernelIdeal.Gen

variable {F : FTy → Type} [FloatOps F]

/-- The angles cut in two and regrouped by block, and the 128 × 128 identity. -/
abbrev opsA : List (HloOp τ sig (Elt F)) :=
  ( StableHlo.unary main_arg1 main_v0 ((extractStridedSlice S7x2048 ![0, 0] · slices_S12x2048_S7x2048_0_0) : (⟨S12x2048, .f32⟩ : BufTy).Contents (Elt F) → (⟨S7x2048, .f32⟩ : BufTy).Contents (Elt F))
  :: StableHlo.unary main_arg1 main_v1 ((extractStridedSlice S5x2048 ![7, 0] · slices_S12x2048_S5x2048_7_0) : (⟨S12x2048, .f32⟩ : BufTy).Contents (Elt F) → (⟨S5x2048, .f32⟩ : BufTy).Contents (Elt F))
  :: StableHlo.reshape main_v0 main_v2 rfl shapeCasts_S7x2048_S7x32x64
  :: StableHlo.unary main_v2 main_v3 ((transpose S32x7x64 [1, 0, 2] · transposes_S7x32x64_S32x7x64_1_0_2) : (⟨S7x32x64, .f32⟩ : BufTy).Contents (Elt F) → (⟨S32x7x64, .f32⟩ : BufTy).Contents (Elt F))
  :: StableHlo.nullary main_v4 (iotaInDim S128x128 32 0)
  :: StableHlo.nullary main_v5 (iotaInDim S128x128 32 1)
  :: StableHlo.nullary main_c (constantI S_ 32 0#32)
  :: StableHlo.unary main_c main_v6 (broadcastInDim S128x128 ![] bcast_S_S128x128 : (⟨S_, .i32⟩ : BufTy).Contents (Elt F) → (⟨S128x128, .i32⟩ : BufTy).Contents (Elt F))
  :: StableHlo.binary main_v4 main_v6 main_v7 (addi : (⟨S128x128, .i32⟩ : BufTy).Contents (Elt F) → (⟨S128x128, .i32⟩ : BufTy).Contents (Elt F) → (⟨S128x128, .i32⟩ : BufTy).Contents (Elt F))
  :: StableHlo.binary main_v7 main_v5 main_v8 (cmpi .eq : (⟨S128x128, .i32⟩ : BufTy).Contents (Elt F) → (⟨S128x128, .i32⟩ : BufTy).Contents (Elt F) → (⟨S128x128, .i1⟩ : BufTy).Contents (Elt F))
  :: StableHlo.unary main_v8 main_v9 (uitofp .f32 : (⟨S128x128, .i1⟩ : BufTy).Contents (Elt F) → (⟨S128x128, .f32⟩ : BufTy).Contents (Elt F))
  :: [] )

/-- Stage 0 (distance 1), run on the identity for every block at once. -/
abbrev ops0 : List (HloOp τ sig (Elt F)) :=
  ( StableHlo.reshape main_v9 main_v10 rfl shapeCasts_S128x128_S128x64x2x1
  :: StableHlo.unary main_v3 main_v11 ((extractStridedSlice S32x1x64 ![0, 0, 0] · slices_S32x7x64_S32x1x64_0_0_0) : (⟨S32x7x64, .f32⟩ : BufTy).Contents (Elt F) → (⟨S32x1x64, .f32⟩ : BufTy).Contents (Elt F))
  :: StableHlo.reshape main_v11 main_v12 rfl shapeCasts_S32x1x64_S32x64
  :: StableHlo.reshape main_v12 main_v13 rfl shapeCasts_S32x64_S32x64x1
  :: StableHlo.unary main_v13 main_v14 (Host.cos : (⟨S32x64x1, .f32⟩ : BufTy).Contents (Elt F) → (⟨S32x64x1, .f32⟩ : BufTy).Contents (Elt F))
  :: StableHlo.unary main_v13 main_v15 (Host.sin : (⟨S32x64x1, .f32⟩ : BufTy).Contents (Elt F) → (⟨S32x64x1, .f32⟩ : BufTy).Contents (Elt F))
  :: StableHlo.unary main_v10 main_v16 ((extractStridedSlice S128x64x1x1 ![0, 0, 0, 0] · slices_S128x64x2x1_S128x64x1x1_0_0_0_0) : (⟨S128x64x2x1, .f32⟩ : BufTy).Contents (Elt F) → (⟨S128x64x1x1, .f32⟩ : BufTy).Contents (Elt F))
  :: StableHlo.reshape main_v16 main_v17 rfl shapeCasts_S128x64x1x1_S128x64x1
  :: StableHlo.unary main_v10 main_v18 ((extractStridedSlice S128x64x1x1 ![0, 0, 1, 0] · slices_S128x64x2x1_S128x64x1x1_0_0_1_0) : (⟨S128x64x2x1, .f32⟩ : BufTy).Contents (Elt F) → (⟨S128x64x1x1, .f32⟩ : BufTy).Contents (Elt F))
  :: StableHlo.reshape main_v18 main_v19 rfl shapeCasts_S128x64x1x1_S128x64x1
  :: StableHlo.unary main_v14 main_v20 (broadcastInDim S32x1x64x1 ![0, 2, 3] bcast_S32x64x1_S32x1x64x1_0_2_3 : (⟨S32x64x1, .f32⟩ : BufTy).Contents (Elt F) → (⟨S32x1x64x1, .f32⟩ : BufTy).Contents (Elt F))
  :: StableHlo.unary main_v17 main_v21 (broadcastInDim S1x128x64x1 ![1, 2, 3] bcast_S128x64x1_S1x128x64x1_1_2_3 : (⟨S128x64x1, .f32⟩ : BufTy).Contents (Elt F) → (⟨S1x128x64x1, .f32⟩ : BufTy).Contents (Elt F))
  :: StableHlo.unary main_v20 main_v22 (broadcastInDim S32x128x64x1 ![0, 1, 2, 3] bcast_S32x1x64x1_S32x128x64x1_0_1_2_3 : (⟨S32x1x64x1, .f32⟩ : BufTy).Contents (Elt F) → (⟨S32x128x64x1, .f32⟩ : BufTy).Contents (Elt F))
  :: StableHlo.unary main_v21 main_v23 (broadcastInDim S32x128x64x1 ![0, 1, 2, 3] bcast_S1x128x64x1_S32x128x64x1_0_1_2_3 : (⟨S1x128x64x1, .f32⟩ : BufTy).Contents (Elt F) → (⟨S32x128x64x1, .f32⟩ : BufTy).Contents (Elt F))
  :: StableHlo.binary main_v22 main_v23 main_v24 (mulf : (⟨S32x128x64x1, .f32⟩ : BufTy).Contents (Elt F) → (⟨S32x128x64x1, .f32⟩ : BufTy).Contents (Elt F) → (⟨S32x128x64x1, .f32⟩ : BufTy).Contents (Elt F))
  :: StableHlo.unary main_v15 main_v25 (broadcastInDim S32x1x64x1 ![0, 2, 3] bcast_S32x64x1_S32x1x64x1_0_2_3 : (⟨S32x64x1, .f32⟩ : BufTy).Contents (Elt F) → (⟨S32x1x64x1, .f32⟩ : BufTy).Contents (Elt F))
  :: StableHlo.unary main_v19 main_v26 (broadcastInDim S1x128x64x1 ![1, 2, 3] bcast_S128x64x1_S1x128x64x1_1_2_3 : (⟨S128x64x1, .f32⟩ : BufTy).Contents (Elt F) → (⟨S1x128x64x1, .f32⟩ : BufTy).Contents (Elt F))
  :: StableHlo.unary main_v25 main_v27 (broadcastInDim S32x128x64x1 ![0, 1, 2, 3] bcast_S32x1x64x1_S32x128x64x1_0_1_2_3 : (⟨S32x1x64x1, .f32⟩ : BufTy).Contents (Elt F) → (⟨S32x128x64x1, .f32⟩ : BufTy).Contents (Elt F))
  :: StableHlo.unary main_v26 main_v28 (broadcastInDim S32x128x64x1 ![0, 1, 2, 3] bcast_S1x128x64x1_S32x128x64x1_0_1_2_3 : (⟨S1x128x64x1, .f32⟩ : BufTy).Contents (Elt F) → (⟨S32x128x64x1, .f32⟩ : BufTy).Contents (Elt F))
  :: StableHlo.binary main_v27 main_v28 main_v29 (mulf : (⟨S32x128x64x1, .f32⟩ : BufTy).Contents (Elt F) → (⟨S32x128x64x1, .f32⟩ : BufTy).Contents (Elt F) → (⟨S32x128x64x1, .f32⟩ : BufTy).Contents (Elt F))
  :: StableHlo.binary main_v24 main_v29 main_v30 (subf : (⟨S32x128x64x1, .f32⟩ : BufTy).Contents (Elt F) → (⟨S32x128x64x1, .f32⟩ : BufTy).Contents (Elt F) → (⟨S32x128x64x1, .f32⟩ : BufTy).Contents (Elt F))
  :: StableHlo.unary main_v15 main_v31 (broadcastInDim S32x1x64x1 ![0, 2, 3] bcast_S32x64x1_S32x1x64x1_0_2_3 : (⟨S32x64x1, .f32⟩ : BufTy).Contents (Elt F) → (⟨S32x1x64x1, .f32⟩ : BufTy).Contents (Elt F))
  :: StableHlo.unary main_v17 main_v32 (broadcastInDim S1x128x64x1 ![1, 2, 3] bcast_S128x64x1_S1x128x64x1_1_2_3 : (⟨S128x64x1, .f32⟩ : BufTy).Contents (Elt F) → (⟨S1x128x64x1, .f32⟩ : BufTy).Contents (Elt F))
  :: StableHlo.unary main_v31 main_v33 (broadcastInDim S32x128x64x1 ![0, 1, 2, 3] bcast_S32x1x64x1_S32x128x64x1_0_1_2_3 : (⟨S32x1x64x1, .f32⟩ : BufTy).Contents (Elt F) → (⟨S32x128x64x1, .f32⟩ : BufTy).Contents (Elt F))
  :: StableHlo.unary main_v32 main_v34 (broadcastInDim S32x128x64x1 ![0, 1, 2, 3] bcast_S1x128x64x1_S32x128x64x1_0_1_2_3 : (⟨S1x128x64x1, .f32⟩ : BufTy).Contents (Elt F) → (⟨S32x128x64x1, .f32⟩ : BufTy).Contents (Elt F))
  :: StableHlo.binary main_v33 main_v34 main_v35 (mulf : (⟨S32x128x64x1, .f32⟩ : BufTy).Contents (Elt F) → (⟨S32x128x64x1, .f32⟩ : BufTy).Contents (Elt F) → (⟨S32x128x64x1, .f32⟩ : BufTy).Contents (Elt F))
  :: StableHlo.unary main_v14 main_v36 (broadcastInDim S32x1x64x1 ![0, 2, 3] bcast_S32x64x1_S32x1x64x1_0_2_3 : (⟨S32x64x1, .f32⟩ : BufTy).Contents (Elt F) → (⟨S32x1x64x1, .f32⟩ : BufTy).Contents (Elt F))
  :: StableHlo.unary main_v19 main_v37 (broadcastInDim S1x128x64x1 ![1, 2, 3] bcast_S128x64x1_S1x128x64x1_1_2_3 : (⟨S128x64x1, .f32⟩ : BufTy).Contents (Elt F) → (⟨S1x128x64x1, .f32⟩ : BufTy).Contents (Elt F))
  :: StableHlo.unary main_v36 main_v38 (broadcastInDim S32x128x64x1 ![0, 1, 2, 3] bcast_S32x1x64x1_S32x128x64x1_0_1_2_3 : (⟨S32x1x64x1, .f32⟩ : BufTy).Contents (Elt F) → (⟨S32x128x64x1, .f32⟩ : BufTy).Contents (Elt F))
  :: StableHlo.unary main_v37 main_v39 (broadcastInDim S32x128x64x1 ![0, 1, 2, 3] bcast_S1x128x64x1_S32x128x64x1_0_1_2_3 : (⟨S1x128x64x1, .f32⟩ : BufTy).Contents (Elt F) → (⟨S32x128x64x1, .f32⟩ : BufTy).Contents (Elt F))
  :: StableHlo.binary main_v38 main_v39 main_v40 (mulf : (⟨S32x128x64x1, .f32⟩ : BufTy).Contents (Elt F) → (⟨S32x128x64x1, .f32⟩ : BufTy).Contents (Elt F) → (⟨S32x128x64x1, .f32⟩ : BufTy).Contents (Elt F))
  :: StableHlo.binary main_v35 main_v40 main_v41 (addf : (⟨S32x128x64x1, .f32⟩ : BufTy).Contents (Elt F) → (⟨S32x128x64x1, .f32⟩ : BufTy).Contents (Elt F) → (⟨S32x128x64x1, .f32⟩ : BufTy).Contents (Elt F))
  :: StableHlo.unary main_v30 main_v42 (broadcastInDim S32x128x64x1x1 ![0, 1, 2, 4] bcast_S32x128x64x1_S32x128x64x1x1_0_1_2_4 : (⟨S32x128x64x1, .f32⟩ : BufTy).Contents (Elt F) → (⟨S32x128x64x1x1, .f32⟩ : BufTy).Contents (Elt F))
  :: StableHlo.unary main_v41 main_v43 (broadcastInDim S32x128x64x1x1 ![0, 1, 2, 4] bcast_S32x128x64x1_S32x128x64x1x1_0_1_2_4 : (⟨S32x128x64x1, .f32⟩ : BufTy).Contents (Elt F) → (⟨S32x128x64x1x1, .f32⟩ : BufTy).Contents (Elt F))
  :: StableHlo.binary main_v42 main_v43 main_v44 ((cat2 S32x128x64x2x1 S32x128x64x1x1 3 concatenates_S32x128x64x1x1_S32x128x64x1x1_S32x128x64x2x1_d3) : (⟨S32x128x64x1x1, .f32⟩ : BufTy).Contents (Elt F) → (⟨S32x128x64x1x1, .f32⟩ : BufTy).Contents (Elt F) → (⟨S32x128x64x2x1, .f32⟩ : BufTy).Contents (Elt F))
  :: StableHlo.reshape main_v44 main_v45 rfl shapeCasts_S32x128x64x2x1_S32x128x128
  :: [] )

/-- Stage 1 (distance 2). -/
abbrev ops1 : List (HloOp τ sig (Elt F)) :=
  ( StableHlo.reshape main_v45 main_v46 rfl shapeCasts_S32x128x128_S32x128x32x2x2
  :: StableHlo.unary main_v3 main_v47 ((extractStridedSlice S32x1x64 ![0, 1, 0] · slices_S32x7x64_S32x1x64_0_1_0) : (⟨S32x7x64, .f32⟩ : BufTy).Contents (Elt F) → (⟨S32x1x64, .f32⟩ : BufTy).Contents (Elt F))
  :: StableHlo.reshape main_v47 main_v48 rfl shapeCasts_S32x1x64_S32x64
  :: StableHlo.reshape main_v48 main_v49 rfl shapeCasts_S32x64_S32x32x2
  :: StableHlo.unary main_v49 main_v50 (Host.cos : (⟨S32x32x2, .f32⟩ : BufTy).Contents (Elt F) → (⟨S32x32x2, .f32⟩ : BufTy).Contents (Elt F))
  :: StableHlo.unary main_v49 main_v51 (Host.sin : (⟨S32x32x2, .f32⟩ : BufTy).Contents (Elt F) → (⟨S32x32x2, .f32⟩ : BufTy).Contents (Elt F))
  :: StableHlo.unary main_v46 main_v52 ((extractStridedSlice S32x128x32x1x2 ![0, 0, 0, 0, 0] · slices_S32x128x32x2x2_S32x128x32x1x2_0_0_0_0_0) : (⟨S32x128x32x2x2, .f32⟩ : BufTy).Contents (Elt F) → (⟨S32x128x32x1x2, .f32⟩ : BufTy).Contents (Elt F))
  :: StableHlo.reshape main_v52 main_v53 rfl shapeCasts_S32x128x32x1x2_S32x128x32x2
  :: StableHlo.unary main_v46 main_v54 ((extractStridedSlice S32x128x32x1x2 ![0, 0, 0, 1, 0] · slices_S32x128x32x2x2_S32x128x32x1x2_0_0_0_1_0) : (⟨S32x128x32x2x2, .f32⟩ : BufTy).Contents (Elt F) → (⟨S32x128x32x1x2, .f32⟩ : BufTy).Contents (Elt F))
  :: StableHlo.reshape main_v54 main_v55 rfl shapeCasts_S32x128x32x1x2_S32x128x32x2
  :: StableHlo.unary main_v50 main_v56 (broadcastInDim S32x1x32x2 ![0, 2, 3] bcast_S32x32x2_S32x1x32x2_0_2_3 : (⟨S32x32x2, .f32⟩ : BufTy).Contents (Elt F) → (⟨S32x1x32x2, .f32⟩ : BufTy).Contents (Elt F))
  :: StableHlo.unary main_v56 main_v57 (broadcastInDim S32x128x32x2 ![0, 1, 2, 3] bcast_S32x1x32x2_S32x128x32x2_0_1_2_3 : (⟨S32x1x32x2, .f32⟩ : BufTy).Contents (Elt F) → (⟨S32x128x32x2, .f32⟩ : BufTy).Contents (Elt F))
  :: StableHlo.binary main_v57 main_v53 main_v58 (mulf : (⟨S32x128x32x2, .f32⟩ : BufTy).Contents (Elt F) → (⟨S32x128x32x2, .f32⟩ : BufTy).Contents (Elt F) → (⟨S32x128x32x2, .f32⟩ : BufTy).Contents (Elt F))
  :: StableHlo.unary main_v51 main_v59 (broadcastInDim S32x1x32x2 ![0, 2, 3] bcast_S32x32x2_S32x1x32x2_0_2_3 : (⟨S32x32x2, .f32⟩ : BufTy).Contents (Elt F) → (⟨S32x1x32x2, .f32⟩ : BufTy).Contents (Elt F))
  :: StableHlo.unary main_v59 main_v60 (broadcastInDim S32x128x32x2 ![0, 1, 2, 3] bcast_S32x1x32x2_S32x128x32x2_0_1_2_3 : (⟨S32x1x32x2, .f32⟩ : BufTy).Contents (Elt F) → (⟨S32x128x32x2, .f32⟩ : BufTy).Contents (Elt F))
  :: StableHlo.binary main_v60 main_v55 main_v61 (mulf : (⟨S32x128x32x2, .f32⟩ : BufTy).Contents (Elt F) → (⟨S32x128x32x2, .f32⟩ : BufTy).Contents (Elt F) → (⟨S32x128x32x2, .f32⟩ : BufTy).Contents (Elt F))
  :: StableHlo.binary main_v58 main_v61 main_v62 (subf : (⟨S32x128x32x2, .f32⟩ : BufTy).Contents (Elt F) → (⟨S32x128x32x2, .f32⟩ : BufTy).Contents (Elt F) → (⟨S32x128x32x2, .f32⟩ : BufTy).Contents (Elt F))
  :: StableHlo.unary main_v51 main_v63 (broadcastInDim S32x1x32x2 ![0, 2, 3] bcast_S32x32x2_S32x1x32x2_0_2_3 : (⟨S32x32x2, .f32⟩ : BufTy).Contents (Elt F) → (⟨S32x1x32x2, .f32⟩ : BufTy).Contents (Elt F))
  :: StableHlo.unary main_v63 main_v64 (broadcastInDim S32x128x32x2 ![0, 1, 2, 3] bcast_S32x1x32x2_S32x128x32x2_0_1_2_3 : (⟨S32x1x32x2, .f32⟩ : BufTy).Contents (Elt F) → (⟨S32x128x32x2, .f32⟩ : BufTy).Contents (Elt F))
  :: StableHlo.binary main_v64 main_v53 main_v65 (mulf : (⟨S32x128x32x2, .f32⟩ : BufTy).Contents (Elt F) → (⟨S32x128x32x2, .f32⟩ : BufTy).Contents (Elt F) → (⟨S32x128x32x2, .f32⟩ : BufTy).Contents (Elt F))
  :: StableHlo.unary main_v50 main_v66 (broadcastInDim S32x1x32x2 ![0, 2, 3] bcast_S32x32x2_S32x1x32x2_0_2_3 : (⟨S32x32x2, .f32⟩ : BufTy).Contents (Elt F) → (⟨S32x1x32x2, .f32⟩ : BufTy).Contents (Elt F))
  :: StableHlo.unary main_v66 main_v67 (broadcastInDim S32x128x32x2 ![0, 1, 2, 3] bcast_S32x1x32x2_S32x128x32x2_0_1_2_3 : (⟨S32x1x32x2, .f32⟩ : BufTy).Contents (Elt F) → (⟨S32x128x32x2, .f32⟩ : BufTy).Contents (Elt F))
  :: StableHlo.binary main_v67 main_v55 main_v68 (mulf : (⟨S32x128x32x2, .f32⟩ : BufTy).Contents (Elt F) → (⟨S32x128x32x2, .f32⟩ : BufTy).Contents (Elt F) → (⟨S32x128x32x2, .f32⟩ : BufTy).Contents (Elt F))
  :: StableHlo.binary main_v65 main_v68 main_v69 (addf : (⟨S32x128x32x2, .f32⟩ : BufTy).Contents (Elt F) → (⟨S32x128x32x2, .f32⟩ : BufTy).Contents (Elt F) → (⟨S32x128x32x2, .f32⟩ : BufTy).Contents (Elt F))
  :: StableHlo.unary main_v62 main_v70 (broadcastInDim S32x128x32x1x2 ![0, 1, 2, 4] bcast_S32x128x32x2_S32x128x32x1x2_0_1_2_4 : (⟨S32x128x32x2, .f32⟩ : BufTy).Contents (Elt F) → (⟨S32x128x32x1x2, .f32⟩ : BufTy).Contents (Elt F))
  :: StableHlo.unary main_v69 main_v71 (broadcastInDim S32x128x32x1x2 ![0, 1, 2, 4] bcast_S32x128x32x2_S32x128x32x1x2_0_1_2_4 : (⟨S32x128x32x2, .f32⟩ : BufTy).Contents (Elt F) → (⟨S32x128x32x1x2, .f32⟩ : BufTy).Contents (Elt F))
  :: StableHlo.binary main_v70 main_v71 main_v72 ((cat2 S32x128x32x2x2 S32x128x32x1x2 3 concatenates_S32x128x32x1x2_S32x128x32x1x2_S32x128x32x2x2_d3) : (⟨S32x128x32x1x2, .f32⟩ : BufTy).Contents (Elt F) → (⟨S32x128x32x1x2, .f32⟩ : BufTy).Contents (Elt F) → (⟨S32x128x32x2x2, .f32⟩ : BufTy).Contents (Elt F))
  :: StableHlo.reshape main_v72 main_v73 rfl shapeCasts_S32x128x32x2x2_S32x128x128
  :: [] )

/-- Stage 2 (distance 4). -/
abbrev ops2 : List (HloOp τ sig (Elt F)) :=
  ( StableHlo.reshape main_v73 main_v74 rfl shapeCasts_S32x128x128_S32x128x16x2x4
  :: StableHlo.unary main_v3 main_v75 ((extractStridedSlice S32x1x64 ![0, 2, 0] · slices_S32x7x64_S32x1x64_0_2_0) : (⟨S32x7x64, .f32⟩ : BufTy).Contents (Elt F) → (⟨S32x1x64, .f32⟩ : BufTy).Contents (Elt F))
  :: StableHlo.reshape main_v75 main_v76 rfl shapeCasts_S32x1x64_S32x64
  :: StableHlo.reshape main_v76 main_v77 rfl shapeCasts_S32x64_S32x16x4
  :: StableHlo.unary main_v77 main_v78 (Host.cos : (⟨S32x16x4, .f32⟩ : BufTy).Contents (Elt F) → (⟨S32x16x4, .f32⟩ : BufTy).Contents (Elt F))
  :: StableHlo.unary main_v77 main_v79 (Host.sin : (⟨S32x16x4, .f32⟩ : BufTy).Contents (Elt F) → (⟨S32x16x4, .f32⟩ : BufTy).Contents (Elt F))
  :: StableHlo.unary main_v74 main_v80 ((extractStridedSlice S32x128x16x1x4 ![0, 0, 0, 0, 0] · slices_S32x128x16x2x4_S32x128x16x1x4_0_0_0_0_0) : (⟨S32x128x16x2x4, .f32⟩ : BufTy).Contents (Elt F) → (⟨S32x128x16x1x4, .f32⟩ : BufTy).Contents (Elt F))
  :: StableHlo.reshape main_v80 main_v81 rfl shapeCasts_S32x128x16x1x4_S32x128x16x4
  :: StableHlo.unary main_v74 main_v82 ((extractStridedSlice S32x128x16x1x4 ![0, 0, 0, 1, 0] · slices_S32x128x16x2x4_S32x128x16x1x4_0_0_0_1_0) : (⟨S32x128x16x2x4, .f32⟩ : BufTy).Contents (Elt F) → (⟨S32x128x16x1x4, .f32⟩ : BufTy).Contents (Elt F))
  :: StableHlo.reshape main_v82 main_v83 rfl shapeCasts_S32x128x16x1x4_S32x128x16x4
  :: StableHlo.unary main_v78 main_v84 (broadcastInDim S32x1x16x4 ![0, 2, 3] bcast_S32x16x4_S32x1x16x4_0_2_3 : (⟨S32x16x4, .f32⟩ : BufTy).Contents (Elt F) → (⟨S32x1x16x4, .f32⟩ : BufTy).Contents (Elt F))
  :: StableHlo.unary main_v84 main_v85 (broadcastInDim S32x128x16x4 ![0, 1, 2, 3] bcast_S32x1x16x4_S32x128x16x4_0_1_2_3 : (⟨S32x1x16x4, .f32⟩ : BufTy).Contents (Elt F) → (⟨S32x128x16x4, .f32⟩ : BufTy).Contents (Elt F))
  :: StableHlo.binary main_v85 main_v81 main_v86 (mulf : (⟨S32x128x16x4, .f32⟩ : BufTy).Contents (Elt F) → (⟨S32x128x16x4, .f32⟩ : BufTy).Contents (Elt F) → (⟨S32x128x16x4, .f32⟩ : BufTy).Contents (Elt F))
  :: StableHlo.unary main_v79 main_v87 (broadcastInDim S32x1x16x4 ![0, 2, 3] bcast_S32x16x4_S32x1x16x4_0_2_3 : (⟨S32x16x4, .f32⟩ : BufTy).Contents (Elt F) → (⟨S32x1x16x4, .f32⟩ : BufTy).Contents (Elt F))
  :: StableHlo.unary main_v87 main_v88 (broadcastInDim S32x128x16x4 ![0, 1, 2, 3] bcast_S32x1x16x4_S32x128x16x4_0_1_2_3 : (⟨S32x1x16x4, .f32⟩ : BufTy).Contents (Elt F) → (⟨S32x128x16x4, .f32⟩ : BufTy).Contents (Elt F))
  :: StableHlo.binary main_v88 main_v83 main_v89 (mulf : (⟨S32x128x16x4, .f32⟩ : BufTy).Contents (Elt F) → (⟨S32x128x16x4, .f32⟩ : BufTy).Contents (Elt F) → (⟨S32x128x16x4, .f32⟩ : BufTy).Contents (Elt F))
  :: StableHlo.binary main_v86 main_v89 main_v90 (subf : (⟨S32x128x16x4, .f32⟩ : BufTy).Contents (Elt F) → (⟨S32x128x16x4, .f32⟩ : BufTy).Contents (Elt F) → (⟨S32x128x16x4, .f32⟩ : BufTy).Contents (Elt F))
  :: StableHlo.unary main_v79 main_v91 (broadcastInDim S32x1x16x4 ![0, 2, 3] bcast_S32x16x4_S32x1x16x4_0_2_3 : (⟨S32x16x4, .f32⟩ : BufTy).Contents (Elt F) → (⟨S32x1x16x4, .f32⟩ : BufTy).Contents (Elt F))
  :: StableHlo.unary main_v91 main_v92 (broadcastInDim S32x128x16x4 ![0, 1, 2, 3] bcast_S32x1x16x4_S32x128x16x4_0_1_2_3 : (⟨S32x1x16x4, .f32⟩ : BufTy).Contents (Elt F) → (⟨S32x128x16x4, .f32⟩ : BufTy).Contents (Elt F))
  :: StableHlo.binary main_v92 main_v81 main_v93 (mulf : (⟨S32x128x16x4, .f32⟩ : BufTy).Contents (Elt F) → (⟨S32x128x16x4, .f32⟩ : BufTy).Contents (Elt F) → (⟨S32x128x16x4, .f32⟩ : BufTy).Contents (Elt F))
  :: StableHlo.unary main_v78 main_v94 (broadcastInDim S32x1x16x4 ![0, 2, 3] bcast_S32x16x4_S32x1x16x4_0_2_3 : (⟨S32x16x4, .f32⟩ : BufTy).Contents (Elt F) → (⟨S32x1x16x4, .f32⟩ : BufTy).Contents (Elt F))
  :: StableHlo.unary main_v94 main_v95 (broadcastInDim S32x128x16x4 ![0, 1, 2, 3] bcast_S32x1x16x4_S32x128x16x4_0_1_2_3 : (⟨S32x1x16x4, .f32⟩ : BufTy).Contents (Elt F) → (⟨S32x128x16x4, .f32⟩ : BufTy).Contents (Elt F))
  :: StableHlo.binary main_v95 main_v83 main_v96 (mulf : (⟨S32x128x16x4, .f32⟩ : BufTy).Contents (Elt F) → (⟨S32x128x16x4, .f32⟩ : BufTy).Contents (Elt F) → (⟨S32x128x16x4, .f32⟩ : BufTy).Contents (Elt F))
  :: StableHlo.binary main_v93 main_v96 main_v97 (addf : (⟨S32x128x16x4, .f32⟩ : BufTy).Contents (Elt F) → (⟨S32x128x16x4, .f32⟩ : BufTy).Contents (Elt F) → (⟨S32x128x16x4, .f32⟩ : BufTy).Contents (Elt F))
  :: StableHlo.unary main_v90 main_v98 (broadcastInDim S32x128x16x1x4 ![0, 1, 2, 4] bcast_S32x128x16x4_S32x128x16x1x4_0_1_2_4 : (⟨S32x128x16x4, .f32⟩ : BufTy).Contents (Elt F) → (⟨S32x128x16x1x4, .f32⟩ : BufTy).Contents (Elt F))
  :: StableHlo.unary main_v97 main_v99 (broadcastInDim S32x128x16x1x4 ![0, 1, 2, 4] bcast_S32x128x16x4_S32x128x16x1x4_0_1_2_4 : (⟨S32x128x16x4, .f32⟩ : BufTy).Contents (Elt F) → (⟨S32x128x16x1x4, .f32⟩ : BufTy).Contents (Elt F))
  :: StableHlo.binary main_v98 main_v99 main_v100 ((cat2 S32x128x16x2x4 S32x128x16x1x4 3 concatenates_S32x128x16x1x4_S32x128x16x1x4_S32x128x16x2x4_d3) : (⟨S32x128x16x1x4, .f32⟩ : BufTy).Contents (Elt F) → (⟨S32x128x16x1x4, .f32⟩ : BufTy).Contents (Elt F) → (⟨S32x128x16x2x4, .f32⟩ : BufTy).Contents (Elt F))
  :: StableHlo.reshape main_v100 main_v101 rfl shapeCasts_S32x128x16x2x4_S32x128x128
  :: [] )

/-- Stage 3 (distance 8). -/
abbrev ops3 : List (HloOp τ sig (Elt F)) :=
  ( StableHlo.reshape main_v101 main_v102 rfl shapeCasts_S32x128x128_S32x128x8x2x8
  :: StableHlo.unary main_v3 main_v103 ((extractStridedSlice S32x1x64 ![0, 3, 0] · slices_S32x7x64_S32x1x64_0_3_0) : (⟨S32x7x64, .f32⟩ : BufTy).Contents (Elt F) → (⟨S32x1x64, .f32⟩ : BufTy).Contents (Elt F))
  :: StableHlo.reshape main_v103 main_v104 rfl shapeCasts_S32x1x64_S32x64
  :: StableHlo.reshape main_v104 main_v105 rfl shapeCasts_S32x64_S32x8x8
  :: StableHlo.unary main_v105 main_v106 (Host.cos : (⟨S32x8x8, .f32⟩ : BufTy).Contents (Elt F) → (⟨S32x8x8, .f32⟩ : BufTy).Contents (Elt F))
  :: StableHlo.unary main_v105 main_v107 (Host.sin : (⟨S32x8x8, .f32⟩ : BufTy).Contents (Elt F) → (⟨S32x8x8, .f32⟩ : BufTy).Contents (Elt F))
  :: StableHlo.unary main_v102 main_v108 ((extractStridedSlice S32x128x8x1x8 ![0, 0, 0, 0, 0] · slices_S32x128x8x2x8_S32x128x8x1x8_0_0_0_0_0) : (⟨S32x128x8x2x8, .f32⟩ : BufTy).Contents (Elt F) → (⟨S32x128x8x1x8, .f32⟩ : BufTy).Contents (Elt F))
  :: StableHlo.reshape main_v108 main_v109 rfl shapeCasts_S32x128x8x1x8_S32x128x8x8
  :: StableHlo.unary main_v102 main_v110 ((extractStridedSlice S32x128x8x1x8 ![0, 0, 0, 1, 0] · slices_S32x128x8x2x8_S32x128x8x1x8_0_0_0_1_0) : (⟨S32x128x8x2x8, .f32⟩ : BufTy).Contents (Elt F) → (⟨S32x128x8x1x8, .f32⟩ : BufTy).Contents (Elt F))
  :: StableHlo.reshape main_v110 main_v111 rfl shapeCasts_S32x128x8x1x8_S32x128x8x8
  :: StableHlo.unary main_v106 main_v112 (broadcastInDim S32x1x8x8 ![0, 2, 3] bcast_S32x8x8_S32x1x8x8_0_2_3 : (⟨S32x8x8, .f32⟩ : BufTy).Contents (Elt F) → (⟨S32x1x8x8, .f32⟩ : BufTy).Contents (Elt F))
  :: StableHlo.unary main_v112 main_v113 (broadcastInDim S32x128x8x8 ![0, 1, 2, 3] bcast_S32x1x8x8_S32x128x8x8_0_1_2_3 : (⟨S32x1x8x8, .f32⟩ : BufTy).Contents (Elt F) → (⟨S32x128x8x8, .f32⟩ : BufTy).Contents (Elt F))
  :: StableHlo.binary main_v113 main_v109 main_v114 (mulf : (⟨S32x128x8x8, .f32⟩ : BufTy).Contents (Elt F) → (⟨S32x128x8x8, .f32⟩ : BufTy).Contents (Elt F) → (⟨S32x128x8x8, .f32⟩ : BufTy).Contents (Elt F))
  :: StableHlo.unary main_v107 main_v115 (broadcastInDim S32x1x8x8 ![0, 2, 3] bcast_S32x8x8_S32x1x8x8_0_2_3 : (⟨S32x8x8, .f32⟩ : BufTy).Contents (Elt F) → (⟨S32x1x8x8, .f32⟩ : BufTy).Contents (Elt F))
  :: StableHlo.unary main_v115 main_v116 (broadcastInDim S32x128x8x8 ![0, 1, 2, 3] bcast_S32x1x8x8_S32x128x8x8_0_1_2_3 : (⟨S32x1x8x8, .f32⟩ : BufTy).Contents (Elt F) → (⟨S32x128x8x8, .f32⟩ : BufTy).Contents (Elt F))
  :: StableHlo.binary main_v116 main_v111 main_v117 (mulf : (⟨S32x128x8x8, .f32⟩ : BufTy).Contents (Elt F) → (⟨S32x128x8x8, .f32⟩ : BufTy).Contents (Elt F) → (⟨S32x128x8x8, .f32⟩ : BufTy).Contents (Elt F))
  :: StableHlo.binary main_v114 main_v117 main_v118 (subf : (⟨S32x128x8x8, .f32⟩ : BufTy).Contents (Elt F) → (⟨S32x128x8x8, .f32⟩ : BufTy).Contents (Elt F) → (⟨S32x128x8x8, .f32⟩ : BufTy).Contents (Elt F))
  :: StableHlo.unary main_v107 main_v119 (broadcastInDim S32x1x8x8 ![0, 2, 3] bcast_S32x8x8_S32x1x8x8_0_2_3 : (⟨S32x8x8, .f32⟩ : BufTy).Contents (Elt F) → (⟨S32x1x8x8, .f32⟩ : BufTy).Contents (Elt F))
  :: StableHlo.unary main_v119 main_v120 (broadcastInDim S32x128x8x8 ![0, 1, 2, 3] bcast_S32x1x8x8_S32x128x8x8_0_1_2_3 : (⟨S32x1x8x8, .f32⟩ : BufTy).Contents (Elt F) → (⟨S32x128x8x8, .f32⟩ : BufTy).Contents (Elt F))
  :: StableHlo.binary main_v120 main_v109 main_v121 (mulf : (⟨S32x128x8x8, .f32⟩ : BufTy).Contents (Elt F) → (⟨S32x128x8x8, .f32⟩ : BufTy).Contents (Elt F) → (⟨S32x128x8x8, .f32⟩ : BufTy).Contents (Elt F))
  :: StableHlo.unary main_v106 main_v122 (broadcastInDim S32x1x8x8 ![0, 2, 3] bcast_S32x8x8_S32x1x8x8_0_2_3 : (⟨S32x8x8, .f32⟩ : BufTy).Contents (Elt F) → (⟨S32x1x8x8, .f32⟩ : BufTy).Contents (Elt F))
  :: StableHlo.unary main_v122 main_v123 (broadcastInDim S32x128x8x8 ![0, 1, 2, 3] bcast_S32x1x8x8_S32x128x8x8_0_1_2_3 : (⟨S32x1x8x8, .f32⟩ : BufTy).Contents (Elt F) → (⟨S32x128x8x8, .f32⟩ : BufTy).Contents (Elt F))
  :: StableHlo.binary main_v123 main_v111 main_v124 (mulf : (⟨S32x128x8x8, .f32⟩ : BufTy).Contents (Elt F) → (⟨S32x128x8x8, .f32⟩ : BufTy).Contents (Elt F) → (⟨S32x128x8x8, .f32⟩ : BufTy).Contents (Elt F))
  :: StableHlo.binary main_v121 main_v124 main_v125 (addf : (⟨S32x128x8x8, .f32⟩ : BufTy).Contents (Elt F) → (⟨S32x128x8x8, .f32⟩ : BufTy).Contents (Elt F) → (⟨S32x128x8x8, .f32⟩ : BufTy).Contents (Elt F))
  :: StableHlo.unary main_v118 main_v126 (broadcastInDim S32x128x8x1x8 ![0, 1, 2, 4] bcast_S32x128x8x8_S32x128x8x1x8_0_1_2_4 : (⟨S32x128x8x8, .f32⟩ : BufTy).Contents (Elt F) → (⟨S32x128x8x1x8, .f32⟩ : BufTy).Contents (Elt F))
  :: StableHlo.unary main_v125 main_v127 (broadcastInDim S32x128x8x1x8 ![0, 1, 2, 4] bcast_S32x128x8x8_S32x128x8x1x8_0_1_2_4 : (⟨S32x128x8x8, .f32⟩ : BufTy).Contents (Elt F) → (⟨S32x128x8x1x8, .f32⟩ : BufTy).Contents (Elt F))
  :: StableHlo.binary main_v126 main_v127 main_v128 ((cat2 S32x128x8x2x8 S32x128x8x1x8 3 concatenates_S32x128x8x1x8_S32x128x8x1x8_S32x128x8x2x8_d3) : (⟨S32x128x8x1x8, .f32⟩ : BufTy).Contents (Elt F) → (⟨S32x128x8x1x8, .f32⟩ : BufTy).Contents (Elt F) → (⟨S32x128x8x2x8, .f32⟩ : BufTy).Contents (Elt F))
  :: StableHlo.reshape main_v128 main_v129 rfl shapeCasts_S32x128x8x2x8_S32x128x128
  :: [] )

/-- Stage 4 (distance 16). -/
abbrev ops4 : List (HloOp τ sig (Elt F)) :=
  ( StableHlo.reshape main_v129 main_v130 rfl shapeCasts_S32x128x128_S32x128x4x2x16
  :: StableHlo.unary main_v3 main_v131 ((extractStridedSlice S32x1x64 ![0, 4, 0] · slices_S32x7x64_S32x1x64_0_4_0) : (⟨S32x7x64, .f32⟩ : BufTy).Contents (Elt F) → (⟨S32x1x64, .f32⟩ : BufTy).Contents (Elt F))
  :: StableHlo.reshape main_v131 main_v132 rfl shapeCasts_S32x1x64_S32x64
  :: StableHlo.reshape main_v132 main_v133 rfl shapeCasts_S32x64_S32x4x16
  :: StableHlo.unary main_v133 main_v134 (Host.cos : (⟨S32x4x16, .f32⟩ : BufTy).Contents (Elt F) → (⟨S32x4x16, .f32⟩ : BufTy).Contents (Elt F))
  :: StableHlo.unary main_v133 main_v135 (Host.sin : (⟨S32x4x16, .f32⟩ : BufTy).Contents (Elt F) → (⟨S32x4x16, .f32⟩ : BufTy).Contents (Elt F))
  :: StableHlo.unary main_v130 main_v136 ((extractStridedSlice S32x128x4x1x16 ![0, 0, 0, 0, 0] · slices_S32x128x4x2x16_S32x128x4x1x16_0_0_0_0_0) : (⟨S32x128x4x2x16, .f32⟩ : BufTy).Contents (Elt F) → (⟨S32x128x4x1x16, .f32⟩ : BufTy).Contents (Elt F))
  :: StableHlo.reshape main_v136 main_v137 rfl shapeCasts_S32x128x4x1x16_S32x128x4x16
  :: StableHlo.unary main_v130 main_v138 ((extractStridedSlice S32x128x4x1x16 ![0, 0, 0, 1, 0] · slices_S32x128x4x2x16_S32x128x4x1x16_0_0_0_1_0) : (⟨S32x128x4x2x16, .f32⟩ : BufTy).Contents (Elt F) → (⟨S32x128x4x1x16, .f32⟩ : BufTy).Contents (Elt F))
  :: StableHlo.reshape main_v138 main_v139 rfl shapeCasts_S32x128x4x1x16_S32x128x4x16
  :: StableHlo.unary main_v134 main_v140 (broadcastInDim S32x1x4x16 ![0, 2, 3] bcast_S32x4x16_S32x1x4x16_0_2_3 : (⟨S32x4x16, .f32⟩ : BufTy).Contents (Elt F) → (⟨S32x1x4x16, .f32⟩ : BufTy).Contents (Elt F))
  :: StableHlo.unary main_v140 main_v141 (broadcastInDim S32x128x4x16 ![0, 1, 2, 3] bcast_S32x1x4x16_S32x128x4x16_0_1_2_3 : (⟨S32x1x4x16, .f32⟩ : BufTy).Contents (Elt F) → (⟨S32x128x4x16, .f32⟩ : BufTy).Contents (Elt F))
  :: StableHlo.binary main_v141 main_v137 main_v142 (mulf : (⟨S32x128x4x16, .f32⟩ : BufTy).Contents (Elt F) → (⟨S32x128x4x16, .f32⟩ : BufTy).Contents (Elt F) → (⟨S32x128x4x16, .f32⟩ : BufTy).Contents (Elt F))
  :: StableHlo.unary main_v135 main_v143 (broadcastInDim S32x1x4x16 ![0, 2, 3] bcast_S32x4x16_S32x1x4x16_0_2_3 : (⟨S32x4x16, .f32⟩ : BufTy).Contents (Elt F) → (⟨S32x1x4x16, .f32⟩ : BufTy).Contents (Elt F))
  :: StableHlo.unary main_v143 main_v144 (broadcastInDim S32x128x4x16 ![0, 1, 2, 3] bcast_S32x1x4x16_S32x128x4x16_0_1_2_3 : (⟨S32x1x4x16, .f32⟩ : BufTy).Contents (Elt F) → (⟨S32x128x4x16, .f32⟩ : BufTy).Contents (Elt F))
  :: StableHlo.binary main_v144 main_v139 main_v145 (mulf : (⟨S32x128x4x16, .f32⟩ : BufTy).Contents (Elt F) → (⟨S32x128x4x16, .f32⟩ : BufTy).Contents (Elt F) → (⟨S32x128x4x16, .f32⟩ : BufTy).Contents (Elt F))
  :: StableHlo.binary main_v142 main_v145 main_v146 (subf : (⟨S32x128x4x16, .f32⟩ : BufTy).Contents (Elt F) → (⟨S32x128x4x16, .f32⟩ : BufTy).Contents (Elt F) → (⟨S32x128x4x16, .f32⟩ : BufTy).Contents (Elt F))
  :: StableHlo.unary main_v135 main_v147 (broadcastInDim S32x1x4x16 ![0, 2, 3] bcast_S32x4x16_S32x1x4x16_0_2_3 : (⟨S32x4x16, .f32⟩ : BufTy).Contents (Elt F) → (⟨S32x1x4x16, .f32⟩ : BufTy).Contents (Elt F))
  :: StableHlo.unary main_v147 main_v148 (broadcastInDim S32x128x4x16 ![0, 1, 2, 3] bcast_S32x1x4x16_S32x128x4x16_0_1_2_3 : (⟨S32x1x4x16, .f32⟩ : BufTy).Contents (Elt F) → (⟨S32x128x4x16, .f32⟩ : BufTy).Contents (Elt F))
  :: StableHlo.binary main_v148 main_v137 main_v149 (mulf : (⟨S32x128x4x16, .f32⟩ : BufTy).Contents (Elt F) → (⟨S32x128x4x16, .f32⟩ : BufTy).Contents (Elt F) → (⟨S32x128x4x16, .f32⟩ : BufTy).Contents (Elt F))
  :: StableHlo.unary main_v134 main_v150 (broadcastInDim S32x1x4x16 ![0, 2, 3] bcast_S32x4x16_S32x1x4x16_0_2_3 : (⟨S32x4x16, .f32⟩ : BufTy).Contents (Elt F) → (⟨S32x1x4x16, .f32⟩ : BufTy).Contents (Elt F))
  :: StableHlo.unary main_v150 main_v151 (broadcastInDim S32x128x4x16 ![0, 1, 2, 3] bcast_S32x1x4x16_S32x128x4x16_0_1_2_3 : (⟨S32x1x4x16, .f32⟩ : BufTy).Contents (Elt F) → (⟨S32x128x4x16, .f32⟩ : BufTy).Contents (Elt F))
  :: StableHlo.binary main_v151 main_v139 main_v152 (mulf : (⟨S32x128x4x16, .f32⟩ : BufTy).Contents (Elt F) → (⟨S32x128x4x16, .f32⟩ : BufTy).Contents (Elt F) → (⟨S32x128x4x16, .f32⟩ : BufTy).Contents (Elt F))
  :: StableHlo.binary main_v149 main_v152 main_v153 (addf : (⟨S32x128x4x16, .f32⟩ : BufTy).Contents (Elt F) → (⟨S32x128x4x16, .f32⟩ : BufTy).Contents (Elt F) → (⟨S32x128x4x16, .f32⟩ : BufTy).Contents (Elt F))
  :: StableHlo.unary main_v146 main_v154 (broadcastInDim S32x128x4x1x16 ![0, 1, 2, 4] bcast_S32x128x4x16_S32x128x4x1x16_0_1_2_4 : (⟨S32x128x4x16, .f32⟩ : BufTy).Contents (Elt F) → (⟨S32x128x4x1x16, .f32⟩ : BufTy).Contents (Elt F))
  :: StableHlo.unary main_v153 main_v155 (broadcastInDim S32x128x4x1x16 ![0, 1, 2, 4] bcast_S32x128x4x16_S32x128x4x1x16_0_1_2_4 : (⟨S32x128x4x16, .f32⟩ : BufTy).Contents (Elt F) → (⟨S32x128x4x1x16, .f32⟩ : BufTy).Contents (Elt F))
  :: StableHlo.binary main_v154 main_v155 main_v156 ((cat2 S32x128x4x2x16 S32x128x4x1x16 3 concatenates_S32x128x4x1x16_S32x128x4x1x16_S32x128x4x2x16_d3) : (⟨S32x128x4x1x16, .f32⟩ : BufTy).Contents (Elt F) → (⟨S32x128x4x1x16, .f32⟩ : BufTy).Contents (Elt F) → (⟨S32x128x4x2x16, .f32⟩ : BufTy).Contents (Elt F))
  :: StableHlo.reshape main_v156 main_v157 rfl shapeCasts_S32x128x4x2x16_S32x128x128
  :: [] )

/-- Stage 5 (distance 32). -/
abbrev ops5 : List (HloOp τ sig (Elt F)) :=
  ( StableHlo.reshape main_v157 main_v158 rfl shapeCasts_S32x128x128_S32x128x2x2x32
  :: StableHlo.unary main_v3 main_v159 ((extractStridedSlice S32x1x64 ![0, 5, 0] · slices_S32x7x64_S32x1x64_0_5_0) : (⟨S32x7x64, .f32⟩ : BufTy).Contents (Elt F) → (⟨S32x1x64, .f32⟩ : BufTy).Contents (Elt F))
  :: StableHlo.reshape main_v159 main_v160 rfl shapeCasts_S32x1x64_S32x64
  :: StableHlo.reshape main_v160 main_v161 rfl shapeCasts_S32x64_S32x2x32
  :: StableHlo.unary main_v161 main_v162 (Host.cos : (⟨S32x2x32, .f32⟩ : BufTy).Contents (Elt F) → (⟨S32x2x32, .f32⟩ : BufTy).Contents (Elt F))
  :: StableHlo.unary main_v161 main_v163 (Host.sin : (⟨S32x2x32, .f32⟩ : BufTy).Contents (Elt F) → (⟨S32x2x32, .f32⟩ : BufTy).Contents (Elt F))
  :: StableHlo.unary main_v158 main_v164 ((extractStridedSlice S32x128x2x1x32 ![0, 0, 0, 0, 0] · slices_S32x128x2x2x32_S32x128x2x1x32_0_0_0_0_0) : (⟨S32x128x2x2x32, .f32⟩ : BufTy).Contents (Elt F) → (⟨S32x128x2x1x32, .f32⟩ : BufTy).Contents (Elt F))
  :: StableHlo.reshape main_v164 main_v165 rfl shapeCasts_S32x128x2x1x32_S32x128x2x32
  :: StableHlo.unary main_v158 main_v166 ((extractStridedSlice S32x128x2x1x32 ![0, 0, 0, 1, 0] · slices_S32x128x2x2x32_S32x128x2x1x32_0_0_0_1_0) : (⟨S32x128x2x2x32, .f32⟩ : BufTy).Contents (Elt F) → (⟨S32x128x2x1x32, .f32⟩ : BufTy).Contents (Elt F))
  :: StableHlo.reshape main_v166 main_v167 rfl shapeCasts_S32x128x2x1x32_S32x128x2x32
  :: StableHlo.unary main_v162 main_v168 (broadcastInDim S32x1x2x32 ![0, 2, 3] bcast_S32x2x32_S32x1x2x32_0_2_3 : (⟨S32x2x32, .f32⟩ : BufTy).Contents (Elt F) → (⟨S32x1x2x32, .f32⟩ : BufTy).Contents (Elt F))
  :: StableHlo.unary main_v168 main_v169 (broadcastInDim S32x128x2x32 ![0, 1, 2, 3] bcast_S32x1x2x32_S32x128x2x32_0_1_2_3 : (⟨S32x1x2x32, .f32⟩ : BufTy).Contents (Elt F) → (⟨S32x128x2x32, .f32⟩ : BufTy).Contents (Elt F))
  :: StableHlo.binary main_v169 main_v165 main_v170 (mulf : (⟨S32x128x2x32, .f32⟩ : BufTy).Contents (Elt F) → (⟨S32x128x2x32, .f32⟩ : BufTy).Contents (Elt F) → (⟨S32x128x2x32, .f32⟩ : BufTy).Contents (Elt F))
  :: StableHlo.unary main_v163 main_v171 (broadcastInDim S32x1x2x32 ![0, 2, 3] bcast_S32x2x32_S32x1x2x32_0_2_3 : (⟨S32x2x32, .f32⟩ : BufTy).Contents (Elt F) → (⟨S32x1x2x32, .f32⟩ : BufTy).Contents (Elt F))
  :: StableHlo.unary main_v171 main_v172 (broadcastInDim S32x128x2x32 ![0, 1, 2, 3] bcast_S32x1x2x32_S32x128x2x32_0_1_2_3 : (⟨S32x1x2x32, .f32⟩ : BufTy).Contents (Elt F) → (⟨S32x128x2x32, .f32⟩ : BufTy).Contents (Elt F))
  :: StableHlo.binary main_v172 main_v167 main_v173 (mulf : (⟨S32x128x2x32, .f32⟩ : BufTy).Contents (Elt F) → (⟨S32x128x2x32, .f32⟩ : BufTy).Contents (Elt F) → (⟨S32x128x2x32, .f32⟩ : BufTy).Contents (Elt F))
  :: StableHlo.binary main_v170 main_v173 main_v174 (subf : (⟨S32x128x2x32, .f32⟩ : BufTy).Contents (Elt F) → (⟨S32x128x2x32, .f32⟩ : BufTy).Contents (Elt F) → (⟨S32x128x2x32, .f32⟩ : BufTy).Contents (Elt F))
  :: StableHlo.unary main_v163 main_v175 (broadcastInDim S32x1x2x32 ![0, 2, 3] bcast_S32x2x32_S32x1x2x32_0_2_3 : (⟨S32x2x32, .f32⟩ : BufTy).Contents (Elt F) → (⟨S32x1x2x32, .f32⟩ : BufTy).Contents (Elt F))
  :: StableHlo.unary main_v175 main_v176 (broadcastInDim S32x128x2x32 ![0, 1, 2, 3] bcast_S32x1x2x32_S32x128x2x32_0_1_2_3 : (⟨S32x1x2x32, .f32⟩ : BufTy).Contents (Elt F) → (⟨S32x128x2x32, .f32⟩ : BufTy).Contents (Elt F))
  :: StableHlo.binary main_v176 main_v165 main_v177 (mulf : (⟨S32x128x2x32, .f32⟩ : BufTy).Contents (Elt F) → (⟨S32x128x2x32, .f32⟩ : BufTy).Contents (Elt F) → (⟨S32x128x2x32, .f32⟩ : BufTy).Contents (Elt F))
  :: StableHlo.unary main_v162 main_v178 (broadcastInDim S32x1x2x32 ![0, 2, 3] bcast_S32x2x32_S32x1x2x32_0_2_3 : (⟨S32x2x32, .f32⟩ : BufTy).Contents (Elt F) → (⟨S32x1x2x32, .f32⟩ : BufTy).Contents (Elt F))
  :: StableHlo.unary main_v178 main_v179 (broadcastInDim S32x128x2x32 ![0, 1, 2, 3] bcast_S32x1x2x32_S32x128x2x32_0_1_2_3 : (⟨S32x1x2x32, .f32⟩ : BufTy).Contents (Elt F) → (⟨S32x128x2x32, .f32⟩ : BufTy).Contents (Elt F))
  :: StableHlo.binary main_v179 main_v167 main_v180 (mulf : (⟨S32x128x2x32, .f32⟩ : BufTy).Contents (Elt F) → (⟨S32x128x2x32, .f32⟩ : BufTy).Contents (Elt F) → (⟨S32x128x2x32, .f32⟩ : BufTy).Contents (Elt F))
  :: StableHlo.binary main_v177 main_v180 main_v181 (addf : (⟨S32x128x2x32, .f32⟩ : BufTy).Contents (Elt F) → (⟨S32x128x2x32, .f32⟩ : BufTy).Contents (Elt F) → (⟨S32x128x2x32, .f32⟩ : BufTy).Contents (Elt F))
  :: StableHlo.unary main_v174 main_v182 (broadcastInDim S32x128x2x1x32 ![0, 1, 2, 4] bcast_S32x128x2x32_S32x128x2x1x32_0_1_2_4 : (⟨S32x128x2x32, .f32⟩ : BufTy).Contents (Elt F) → (⟨S32x128x2x1x32, .f32⟩ : BufTy).Contents (Elt F))
  :: StableHlo.unary main_v181 main_v183 (broadcastInDim S32x128x2x1x32 ![0, 1, 2, 4] bcast_S32x128x2x32_S32x128x2x1x32_0_1_2_4 : (⟨S32x128x2x32, .f32⟩ : BufTy).Contents (Elt F) → (⟨S32x128x2x1x32, .f32⟩ : BufTy).Contents (Elt F))
  :: StableHlo.binary main_v182 main_v183 main_v184 ((cat2 S32x128x2x2x32 S32x128x2x1x32 3 concatenates_S32x128x2x1x32_S32x128x2x1x32_S32x128x2x2x32_d3) : (⟨S32x128x2x1x32, .f32⟩ : BufTy).Contents (Elt F) → (⟨S32x128x2x1x32, .f32⟩ : BufTy).Contents (Elt F) → (⟨S32x128x2x2x32, .f32⟩ : BufTy).Contents (Elt F))
  :: StableHlo.reshape main_v184 main_v185 rfl shapeCasts_S32x128x2x2x32_S32x128x128
  :: [] )

/-- Stage 6 (distance 64). -/
abbrev ops6 : List (HloOp τ sig (Elt F)) :=
  ( StableHlo.reshape main_v185 main_v186 rfl shapeCasts_S32x128x128_S32x128x1x2x64
  :: StableHlo.unary main_v3 main_v187 ((extractStridedSlice S32x1x64 ![0, 6, 0] · slices_S32x7x64_S32x1x64_0_6_0) : (⟨S32x7x64, .f32⟩ : BufTy).Contents (Elt F) → (⟨S32x1x64, .f32⟩ : BufTy).Contents (Elt F))
  :: StableHlo.reshape main_v187 main_v188 rfl shapeCasts_S32x1x64_S32x64
  :: StableHlo.reshape main_v188 main_v189 rfl shapeCasts_S32x64_S32x1x64
  :: StableHlo.unary main_v189 main_v190 (Host.cos : (⟨S32x1x64, .f32⟩ : BufTy).Contents (Elt F) → (⟨S32x1x64, .f32⟩ : BufTy).Contents (Elt F))
  :: StableHlo.unary main_v189 main_v191 (Host.sin : (⟨S32x1x64, .f32⟩ : BufTy).Contents (Elt F) → (⟨S32x1x64, .f32⟩ : BufTy).Contents (Elt F))
  :: StableHlo.unary main_v186 main_v192 ((extractStridedSlice S32x128x1x1x64 ![0, 0, 0, 0, 0] · slices_S32x128x1x2x64_S32x128x1x1x64_0_0_0_0_0) : (⟨S32x128x1x2x64, .f32⟩ : BufTy).Contents (Elt F) → (⟨S32x128x1x1x64, .f32⟩ : BufTy).Contents (Elt F))
  :: StableHlo.reshape main_v192 main_v193 rfl shapeCasts_S32x128x1x1x64_S32x128x1x64
  :: StableHlo.unary main_v186 main_v194 ((extractStridedSlice S32x128x1x1x64 ![0, 0, 0, 1, 0] · slices_S32x128x1x2x64_S32x128x1x1x64_0_0_0_1_0) : (⟨S32x128x1x2x64, .f32⟩ : BufTy).Contents (Elt F) → (⟨S32x128x1x1x64, .f32⟩ : BufTy).Contents (Elt F))
  :: StableHlo.reshape main_v194 main_v195 rfl shapeCasts_S32x128x1x1x64_S32x128x1x64
  :: StableHlo.unary main_v190 main_v196 (broadcastInDim S32x1x1x64 ![0, 2, 3] bcast_S32x1x64_S32x1x1x64_0_2_3 : (⟨S32x1x64, .f32⟩ : BufTy).Contents (Elt F) → (⟨S32x1x1x64, .f32⟩ : BufTy).Contents (Elt F))
  :: StableHlo.unary main_v196 main_v197 (broadcastInDim S32x128x1x64 ![0, 1, 2, 3] bcast_S32x1x1x64_S32x128x1x64_0_1_2_3 : (⟨S32x1x1x64, .f32⟩ : BufTy).Contents (Elt F) → (⟨S32x128x1x64, .f32⟩ : BufTy).Contents (Elt F))
  :: StableHlo.binary main_v197 main_v193 main_v198 (mulf : (⟨S32x128x1x64, .f32⟩ : BufTy).Contents (Elt F) → (⟨S32x128x1x64, .f32⟩ : BufTy).Contents (Elt F) → (⟨S32x128x1x64, .f32⟩ : BufTy).Contents (Elt F))
  :: StableHlo.unary main_v191 main_v199 (broadcastInDim S32x1x1x64 ![0, 2, 3] bcast_S32x1x64_S32x1x1x64_0_2_3 : (⟨S32x1x64, .f32⟩ : BufTy).Contents (Elt F) → (⟨S32x1x1x64, .f32⟩ : BufTy).Contents (Elt F))
  :: StableHlo.unary main_v199 main_v200 (broadcastInDim S32x128x1x64 ![0, 1, 2, 3] bcast_S32x1x1x64_S32x128x1x64_0_1_2_3 : (⟨S32x1x1x64, .f32⟩ : BufTy).Contents (Elt F) → (⟨S32x128x1x64, .f32⟩ : BufTy).Contents (Elt F))
  :: StableHlo.binary main_v200 main_v195 main_v201 (mulf : (⟨S32x128x1x64, .f32⟩ : BufTy).Contents (Elt F) → (⟨S32x128x1x64, .f32⟩ : BufTy).Contents (Elt F) → (⟨S32x128x1x64, .f32⟩ : BufTy).Contents (Elt F))
  :: StableHlo.binary main_v198 main_v201 main_v202 (subf : (⟨S32x128x1x64, .f32⟩ : BufTy).Contents (Elt F) → (⟨S32x128x1x64, .f32⟩ : BufTy).Contents (Elt F) → (⟨S32x128x1x64, .f32⟩ : BufTy).Contents (Elt F))
  :: StableHlo.unary main_v191 main_v203 (broadcastInDim S32x1x1x64 ![0, 2, 3] bcast_S32x1x64_S32x1x1x64_0_2_3 : (⟨S32x1x64, .f32⟩ : BufTy).Contents (Elt F) → (⟨S32x1x1x64, .f32⟩ : BufTy).Contents (Elt F))
  :: StableHlo.unary main_v203 main_v204 (broadcastInDim S32x128x1x64 ![0, 1, 2, 3] bcast_S32x1x1x64_S32x128x1x64_0_1_2_3 : (⟨S32x1x1x64, .f32⟩ : BufTy).Contents (Elt F) → (⟨S32x128x1x64, .f32⟩ : BufTy).Contents (Elt F))
  :: StableHlo.binary main_v204 main_v193 main_v205 (mulf : (⟨S32x128x1x64, .f32⟩ : BufTy).Contents (Elt F) → (⟨S32x128x1x64, .f32⟩ : BufTy).Contents (Elt F) → (⟨S32x128x1x64, .f32⟩ : BufTy).Contents (Elt F))
  :: StableHlo.unary main_v190 main_v206 (broadcastInDim S32x1x1x64 ![0, 2, 3] bcast_S32x1x64_S32x1x1x64_0_2_3 : (⟨S32x1x64, .f32⟩ : BufTy).Contents (Elt F) → (⟨S32x1x1x64, .f32⟩ : BufTy).Contents (Elt F))
  :: StableHlo.unary main_v206 main_v207 (broadcastInDim S32x128x1x64 ![0, 1, 2, 3] bcast_S32x1x1x64_S32x128x1x64_0_1_2_3 : (⟨S32x1x1x64, .f32⟩ : BufTy).Contents (Elt F) → (⟨S32x128x1x64, .f32⟩ : BufTy).Contents (Elt F))
  :: StableHlo.binary main_v207 main_v195 main_v208 (mulf : (⟨S32x128x1x64, .f32⟩ : BufTy).Contents (Elt F) → (⟨S32x128x1x64, .f32⟩ : BufTy).Contents (Elt F) → (⟨S32x128x1x64, .f32⟩ : BufTy).Contents (Elt F))
  :: StableHlo.binary main_v205 main_v208 main_v209 (addf : (⟨S32x128x1x64, .f32⟩ : BufTy).Contents (Elt F) → (⟨S32x128x1x64, .f32⟩ : BufTy).Contents (Elt F) → (⟨S32x128x1x64, .f32⟩ : BufTy).Contents (Elt F))
  :: StableHlo.unary main_v202 main_v210 (broadcastInDim S32x128x1x1x64 ![0, 1, 2, 4] bcast_S32x128x1x64_S32x128x1x1x64_0_1_2_4 : (⟨S32x128x1x64, .f32⟩ : BufTy).Contents (Elt F) → (⟨S32x128x1x1x64, .f32⟩ : BufTy).Contents (Elt F))
  :: StableHlo.unary main_v209 main_v211 (broadcastInDim S32x128x1x1x64 ![0, 1, 2, 4] bcast_S32x128x1x64_S32x128x1x1x64_0_1_2_4 : (⟨S32x128x1x64, .f32⟩ : BufTy).Contents (Elt F) → (⟨S32x128x1x1x64, .f32⟩ : BufTy).Contents (Elt F))
  :: StableHlo.binary main_v210 main_v211 main_v212 ((cat2 S32x128x1x2x64 S32x128x1x1x64 3 concatenates_S32x128x1x1x64_S32x128x1x1x64_S32x128x1x2x64_d3) : (⟨S32x128x1x1x64, .f32⟩ : BufTy).Contents (Elt F) → (⟨S32x128x1x1x64, .f32⟩ : BufTy).Contents (Elt F) → (⟨S32x128x1x2x64, .f32⟩ : BufTy).Contents (Elt F))
  :: StableHlo.reshape main_v212 main_v213 rfl shapeCasts_S32x128x1x2x64_S32x128x128
  :: [] )

/-- The matrices rounded to the matmul's input format, and the cosines and sines of the last five stages' angles. -/
abbrev opsZ : List (HloOp τ sig (Elt F)) :=
  ( StableHlo.unary main_v213 main_v214 ((truncf .bf16 · bitsLt_bf16_f32) : (⟨S32x128x128, .f32⟩ : BufTy).Contents (Elt F) → (⟨S32x128x128, .bf16⟩ : BufTy).Contents (Elt F))
  :: StableHlo.reshape main_v1 main_v215 rfl shapeCasts_S5x2048_S5x16x128
  :: StableHlo.unary main_v215 main_v216 (Host.cos : (⟨S5x16x128, .f32⟩ : BufTy).Contents (Elt F) → (⟨S5x16x128, .f32⟩ : BufTy).Contents (Elt F))
  :: StableHlo.unary main_v215 main_v217 (Host.sin : (⟨S5x16x128, .f32⟩ : BufTy).Contents (Elt F) → (⟨S5x16x128, .f32⟩ : BufTy).Contents (Elt F))
  :: [] )

set_option maxRecDepth 65536 in
/-- The host operations are the nine stretches one after the other. -/
theorem hostOps0_split :
    (Gen.hostOps0 : List (HloOp τ sig (Elt F))) = opsA ++ (ops0 ++ (ops1 ++ (ops2 ++ (ops3 ++ (ops4 ++ (ops5 ++ (ops6 ++ opsZ))))))) := rfl

variable (m : (ℓ : Loc nD τ sig) → Buf (Elt Ideal) ℓ) (c : Dev nD)

/-- The buffers as launched. -/
def W0 : Valuation τ sig (Elt Ideal) := fun b => m (c, b)
/-- The buffers once the angles are regrouped and the identity is built. -/
def WA : Valuation τ sig (Elt Ideal) := after opsA (W0 m c)
/-- The buffers after stage 0. -/
def W1 : Valuation τ sig (Elt Ideal) := after ops0 (WA m c)
/-- The buffers after stage 1. -/
def W2 : Valuation τ sig (Elt Ideal) := after ops1 (W1 m c)
/-- The buffers after stage 2. -/
def W3 : Valuation τ sig (Elt Ideal) := after ops2 (W2 m c)
/-- The buffers after stage 3. -/
def W4 : Valuation τ sig (Elt Ideal) := after ops3 (W3 m c)
/-- The buffers after stage 4. -/
def W5 : Valuation τ sig (Elt Ideal) := after ops4 (W4 m c)
/-- The buffers after stage 5. -/
def W6 : Valuation τ sig (Elt Ideal) := after ops5 (W5 m c)
/-- The buffers after stage 6. -/
def W7 : Valuation τ sig (Elt Ideal) := after ops6 (W6 m c)
/-- The buffers as the region finds them. -/
def WZ : Valuation τ sig (Elt Ideal) := after opsZ (W7 m c)

/-- The region finds the buffers as the last stretch leaves them. -/
theorem V_eq (b : Ref sig .tc) : Gen.V m c b = WZ m c (Proc.devRef .tc b) := by
  show after (Gen.hostOps0 : List (HloOp τ sig (Elt Ideal))) (W0 m c) _ = _
  rw [hostOps0_split]
  simp only [Cert.Lib.after_append]
  rfl

/-! ## What each stretch leaves in the buffers the next one reads -/

/-- The angles as launched. -/
abbrev θ : FVec Ideal S12x2048 .f32 := m ((c : Thread nD τ).loc main_arg1)

set_option maxRecDepth 16384 in
/-- The regrouped angles. -/
theorem WA_v3 : (WA m c (Proc.devRef .tc main_v3) : FVec Ideal S32x7x64 .f32) = v3Term (θ m c) := by
  unfold WA
  simp only [opsA]
  after_results_simp <;> rfl

set_option maxRecDepth 16384 in
/-- The identity. -/
theorem WA_v9 : (WA m c (Proc.devRef .tc main_v9) : FVec Ideal S128x128 .f32) = eyeTerm := by
  unfold WA
  simp only [opsA]
  after_results_simp <;> rfl

set_option maxRecDepth 16384 in
/-- Stage 0's result. -/
theorem W1_out : (W1 m c (Proc.devRef .tc main_v45) : FVec Ideal S32x128x128 .f32)
    = term0 (WA m c (Proc.devRef .tc main_v3)) (WA m c (Proc.devRef .tc main_v9)) := by
  unfold W1
  simp only [ops0]
  after_results_simp <;> rfl

set_option maxRecDepth 16384 in
/-- Stage 0 leaves the regrouped angles alone. -/
theorem W1_v3 : (W1 m c (Proc.devRef .tc main_v3) : FVec Ideal S32x7x64 .f32) = v3Term (θ m c) := by
  refine Eq.trans ?_ (WA_v3 m c)
  unfold W1
  simp only [ops0]
  after_results_simp <;> rfl

set_option maxRecDepth 16384 in
/-- Stage 1's result. -/
theorem W2_out : (W2 m c (Proc.devRef .tc main_v73) : FVec Ideal S32x128x128 .f32)
    = term1 (W1 m c (Proc.devRef .tc main_v3)) (W1 m c (Proc.devRef .tc main_v45)) := by
  unfold W2
  simp only [ops1]
  after_results_simp <;> rfl

set_option maxRecDepth 16384 in
/-- Stage 1 leaves the regrouped angles alone. -/
theorem W2_v3 : (W2 m c (Proc.devRef .tc main_v3) : FVec Ideal S32x7x64 .f32) = v3Term (θ m c) := by
  refine Eq.trans ?_ (W1_v3 m c)
  unfold W2
  simp only [ops1]
  after_results_simp <;> rfl

set_option maxRecDepth 16384 in
/-- Stage 2's result. -/
theorem W3_out : (W3 m c (Proc.devRef .tc main_v101) : FVec Ideal S32x128x128 .f32)
    = term2 (W2 m c (Proc.devRef .tc main_v3)) (W2 m c (Proc.devRef .tc main_v73)) := by
  unfold W3
  simp only [ops2]
  after_results_simp <;> rfl

set_option maxRecDepth 16384 in
/-- Stage 2 leaves the regrouped angles alone. -/
theorem W3_v3 : (W3 m c (Proc.devRef .tc main_v3) : FVec Ideal S32x7x64 .f32) = v3Term (θ m c) := by
  refine Eq.trans ?_ (W2_v3 m c)
  unfold W3
  simp only [ops2]
  after_results_simp <;> rfl

set_option maxRecDepth 16384 in
/-- Stage 3's result. -/
theorem W4_out : (W4 m c (Proc.devRef .tc main_v129) : FVec Ideal S32x128x128 .f32)
    = term3 (W3 m c (Proc.devRef .tc main_v3)) (W3 m c (Proc.devRef .tc main_v101)) := by
  unfold W4
  simp only [ops3]
  after_results_simp <;> rfl

set_option maxRecDepth 16384 in
/-- Stage 3 leaves the regrouped angles alone. -/
theorem W4_v3 : (W4 m c (Proc.devRef .tc main_v3) : FVec Ideal S32x7x64 .f32) = v3Term (θ m c) := by
  refine Eq.trans ?_ (W3_v3 m c)
  unfold W4
  simp only [ops3]
  after_results_simp <;> rfl

set_option maxRecDepth 16384 in
/-- Stage 4's result. -/
theorem W5_out : (W5 m c (Proc.devRef .tc main_v157) : FVec Ideal S32x128x128 .f32)
    = term4 (W4 m c (Proc.devRef .tc main_v3)) (W4 m c (Proc.devRef .tc main_v129)) := by
  unfold W5
  simp only [ops4]
  after_results_simp <;> rfl

set_option maxRecDepth 16384 in
/-- Stage 4 leaves the regrouped angles alone. -/
theorem W5_v3 : (W5 m c (Proc.devRef .tc main_v3) : FVec Ideal S32x7x64 .f32) = v3Term (θ m c) := by
  refine Eq.trans ?_ (W4_v3 m c)
  unfold W5
  simp only [ops4]
  after_results_simp <;> rfl

set_option maxRecDepth 16384 in
/-- Stage 5's result. -/
theorem W6_out : (W6 m c (Proc.devRef .tc main_v185) : FVec Ideal S32x128x128 .f32)
    = term5 (W5 m c (Proc.devRef .tc main_v3)) (W5 m c (Proc.devRef .tc main_v157)) := by
  unfold W6
  simp only [ops5]
  after_results_simp <;> rfl

set_option maxRecDepth 16384 in
/-- Stage 5 leaves the regrouped angles alone. -/
theorem W6_v3 : (W6 m c (Proc.devRef .tc main_v3) : FVec Ideal S32x7x64 .f32) = v3Term (θ m c) := by
  refine Eq.trans ?_ (W5_v3 m c)
  unfold W6
  simp only [ops5]
  after_results_simp <;> rfl

set_option maxRecDepth 16384 in
/-- Stage 6's result. -/
theorem W7_out : (W7 m c (Proc.devRef .tc main_v213) : FVec Ideal S32x128x128 .f32)
    = term6 (W6 m c (Proc.devRef .tc main_v3)) (W6 m c (Proc.devRef .tc main_v185)) := by
  unfold W7
  simp only [ops6]
  after_results_simp <;> rfl

set_option maxRecDepth 16384 in
/-- Stage 6 leaves the regrouped angles alone. -/
theorem W7_v3 : (W7 m c (Proc.devRef .tc main_v3) : FVec Ideal S32x7x64 .f32) = v3Term (θ m c) := by
  refine Eq.trans ?_ (W6_v3 m c)
  unfold W7
  simp only [ops6]
  after_results_simp <;> rfl

set_option maxRecDepth 16384 in
/-- The matrices as the region finds them: stage 6's result, the change of format being the identity on exact numbers. -/
theorem WZ_out (x : S32x128x128.Idx) : (WZ m c (Proc.devRef .tc main_v214) : FVec Ideal S32x128x128 .bf16) x
    = (W7 m c (Proc.devRef .tc main_v213) : FVec Ideal S32x128x128 .f32) x := by
  unfold WZ
  simp only [opsZ]
  after_results_simp <;> rfl

/-! ## The seven stages chained -/

/-- After stage 0, row `i` of block `cb` is the first stage of the unit vector at `i`. -/
theorem rows1 (cb : Fin 32) (i : Fin 128) : ∀ n, n < 128 → rowN (W1 m c (Proc.devRef .tc main_v45)) cb i n
    = stages (blockTab (tab Ideal.cos (θ m c)) cb.val) (blockTab (tab Ideal.sin (θ m c)) cb.val) 0 1 (unitVec i.val) n :=
  chain_step (θ m c) cb i (0 : Fin 7) 1 (by decide) (rowE eyeTerm i) _
    (fun j => by rw [W1_out, WA_v3, WA_v9]; exact term0_read _ _ cb i j)
    (fun n hn => by unfold rowE; rw [dif_pos hn, eye_read]; rfl)

/-- After stage 1, row `i` of block `cb` is the first 2 stages of the unit vector at `i`. -/
theorem rows2 (cb : Fin 32) (i : Fin 128) : ∀ n, n < 128 → rowN (W2 m c (Proc.devRef .tc main_v73)) cb i n
    = stages (blockTab (tab Ideal.cos (θ m c)) cb.val) (blockTab (tab Ideal.sin (θ m c)) cb.val) 0 2 (unitVec i.val) n :=
  chain_step (θ m c) cb i (1 : Fin 7) 2 (by decide) (rowN (W1 m c (Proc.devRef .tc main_v45)) cb i) _
    (fun j => by rw [W2_out, W1_v3]; exact term1_read _ _ cb i j)
    (rows1 m c cb i)

/-- After stage 2, row `i` of block `cb` is the first 3 stages of the unit vector at `i`. -/
theorem rows3 (cb : Fin 32) (i : Fin 128) : ∀ n, n < 128 → rowN (W3 m c (Proc.devRef .tc main_v101)) cb i n
    = stages (blockTab (tab Ideal.cos (θ m c)) cb.val) (blockTab (tab Ideal.sin (θ m c)) cb.val) 0 3 (unitVec i.val) n :=
  chain_step (θ m c) cb i (2 : Fin 7) 4 (by decide) (rowN (W2 m c (Proc.devRef .tc main_v73)) cb i) _
    (fun j => by rw [W3_out, W2_v3]; exact term2_read _ _ cb i j)
    (rows2 m c cb i)

/-- After stage 3, row `i` of block `cb` is the first 4 stages of the unit vector at `i`. -/
theorem rows4 (cb : Fin 32) (i : Fin 128) : ∀ n, n < 128 → rowN (W4 m c (Proc.devRef .tc main_v129)) cb i n
    = stages (blockTab (tab Ideal.cos (θ m c)) cb.val) (blockTab (tab Ideal.sin (θ m c)) cb.val) 0 4 (unitVec i.val) n :=
  chain_step (θ m c) cb i (3 : Fin 7) 8 (by decide) (rowN (W3 m c (Proc.devRef .tc main_v101)) cb i) _
    (fun j => by rw [W4_out, W3_v3]; exact term3_read _ _ cb i j)
    (rows3 m c cb i)

/-- After stage 4, row `i` of block `cb` is the first 5 stages of the unit vector at `i`. -/
theorem rows5 (cb : Fin 32) (i : Fin 128) : ∀ n, n < 128 → rowN (W5 m c (Proc.devRef .tc main_v157)) cb i n
    = stages (blockTab (tab Ideal.cos (θ m c)) cb.val) (blockTab (tab Ideal.sin (θ m c)) cb.val) 0 5 (unitVec i.val) n :=
  chain_step (θ m c) cb i (4 : Fin 7) 16 (by decide) (rowN (W4 m c (Proc.devRef .tc main_v129)) cb i) _
    (fun j => by rw [W5_out, W4_v3]; exact term4_read _ _ cb i j)
    (rows4 m c cb i)

/-- After stage 5, row `i` of block `cb` is the first 6 stages of the unit vector at `i`. -/
theorem rows6 (cb : Fin 32) (i : Fin 128) : ∀ n, n < 128 → rowN (W6 m c (Proc.devRef .tc main_v185)) cb i n
    = stages (blockTab (tab Ideal.cos (θ m c)) cb.val) (blockTab (tab Ideal.sin (θ m c)) cb.val) 0 6 (unitVec i.val) n :=
  chain_step (θ m c) cb i (5 : Fin 7) 32 (by decide) (rowN (W5 m c (Proc.devRef .tc main_v157)) cb i) _
    (fun j => by rw [W6_out, W5_v3]; exact term5_read _ _ cb i j)
    (rows5 m c cb i)

/-- After stage 6, row `i` of block `cb` is the first 7 stages of the unit vector at `i`. -/
theorem rows7 (cb : Fin 32) (i : Fin 128) : ∀ n, n < 128 → rowN (W7 m c (Proc.devRef .tc main_v213)) cb i n
    = stages (blockTab (tab Ideal.cos (θ m c)) cb.val) (blockTab (tab Ideal.sin (θ m c)) cb.val) 0 7 (unitVec i.val) n :=
  chain_step (θ m c) cb i (6 : Fin 7) 64 (by decide) (rowN (W6 m c (Proc.devRef .tc main_v185)) cb i) _
    (fun j => by rw [W7_out, W6_v3]; exact term6_read _ _ cb i j)
    (rows6 m c cb i)

/-- THE MATRICES.  What the region finds in the matrix array: entry (i, j) of block `cb` is position `j` of the first
    seven stages, with the block's angles, of the unit vector at `i`. -/
theorem chunk_matrix (cb : Fin 32) (i j : Fin 128) :
    (Gen.V m c main_v214 : S32x128x128.Idx → EReal) (ix3 cb i j)
      = chunkMat (tab Ideal.cos (θ m c)) (tab Ideal.sin (θ m c)) cb.val i.val j.val := by
  rw [V_eq m c main_v214, WZ_out]
  have h := rows7 m c cb i j.val j.isLt
  unfold rowN at h
  rw [dif_pos j.isLt] at h
  exact h

end Cert.KernelIdeal.HostTables

end
-- ==== Proof.HostHiTables.lean ====
/-
  The two short host tables of the kernel: the cosines and sines of stages 7 … 11.

  Before the region the host cuts rows 7 … 11 out of the 12 × 2048 array of angles, reshapes them to 5 × 16 × 128
  (row ss of the slice becomes 16 rows of 128 lanes: entry (ss, r, q) is entry 128·r + q of the row) and takes the
  cosine and the sine entrywise.  So entry (ss, r, q) of the cosine table is the cosine of angle (7 + ss, 128·r + q):
  stage 7 + ss, pair 128·r + q of the specification's table.
-/
import proofs.«122426_j35845797052976_2_alg».proof.Proof.Gen.KernelIdeal.Frame
import proofs.«122426_j35845797052976_2_alg».proof.Proof.Butterfly
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HiTables

open Idealize.ShloMosaic Idealize.ShloMosaic.TcCoe Idealize.ShloMosaic.StableHlo Idealize.SL.Sem
open Idealize.ShloMosaic.ValueIdx

/-- Rows 7 … 11 of the angle array, each cut into 16 rows of 128 lanes: entry (ss, r, q) of the reshaped slice is
    entry (7 + ss, 128·r + q) of the array. -/
theorem hi_read (θ : S12x2048.Idx → EReal) (hs : S12x2048.Slices ![7, 0] S5x2048)
    (hc : S5x2048.ShapeCasts S5x16x128) (ss : Fin 5) (r : Fin 16) (q : Fin 128)
    (h1 : 7 + ss.val < 12) (h2 : 128 * r.val + q.val < 2048) :
    shapeCast S5x16x128 (extractStridedSlice S5x2048 ![7, 0] θ hs) hc (ix3 ss r q) =
      θ (ix2 ⟨7 + ss.val, h1⟩ ⟨128 * r.val + q.val, h2⟩) := by
  refine (shapeCast_apply _ hc (ix3 ss r q) (ix2 ss ⟨128 * r.val + q.val, h2⟩) ?_).trans ?_
  · refine (Shape.rowMajor_val_two (d := ![5, 2048]) _).trans
      (Eq.trans ?_ (Shape.rowMajor_val_three (d := ![5, 16, 128]) _).symm)
    show ss.val * 2048 + (128 * r.val + q.val) = (ss.val * 16 + r.val) * 128 + q.val
    omega
  · refine extractStridedSlice_apply _ θ hs _ _ (fun a => ?_)
    match a with
    | ⟨0, _⟩ => rfl
    | ⟨1, _⟩ => show 128 * r.val + q.val = 0 + (128 * r.val + q.val); omega

/-- The specification's table at stage 7 + ss, pair 128·r + q is `f` of angle (7 + ss, 128·r + q). -/
theorem tab_hi (f : EReal → EReal) (θ : S12x2048.Idx → EReal) (ss : Fin 5) (r : Fin 16) (q : Fin 128)
    (h1 : 7 + ss.val < 12) (h2 : 128 * r.val + q.val < 2048) :
    Cert.Butterfly.tab f θ (7 + ss.val) (128 * r.val + q.val) =
      f (θ (ix2 ⟨7 + ss.val, h1⟩ ⟨128 * r.val + q.val, h2⟩)) := by
  unfold Cert.Butterfly.tab
  rw [dif_pos ⟨h1, h2⟩]

variable (m : (ℓ : Loc nD τ sig) → Buf (Elt Ideal) ℓ) (c : Dev nD)

set_option maxHeartbeats 4000000 in
/-- The cosine table as the region finds it: the host's operations on the argument array of angles. -/
theorem v216_eq :
    (Gen.V m c main_v216 : FVec Ideal S5x16x128 .f32) =
      Host.cos (F := Ideal) (φ := .f32) (shapeCast S5x16x128 (extractStridedSlice S5x2048 ![7, 0]
        (m ((c : Thread nD τ).loc main_arg1) : FVec Ideal S12x2048 .f32) Facts₀.slices_S12x2048_S5x2048_7_0)
        Facts₀.shapeCasts_S5x2048_S5x16x128) := by
  dsimp only [Gen.V, Gen.hostOps0]
  after_results
  rfl

set_option maxHeartbeats 4000000 in
/-- The sine table as the region finds it: the host's operations on the argument array of angles. -/
theorem v217_eq :
    (Gen.V m c main_v217 : FVec Ideal S5x16x128 .f32) =
      Host.sin (F := Ideal) (φ := .f32) (shapeCast S5x16x128 (extractStridedSlice S5x2048 ![7, 0]
        (m ((c : Thread nD τ).loc main_arg1) : FVec Ideal S12x2048 .f32) Facts₀.slices_S12x2048_S5x2048_7_0)
        Facts₀.shapeCasts_S5x2048_S5x16x128) := by
  dsimp only [Gen.V, Gen.hostOps0]
  after_results
  rfl

/-- Entry (ss, r, q) of the kernel's cosine table is the specification's cosine at stage 7 + ss, pair 128·r + q. -/
theorem tab_cos_hi (ss : Fin 5) (r : Fin 16) (q : Fin 128) :
    (Gen.V m c main_v216 : S5x16x128.Idx → EReal) (ix3 ss r q) =
      Cert.Butterfly.tab Ideal.cos (m ((c : Thread nD τ).loc main_arg1) : S12x2048.Idx → EReal)
        (7 + ss.val) (128 * r.val + q.val) := by
  have h1 : 7 + ss.val < 12 := by omega
  have h2 : 128 * r.val + q.val < 2048 := by omega
  rw [tab_hi Ideal.cos _ ss r q h1 h2]
  exact (congrFun (v216_eq m c) (ix3 ss r q)).trans (congrArg Ideal.cos (hi_read _ _ _ ss r q h1 h2))

/-- Entry (ss, r, q) of the kernel's sine table is the specification's sine at stage 7 + ss, pair 128·r + q. -/
theorem tab_sin_hi (ss : Fin 5) (r : Fin 16) (q : Fin 128) :
    (Gen.V m c main_v217 : S5x16x128.Idx → EReal) (ix3 ss r q) =
      Cert.Butterfly.tab Ideal.sin (m ((c : Thread nD τ).loc main_arg1) : S12x2048.Idx → EReal)
        (7 + ss.val) (128 * r.val + q.val) := by
  have h1 : 7 + ss.val < 12 := by omega
  have h2 : 128 * r.val + q.val < 2048 := by omega
  rw [tab_hi Ideal.sin _ ss r q h1 h2]
  exact (congrFun (v217_eq m c) (ix3 ss r q)).trans (congrArg Ideal.sin (hi_read _ _ _ ss r q h1 h2))

end Cert.KernelIdeal.HiTables

end
-- ==== Proof.lean ====
/-
  Twelve butterfly stages of plane rotations on every row of a 4096 × 4096 array, computed two ways.

  The reference runs the twelve stages one after another.  The kernel first multiplies every block of 128 consecutive
  entries of a row by a 128 × 128 matrix — the composition of stages 0 … 6 on that block, which the host builds by
  running those stages on the identity matrix —, then runs stages 7 … 11 block by block.  On the extended reals the two
  agree entry by entry once every input is a real number: a rotation is linear, so seven stages applied to a block are
  the block times the matrix whose rows are the seven stages of the unit vectors (distributivity, which needs
  finiteness); every change of float format is the identity, and a matrix product into the zero accumulator is the plain
  sum of products.

  The three frames are the generated ones (the reference's is its generated run with the result dropped); the ideal
  pass rewrote nothing, so the kernel's idealization is the program's own text.
-/
import proofs.«122426_j35845797052976_2_alg».proof.Defs
import proofs.«122426_j35845797052976_2_alg».proof.Proof.Gen.Kernel
import proofs.«122426_j35845797052976_2_alg».proof.Proof.Gen.Kernel.Skeleton
import proofs.«122426_j35845797052976_2_alg».proof.Proof.Gen.Kernel.Launch
import proofs.«122426_j35845797052976_2_alg».proof.Proof.Gen.Kernel.Points
import proofs.«122426_j35845797052976_2_alg».proof.Proof.Gen.Kernel.Frame
import proofs.«122426_j35845797052976_2_alg».proof.Proof.Gen.KernelIdeal
import proofs.«122426_j35845797052976_2_alg».proof.Proof.Gen.KernelIdeal.Skeleton
import proofs.«122426_j35845797052976_2_alg».proof.Proof.Gen.KernelIdeal.Launch
import proofs.«122426_j35845797052976_2_alg».proof.Proof.Gen.KernelIdeal.Points
import proofs.«122426_j35845797052976_2_alg».proof.Proof.Gen.KernelIdeal.Frame
import proofs.«122426_j35845797052976_2_alg».proof.Proof.Gen.ReferenceIdeal
import proofs.«122426_j35845797052976_2_alg».proof.Proof.Gen.Pre_finite_inputs
import proofs.«122426_j35845797052976_2_alg».proof.Proof.Gen.KernelIdeal.Value
import proofs.«122426_j35845797052976_2_alg».proof.Proof.Gen.ReferenceIdeal.Run
import proofs.«122426_j35845797052976_2_alg».proof.Proof.KernelValue
import proofs.«122426_j35845797052976_2_alg».proof.Proof.RefValue
import proofs.«122426_j35845797052976_2_alg».proof.Proof.ButterflyLaws
import proofs.«122426_j35845797052976_2_alg».proof.Proof.FiniteInputs
import proofs.«122426_j35845797052976_2_alg».proof.Proof.HostTables
import proofs.«122426_j35845797052976_2_alg».proof.Proof.HostHiTables
import Idealize.ShloMosaic.Adequacy
import Idealize.ShloMosaic.Init

noncomputable section

namespace Cert.Proof

open Idealize.ShloMosaic Idealize.SL.Sem Idealize.ShloMosaic.ValueIdx

/-- What the kernel's host operations leave in the three table arrays: the 32 seven-stage matrices and the cosines and
    sines of stages 7 … 11. -/
theorem hostTables (m : (ℓ : Loc Cert.KernelIdeal.nD Cert.KernelIdeal.τ Cert.KernelIdeal.sig) → Buf (Elt Ideal) ℓ)
    (c : Dev Cert.KernelIdeal.nD) : Cert.KernelIdeal.KValue.HostTables m c :=
  ⟨fun cb i j => Cert.KernelIdeal.HostTables.chunk_matrix m c cb i j,
   fun n r q => Cert.KernelIdeal.HiTables.tab_cos_hi m c n r q,
   fun n r q => Cert.KernelIdeal.HiTables.tab_sin_hi m c n r q⟩

/-- The reference's result array at any index is the twelve stages of that row of its first argument. -/
theorem ref_value_idx (V0 : Valuation Cert.ReferenceIdeal.τ Cert.ReferenceIdeal.sig (Elt Ideal))
    (y : Cert.ReferenceIdeal.S4096x4096.Idx) :
    (Cert.ReferenceIdeal.Value.val6 V0 (Proc.devRef .tc Cert.ReferenceIdeal.main_v335) : Cert.ReferenceIdeal.S4096x4096.Idx → EReal) y
      = Cert.Butterfly.refOut (V0 (Proc.devRef .tc Cert.ReferenceIdeal.main_arg0)) (V0 (Proc.devRef .tc Cert.ReferenceIdeal.main_arg1))
          (y 0) (y 1).val := by
  obtain ⟨b, i, rfl⟩ : ∃ (b i : Fin 4096), y = ix2 b i := ⟨y 0, y 1, eq_ix2 y⟩
  exact Cert.ReferenceIdeal.RefValue.ref_value V0 b i

/-- At the ideal values the kernel's result array is `kerOut` of the arguments and the reference's `refOut` of
    arguments that agree with them; with every entry of the arguments a real number the two are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KValue.result m c,
    Cert.KernelIdeal.KValue.run m ρ (fun c => hostTables m c), ?_⟩
  refine (θ_run Cert.ReferenceIdeal.defs _ _).mono (fun r h c => ⟨(h c).1.trans ?_, (h c).2⟩)
    (Cert.ReferenceIdeal.Value.run (F := Ideal) m' ρ')
  obtain ⟨hx, hθ⟩ := Cert.Proof.Finite.real_args m hpre c
  rw [← Cert.ReferenceIdeal.Value.val6_main_v335 (StableHlo.launchContents m' c)]
  funext j
  refine (ref_value_idx (StableHlo.launchContents m' c) j).trans ?_
  show Cert.Butterfly.refOut (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) (j 0) (j 1).val = _
  rw [(hagree c).1, (hagree c).2]
  exact (Cert.Butterfly.kerOut_eq_refOut _ _ hx hθ (j 0) (j 1).val).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
